-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x32 : Shape := ⟨2, ![100000, 32]⟩
abbrev S128x128 : Shape := ⟨2, ![128, 128]⟩
abbrev S128 : Shape := ⟨1, ![128]⟩
abbrev S_ : Shape := ⟨0, ![]⟩
abbrev S32 : Shape := ⟨1, ![32]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S100000x32_S32_d0 : S100000x32.ReducesTo [0] S32
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_cst_19 : FVec F S_ .f32) : IVec S_ 1 :=
  let main_v50 : FVec F S32 .f32 := broadcastInDim S32 ![] bcast_S_S32 main_cst_19
  let main_v51 : IVec S32 1 := cmpf .une main_v49 main_v50
  let main_c_20 : IVec S_ 1 := constantI S_ 1 1#1
  let main_v52 : IVec S_ 1 := (fun x v => Host.reduce IntOp.andi x v reducesTo_S32_S_d0 h_S_) main_v51 main_c_20
  let main_v53 : IVec S_ 1 := andi main_v48 main_v52
  main_v53

def fn_part2 {F : FTy → Type} [FloatOps F] (main_arg1 : FVec F S100000x32 .f32) (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_cst_18 : FVec F S_ .f32 := constant S_ .f32 0x00000000#32
  let main_v49 : FVec F S32 .f32 := (fun x v => Host.reduceAdd x v reducesTo_S100000x32_S32_d0 h_S_) main_arg1 main_cst_18
  let main_cst_19 : FVec F S_ .f32 := constant S_ .f32 0x00000000#32
  fn_part3 (F := F) main_v48 main_v49 main_cst_19

def fn_part1 {F : FTy → Type} [FloatOps F] (main_arg1 : FVec F S100000x32 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg7 main_arg8 main_arg9 main_v33

def fn {F : FTy → Type} [FloatOps F] (main_arg0 : FVec F S100000x128 .f32) (main_arg1 : FVec F S100000x32 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_arg6 main_arg7 main_arg8 main_arg9 main_v13 main_v16
-- ==== Kernel.lean ====
abbrev S100000x128 : Shape := ⟨2, ![100000, 128]⟩
abbrev S100000x32 : Shape := ⟨2, ![100000, 32]⟩
abbrev S128x128 : Shape := ⟨2, ![128, 128]⟩
abbrev S128 : Shape := ⟨1, ![128]⟩
abbrev S32x128 : Shape := ⟨2, ![32, 128]⟩
abbrev S1x128 : Shape := ⟨2, ![1, 128]⟩
abbrev S20000x128 : Shape := ⟨2, ![20000, 128]⟩
abbrev S5000x32 : Shape := ⟨2, ![5000, 32]⟩
abbrev S32x1 : Shape := ⟨2, ![32, 1]⟩
abbrev S5000x1 : Shape := ⟨2, ![5000, 1]⟩
abbrev S5000x128 : Shape := ⟨2, ![5000, 128]⟩
abbrev S32x20000 : Shape := ⟨2, ![32, 20000]⟩
abbrev S32 : Shape := ⟨1, ![32]⟩
abbrev S10000x128 : Shape := ⟨2, ![10000, 128]⟩
abbrev S10000x32 : Shape := ⟨2, ![10000, 32]⟩
abbrev S10000 : Shape := ⟨1, ![10000]⟩
abbrev S10000x1 : Shape := ⟨2, ![10000, 1]⟩

abbrev nBuf : Space → Nat
  | .hbm => 22
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S100000x32, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S32x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S32x128, .f32⟩
  | .hbm, ⟨16, _⟩ => ⟨S32x128, .f32⟩
  | .hbm, ⟨17, _⟩ => ⟨S32x128, .f32⟩
  | .hbm, ⟨18, _⟩ => ⟨S1x128, .f32⟩
  | .hbm, ⟨19, _⟩ => ⟨S1x128, .f32⟩
  | .hbm, ⟨20, _⟩ => ⟨S100000x128, .f32⟩
  | .hbm, ⟨21, _⟩ => ⟨S100000x128, .f32⟩
  | .local _ .vmem, ⟨0, _⟩ => ⟨S20000x128, .f32⟩
  | .local _ .vmem, ⟨1, _⟩ => ⟨S20000x128, .f32⟩
  | .local _ .vmem, ⟨2, _⟩ => ⟨S5000x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S32x128, .f32⟩
  | .local _ .vmem, ⟨11, _⟩ => ⟨S32x1, .f32⟩
  | .local _ .vmem, ⟨12, _⟩ => ⟨S20000x128, .f32⟩
  | .local _ .vmem, ⟨13, _⟩ => ⟨S20000x128, .f32⟩
  | .local _ .vmem, ⟨14, _⟩ => ⟨S32x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S32x128, .f32⟩
  | .local _ .vmem, ⟨24, _⟩ => ⟨S32x128, .f32⟩
  | .local _ .vmem, ⟨25, _⟩ => ⟨S32x128, .f32⟩
  | .local _ .vmem, ⟨26, _⟩ => ⟨S1x128, .f32⟩
  | .local _ .vmem, ⟨27, _⟩ => ⟨S1x128, .f32⟩
  | .local _ .vmem, ⟨28, _⟩ => ⟨S32x1, .f32⟩
  | .local _ .vmem, ⟨29, _⟩ => ⟨S32x1, .f32⟩
  | .local _ .vmem, ⟨30, _⟩ => ⟨S10000x128, .f32⟩
  | .local _ .vmem, ⟨31, _⟩ => ⟨S10000x128, .f32⟩
  | .local _ .vmem, ⟨32, _⟩ => ⟨S32x128, .f32⟩
  | .local _ .vmem, ⟨33, _⟩ => ⟨S32x128, .f32⟩
  | .local _ .vmem, ⟨34, _⟩ => ⟨S32x128, .f32⟩
  | .local _ .vmem, ⟨35, _⟩ => ⟨S1x128, .f32⟩
  | .local _ .vmem, ⟨36, _⟩ => ⟨S1x128, .f32⟩
  | .local _ .vmem, ⟨37, _⟩ => ⟨S128x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5_0 : Ref sig .tc := ⟨.hbm, 15, rfl⟩
abbrev main_call0_v5_1 : Ref sig .tc := ⟨.hbm, 16, rfl⟩
abbrev main_call0_v5_2 : Ref sig .tc := ⟨.hbm, 17, rfl⟩
abbrev main_call0_v5_3 : Ref sig .tc := ⟨.hbm, 18, rfl⟩
abbrev main_call0_v5_4 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_scratch0 : Ref sig .tc := ⟨.vmem, 28, rfl⟩
abbrev cc1_scratch1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36
abbrev cc2_sem8_0 : DmaSem sig := 37
abbrev cc2_sem8_1 : DmaSem sig := 38

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v34 : BitVec 1 := Scalar.cmpi .eq arg0 c4_i32
  let v35 : BitVec 32 := Scalar.extui v34
  let c0_i32_19 : BitVec 32 := 0#32
  let v36 : BitVec 1 := Scalar.cmpi .ne v35 c0_i32_19
  v36

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S32x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S32x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S32x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S10000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S128_S1x128 : S128.ShapeCasts S1x128
  inb_S20000x128_S20000x128_0_0 : ∀ a, (![0, 0] : Fin 2 → Nat) a + S20000x128.size a ≤ S20000x128.size a
  h_S20000x128 : 0 < S20000x128.numel
  inb_S5000x32_S5000x32_0_0 : ∀ a, (![0, 0] : Fin 2 → Nat) a + S5000x32.size a ≤ S5000x32.size a
  h_S5000x32 : 0 < S5000x32.numel
  slices_S20000x128_o0_0_S5000x128 : S20000x128.Slices ![0, 0] S5000x128
  slices_S20000x128_o5000_0_S5000x128 : S20000x128.Slices ![5000, 0] S5000x128
  slices_S20000x128_o10000_0_S5000x128 : S20000x128.Slices ![10000, 0] S5000x128
  slices_S20000x128_o15000_0_S5000x128 : S20000x128.Slices ![15000, 0] S5000x128
  inb_S32x128_S32x128_0_0 : ∀ a, (![0, 0] : Fin 2 → Nat) a + S32x128.size a ≤ S32x128.size a
  h_S32x128 : 0 < S32x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x128_S32x128 : S32x128.ShapeCasts S32x128
  broadcasts_S32x1_S32x128 : S32x1.Broadcasts S32x128
  reduces_S32x20000_S32 : S32x20000.Reduces [1] S32
  shapeCasts_S32_S32x1 : S32.ShapeCasts S32x1
  broadcasts_S32x1_S32x20000 : S32x1.Broadcasts S32x20000
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x128_S10000x128_0_0 : ∀ a, (![0, 0] : Fin 2 → Nat) a + S10000x128.size a ≤ S10000x128.size a
  h_S10000x128 : 0 < S10000x128.numel
  reduces_S10000x32_S10000 : S10000x32.Reduces [1] S10000
  shapeCasts_S10000_S10000x1 : S10000.ShapeCasts S10000x1
  broadcasts_S10000x1_S10000x32 : S10000x1.Broadcasts S10000x32
  broadcasts_S1x128_S10000x128 : S1x128.Broadcasts S10000x128
  dot_S5000x32_S5000x128_S32x128_0_0_1_1_n_n_wf : DotDims.WF S5000x32 S5000x128 S32x128 [0] [0] [1] [1] [] []
  dot_S5000x32_S5000x1_S32x1_0_0_1_1_n_n_wf : DotDims.WF S5000x32 S5000x1 S32x1 [0] [0] [1] [1] [] []
  dot_S32x128_S20000x128_S32x20000_1_1_0_0_n_n_wf : DotDims.WF S32x128 S20000x128 S32x20000 [1] [1] [0] [0] [] []
  dot_S32x20000_S20000x128_S32x128_1_0_0_1_n_n_wf : DotDims.WF S32x20000 S20000x128 S32x128 [1] [0] [0] [1] [] []
  dot_S32x128_S128x128_S32x128_1_1_0_0_n_n_wf : DotDims.WF S32x128 S128x128 S32x128 [1] [1] [0] [0] [] []
  dot_S1x128_S128x128_S1x128_1_1_0_0_n_n_wf : DotDims.WF S1x128 S128x128 S1x128 [1] [1] [0] [0] [] []
  dot_S10000x128_S32x128_S10000x32_1_1_0_0_n_n_wf : DotDims.WF S10000x128 S32x128 S10000x32 [1] [1] [0] [0] [] []
  dot_S10000x32_S32x128_S10000x128_1_0_0_1_n_n_wf : DotDims.WF S10000x32 S32x128 S10000x128 [1] [0] [0] [1] [] []
  dot_S10000x128_S128x128_S10000x128_1_1_0_0_n_n_wf : DotDims.WF S10000x128 S128x128 S10000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .f32 = 32 ∨ (Rect.block (s := S100000x32) S5000x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S100000x128.size a
  hwx1_0 : ∀ i : grid1.Coords, EltTy.bits .f32 = 32 ∨ (Rect.block (s := S100000x128) S20000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .f32 = 32 ∨ (Rect.block (s := S32x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S32x128.size a ≤ S32x128.size a
  hwx1_10 : ∀ i : grid1.Coords, EltTy.bits .f32 = 32 ∨ (Rect.block (s := S32x128) S32x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S32x128.size a ≤ S32x128.size a
  hwx1_11 : ∀ i : grid1.Coords, EltTy.bits .f32 = 32 ∨ (Rect.block (s := S32x128) S32x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S32x128.size a ≤ S32x128.size a
  hwx1_12 : ∀ i : grid1.Coords, EltTy.bits .f32 = 32 ∨ (Rect.block (s := S32x128) S32x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x128.size a ≤ S32x128.size a
  hwx2_1 : ∀ i : grid2.Coords, EltTy.bits .f32 = 32 ∨ (Rect.block (s := S32x128) S32x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S32x128.size a
  hwx2_2 : ∀ i : grid2.Coords, EltTy.bits .f32 = 32 ∨ (Rect.block (s := S32x128) S32x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x128.size a ≤ S32x128.size a
  hwx2_3 : ∀ i : grid2.Coords, EltTy.bits .f32 = 32 ∨ (Rect.block (s := S32x128) S32x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S100000x128.size a
  hwx2_7 : ∀ i : grid2.Coords, EltTy.bits .f32 = 32 ∨ (Rect.block (s := S100000x128) S10000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x128.size a ≤ S100000x128.size a
  hwx2_8 : ∀ i : grid2.Coords, EltTy.bits .f32 = 32 ∨ (Rect.block (s := S100000x128) S10000x128.size (cc2_transform_8 i) (hinb2_8 i)).WholeWords (EltTy.packing .f32)

variable [Facts₀]

def dot_S5000x32_S5000x128_S32x128_0_0_1_1_n_n : DotDims S5000x32 S5000x128 S32x128 where
  lhsContracting := [0]
  rhsContracting := [0]
  lhsNonContracting := [1]
  rhsNonContracting := [1]
  lhsBatch := []
  rhsBatch := []
  wf := dot_S5000x32_S5000x128_S32x128_0_0_1_1_n_n_wf
def dot_S5000x32_S5000x1_S32x1_0_0_1_1_n_n : DotDims S5000x32 S5000x1 S32x1 where
  lhsContracting := [0]
  rhsContracting := [0]
  lhsNonContracting := [1]
  rhsNonContracting := [1]
  lhsBatch := []
  rhsBatch := []
  wf := dot_S5000x32_S5000x1_S32x1_0_0_1_1_n_n_wf
def dot_S32x128_S20000x128_S32x20000_1_1_0_0_n_n : DotDims S32x128 S20000x128 S32x20000 where
  lhsContracting := [1]
  rhsContracting := [1]
  lhsNonContracting := [0]
  rhsNonContracting := [0]
  lhsBatch := []
  rhsBatch := []
  wf := dot_S32x128_S20000x128_S32x20000_1_1_0_0_n_n_wf
def dot_S32x20000_S20000x128_S32x128_1_0_0_1_n_n : DotDims S32x20000 S20000x128 S32x128 where
  lhsContracting := [1]
  rhsContracting := [0]
  lhsNonContracting := [0]
  rhsNonContracting := [1]
  lhsBatch := []
  rhsBatch := []
  wf := dot_S32x20000_S20000x128_S32x128_1_0_0_1_n_n_wf
def dot_S32x128_S128x128_S32x128_1_1_0_0_n_n : DotDims S32x128 S128x128 S32x128 where
  lhsContracting := [1]
  rhsContracting := [1]
  lhsNonContracting := [0]
  rhsNonContracting := [0]
  lhsBatch := []
  rhsBatch := []
  wf := dot_S32x128_S128x128_S32x128_1_1_0_0_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf
def dot_S10000x128_S32x128_S10000x32_1_1_0_0_n_n : DotDims S10000x128 S32x128 S10000x32 where
  lhsContracting := [1]
  rhsContracting := [1]
  lhsNonContracting := [0]
  rhsNonContracting := [0]
  lhsBatch := []
  rhsBatch := []
  wf := dot_S10000x128_S32x128_S10000x32_1_1_0_0_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S5000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S5000x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S32x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v2) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v3) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v4) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_call0_v5_0) S32x128.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_call0_v5_1) S32x128.size cc1_transform_11 reads1_11 true true 1 stage1_11 sem1_11
    hrank1 hreads1_11 hinb1_11 nbuf1_11 (Memref.isWhole_whole _) hwx1_11 hstage1_11

abbrev win1_12 : Pipeline.Window sig grid1 :=
  Pipeline.Window.ofSpec (Memref.whole main_call0_v5_2) S32x128.size cc1_transform_12 reads1_12 true true 1 stage1_12 sem1_12
    hrank1 hreads1_12 hinb1_12 nbuf1_12 (Memref.isWhole_whole _) hwx1_12 hstage1_12

abbrev win1_13 : Pipeline.Window sig grid1 :=
  Pipeline.Window.ofSpec (Memref.whole main_call0_v5_3) S1x128.size cc1_transform_13 reads1_13 true true 1 stage1_13 sem1_13
    hrank1 hreads1_13 hinb1_13 nbuf1_13 (Memref.isWhole_whole _) hwx1_13 hstage1_13

abbrev win1_14 : Pipeline.Window sig grid1 :=
  Pipeline.Window.ofSpec (Memref.whole main_call0_v5_4) S1x128.size cc1_transform_14 reads1_14 true true 1 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev idle1 : Fin 15 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k1_cond2 i == 1#1) | 12 => fun i => !(k1_cond2 i == 1#1) | 13 => fun i => !(k1_cond2 i == 1#1) | 14 => fun i => !(k1_cond2 i == 1#1) | ⟨_ + 15, h⟩ => absurd h (Nat.not_lt.2 (Nat.le_add_left _ _))

abbrev win2_0 : Pipeline.Window sig grid2 :=
  Pipeline.Window.ofSpec (Memref.whole main_arg0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v5_0) S32x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v5_1) S32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v5_2) S32x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v5_3) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v5_4) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v0_0) S10000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v0_1) S10000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000x32 : Shape := ⟨2, ![100000, 32]⟩
abbrev S128x128 : Shape := ⟨2, ![128, 128]⟩
abbrev S128 : Shape := ⟨1, ![128]⟩
abbrev S_ : Shape := ⟨0, ![]⟩
abbrev S32 : Shape := ⟨1, ![32]⟩
abbrev S1x32 : Shape := ⟨2, ![1, 32]⟩
abbrev S32x100000 : Shape := ⟨2, ![32, 100000]⟩
abbrev S32x128 : Shape := ⟨2, ![32, 128]⟩
abbrev S128x32 : Shape := ⟨2, ![128, 32]⟩
abbrev S100000 : Shape := ⟨1, ![100000]⟩
abbrev S100000x1 : Shape := ⟨2, ![100000, 1]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x32, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .f32⟩
  | .hbm, ⟨11, _⟩ => ⟨S32, .f32⟩
  | .hbm, ⟨12, _⟩ => ⟨S1x32, .f32⟩
  | .hbm, ⟨13, _⟩ => ⟨S100000x32, .f32⟩
  | .hbm, ⟨14, _⟩ => ⟨S100000x32, .f32⟩
  | .hbm, ⟨15, _⟩ => ⟨S32x100000, .f32⟩
  | .hbm, ⟨16, _⟩ => ⟨S32x128, .f32⟩
  | .hbm, ⟨17, _⟩ => ⟨S128x32, .f32⟩
  | .hbm, ⟨18, _⟩ => ⟨S100000x32, .f32⟩
  | .hbm, ⟨19, _⟩ => ⟨S_, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S1x32, .f32⟩
  | .hbm, ⟨25, _⟩ => ⟨S100000x32, .f32⟩
  | .hbm, ⟨26, _⟩ => ⟨S100000x32, .f32⟩
  | .hbm, ⟨27, _⟩ => ⟨S100000x32, .f32⟩
  | .hbm, ⟨28, _⟩ => ⟨S_, .f32⟩
  | .hbm, ⟨29, _⟩ => ⟨S32, .f32⟩
  | .hbm, ⟨30, _⟩ => ⟨S1x32, .f32⟩
  | .hbm, ⟨31, _⟩ => ⟨S100000x32, .f32⟩
  | .hbm, ⟨32, _⟩ => ⟨S100000x32, .f32⟩
  | .hbm, ⟨33, _⟩ => ⟨S32x100000, .f32⟩
  | .hbm, ⟨34, _⟩ => ⟨S32x128, .f32⟩
  | .hbm, ⟨35, _⟩ => ⟨S128x32, .f32⟩
  | .hbm, ⟨36, _⟩ => ⟨S100000x32, .f32⟩
  | .hbm, ⟨37, _⟩ => ⟨S_, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x32, .f32⟩
  | .hbm, ⟨44, _⟩ => ⟨S100000x32, .f32⟩
  | .hbm, ⟨45, _⟩ => ⟨S100000x32, .f32⟩
  | .hbm, ⟨46, _⟩ => ⟨S_, .f32⟩
  | .hbm, ⟨47, _⟩ => ⟨S100000, .f32⟩
  | .hbm, ⟨48, _⟩ => ⟨S100000x1, .f32⟩
  | .hbm, ⟨49, _⟩ => ⟨S100000x32, .f32⟩
  | .hbm, ⟨50, _⟩ => ⟨S100000x32, .f32⟩
  | .hbm, ⟨51, _⟩ => ⟨S100000x128, .f32⟩
  | .hbm, ⟨52, _⟩ => ⟨S128x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S128x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .i1⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .i1⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  reducesTo_S100000x32_S32_d0 : S100000x32.ReducesTo [0] S32
  h_S_ : 0 < S_.numel
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S100000x32_S32x100000_1_0 : S100000x32.Transposes [1, 0] S32x100000
  transposes_S32x128_S128x32_1_0 : S32x128.Transposes [1, 0] S128x32
  bcast_S_S32 : S_.BroadcastsInDim S32 (![] : Fin 0 → Fin S32.rank)
  reducesTo_S100000x32_S100000_d1 : S100000x32.ReducesTo [1] S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S32x100000_S100000x128_S32x128_1_0_0_1_n_n_wf : DotDims.WF S32x100000 S100000x128 S32x128 [1] [0] [0] [1] [] []
  dot_S100000x128_S128x32_S100000x32_1_0_0_1_n_n_wf : DotDims.WF S100000x128 S128x32 S100000x32 [1] [0] [0] [1] [] []
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []

variable [Facts₀]

def dot_S32x100000_S100000x128_S32x128_1_0_0_1_n_n : DotDims S32x100000 S100000x128 S32x128 where
  lhsContracting := [1]
  rhsContracting := [0]
  lhsNonContracting := [0]
  rhsNonContracting := [1]
  lhsBatch := []
  rhsBatch := []
  wf := dot_S32x100000_S100000x128_S32x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibNormalizedSum.lean ====
/-
  A weighted sum whose every weight carries ONE common divisor, on the extended reals.

  A column-normalised aggregation `∑ n, (a n / c) * x n` (weights divided by their column sum
  before the contraction) and a softmax-weighted sum `∑ n, (p n / L) * x n` (exponentials divided
  by their total before the contraction) are the same shape: every term's weight is divided by one
  number `c`. When the weights `a n`, the values `x n` and the divisor `c` are real numbers and
  `c ≠ 0`, the division may be done once, after the contraction:

      ∑ n, (a n / c) * x n  =  (∑ n, a n * x n) / c.

  Over the reals this is distributivity. On the extended reals the quotient is the one that sends
  `x / 0` to the infinity of `x`'s sign and `0 / 0` to `⊥`, and products with an infinity do not
  distribute over sums, so both hypotheses are needed: the entries real (so that every partial sum
  is a real number) and the divisor nonzero. `not_at_zero` records that the law is FALSE at
  `c = 0` already for one term: `(0 / 0) * (-1) = ⊥ * (-1) = ⊤` while `(0 * (-1)) / 0 = 0 / 0 = ⊥`.
-/
import Idealize.ShloMosaic.PureOps.Ideal

noncomputable section

namespace Cert.Lib.NormalizedSum

open Idealize.ShloMosaic

/-- The coercion of a finite real sum into the extended reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Real weights over one real nonzero divisor: dividing every weight before the contraction is
    dividing the contraction once. -/
theorem sum_div_mul_coe {ι : Type*} (s : Finset ι) (a x : ι → ℝ) {c : ℝ} (hc : c ≠ 0) :
    ∑ n ∈ s, Ideal.div (a n : EReal) (c : EReal) * (x n : EReal)
      = Ideal.div (∑ n ∈ s, (a n : EReal) * (x n : EReal)) (c : EReal) := by
  rw [Ideal.div_coe hc]
  simp only [Ideal.div_coe hc, ← EReal.coe_mul, ← coe_sum]
  refine congrArg _ ?_
  rw [Finset.sum_mul]
  exact Finset.sum_congr rfl fun n _ => by ring

/-- The same law for extended-real entries that are real numbers (each neither infinity), the
    form a program's arrays arrive in under a finite-inputs precondition. -/
theorem sum_div_mul {ι : Type*} (s : Finset ι) (a x : ι → EReal) (c : EReal)
    (ha : ∀ n, ∃ r : ℝ, a n = (r : EReal)) (hx : ∀ n, ∃ r : ℝ, x n = (r : EReal))
    (hc : ∃ r : ℝ, c = (r : EReal) ∧ r ≠ 0) :
    ∑ n ∈ s, Ideal.div (a n) c * x n = Ideal.div (∑ n ∈ s, a n * x n) c := by
  choose a' ha' using ha
  choose x' hx' using hx
  obtain ⟨c', rfl, hc'⟩ := hc
  simp only [ha', hx']
  exact sum_div_mul_coe s a' x' hc'

/-- The value of such a normalised contraction is a real number: the quotient of the real
    contraction by the divisor. -/
theorem sum_div_mul_coe_eq {ι : Type*} (s : Finset ι) (a x : ι → ℝ) {c : ℝ} (hc : c ≠ 0) :
    ∑ n ∈ s, Ideal.div (a n : EReal) (c : EReal) * (x n : EReal)
      = (((∑ n ∈ s, a n * x n) / c : ℝ) : EReal) := by
  rw [sum_div_mul_coe s a x hc, Ideal.div_coe hc]
  simp only [← EReal.coe_mul, ← coe_sum]
  refine congrArg _ ?_
  ring

/-- At a zero divisor the law fails, already for a single term with weight `0` and value `-1`:
    dividing first gives `(0 / 0) * (-1) = ⊤`, dividing last gives `(0 * (-1)) / 0 = ⊥`. -/
theorem not_at_zero :
    Ideal.div ((0 : ℝ) : EReal) ((0 : ℝ) : EReal) * ((-1 : ℝ) : EReal)
      ≠ Ideal.div (((0 : ℝ) : EReal) * ((-1 : ℝ) : EReal)) ((0 : ℝ) : EReal) := by
  have h1 : Ideal.div ((0 : ℝ) : EReal) ((0 : ℝ) : EReal) = ⊥ := by
    simp [Ideal.div]
  have h2 : Ideal.div (((0 : ℝ) : EReal) * ((-1 : ℝ) : EReal)) ((0 : ℝ) : EReal) = ⊥ := by
    simp [Ideal.div]
  rw [h1, h2]
  have h3 : (⊥ : EReal) * ((-1 : ℝ) : EReal) = ⊤ := by
    rw [EReal.bot_mul_coe_of_neg (by norm_num)]
  rw [h3]
  exact top_ne_bot

end Cert.Lib.NormalizedSum

end
-- ==== Proof.LibMixtureLayer.lean ====
/-
  A linear layer applied to a weighted mixture of rows, on the extended reals.

  Let `u d = ∑ s, w s * U s d` be a mixture of the rows `U s` with weights `w s` (the rows of a small
  matrix weighted by a softmax), `h d = u d + b₁ d` the mixture plus a bias, and
  `(∑ d, h d * W d) + b₂` one output column of a linear layer with weight column `W` and bias `b₂`.
  The layer may be applied to the rows FIRST and the mixture taken last:

      (∑ d, ((∑ s, w s * U s d) + b₁ d) * W d) + b₂
        = (∑ s, w s * (∑ d, U s d * W d)) + ((∑ d, b₁ d * W d) + b₂).

  This is what lets a program multiply a small matrix through its layers once
  (`(U · Wᵀ)`, and the bias row `b₁ · Wᵀ + b₂`) and apply the per-row weights afterwards. Over the
  reals it is linearity of the sum and the exchange of two finite sums; on the extended reals it
  needs every entry to be a real number, because a product with an infinity does not distribute.
-/
import proofs.«167790_g44066364457491_cont_8to1_c_744_34_alg».proof.Proof.LibNormalizedSum

noncomputable section

namespace Cert.Lib.MixtureLayer

open Cert.Lib.NormalizedSum

/-- The law over the reals: linearity, and the exchange of the two sums. -/
theorem real_mixture_layer {ι κ : Type*} [Fintype ι] [Fintype κ]
    (w : ι → ℝ) (U : ι → κ → ℝ) (b₁ W : κ → ℝ) (b₂ : ℝ) :
    (∑ d, ((∑ s, w s * U s d) + b₁ d) * W d) + b₂
      = (∑ s, w s * ∑ d, U s d * W d) + ((∑ d, b₁ d * W d) + b₂) := by
  have h1 : ∀ d, ((∑ s, w s * U s d) + b₁ d) * W d = (∑ s, w s * (U s d * W d)) + b₁ d * W d := fun d => by
    rw [add_mul, Finset.sum_mul]
    exact congrArg (· + b₁ d * W d) (Finset.sum_congr rfl fun s _ => mul_assoc _ _ _)
  have h2 : ∀ s, w s * ∑ d, U s d * W d = ∑ d, w s * (U s d * W d) := fun s => Finset.mul_sum _ _ _
  simp only [h1, h2, Finset.sum_add_distrib]
  rw [Finset.sum_comm, add_assoc]

/-- The law on the extended reals, for real entries. -/
theorem mixture_layer {ι κ : Type*} [Fintype ι] [Fintype κ]
    (w : ι → ℝ) (U : ι → κ → ℝ) (b₁ W : κ → ℝ) (b₂ : ℝ) :
    (∑ d, ((∑ s, (w s : EReal) * (U s d : EReal)) + (b₁ d : EReal)) * (W d : EReal)) + (b₂ : EReal)
      = (∑ s, (w s : EReal) * ∑ d, (U s d : EReal) * (W d : EReal))
          + ((∑ d, (b₁ d : EReal) * (W d : EReal)) + (b₂ : EReal)) := by
  simp only [← EReal.coe_mul, ← coe_sum, ← EReal.coe_add]
  exact congrArg _ (real_mixture_layer w U b₁ W b₂)

/-- The value of a layered mixture is a real number: the real expression, coerced. -/
theorem mixture_layer_coe {ι κ : Type*} [Fintype ι] [Fintype κ]
    (w : ι → ℝ) (U : ι → κ → ℝ) (b₁ W : κ → ℝ) (b₂ : ℝ) :
    (∑ d, ((∑ s, (w s : EReal) * (U s d : EReal)) + (b₁ d : EReal)) * (W d : EReal)) + (b₂ : EReal)
      = (((∑ d, ((∑ s, w s * U s d) + b₁ d) * W d) + b₂ : ℝ) : EReal) := by
  simp only [← EReal.coe_mul, ← coe_sum, ← EReal.coe_add]

end Cert.Lib.MixtureLayer

end
-- ==== Proof.KB.RunCond.lean ====
/-
  The whole program from the three launches' records, with every unscoped buffer named at the end.

  Given, for each of the three launches, a record entered from the thread state "every unscoped
  buffer at the contents reached so far, beside a rest" and left at the next such state, every
  weakly fair execution of the program terminates, and in every final state EVERY unscoped buffer
  holds the last of those contents: the arguments (which no launch and no host operation writes)
  and the two results among them.
-/
import proofs.«167790_g44066364457491_cont_8to1_c_744_34_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V4 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          StableHlo.seq hostOps1,
          Prog.lift (.customCall (Pipeline.entry 1) ()),
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨hpre0 c, hpost0 c, hpre1 c, (hpost1 c).trans (hpre2 c), (hpost2 c).trans (sep_mono .rfl (hE3 c))⟩)
    (hinit := ?_) (QY := fun c s => ∀ b ∈ Pipeline.ucRefs τ sig, s.mem ((c : Thread nD τ).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

end Cert.Kernel.Hand

end
-- ==== Proof.KB.Reg0Runs.lean ====
/-
  The first pass on one tile of 20000 rows, case by case.

  The body adds the tile's contribution `eᵀ · x` (four quarter tiles of 5000 rows) to a [32,128]
  accumulator, which is its output block, and the tile's column sums `eᵀ · 1` to a [32,1] scratch.
  At the first tile both are first set to zero; at the last tile the accumulator is finally
  divided, row by row, by the column sums. So there are three cases — first tile, a middle tile,
  last tile — told apart by two tests of the tile number (`= 0`, `= 4`); in the second and third
  the body reads the accumulator and the scratch as the tile before left them.
-/
import proofs.«167790_g44066364457491_cont_8to1_c_744_34_alg».proof.Proof.Gen.Kernel.Launch
import proofs.«167790_g44066364457491_cont_8to1_c_744_34_alg».proof.Proof.Gen.Kernel.Skeleton
import proofs.«167790_g44066364457491_cont_8to1_c_744_34_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests, in closed form over the five tiles -/

/-- "This is the first tile." -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the last tile." -/
abbrev cond0_1 (i : grid0.Coords) : Prop := (Scalar.cmpi .ne (Scalar.extui (Scalar.cmpi .eq (BitVec.ofNat 32 (i 0).val) 4#32)) 0#32) = 1#1
theorem hcond0_1 : ∀ t : Fin cfg0.N, cond0_1 (grid0.coords t) ↔ t.val % 5 = 4 :=
  (by decide +kernel : ∀ t : Fin grid0.N, cond0_1 (grid0.coords t) ↔ t.val % 5 = 4)

/-- No window is idle at any tile: the inputs are read and the accumulator is stored at every tile. -/
theorem liveAt0 : ∀ (w : Fin cfg0.W) (t : Fin cfg0.N), cfg0.idle w (grid0.coords t) = false := by decide +kernel

/-! ## The buffers the body is called on -/

abbrev ms0_0 (t : Fin cfg0.N) : Memref sig .tc .vmem S20000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x128 .f32 := win0_5.stage (cfg0.slots t 5)
abbrev hs0_5 (t : Fin cfg0.N) : (ms0_5 t).IsWhole := hstage0_5 ((cfg0.slots t 5).cast nbuf0_5)
/-- The accumulator's one staging buffer, as a view through which its contents are stated. -/
abbrev VO0_5 : View sig .tc .vmem S32x128 .f32 := (Memref.whole cc0_stg5_0 : Memref sig .tc .vmem S32x128 .f32).view
/-- The column-sum scratch: a whole buffer of the call's own, and the same as a view. -/
abbrev scM0_0 : Memref sig .tc .vmem S32x1 .f32 := Memref.whole cc0_scratch0
abbrev VS0_0 : View sig .tc .vmem S32x1 .f32 := scM0_0.view

/-- The untouched-scoped-buffers invariant opened at the call's own scratch: the scratch at some
    contents, the other scoped buffers unopened, the generator register at some state. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body's run, case by case -/

set_option maxHeartbeats 4000000 in
/-- The stores of case A into the output block and into the column-sum scratch, as pieces (last
    first), with the run: from the five input buffers at their contents, the output block and the scratch at anything, the body runs to its return
    with the inputs as they were and those two buffers with their pieces written. -/
noncomputable def kernelRun0_A (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S20000x128 .f32) (x1 : Vec F S5000x32 .f32) (x2 : Vec F S5000x32 .f32) (x3 : Vec F S5000x32 .f32) (x4 : Vec F S5000x32 .f32) :
    Σ' (L5 : List (View.Piece (Elt F) S32x128 .f32)), { LS0 : List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__pass1_kernel i arg1 harg1 arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 4000000 in
/-- The stores of case B into the output block and into the column-sum scratch, as pieces (last
    first), with the run: from the five input buffers at their contents, the output block and the scratch at what the point before left, the body runs to its return
    with the inputs as they were and those two buffers with their pieces written. -/
noncomputable def kernelRun0_B (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) :
    Σ' (L5 : List (View.Piece (Elt F) S32x128 .f32)), { LS0 : List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__pass1_kernel i arg1 harg1 arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 4000000 in
/-- The stores of case C into the output block and into the column-sum scratch, as pieces (last
    first), with the run: from the five input buffers at their contents, the output block and the scratch at what the point before left, the body runs to its return
    with the inputs as they were and those two buffers with their pieces written. -/
noncomputable def kernelRun0_C (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) :
    Σ' (L5 : List (View.Piece (Elt F) S32x128 .f32)), { LS0 : List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__pass1_kernel i arg1 harg1 arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.KB.Reg0.lean ====
/-
  The first pass over the five tiles: what the accumulator and the column-sum scratch hold after
  each tile, the data the launch theorems ask for, and the body's obligation at every tile.

  After tile 0 the accumulator holds `0 + e₀ᵀ·x₀` and the scratch `0 + e₀ᵀ·1`; after tile `n + 1` they
  hold what tile `n` left plus tile `n + 1`'s contribution, and after the last tile the accumulator
  has moreover been divided by the scratch, row by row (`outsAt0`). The accumulator is the output
  window's one staging buffer: it is written back to its array at the last tile only, so between
  tiles it still holds what the tile before left. The adjacency is handed in through four windows
  on ONE array (quarter tiles of 5000 rows), so each of those windows holds a quarter share of it.
-/
import proofs.«167790_g44066364457491_cont_8to1_c_744_34_alg».proof.Proof.KB.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the two carried buffers -/

/-- Case A's stores into the accumulator cover it. -/
theorem cover0_A_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S20000x128 .f32) (x1 : Vec F S5000x32 .f32) (x2 : Vec F S5000x32 .f32) (x3 : Vec F S5000x32 .f32) (x4 : Vec F S5000x32 .f32) (y : S32x128.Idx) :
    ∃ pc ∈ (kernelRun0_A c i arg1 harg1 arg2 harg2 arg3 harg3 arg4 harg4 arg5 harg5 arg6 harg6 arg7 harg7 hc0 hc1 x0 x1 x2 x3 x4).1, y ∈ pc.1.set :=
  View.cover_of_tiledL (kernelRun0_A c i arg1 harg1 arg2 harg2 arg3 harg3 arg4 harg4 arg5 harg5 arg6 harg6 arg7 harg7 hc0 hc1 x0 x1 x2 x3 x4).1 S32x128.size (by sl_kernel_rfl) y

/-- What case A leaves in the accumulator. -/
def out0_A_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S20000x128 .f32) (x1 : Vec F S5000x32 .f32) (x2 : Vec F S5000x32 .f32) (x3 : Vec F S5000x32 .f32) (x4 : Vec F S5000x32 .f32) : Vec F S32x128 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- Case A's stores into the column-sum scratch cover it. -/
theorem scover0_A_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S20000x128 .f32) (x1 : Vec F S5000x32 .f32) (x2 : Vec F S5000x32 .f32) (x3 : Vec F S5000x32 .f32) (x4 : Vec F S5000x32 .f32) (y : S32x1.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S32x1.size (by sl_kernel_rfl) y

/-- What case A leaves in the column-sum scratch. -/
def sout0_A_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S20000x128 .f32) (x1 : Vec F S5000x32 .f32) (x2 : Vec F S5000x32 .f32) (x3 : Vec F S5000x32 .f32) (x4 : Vec F S5000x32 .f32) : Vec F S32x1 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)

/-- Case B's stores into the accumulator cover it. -/
theorem cover0_B_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) (y : S32x128.Idx) :
    ∃ pc ∈ (kernelRun0_B c i arg1 harg1 arg2 harg2 arg3 harg3 arg4 harg4 arg5 harg5 arg6 harg6 arg7 harg7 hc0 hc1 x0 x1 x2 x3 x4 xo5 xs0).1, y ∈ pc.1.set :=
  View.cover_of_tiledL (kernelRun0_B c i arg1 harg1 arg2 harg2 arg3 harg3 arg4 harg4 arg5 harg5 arg6 harg6 arg7 harg7 hc0 hc1 x0 x1 x2 x3 x4 xo5 xs0).1 S32x128.size (by sl_kernel_rfl) y

/-- What case B leaves in the accumulator. -/
def out0_B_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) : Vec F S32x128 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xo5 xs0).1)

/-- Case B's stores into the column-sum scratch cover it. -/
theorem scover0_B_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) (y : S32x1.Idx) :
    ∃ pc ∈ (kernelRun0_B c i arg1 harg1 arg2 harg2 arg3 harg3 arg4 harg4 arg5 harg5 arg6 harg6 arg7 harg7 hc0 hc1 x0 x1 x2 x3 x4 xo5 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xo5 xs0).2.1 S32x1.size (by sl_kernel_rfl) y

/-- What case B leaves in the column-sum scratch. -/
def sout0_B_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) : Vec F S32x1 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xo5 xs0).2.1)

/-- Case C's stores into the accumulator cover it. -/
theorem cover0_C_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) (y : S32x128.Idx) :
    ∃ pc ∈ (kernelRun0_C c i arg1 harg1 arg2 harg2 arg3 harg3 arg4 harg4 arg5 harg5 arg6 harg6 arg7 harg7 hc0 hc1 x0 x1 x2 x3 x4 xo5 xs0).1, y ∈ pc.1.set :=
  View.cover_of_tiledL (kernelRun0_C c i arg1 harg1 arg2 harg2 arg3 harg3 arg4 harg4 arg5 harg5 arg6 harg6 arg7 harg7 hc0 hc1 x0 x1 x2 x3 x4 xo5 xs0).1 S32x128.size (by sl_kernel_rfl) y

/-- What case C leaves in the accumulator. -/
def out0_C_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) : Vec F S32x128 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xo5 xs0).1)

/-- Case C's stores into the column-sum scratch cover it. -/
theorem scover0_C_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) (y : S32x1.Idx) :
    ∃ pc ∈ (kernelRun0_C c i arg1 harg1 arg2 harg2 arg3 harg3 arg4 harg4 arg5 harg5 arg6 harg6 arg7 harg7 hc0 hc1 x0 x1 x2 x3 x4 xo5 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xo5 xs0).2.1 S32x1.size (by sl_kernel_rfl) y

/-- What case C leaves in the column-sum scratch. -/
def sout0_C_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) : Vec F S32x1 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xo5 xs0).2.1)

/-! ## Tile by tile -/

theorem not_first0 (n : ℕ) (hn : n + 1 < cfg0.N) : ¬ (n + 1) % 5 = 0 := by
  have hN : n + 1 < 5 := lt_of_lt_of_eq hn (show cfg0.N = 5 from N_0); omega

/-- THE ACCUMULATION: the accumulator and the scratch after the body at tile `n`. -/
def outsAt0 (c : Dev nD) : (n : ℕ) → n < cfg0.N → Vec F S32x128 .f32 × Vec F S32x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 5 = 4 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => not_first0 n hn ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => not_first0 n hn ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => not_first0 n hn ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => not_first0 n hn ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2)

theorem outsAt0_A (c : Dev nD) (t : Fin cfg0.N) (h0 : t.val % 5 = 0) (h1 : ¬t.val % 5 = 4) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact absurd h0 (not_first0 n hn)

theorem outsAt0_B (c : Dev nD) (t : Fin cfg0.N) (h0 : ¬t.val % 5 = 0) (h1 : ¬t.val % 5 = 4) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 5 = 0) (h1 : t.val % 5 = 4) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The invariant before tile `n`: before the first tile every scoped buffer at anything; afterwards
    the scratch at what the tile before left, the other scoped buffers unopened, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The four windows on the adjacency's array each hold a quarter of it; every other window its
    array whole. -/
def q0 : Fin cfg0.W → PosShare TreeShare
  | ⟨1, _⟩ => fullShare.left.left
  | ⟨2, _⟩ => fullShare.left.right
  | ⟨3, _⟩ => fullShare.right.left
  | ⟨4, _⟩ => fullShare.right.right
  | _ => fullShare

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q := q0
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- After the first tile the accumulator's buffer still holds what the tile before left: it was not
    written back in between. -/
theorem before0_5_pos (c : Dev nD) (t : Fin cfg0.N) (h0 : ¬t.val % 5 = 0) (d) :
    (dat0 V c).before 5 t d = (outsAt0 V c (t.val - 1) (Nat.lt_of_le_of_lt (Nat.sub_le _ _) t.isLt)).1 := by
  have hN : t.val < 5 := lt_of_lt_of_eq t.isLt (show cfg0.N = 5 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic tile -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ,
    after0_0, after0_1, after0_2, after0_3, after0_4, after0_5]
  have hN : t.val < 5 := lt_of_lt_of_eq t.isLt (show cfg0.N = 5 from N_0)
  by_cases h0 : t.val % 5 = 0
  · have h1 : ¬t.val % 5 = 4 := by omega
    rw [outsAt0_A V c t h0 h1]
    unfold out0_A_5 sout0_A_0; (try dsimp only)
    rw [PhiS0_castSucc V c t, PhiS0_zero V c _ _ (by omega), PhiA0_eq]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _ _)
  · have hz : t.val ≠ 0 := by omega
    simp only [before0_5_pos V c t h0]
    rw [PhiS0_castSucc V c t, PhiS0_pos V c _ _ hz]
    by_cases h1 : t.val % 5 = 4
    · rw [outsAt0_C V c t h0 h1]
      unfold out0_C_5 sout0_C_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _ _)
    · rw [outsAt0_B V c t h0 h1]
      unfold out0_B_5 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _)

/-- The library's body obligation for the first launch, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile; after the last tile the
    invariant gives it back, the scratch's contents forgotten. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have ht : (Fin.last cfg0.N).val ≠ 0 := by rw [Fin.val_last]; have : cfg0.N = 5 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HR⟩, Hg⟩
  isplitl [HS0 HR]
  · isplitl [HS0]
    · iexists _; iexact HS0
    iexact HR
  iexact Hg

end Cert.Kernel.Hand

end
-- ==== Proof.KB.Shared0.lean ====
/-
  The adjacency's array is handed to the first launch through four windows (quarter tiles). The
  launch wants, per window, a points-to of that window's array at the window's share; what the
  thread state holds is each distinct buffer once, whole, at the full share. Going in, the
  adjacency's full share is split in two and each half in two again, one quarter per window; coming
  out, the four quarters — every one still at the entry contents, since an input window's array is
  never written — are joined back. The other two arrays (the rows `x`, and the result block's
  array) belong to one window each and pass through at the full share.
-/
import proofs.«167790_g44066364457491_cont_8to1_c_744_34_alg».proof.Proof.KB.Reg0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three distinct buffers behind the six windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_call0_v0) ↦{fullShare} W main_call0_v0)) := by
  unfold Pipeline.arrBufs
  exact bigSep_eq_bigSepL_of_eq [main_arg0, main_arg1, main_call0_v0] (by decide) (by decide) _

/-- A whole buffer's full share as four quarters. -/
theorem quarters {ℓ : Loc nD τ sig} (f : Buf (Elt F) ℓ) :
    (ℓ ↦{fullShare} f : sProp 𝕄) ⊣⊢ iprop((ℓ ↦{fullShare.left.left} f) ∗ (ℓ ↦{fullShare.left.right} f) ∗ (ℓ ↦{fullShare.right.left} f) ∗ (ℓ ↦{fullShare.right.right} f)) := by
  have h : (ℓ ↦{fullShare} f : sProp 𝕄) ⊣⊢ iprop((ℓ ↦{fullShare.left} f) ∗ ℓ ↦{fullShare.right} f) := pointsTo_share (PosShare.mem_left_op_right fullShare)
  have hl : (ℓ ↦{fullShare.left} f : sProp 𝕄) ⊣⊢ iprop((ℓ ↦{fullShare.left.left} f) ∗ ℓ ↦{fullShare.left.right} f) := pointsTo_share (PosShare.mem_left_op_right fullShare.left)
  have hr : (ℓ ↦{fullShare.right} f : sProp 𝕄) ⊣⊢ iprop((ℓ ↦{fullShare.right.left} f) ∗ ℓ ↦{fullShare.right.right} f) := pointsTo_share (PosShare.mem_left_op_right fullShare.right)
  constructor
  · iintro H
    ihave H' := h.1 $$ H
    icases H' with ⟨Hl, Hr⟩
    ihave Hl' := hl.1 $$ Hl
    ihave Hr' := hr.1 $$ Hr
    icases Hl' with ⟨H1, H2⟩
    icases Hr' with ⟨H3, H4⟩
    isplitl [H1]; · iexact H1
    isplitl [H2]; · iexact H2
    isplitl [H3]; · iexact H3
    iexact H4
  · iintro ⟨H1, H2, H3, H4⟩
    iapply h.2
    isplitl [H1 H2]
    · iapply hl.2; isplitl [H1]; · iexact H1
      iexact H2
    · iapply hr.2; isplitl [H3]; · iexact H3
      iexact H4

/-! The share each window holds its array at: the rows whole, the adjacency by quarters, the result
    whole (an output). -/
theorem share0_0 (c : Dev nD) : (dat0 V c).share 0 = fullShare := by unfold Dat.share; rfl
theorem share0_1 (c : Dev nD) : (dat0 V c).share 1 = fullShare.left.left := by unfold Dat.share; rfl
theorem share0_2 (c : Dev nD) : (dat0 V c).share 2 = fullShare.left.right := by unfold Dat.share; rfl
theorem share0_3 (c : Dev nD) : (dat0 V c).share 3 = fullShare.right.left := by unfold Dat.share; rfl
theorem share0_4 (c : Dev nD) : (dat0 V c).share 4 = fullShare.right.right := by unfold Dat.share; rfl
theorem share0_5 (c : Dev nD) : (dat0 V c).share 5 = fullShare := by unfold Dat.share; rfl

/-- The six windows' arrays, one by one, each a whole buffer at its window's share. -/
theorem arrays0_eq (c : Dev nD) (G : (w : Fin cfg0.W) → Buf (Elt F) (((cfg0.win w).arr.view.loc (c : Thread nD τ)))) :
    ((dat0 V c).arrays G : sProp 𝕄)
      = iprop((((c : Thread nD τ).loc (Pipeline.arrRef spec0 0)) ↦{fullShare} G 0)
          ∗ (((c : Thread nD τ).loc (Pipeline.arrRef spec0 1)) ↦{fullShare.left.left} G 1)
          ∗ (((c : Thread nD τ).loc (Pipeline.arrRef spec0 2)) ↦{fullShare.left.right} G 2)
          ∗ (((c : Thread nD τ).loc (Pipeline.arrRef spec0 3)) ↦{fullShare.right.left} G 3)
          ∗ (((c : Thread nD τ).loc (Pipeline.arrRef spec0 4)) ↦{fullShare.right.right} G 4)
          ∗ (((c : Thread nD τ).loc (Pipeline.arrRef spec0 5)) ↦{fullShare} G 5)) := by
  unfold Dat.arrays
  -- windows 1–4 are one array, so one rewrite turns all four element sets into the whole buffer
  rw [bigSep_W0, (arr_whole0 0).set_eq_univ, (arr_whole0 1).set_eq_univ, (arr_whole0 5).set_eq_univ,
    share0_0, share0_1, share0_2, share0_3, share0_4, share0_5]

/-- The three buffers at contents `W` make the six windows' arrays at any contents `G` that reads
    `W` at each window's array, each window at its share. -/
theorem arrays_of_arrBufs0 (c : Dev nD) (W : (b : Ref sig .tc) → Buf (Elt F) ((c : Thread nD τ).loc b))
    (G : (w : Fin cfg0.W) → Buf (Elt F) (((cfg0.win w).arr.view.loc (c : Thread nD τ)))) (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  rw [arrBufs0_eq, arrays0_eq, hG 0, hG 1, hG 2, hG 3, hG 4, hG 5]
  iintro ⟨H0, H1, H5⟩
  ihave Hq := (quarters (F := F) (W main_arg1)).1 $$ H1
  icases Hq with ⟨Ha, Hb, Hc, Hd⟩
  isplitl [H0]; · iexact H0
  isplitl [Ha]; · iexact Ha
  isplitl [Hb]; · iexact Hb
  isplitl [Hc]; · iexact Hc
  isplitl [Hd]; · iexact Hd
  iexact H5

/-- And back: the four quarters of the adjacency's array, all at one contents, are its full share. -/
theorem arrBufs_of_arrays0 (c : Dev nD) (W : (b : Ref sig .tc) → Buf (Elt F) ((c : Thread nD τ).loc b))
    (G : (w : Fin cfg0.W) → Buf (Elt F) (((cfg0.win w).arr.view.loc (c : Thread nD τ)))) (hG : ∀ w, G w = W (Pipeline.arrRef spec0 w)) :
    ((dat0 V c).arrays G : sProp 𝕄) ⊢ Pipeline.arrBufs (Ix := Unit) (Name := ℕ) (U := UR sig nD τ) (Lvl := ℕ) spec0 c W := by
  rw [arrBufs0_eq, arrays0_eq, hG 0, hG 1, hG 2, hG 3, hG 4, hG 5]
  iintro ⟨H0, Ha, Hb, Hc, Hd, H5⟩
  isplitl [H0]; · iexact H0
  isplitl [Ha Hb Hc Hd]
  · iapply (quarters (F := F) (W main_arg1)).2
    isplitl [Ha]; · iexact Ha
    isplitl [Hb]; · iexact Hb
    isplitl [Hc]; · iexact Hc
    iexact Hd
  iexact H5

/-- ENTRY: every unscoped buffer at `V c` is the six windows' arrays at the entry contents beside
    the unscoped buffers no window stages. -/
theorem arrays_of_unscopedBufs0 (c : Dev nD) :
    (unscopedBufs c (V c) : sProp 𝕄) ⊢ iprop((dat0 V c).arrays (dat0 V c).A ∗ Pipeline.unscopedRest (Ix := Unit) (Name := ℕ) (U := UR sig nD τ) (Lvl := ℕ) spec0 c (V c)) := by
  rw [Pipeline.unscopedBufs_split₀ cfgs 0 winFacts₀0.arr_unscoped c (V c)]
  exact sep_mono (arrays_of_arrBufs0 V c (V c) _ (fun w => A_eq0 V c w)) .rfl

/-- EXIT: the six windows' arrays at contents `G` and the rest at `V c` are every unscoped buffer at
    any `W'` that has the arrays at `G` and agrees with `V c` off them. -/
theorem unscopedBufs_of_arrays0 (c : Dev nD) (W' : (b : Ref sig .tc) → Buf (Elt F) ((c : Thread nD τ).loc b))
    (G : (w : Fin cfg0.W) → Buf (Elt F) (((cfg0.win w).arr.view.loc (c : Thread nD τ)))) (hG : ∀ w, G w = W' (Pipeline.arrRef spec0 w))
    (hrest : ∀ b, b ∉ Finset.univ.image (Pipeline.arrRef spec0) → W' b = V c b) :
    iprop((dat0 V c).arrays G ∗ Pipeline.unscopedRest (Ix := Unit) (Name := ℕ) (U := UR sig nD τ) (Lvl := ℕ) spec0 c (V c)) ⊢ (unscopedBufs c W' : sProp 𝕄) := by
  rw [Pipeline.unscopedBufs_split₀ cfgs 0 winFacts₀0.arr_unscoped c W']
  refine sep_mono (arrBufs_of_arrays0 V c W' G hG) (Entails.of_eq ?_)
  unfold Pipeline.unscopedRest
  exact bigSep_congr fun b hb => by rw [hrest b (Finset.mem_sdiff.mp hb).2]

end Cert.Kernel.Hand

end
-- ==== Proof.KB.Reg1Runs.lean ====
/-
  The second pass on one tile of 20000 rows, case by case.

  The body scores the tile's rows against the 32 sector rows, and updates, column by column, a
  running maximum `m` and a running denominator `l` (two [32,1] scratch buffers) and a running
  numerator (the [32,128] block of its first output): the new maximum is the larger of the old one
  and the tile's, the old denominator and numerator are rescaled by `exp (m_old − m_new)` and the
  tile's exponentials, respectively their products with the tile's rows, are added. At the first
  tile the three are first set to `−∞`, `0`, `0`. At the last tile the numerator is finally divided
  by the denominator, the quotient multiplied through the layers into the second and third outputs,
  and the two bias rows stored into the fourth and fifth. So there are three cases — first tile, a
  middle tile, last tile — told apart by two tests of the tile number (`= 0`, `= 4`); in the second
  and third the body reads the numerator and both scratch buffers as the tile before left them, and
  in the first and second it leaves the four late outputs' buffers as it found them.
-/
import proofs.«167790_g44066364457491_cont_8to1_c_744_34_alg».proof.Proof.Gen.Kernel.Launch
import proofs.«167790_g44066364457491_cont_8to1_c_744_34_alg».proof.Proof.Gen.Kernel.Skeleton
import proofs.«167790_g44066364457491_cont_8to1_c_744_34_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests, in closed form over the five tiles -/

/-- "This is the first tile." -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

/-- "This is the last tile." -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- Window 9 is never idle (an input). -/
theorem liveAt1_9 : ∀ t : Fin cfg1.N, cfg1.idle 9 (grid1.coords t) = false := by decide +kernel
/-- Window 10 is never idle (the running numerator is stored at every tile). -/
theorem liveAt1_10 : ∀ t : Fin cfg1.N, cfg1.idle 10 (grid1.coords t) = false := by decide +kernel
/-- Before the last tile output 11 is idle: nothing is stored into its buffer, -/
theorem idleAt1_11 : ∀ t : Fin cfg1.N, ¬cond1_1 (grid1.coords t) → cfg1.idle 11 (grid1.coords t) = true := by decide +kernel
/-- and its block is not written back; -/
theorem noFlush1_11 : ∀ t : Fin cfg1.N, ¬cond1_1 (grid1.coords t) → (cfg1.win 11).flush t = false := by decide +kernel
/-- at the last tile it is live: the body stores into it. -/
theorem liveAt1_11_C : ∀ t : Fin cfg1.N, cond1_1 (grid1.coords t) → cfg1.idle 11 (grid1.coords t) = false := by decide +kernel
/-- Before the last tile output 12 is idle: nothing is stored into its buffer, -/
theorem idleAt1_12 : ∀ t : Fin cfg1.N, ¬cond1_1 (grid1.coords t) → cfg1.idle 12 (grid1.coords t) = true := by decide +kernel
/-- and its block is not written back; -/
theorem noFlush1_12 : ∀ t : Fin cfg1.N, ¬cond1_1 (grid1.coords t) → (cfg1.win 12).flush t = false := by decide +kernel
/-- at the last tile it is live: the body stores into it. -/
theorem liveAt1_12_C : ∀ t : Fin cfg1.N, cond1_1 (grid1.coords t) → cfg1.idle 12 (grid1.coords t) = false := by decide +kernel
/-- Before the last tile output 13 is idle: nothing is stored into its buffer, -/
theorem idleAt1_13 : ∀ t : Fin cfg1.N, ¬cond1_1 (grid1.coords t) → cfg1.idle 13 (grid1.coords t) = true := by decide +kernel
/-- and its block is not written back; -/
theorem noFlush1_13 : ∀ t : Fin cfg1.N, ¬cond1_1 (grid1.coords t) → (cfg1.win 13).flush t = false := by decide +kernel
/-- at the last tile it is live: the body stores into it. -/
theorem liveAt1_13_C : ∀ t : Fin cfg1.N, cond1_1 (grid1.coords t) → cfg1.idle 13 (grid1.coords t) = false := by decide +kernel
/-- Before the last tile output 14 is idle: nothing is stored into its buffer, -/
theorem idleAt1_14 : ∀ t : Fin cfg1.N, ¬cond1_1 (grid1.coords t) → cfg1.idle 14 (grid1.coords t) = true := by decide +kernel
/-- and its block is not written back; -/
theorem noFlush1_14 : ∀ t : Fin cfg1.N, ¬cond1_1 (grid1.coords t) → (cfg1.win 14).flush t = false := by decide +kernel
/-- at the last tile it is live: the body stores into it. -/
theorem liveAt1_14_C : ∀ t : Fin cfg1.N, cond1_1 (grid1.coords t) → cfg1.idle 14 (grid1.coords t) = false := by decide +kernel

/-! ## The buffers the body is called on -/

abbrev ms1_0 (t : Fin cfg1.N) : Memref sig .tc .vmem S20000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S32x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S32x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S32x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x128 .f32 := win1_14.stage (cfg1.slots t 14)
abbrev hs1_14 (t : Fin cfg1.N) : (ms1_14 t).IsWhole := hstage1_14 ((cfg1.slots t 14).cast nbuf1_14)
/-- Output 10's one staging buffer, as a view through which its contents are stated. -/
abbrev VO1_10 : View sig .tc .vmem S32x128 .f32 := (Memref.whole cc1_stg10_0 : Memref sig .tc .vmem S32x128 .f32).view
/-- Output 11's one staging buffer, as a view through which its contents are stated. -/
abbrev VO1_11 : View sig .tc .vmem S32x128 .f32 := (Memref.whole cc1_stg11_0 : Memref sig .tc .vmem S32x128 .f32).view
/-- Output 12's one staging buffer, as a view through which its contents are stated. -/
abbrev VO1_12 : View sig .tc .vmem S32x128 .f32 := (Memref.whole cc1_stg12_0 : Memref sig .tc .vmem S32x128 .f32).view
/-- Output 13's one staging buffer, as a view through which its contents are stated. -/
abbrev VO1_13 : View sig .tc .vmem S1x128 .f32 := (Memref.whole cc1_stg13_0 : Memref sig .tc .vmem S1x128 .f32).view
/-- Output 14's one staging buffer, as a view through which its contents are stated. -/
abbrev VO1_14 : View sig .tc .vmem S1x128 .f32 := (Memref.whole cc1_stg14_0 : Memref sig .tc .vmem S1x128 .f32).view
/-- The running maximum and the running denominator: whole buffers of the call's own, and the same as views. -/
abbrev scM1_0 : Memref sig .tc .vmem S32x1 .f32 := Memref.whole cc1_scratch0
abbrev VS1_0 : View sig .tc .vmem S32x1 .f32 := scM1_0.view
abbrev scM1_1 : Memref sig .tc .vmem S32x1 .f32 := Memref.whole cc1_scratch1
abbrev VS1_1 : View sig .tc .vmem S32x1 .f32 := scM1_1.view

/-- The untouched-scoped-buffers invariant opened at the call's own two scratch buffers: each at some
    contents, the other scoped buffers unopened, the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The body's run, case by case -/

set_option maxHeartbeats 8000000 in
/-- The stores of case A into the numerator's block and into the two scratch buffers, as pieces (last
    first), with the run: from the ten input buffers at their contents, the numerator's block and the scratch buffers at anything and
    the four late outputs' buffers at any contents `xi·`, the body runs to its return with the inputs and the late outputs' buffers
    as they were and the other three with their pieces written. -/
noncomputable def kernelRun1_A (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) :
    Σ' (L10 : List (View.Piece (Elt F) S32x128 .f32)) (L11 : List (View.Piece (Elt F) S32x128 .f32)) (L12 : List (View.Piece (Elt F) S32x128 .f32)) (L13 : List (View.Piece (Elt F) S1x128 .f32)) (L14 : List (View.Piece (Elt F) S1x128 .f32)) (LS0 : List (View.Piece (Elt F) S32x1 .f32)), { LS1 : List (View.Piece (Elt F) S32x1 .f32) //
      ∀ (xi11 : Vec F S32x128 .f32) (xi12 : Vec F S32x128 .f32) (xi13 : Vec F S1x128 .f32) (xi14 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ owns (c : Thread nD τ) arg14 fullShare xi13 ∗ owns (c : Thread nD τ) arg15 fullShare xi14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ owns (c : Thread nD τ) arg14 fullShare xi13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], [], [], [], ?_, ?_, fun xi11 xi12 xi13 xi14 E K => ?run⟩
  case run =>
    simp only [cc1__pass2_kernel_eq_skeleton]; unfold cc1__pass2_kernel_skel
    simp only [k1_part2_eq_skeleton]; unfold k1_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg14.eq_unread hf13; obtain rfl := harg15.eq_unread hf14
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    iexists _; iexact HS1

set_option maxHeartbeats 8000000 in
/-- The stores of case B, with the run: as case A, the numerator's block and the two scratch buffers at what the tile before left. -/
noncomputable def kernelRun1_B (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    Σ' (L10 : List (View.Piece (Elt F) S32x128 .f32)) (L11 : List (View.Piece (Elt F) S32x128 .f32)) (L12 : List (View.Piece (Elt F) S32x128 .f32)) (L13 : List (View.Piece (Elt F) S1x128 .f32)) (L14 : List (View.Piece (Elt F) S1x128 .f32)) (LS0 : List (View.Piece (Elt F) S32x1 .f32)), { LS1 : List (View.Piece (Elt F) S32x1 .f32) //
      ∀ (xi11 : Vec F S32x128 .f32) (xi12 : Vec F S32x128 .f32) (xi13 : Vec F S1x128 .f32) (xi14 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo10 ∗ owns (c : Thread nD τ) arg12 fullShare xi11 ∗ owns (c : Thread nD τ) arg13 fullShare xi12 ∗ owns (c : Thread nD τ) arg14 fullShare xi13 ∗ owns (c : Thread nD τ) arg15 fullShare xi14 ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ owns (c : Thread nD τ) arg14 fullShare xi13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], [], [], [], ?_, ?_, fun xi11 xi12 xi13 xi14 E K => ?run⟩
  case run =>
    simp only [cc1__pass2_kernel_eq_skeleton]; unfold cc1__pass2_kernel_skel
    simp only [k1_part2_eq_skeleton]; unfold k1_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hfs0; obtain rfl := harg17.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    iexists _; iexact HS1

set_option maxHeartbeats 8000000 in
/-- The stores of case C into all five outputs' blocks and the two scratch buffers, with the run: the numerator's block and the
    scratch buffers at what the tile before left, the four late outputs' buffers at anything; every one of the seven ends with its pieces written. -/
noncomputable def kernelRun1_C (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    Σ' (L10 : List (View.Piece (Elt F) S32x128 .f32)) (L11 : List (View.Piece (Elt F) S32x128 .f32)) (L12 : List (View.Piece (Elt F) S32x128 .f32)) (L13 : List (View.Piece (Elt F) S1x128 .f32)) (L14 : List (View.Piece (Elt F) S1x128 .f32)) (LS0 : List (View.Piece (Elt F) S32x1 .f32)), { LS1 : List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc1__pass2_kernel_eq_skeleton]; unfold cc1__pass2_kernel_skel
    simp only [k1_part2_eq_skeleton]; unfold k1_part2_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg16.eq_unread hfs0; obtain rfl := harg17.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    iexists _; iexact HS1

end Cert.Kernel.Hand

end
-- ==== Proof.KB.Reg1.lean ====
/-
  The second pass over the five tiles: what the running numerator, the four late outputs and the two
  scratch buffers hold after each tile, the data the launch theorems ask for, and the body's obligation
  at every tile.

  After tile 0 the scratch buffers hold the running maximum and denominator of that tile alone and the
  first output's block the running numerator; after tile `n + 1` they hold the online update of what
  tile `n` left by tile `n + 1`; after the last tile the numerator has moreover been divided by the
  denominator and the other four outputs' blocks have been stored (`outsAt1`). Every output window has
  one staging buffer, written back to its array at the last tile only; so between tiles the first
  output's buffer still holds what the tile before left, and the other four, into which nothing is
  stored before the last tile, are handed back as they were found.
-/
import proofs.«167790_g44066364457491_cont_8to1_c_744_34_alg».proof.Proof.KB.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the outputs' blocks and the two scratch buffers -/

/-- Case A's stores into the numerator's block cover it. -/
theorem cover1_A_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (y : S32x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1 S32x128.size (by sl_kernel_rfl) y

/-- What case A leaves in the numerator's block. -/
def out1_A_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S32x128 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1)

/-- Case A stores nothing into the second output's block: no pieces, a placeholder that nothing consults. -/
def out1_A_11 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S32x128 .f32 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1)

/-- Case A stores nothing into the third output's block: no pieces, a placeholder that nothing consults. -/
def out1_A_12 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S32x128 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1)

/-- Case A stores nothing into the fourth output's block: no pieces, a placeholder that nothing consults. -/
def out1_A_13 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S1x128 .f32 :=
  VO1_13.read (Elt F) (VO1_13.writes (Elt F) VO1_13.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1)

/-- Case A stores nothing into the fifth output's block: no pieces, a placeholder that nothing consults. -/
def out1_A_14 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S1x128 .f32 :=
  VO1_14.read (Elt F) (VO1_14.writes (Elt F) VO1_14.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.1)

/-- Case A's stores into the running maximum cover it. -/
theorem scover1_A_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (y : S32x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1 S32x1.size (by sl_kernel_rfl) y

/-- What case A leaves in the running maximum. -/
def sout1_A_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S32x1 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1)

/-- Case A's stores into the running denominator cover it. -/
theorem scover1_A_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (y : S32x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1 S32x1.size (by sl_kernel_rfl) y

/-- What case A leaves in the running denominator. -/
def sout1_A_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S32x1 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1)

/-- Case B's stores into the numerator's block cover it. -/
theorem cover1_B_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1 S32x128.size (by sl_kernel_rfl) y

/-- What case B leaves in the numerator's block. -/
def out1_B_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1)

/-- Case B stores nothing into the second output's block: no pieces, a placeholder that nothing consults. -/
def out1_B_11 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.1)

/-- Case B stores nothing into the third output's block: no pieces, a placeholder that nothing consults. -/
def out1_B_12 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_12.read (Elt F) (VO1_12.writes (Elt F) VO1_12.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.1)

/-- Case B stores nothing into the fourth output's block: no pieces, a placeholder that nothing consults. -/
def out1_B_13 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S1x128 .f32 :=
  VO1_13.read (Elt F) (VO1_13.writes (Elt F) VO1_13.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.1)

/-- Case B stores nothing into the fifth output's block: no pieces, a placeholder that nothing consults. -/
def out1_B_14 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S1x128 .f32 :=
  VO1_14.read (Elt F) (VO1_14.writes (Elt F) VO1_14.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.1)

/-- Case B's stores into the running maximum cover it. -/
theorem scover1_B_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1 S32x1.size (by sl_kernel_rfl) y

/-- What case B leaves in the running maximum. -/
def sout1_B_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x1 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1)

/-- Case B's stores into the running denominator cover it. -/
theorem scover1_B_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1 S32x1.size (by sl_kernel_rfl) y

/-- What case B leaves in the running denominator. -/
def sout1_B_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x1 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1)

/-- Case C's stores into the numerator's block cover it. -/
theorem cover1_C_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1 S32x128.size (by sl_kernel_rfl) y

/-- What case C leaves in the numerator's block. -/
def out1_C_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1)

/-- Case C's stores into the second output's block cover it. -/
theorem cover1_C_11 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.1 S32x128.size (by sl_kernel_rfl) y

/-- What case C leaves in the second output's block. -/
def out1_C_11 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_11.read (Elt F) (VO1_11.writes (Elt F) VO1_11.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.1)

/-- Case C's stores into the third output's block cover it. -/
theorem cover1_C_12 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.1 S32x128.size (by sl_kernel_rfl) y

/-- What case C leaves in the third output's block. -/
def out1_C_12 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_12.read (Elt F) (VO1_12.writes (Elt F) VO1_12.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.1)

/-- Case C's stores into the fourth output's block cover it. -/
theorem cover1_C_13 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.1 S1x128.size (by sl_kernel_rfl) y

/-- What case C leaves in the fourth output's block. -/
def out1_C_13 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S1x128 .f32 :=
  VO1_13.read (Elt F) (VO1_13.writes (Elt F) VO1_13.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.1)

/-- Case C's stores into the fifth output's block cover it. -/
theorem cover1_C_14 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.1 S1x128.size (by sl_kernel_rfl) y

/-- What case C leaves in the fifth output's block. -/
def out1_C_14 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S1x128 .f32 :=
  VO1_14.read (Elt F) (VO1_14.writes (Elt F) VO1_14.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.1)

/-- Case C's stores into the running maximum cover it. -/
theorem scover1_C_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1 S32x1.size (by sl_kernel_rfl) y

/-- What case C leaves in the running maximum. -/
def sout1_C_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x1 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1)

/-- Case C's stores into the running denominator cover it. -/
theorem scover1_C_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1 S32x1.size (by sl_kernel_rfl) y

/-- What case C leaves in the running denominator. -/
def sout1_C_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x1 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1)

/-! ## Tile by tile -/

theorem not_first1 (n : ℕ) (hn : n + 1 < cfg1.N) : ¬ (n + 1) % 5 = 0 := by
  have hN : n + 1 < 5 := lt_of_lt_of_eq hn (show cfg1.N = 5 from N_1); omega

/-- THE ONLINE UPDATE: the five outputs' blocks (in window order; the last four are placeholders before the
    last tile) and the two scratch buffers after the body at tile `n`. -/
def outsAt1 (c : Dev nD) : (n : ℕ) → n < cfg1.N → Vec F S32x128 .f32 × Vec F S32x128 .f32 × Vec F S32x128 .f32 × Vec F S1x128 .f32 × Vec F S1x128 .f32 × Vec F S32x1 .f32 × Vec F S32x1 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), out1_A_14 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h1 : (n + 1) % 5 = 4 then
      (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_C_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_C_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_C_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_C_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2)
    else
      (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_B_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2)

theorem outsAt1_A (c : Dev nD) (t : Fin cfg1.N) (h0 : t.val % 5 = 0) (h1 : ¬t.val % 5 = 4) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact absurd h0 (not_first1 n hn)

theorem outsAt1_B (c : Dev nD) (t : Fin cfg1.N) (h0 : ¬t.val % 5 = 0) (h1 : ¬t.val % 5 = 4) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 5 = 0) (h1 : t.val % 5 = 4) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_C_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_C_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_C_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_pos h1).trans rfl

/-- The invariant before tile `n`: before the first tile every scoped buffer at anything; afterwards
    the two scratch buffers at what the tile before left, the other scoped buffers unopened, the generator
    register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.2.2.1) ∗ owns (c : Thread nD τ) scM1_1 fullShare ((outsAt1 V c n hn).2.2.2.2.2.2)) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.2.2.1) ∗ owns (c : Thread nD τ) scM1_1 fullShare ((outsAt1 V c n hn).2.2.2.2.2.2)) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.2.2.1) ∗ owns (c : Thread nD τ) scM1_1 fullShare ((outsAt1 V c (n - 1) (by omega)).2.2.2.2.2.2)) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
    | ⟨12, _⟩ => (outsAt1 V c t.val t.isLt).2.2.1
    | ⟨13, _⟩ => (outsAt1 V c t.val t.isLt).2.2.2.1
    | ⟨14, _⟩ => (outsAt1 V c t.val t.isLt).2.2.2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]
theorem after1_12 (c : Dev nD) (t : Fin cfg1.N) : (dat1 V c).after 12 t = (outsAt1 V c t.val t.isLt).2.2.1 := by dsimp only [dat1]
theorem after1_13 (c : Dev nD) (t : Fin cfg1.N) : (dat1 V c).after 13 t = (outsAt1 V c t.val t.isLt).2.2.2.1 := by dsimp only [dat1]
theorem after1_14 (c : Dev nD) (t : Fin cfg1.N) : (dat1 V c).after 14 t = (outsAt1 V c t.val t.isLt).2.2.2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- After the first tile the numerator's buffer still holds what the tile before left: it was not
    written back in between. -/
theorem before1_10_pos (c : Dev nD) (t : Fin cfg1.N) (h0 : ¬t.val % 5 = 0) (d) :
    (dat1 V c).before 10 t d = (outsAt1 V c (t.val - 1) (Nat.lt_of_le_of_lt (Nat.sub_le _ _) t.isLt)).1 := by
  have hN : t.val < 5 := lt_of_lt_of_eq t.isLt (show cfg1.N = 5 from N_1)
  rw [Dat.before_out_kept _ 10 rfl t (by omega) (Bool.eq_false_iff.mpr fun h => by have := (flush1_10 _).mp h; dsimp only at this; omega)
    (fun _ => rfl) (fun _ _ => rfl)]
  dsimp only [dat1]

/-! ## The body obligation, at a generic tile -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  have hN : t.val < 5 := lt_of_lt_of_eq t.isLt (show cfg1.N = 5 from N_1)
  by_cases h0 : t.val % 5 = 0
  · have h1 : ¬t.val % 5 = 4 := by omega
    rw [Dat.leavesExact_idle (dat1 V c) 11 t (idleAt1_11 t (fun h => h1 ((hcond1_1 t).mp h))) (noFlush1_11 t (fun h => h1 ((hcond1_1 t).mp h)))]
    rw [Dat.leavesExact_idle (dat1 V c) 12 t (idleAt1_12 t (fun h => h1 ((hcond1_1 t).mp h))) (noFlush1_12 t (fun h => h1 ((hcond1_1 t).mp h)))]
    rw [Dat.leavesExact_idle (dat1 V c) 13 t (idleAt1_13 t (fun h => h1 ((hcond1_1 t).mp h))) (noFlush1_13 t (fun h => h1 ((hcond1_1 t).mp h)))]
    rw [Dat.leavesExact_idle (dat1 V c) 14 t (idleAt1_14 t (fun h => h1 ((hcond1_1 t).mp h))) (noFlush1_14 t (fun h => h1 ((hcond1_1 t).mp h)))]
    rw [outsAt1_A V c t h0 h1]
    unfold out1_A_10 sout1_A_0 sout1_A_1; (try dsimp only)
    rw [PhiS1_castSucc V c t, PhiS1_zero V c _ _ (by omega), PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun1_A c (grid1.coords t) _ _ _ _ _ _ _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2.2.2.2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, ⟨%e10, H10⟩, H11, H12, H13, H14, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover1_A_10 c _ _ _ _ _ _ _ _ _ _ _ _ _ _ _ _ _ _ _ _ _ _ _ _ _ _ _ _ _ _ _ _ _ _ _ _ _ _ _ _ _ _ _ _ _ _ _)
    isplitl [H11]; · iexists _; iexact H11
    isplitl [H12]; · iexists _; iexact H12
    isplitl [H13]; · iexists _; iexact H13
    iexists _; iexact H14
  · have hz : t.val ≠ 0 := by omega
    simp only [before1_10_pos V c t h0]
    rw [PhiS1_castSucc V c t, PhiS1_pos V c _ _ hz]
    by_cases h1 : t.val % 5 = 4
    · rw [show (dat1 V c).leavesExact 11 t = owns (c : Thread nD τ) (ms1_11 t) fullShare ((dat1 V c).after 11 t) from by
          unfold Dat.leavesExact; rw [liveAt1_11_C t ((hcond1_1 t).mpr h1)], after1_11]
      rw [show (dat1 V c).leavesExact 12 t = owns (c : Thread nD τ) (ms1_12 t) fullShare ((dat1 V c).after 12 t) from by
          unfold Dat.leavesExact; rw [liveAt1_12_C t ((hcond1_1 t).mpr h1)], after1_12]
      rw [show (dat1 V c).leavesExact 13 t = owns (c : Thread nD τ) (ms1_13 t) fullShare ((dat1 V c).after 13 t) from by
          unfold Dat.leavesExact; rw [liveAt1_13_C t ((hcond1_1 t).mpr h1)], after1_13]
      rw [show (dat1 V c).leavesExact 14 t = owns (c : Thread nD τ) (ms1_14 t) fullShare ((dat1 V c).after 14 t) from by
          unfold Dat.leavesExact; rw [liveAt1_14_C t ((hcond1_1 t).mpr h1)], after1_14]
      rw [outsAt1_C V c t h0 h1]
      unfold out1_C_10 out1_C_11 out1_C_12 out1_C_13 out1_C_14 sout1_C_0 sout1_C_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_C c (grid1.coords t) _ _ _ _ _ _ _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, ⟨%e10, H10⟩, ⟨%e11, H11⟩, ⟨%e12, H12⟩, ⟨%e13, H13⟩, ⟨%e14, H14⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_C_11 c _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_C_12 c _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover1_C_13 c _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover1_C_14 c _ _ _ _ _ _ _ _ _ _ _ _ _ _ _ _ _ _ _ _ _ _ _ _ _ _ _ _ _ _ _ _ _ _ _ _ _ _ _ _ _ _ _ _ _ _ _ _ _ _)
    · rw [Dat.leavesExact_idle (dat1 V c) 11 t (idleAt1_11 t (fun h => h1 ((hcond1_1 t).mp h))) (noFlush1_11 t (fun h => h1 ((hcond1_1 t).mp h)))]
      rw [Dat.leavesExact_idle (dat1 V c) 12 t (idleAt1_12 t (fun h => h1 ((hcond1_1 t).mp h))) (noFlush1_12 t (fun h => h1 ((hcond1_1 t).mp h)))]
      rw [Dat.leavesExact_idle (dat1 V c) 13 t (idleAt1_13 t (fun h => h1 ((hcond1_1 t).mp h))) (noFlush1_13 t (fun h => h1 ((hcond1_1 t).mp h)))]
      rw [Dat.leavesExact_idle (dat1 V c) 14 t (idleAt1_14 t (fun h => h1 ((hcond1_1 t).mp h))) (noFlush1_14 t (fun h => h1 ((hcond1_1 t).mp h)))]
      rw [outsAt1_B V c t h0 h1]
      unfold out1_B_10 sout1_B_0 sout1_B_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_B c (grid1.coords t) _ _ _ _ _ _ _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _).2.2.2.2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      iintro ⟨H0, H1, H2, H3, H4, H5, H6, H7, H8, H9, ⟨%e10, H10⟩, H11, H12, H13, H14, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover1_B_10 c _ _ _ _ _ _ _ _ _ _ _ _ _ _ _ _ _ _ _ _ _ _ _ _ _ _ _ _ _ _ _ _ _ _ _ _ _ _ _ _ _ _ _ _ _ _ _ _ _ _)
      isplitl [H11]; · iexists _; iexact H11
      isplitl [H12]; · iexists _; iexact H12
      isplitl [H13]; · iexists _; iexact H13
      iexists _; iexact H14

/-- The library's body obligation for the second launch, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile; after the last tile the
    invariant gives it back, the scratch buffers' contents forgotten. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 5 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.Kernel.Hand

end
-- ==== Proof.KB.Reg2.lean ====
/-
  The third pass on one block of 10000 rows: from the rows `x`, the sector matrix `s2`, the two
  folded layer matrices `M_so`, `M_og`, the two folded bias rows `v_so`, `v_g` and `W_out`, the
  body stores two row blocks,
      skip_out = leaky (softmax_rows (x · s2ᵀ) · M_so + v_so)
      to_gnn   = leaky (x · W_outᵀ + softmax_rows (x · s2ᵀ) · M_og + v_g),
  each by one store covering the whole block. Every grid point does the same thing (one control
  case), nothing is carried from one point to the next, and the body keeps no scratch, so what a
  point leaves in each output block is a function of that point's input blocks alone
  (`out2_7`, `out2_8`). Stated at any entry contents `V` of the unscoped buffers and at any
  float instance.
-/
import proofs.«167790_g44066364457491_cont_8to1_c_744_34_alg».proof.Proof.Gen.Kernel.Launch
import proofs.«167790_g44066364457491_cont_8to1_c_744_34_alg».proof.Proof.Gen.Kernel.Skeleton
import proofs.«167790_g44066364457491_cont_8to1_c_744_34_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether it was fetched there
    or (for the six small operands, fetched once) is still the block of the first point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is the whole of its buffer -/

abbrev rRows : Rect S10000x128 := Rect.unit (s := S10000x128) ![0, 0] S10000x128.size inb_S10000x128_S10000x128_0_0
abbrev rSec : Rect S32x128 := Rect.unit (s := S32x128) ![0, 0] S32x128.size inb_S32x128_S32x128_0_0
abbrev rBias : Rect S1x128 := Rect.unit (s := S1x128) ![0, 0] S1x128.size inb_S1x128_S1x128_0_0
abbrev rW : Rect S128x128 := Rect.unit (s := S128x128) ![0, 0] S128x128.size inb_S128x128_S128x128_0_0

/-! ## What the body leaves in the two output blocks -/

/-- The `skip_out` block: one store of `leaky (w · M_so + v_so)`, `w` the row softmax of `x · s2ᵀ`. -/
def out2_7 (x0 : Vec F S10000x128 .f32) (x1 x2 : Vec F S32x128 .f32) (x4 : Vec F S1x128 .f32) : Vec F S10000x128 .f32 :=
  View.canon [⟨rRows, k2_pay3 (View.ld x0 rRows) (View.ld x1 rSec) (View.ld x2 rSec) (View.ld x4 rBias)⟩]

/-- The `to_gnn` block: one store of `leaky (x · W_outᵀ + w · M_og + v_g)`. -/
def out2_8 (x0 : Vec F S10000x128 .f32) (x1 x3 : Vec F S32x128 .f32) (x5 : Vec F S1x128 .f32) (x6 : Vec F S128x128 .f32) : Vec F S10000x128 .f32 :=
  View.canon [⟨rRows, k2_pay1 (k2_pay4 (View.ld x0 rRows) (View.ld x1 rSec) (View.ld x6 rW) (View.ld x3 rSec)) (k2_pay5 (View.ld x5 rBias))⟩]

/-- One store over the whole block covers it. -/
theorem cover2 (p0 : Vec F S10000x128 .f32) (y : S10000x128.Idx) :
    ∃ pc ∈ ([⟨rRows, p0⟩] : List (View.Piece (Elt F) S10000x128 .f32)), y ∈ pc.1.set :=
  View.cover_of_tiled [⟨rRows, p0⟩] S10000x128.size (by rfl) y

/-! ## The body's triple -/

set_option maxHeartbeats 4000000 in
/-- From the seven input buffers at known contents and the two output buffers at anything, the body
    runs to its return with the inputs as they were and the outputs at `out2_7`, `out2_8`. -/
theorem sound_kernel2 (c : Dev nD) (E : Set ℕ) (i : grid2.Coords) (arg1 : Memref sig .tc .vmem S10000x128 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole)
    (x0 : Vec F S10000x128 .f32) (x1 : Vec F S32x128 .f32) (x2 : Vec F S32x128 .f32) (x3 : Vec F S32x128 .f32) (x4 : Vec F S1x128 .f32) (x5 : Vec F S1x128 .f32) (x6 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x4) ∗ owns (c : Thread nD τ) arg9 fullShare (out2_8 x0 x1 x3 x5 x6)) -∗ K ⟨⟩))
      ⊢ wp frame (wpE (defs₀ (F := F)) Variants.none c none) E (cc2__pass3_kernel i arg1 harg1 arg2 harg2 arg3 harg3 arg4 harg4 arg5 harg5 arg6 harg6 arg7 harg7 arg8 harg8 arg9 harg9) K := by
  simp only [cc2__pass3_kernel_eq_skeleton]; unfold cc2__pass3_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover2 _)
  iexists _; isplitr
  swap; · iexact H8
  ipureintro
  try dsimp only
  exact View.read_writes_eq_canon _ _ _ (cover2 _)

/-! ## The proof data -/

/-- After the body at point `t` each input buffer holds its block and each output buffer the
    function above of the point's input blocks; the invariant is the scoped rest, untouched; nothing
    is owed; every array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 4 t)
    | ⟨8, _⟩ => out2_8 (iblk2 V c 0 t) (iblk2 V c 1 t) (iblk2 V c 3 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 4 t) := by dsimp only [dat2]
theorem after2_8 (c : Dev nD) (t : Fin cfg2.N) : (dat2 V c).after 8 t = out2_8 (iblk2 V c 0 t) (iblk2 V c 1 t) (iblk2 V c 3 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the input buffers hold their blocks, so the triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for the third launch, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/-
  The three launches in sequence, the four reshapes of the bias vectors between the first and the
  second.

  The contents of the unscoped buffers at each boundary are named in turn: as launched; after the
  first launch (the `sector` array at what its five tiles leave); after the reshapes; after the
  second launch (`sector2` and the four folded layer arrays at what its five tiles leave); after
  the third (the two result arrays at what its ten blocks leave). Each launch is entered from
  "every unscoped buffer at the contents so far, the generator register at some state, nothing
  owed" and left at the next such state; the first one splits the adjacency's array by quarters
  among its four windows and joins it back. From these the whole program runs to the end, and in
  every final state every unscoped buffer holds the last contents: in particular the ten arguments
  hold what they were launched with.
-/
import proofs.«167790_g44066364457491_cont_8to1_c_744_34_alg».proof.Proof.KB.RunCond
import proofs.«167790_g44066364457491_cont_8to1_c_744_34_alg».proof.Proof.KB.Shared0
import proofs.«167790_g44066364457491_cont_8to1_c_744_34_alg».proof.Proof.KB.Reg1
import proofs.«167790_g44066364457491_cont_8to1_c_744_34_alg».proof.Proof.KB.Reg2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- As launched, read at the TensorCore's references. -/
abbrev Vin0 : (c : Dev nD) → (b : Ref sig .tc) → Buf (Elt F) ((c : Thread nD τ).loc b) := fun c b => V0 m c b
/-- What the first launch leaves in `sector`'s array. -/
def X0 (c : Dev nD) : Buf (Elt F) ((c : Thread nD τ).loc main_call0_v0) := (dat0 (Vin0 m) c).arrAt 5 cfg0.N
def U1 (c : Dev nD) : Valuation τ sig (Elt F) := Function.update (V0 m c) main_call0_v0 (X0 m c)
/-- After the four reshapes. -/
def U2 (c : Dev nD) : Valuation τ sig (Elt F) := StableHlo.after hostOps1 (U1 m c)
abbrev Vin1 : (c : Dev nD) → (b : Ref sig .tc) → Buf (Elt F) ((c : Thread nD τ).loc b) := fun c b => U2 m c b
/-- What the second launch leaves in its five result arrays. -/
def X1_0 (c : Dev nD) : Buf (Elt F) ((c : Thread nD τ).loc main_call0_v5_0) := (dat1 (Vin1 m) c).arrAt 10 cfg1.N
def X1_1 (c : Dev nD) : Buf (Elt F) ((c : Thread nD τ).loc main_call0_v5_1) := (dat1 (Vin1 m) c).arrAt 11 cfg1.N
def X1_2 (c : Dev nD) : Buf (Elt F) ((c : Thread nD τ).loc main_call0_v5_2) := (dat1 (Vin1 m) c).arrAt 12 cfg1.N
def X1_3 (c : Dev nD) : Buf (Elt F) ((c : Thread nD τ).loc main_call0_v5_3) := (dat1 (Vin1 m) c).arrAt 13 cfg1.N
def X1_4 (c : Dev nD) : Buf (Elt F) ((c : Thread nD τ).loc main_call0_v5_4) := (dat1 (Vin1 m) c).arrAt 14 cfg1.N
def U3 (c : Dev nD) : Valuation τ sig (Elt F) := Function.update (Function.update (Function.update (Function.update (Function.update (U2 m c) main_call0_v5_0 (X1_0 m c)) main_call0_v5_1 (X1_1 m c)) main_call0_v5_2 (X1_2 m c)) main_call0_v5_3 (X1_3 m c)) main_call0_v5_4 (X1_4 m c)
abbrev Vin2 : (c : Dev nD) → (b : Ref sig .tc) → Buf (Elt F) ((c : Thread nD τ).loc b) := fun c b => U3 m c b
/-- What the third launch leaves in the two result arrays. -/
def X2_7 (c : Dev nD) : Buf (Elt F) ((c : Thread nD τ).loc main_v0_0) := (dat2 (Vin2 m) c).arrAt 7 cfg2.N
def X2_8 (c : Dev nD) : Buf (Elt F) ((c : Thread nD τ).loc main_v0_1) := (dat2 (Vin2 m) c).arrAt 8 cfg2.N
def U4 (c : Dev nD) : Valuation τ sig (Elt F) := Function.update (Function.update (U3 m c) main_v0_0 (X2_7 m c)) main_v0_1 (X2_8 m c)
abbrev Vout2 : (c : Dev nD) → (b : Ref sig .tc) → Buf (Elt F) ((c : Thread nD τ).loc b) := fun c b => U4 m c b
abbrev Vout1 : (c : Dev nD) → (b : Ref sig .tc) → Buf (Elt F) ((c : Thread nD τ).loc b) := fun c b => U3 m c b
abbrev Vout0 : (c : Dev nD) → (b : Ref sig .tc) → Buf (Elt F) ((c : Thread nD τ).loc b) := fun c b => U1 m c b

/-- What each launch leaves in each array it may change, gathered as one family. -/
def outs : Outs (F := F) := fun _ r c =>
  if h : r = main_call0_v0 then h ▸ X0 m c
  else if h : r = main_call0_v5_0 then h ▸ X1_0 m c
  else if h : r = main_call0_v5_1 then h ▸ X1_1 m c
  else if h : r = main_call0_v5_2 then h ▸ X1_2 m c
  else if h : r = main_call0_v5_3 then h ▸ X1_3 m c
  else if h : r = main_call0_v5_4 then h ▸ X1_4 m c
  else if h : r = main_v0_0 then h ▸ X2_7 m c
  else if h : r = main_v0_1 then h ▸ X2_8 m c
  else m ((c : Thread nD τ).loc r)

theorem outs_v0 (J : ℕ) (c : Dev nD) : outs m J main_call0_v0 c = X0 m c := by unfold outs; rw [dif_pos rfl]
theorem outs_v5_0 (J : ℕ) (c : Dev nD) : outs m J main_call0_v5_0 c = X1_0 m c := by unfold outs; rw [dif_neg (show (main_call0_v5_0 : Ref sig .tc) ≠ main_call0_v0 by decide), dif_pos rfl]
theorem outs_v5_1 (J : ℕ) (c : Dev nD) : outs m J main_call0_v5_1 c = X1_1 m c := by unfold outs; rw [dif_neg (show (main_call0_v5_1 : Ref sig .tc) ≠ main_call0_v0 by decide), dif_neg (show (main_call0_v5_1 : Ref sig .tc) ≠ main_call0_v5_0 by decide), dif_pos rfl]
theorem outs_v5_2 (J : ℕ) (c : Dev nD) : outs m J main_call0_v5_2 c = X1_2 m c := by unfold outs; rw [dif_neg (show (main_call0_v5_2 : Ref sig .tc) ≠ main_call0_v0 by decide), dif_neg (show (main_call0_v5_2 : Ref sig .tc) ≠ main_call0_v5_0 by decide), dif_neg (show (main_call0_v5_2 : Ref sig .tc) ≠ main_call0_v5_1 by decide), dif_pos rfl]
theorem outs_v5_3 (J : ℕ) (c : Dev nD) : outs m J main_call0_v5_3 c = X1_3 m c := by unfold outs; rw [dif_neg (show (main_call0_v5_3 : Ref sig .tc) ≠ main_call0_v0 by decide), dif_neg (show (main_call0_v5_3 : Ref sig .tc) ≠ main_call0_v5_0 by decide), dif_neg (show (main_call0_v5_3 : Ref sig .tc) ≠ main_call0_v5_1 by decide), dif_neg (show (main_call0_v5_3 : Ref sig .tc) ≠ main_call0_v5_2 by decide), dif_pos rfl]
theorem outs_v5_4 (J : ℕ) (c : Dev nD) : outs m J main_call0_v5_4 c = X1_4 m c := by unfold outs; rw [dif_neg (show (main_call0_v5_4 : Ref sig .tc) ≠ main_call0_v0 by decide), dif_neg (show (main_call0_v5_4 : Ref sig .tc) ≠ main_call0_v5_0 by decide), dif_neg (show (main_call0_v5_4 : Ref sig .tc) ≠ main_call0_v5_1 by decide), dif_neg (show (main_call0_v5_4 : Ref sig .tc) ≠ main_call0_v5_2 by decide), dif_neg (show (main_call0_v5_4 : Ref sig .tc) ≠ main_call0_v5_3 by decide), dif_pos rfl]
theorem outs_r0 (J : ℕ) (c : Dev nD) : outs m J main_v0_0 c = X2_7 m c := by unfold outs; rw [dif_neg (show (main_v0_0 : Ref sig .tc) ≠ main_call0_v0 by decide), dif_neg (show (main_v0_0 : Ref sig .tc) ≠ main_call0_v5_0 by decide), dif_neg (show (main_v0_0 : Ref sig .tc) ≠ main_call0_v5_1 by decide), dif_neg (show (main_v0_0 : Ref sig .tc) ≠ main_call0_v5_2 by decide), dif_neg (show (main_v0_0 : Ref sig .tc) ≠ main_call0_v5_3 by decide), dif_neg (show (main_v0_0 : Ref sig .tc) ≠ main_call0_v5_4 by decide), dif_pos rfl]
theorem outs_r1 (J : ℕ) (c : Dev nD) : outs m J main_v0_1 c = X2_8 m c := by unfold outs; rw [dif_neg (show (main_v0_1 : Ref sig .tc) ≠ main_call0_v0 by decide), dif_neg (show (main_v0_1 : Ref sig .tc) ≠ main_call0_v5_0 by decide), dif_neg (show (main_v0_1 : Ref sig .tc) ≠ main_call0_v5_1 by decide), dif_neg (show (main_v0_1 : Ref sig .tc) ≠ main_call0_v5_2 by decide), dif_neg (show (main_v0_1 : Ref sig .tc) ≠ main_call0_v5_3 by decide), dif_neg (show (main_v0_1 : Ref sig .tc) ≠ main_call0_v5_4 by decide), dif_neg (show (main_v0_1 : Ref sig .tc) ≠ main_v0_0 by decide), dif_pos rfl]

/-- The boundary contents of the three launches at this family are the ones named above. -/
theorem V1_eq (c : Dev nD) : V1 m (outs m) c = U1 m c := by unfold U1; simp only [V1, outs_v0]
theorem V2_eq (c : Dev nD) : V2 m (outs m) c = U2 m c := by unfold U2; simp only [V2]; rw [V1_eq]
theorem V3_eq (c : Dev nD) : V3 m (outs m) c = U3 m c := by unfold U3; simp only [V3, outs_v5_0, outs_v5_1, outs_v5_2, outs_v5_3, outs_v5_4]; rw [V2_eq]
theorem V4_eq (c : Dev nD) : V4 m (outs m) c = U4 m c := by unfold U4; simp only [V4, outs_r0, outs_r1]; rw [V3_eq]

theorem U1_v0 (c : Dev nD) : U1 m c main_call0_v0 = X0 m c := by unfold U1; rw [Function.update_self]
theorem U3_v5_0 (c : Dev nD) : U3 m c main_call0_v5_0 = X1_0 m c := by
  unfold U3; rw [Function.update_of_ne (StableHlo.devRef_ne_of_ne (show (main_call0_v5_0 : Ref sig .tc) ≠ main_call0_v5_4 by decide)), Function.update_of_ne (StableHlo.devRef_ne_of_ne (show (main_call0_v5_0 : Ref sig .tc) ≠ main_call0_v5_3 by decide)), Function.update_of_ne (StableHlo.devRef_ne_of_ne (show (main_call0_v5_0 : Ref sig .tc) ≠ main_call0_v5_2 by decide)), Function.update_of_ne (StableHlo.devRef_ne_of_ne (show (main_call0_v5_0 : Ref sig .tc) ≠ main_call0_v5_1 by decide)), Function.update_self]
theorem U3_v5_1 (c : Dev nD) : U3 m c main_call0_v5_1 = X1_1 m c := by
  unfold U3; rw [Function.update_of_ne (StableHlo.devRef_ne_of_ne (show (main_call0_v5_1 : Ref sig .tc) ≠ main_call0_v5_4 by decide)), Function.update_of_ne (StableHlo.devRef_ne_of_ne (show (main_call0_v5_1 : Ref sig .tc) ≠ main_call0_v5_3 by decide)), Function.update_of_ne (StableHlo.devRef_ne_of_ne (show (main_call0_v5_1 : Ref sig .tc) ≠ main_call0_v5_2 by decide)), Function.update_self]
theorem U3_v5_2 (c : Dev nD) : U3 m c main_call0_v5_2 = X1_2 m c := by
  unfold U3; rw [Function.update_of_ne (StableHlo.devRef_ne_of_ne (show (main_call0_v5_2 : Ref sig .tc) ≠ main_call0_v5_4 by decide)), Function.update_of_ne (StableHlo.devRef_ne_of_ne (show (main_call0_v5_2 : Ref sig .tc) ≠ main_call0_v5_3 by decide)), Function.update_self]
theorem U3_v5_3 (c : Dev nD) : U3 m c main_call0_v5_3 = X1_3 m c := by
  unfold U3; rw [Function.update_of_ne (StableHlo.devRef_ne_of_ne (show (main_call0_v5_3 : Ref sig .tc) ≠ main_call0_v5_4 by decide)), Function.update_self]
theorem U3_v5_4 (c : Dev nD) : U3 m c main_call0_v5_4 = X1_4 m c := by
  unfold U3; rw [Function.update_self]
theorem U4_r0 (c : Dev nD) : U4 m c main_v0_0 = X2_7 m c := by unfold U4; rw [Function.update_of_ne (StableHlo.devRef_ne_of_ne (show (main_v0_0 : Ref sig .tc) ≠ main_v0_1 by decide)), Function.update_self]
theorem U4_r1 (c : Dev nD) : U4 m c main_v0_1 = X2_8 m c := by unfold U4; rw [Function.update_self]

/-! ## The proof data family and what rides beside the buffers -/

abbrev 𝒱₀ : Variants := Variants.none
abbrev L : GSem nD τ sig → Finset Unit := fun _ => ∅
abbrev lv : GSem nD τ sig → Unit → ℕ := fun _ _ => 0

/-- Every launch's proof data, each at its own entry contents. -/
def pdats : (p : Fin 3) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c

/-- Beside the buffers: the generator register at some state, and nothing owed. -/
abbrev R (c : Dev nD) : sProp 𝕄 := iprop((∃ r, prngReg c r) ∗ ∃ W, owes (c : Thread nD τ) (0 : CellTallies nD τ sig Unit) W)

/-! ## What each launch's arrays hold at its exit, against the next boundary's contents -/

theorem hF0 (c : Dev nD) (w : Fin cfg0.W) : (dat0 (Vin0 m) c).arrAt w cfg0.N = Vout0 m c (Pipeline.arrRef spec0 w) := by
  match w with
  | ⟨5, _⟩ => exact (U1_v0 m c).symm
  | ⟨0, _⟩ => exact ((dat0 (Vin0 m) c).arrAt_in 0 rfl _).trans ((A_eq0 (Vin0 m) c 0).trans (Function.update_of_ne (StableHlo.devRef_ne_of_ne (show (main_arg0 : Ref sig .tc) ≠ main_call0_v0 by decide)) ..).symm)
  | ⟨1, _⟩ => exact ((dat0 (Vin0 m) c).arrAt_in 1 rfl _).trans ((A_eq0 (Vin0 m) c 1).trans (Function.update_of_ne (StableHlo.devRef_ne_of_ne (show (main_arg1 : Ref sig .tc) ≠ main_call0_v0 by decide)) ..).symm)
  | ⟨2, _⟩ => exact ((dat0 (Vin0 m) c).arrAt_in 2 rfl _).trans ((A_eq0 (Vin0 m) c 2).trans (Function.update_of_ne (StableHlo.devRef_ne_of_ne (show (main_arg1 : Ref sig .tc) ≠ main_call0_v0 by decide)) ..).symm)
  | ⟨3, _⟩ => exact ((dat0 (Vin0 m) c).arrAt_in 3 rfl _).trans ((A_eq0 (Vin0 m) c 3).trans (Function.update_of_ne (StableHlo.devRef_ne_of_ne (show (main_arg1 : Ref sig .tc) ≠ main_call0_v0 by decide)) ..).symm)
  | ⟨4, _⟩ => exact ((dat0 (Vin0 m) c).arrAt_in 4 rfl _).trans ((A_eq0 (Vin0 m) c 4).trans (Function.update_of_ne (StableHlo.devRef_ne_of_ne (show (main_arg1 : Ref sig .tc) ≠ main_call0_v0 by decide)) ..).symm)

theorem hrest0 (c : Dev nD) : ∀ b, b ∉ Finset.univ.image (Pipeline.arrRef spec0) → Vout0 m c b = Vin0 m c b := fun b hb =>
  Function.update_of_ne (StableHlo.devRef_ne_of_ne fun e => hb (Finset.mem_image.mpr ⟨5, Finset.mem_univ _, e.symm⟩)) _ _

/-- Off the five result arrays the second launch changes nothing. -/
theorem U3_of (c : Dev nD) (b : Ref sig .tc) (h : b ∉ ([main_call0_v5_0, main_call0_v5_1, main_call0_v5_2, main_call0_v5_3, main_call0_v5_4] : List (Ref sig .tc))) :
    U3 m c b = U2 m c b :=
  (congrFun (V3_eq m c) b).symm.trans ((V3_of m (outs m) c b h).trans (congrFun (V2_eq m c) b))

/-- Off the two result arrays the third launch changes nothing. -/
theorem U4_of (c : Dev nD) (b : Ref sig .tc) (h : b ∉ ([main_v0_0, main_v0_1] : List (Ref sig .tc))) : U4 m c b = U3 m c b :=
  (congrFun (V4_eq m c) b).symm.trans ((V4_of m (outs m) c b h).trans (congrFun (V3_eq m c) b))

theorem hF1 (c : Dev nD) (w : Fin cfg1.W) : (dat1 (Vin1 m) c).arrAt w cfg1.N = Vout1 m c (Pipeline.arrRef spec1 w) := by
  match w with
  | ⟨0, _⟩ => exact ((dat1 (Vin1 m) c).arrAt_in 0 rfl _).trans ((A_eq1 (Vin1 m) c 0).trans (U3_of m c _ (by decide)).symm)
  | ⟨1, _⟩ => exact ((dat1 (Vin1 m) c).arrAt_in 1 rfl _).trans ((A_eq1 (Vin1 m) c 1).trans (U3_of m c _ (by decide)).symm)
  | ⟨2, _⟩ => exact ((dat1 (Vin1 m) c).arrAt_in 2 rfl _).trans ((A_eq1 (Vin1 m) c 2).trans (U3_of m c _ (by decide)).symm)
  | ⟨3, _⟩ => exact ((dat1 (Vin1 m) c).arrAt_in 3 rfl _).trans ((A_eq1 (Vin1 m) c 3).trans (U3_of m c _ (by decide)).symm)
  | ⟨4, _⟩ => exact ((dat1 (Vin1 m) c).arrAt_in 4 rfl _).trans ((A_eq1 (Vin1 m) c 4).trans (U3_of m c _ (by decide)).symm)
  | ⟨5, _⟩ => exact ((dat1 (Vin1 m) c).arrAt_in 5 rfl _).trans ((A_eq1 (Vin1 m) c 5).trans (U3_of m c _ (by decide)).symm)
  | ⟨6, _⟩ => exact ((dat1 (Vin1 m) c).arrAt_in 6 rfl _).trans ((A_eq1 (Vin1 m) c 6).trans (U3_of m c _ (by decide)).symm)
  | ⟨7, _⟩ => exact ((dat1 (Vin1 m) c).arrAt_in 7 rfl _).trans ((A_eq1 (Vin1 m) c 7).trans (U3_of m c _ (by decide)).symm)
  | ⟨8, _⟩ => exact ((dat1 (Vin1 m) c).arrAt_in 8 rfl _).trans ((A_eq1 (Vin1 m) c 8).trans (U3_of m c _ (by decide)).symm)
  | ⟨9, _⟩ => exact ((dat1 (Vin1 m) c).arrAt_in 9 rfl _).trans ((A_eq1 (Vin1 m) c 9).trans (U3_of m c _ (by decide)).symm)
  | ⟨10, _⟩ => exact (U3_v5_0 m c).symm
  | ⟨11, _⟩ => exact (U3_v5_1 m c).symm
  | ⟨12, _⟩ => exact (U3_v5_2 m c).symm
  | ⟨13, _⟩ => exact (U3_v5_3 m c).symm
  | ⟨14, _⟩ => exact (U3_v5_4 m c).symm

theorem hrest1 (c : Dev nD) : ∀ b, b ∉ Finset.univ.image (Pipeline.arrRef spec1) → Vout1 m c b = Vin1 m c b := fun b hb =>
  U3_of m c b (by
    simp only [List.mem_cons, List.mem_nil_iff, or_false, not_or]
    exact ⟨fun e => hb (Finset.mem_image.mpr ⟨10, Finset.mem_univ _, e.symm⟩), fun e => hb (Finset.mem_image.mpr ⟨11, Finset.mem_univ _, e.symm⟩),
      fun e => hb (Finset.mem_image.mpr ⟨12, Finset.mem_univ _, e.symm⟩), fun e => hb (Finset.mem_image.mpr ⟨13, Finset.mem_univ _, e.symm⟩),
      fun e => hb (Finset.mem_image.mpr ⟨14, Finset.mem_univ _, e.symm⟩)⟩)

theorem hF2 (c : Dev nD) (w : Fin cfg2.W) : (dat2 (Vin2 m) c).arrAt w cfg2.N = Vout2 m c (Pipeline.arrRef spec2 w) := by
  match w with
  | ⟨0, _⟩ => exact ((dat2 (Vin2 m) c).arrAt_in 0 rfl _).trans ((A_eq2 (Vin2 m) c 0).trans (U4_of m c _ (by decide)).symm)
  | ⟨1, _⟩ => exact ((dat2 (Vin2 m) c).arrAt_in 1 rfl _).trans ((A_eq2 (Vin2 m) c 1).trans (U4_of m c _ (by decide)).symm)
  | ⟨2, _⟩ => exact ((dat2 (Vin2 m) c).arrAt_in 2 rfl _).trans ((A_eq2 (Vin2 m) c 2).trans (U4_of m c _ (by decide)).symm)
  | ⟨3, _⟩ => exact ((dat2 (Vin2 m) c).arrAt_in 3 rfl _).trans ((A_eq2 (Vin2 m) c 3).trans (U4_of m c _ (by decide)).symm)
  | ⟨4, _⟩ => exact ((dat2 (Vin2 m) c).arrAt_in 4 rfl _).trans ((A_eq2 (Vin2 m) c 4).trans (U4_of m c _ (by decide)).symm)
  | ⟨5, _⟩ => exact ((dat2 (Vin2 m) c).arrAt_in 5 rfl _).trans ((A_eq2 (Vin2 m) c 5).trans (U4_of m c _ (by decide)).symm)
  | ⟨6, _⟩ => exact ((dat2 (Vin2 m) c).arrAt_in 6 rfl _).trans ((A_eq2 (Vin2 m) c 6).trans (U4_of m c _ (by decide)).symm)
  | ⟨7, _⟩ => exact (U4_r0 m c).symm
  | ⟨8, _⟩ => exact (U4_r1 m c).symm

theorem hrest2 (c : Dev nD) : ∀ b, b ∉ Finset.univ.image (Pipeline.arrRef spec2) → Vout2 m c b = Vin2 m c b := fun b hb =>
  U4_of m c b (by
    simp only [List.mem_cons, List.mem_nil_iff, or_false, not_or]
    exact ⟨fun e => hb (Finset.mem_image.mpr ⟨7, Finset.mem_univ _, e.symm⟩), fun e => hb (Finset.mem_image.mpr ⟨8, Finset.mem_univ _, e.symm⟩)⟩)

/-- The third launch keeps no scratch: its invariant is the untouched scoped buffers throughout. -/
theorem hin2 (V : (c : Dev nD) → (b : Ref sig .tc) → Buf (Elt F) ((c : Thread nD τ).loc b)) (c : Dev nD) : Pipeline.ΦA spec2 c ⊢ (dat2 V c).Φ 0 := by
  rw [show (dat2 V c).Φ 0 = Pipeline.ΦA spec2 c from rfl]
theorem hout2 (V : (c : Dev nD) → (b : Ref sig .tc) → Buf (Elt F) ((c : Thread nD τ).loc b)) (c : Dev nD) : (dat2 V c).Φ (Fin.last cfg2.N) ⊢ Pipeline.ΦA spec2 c := by
  rw [show (dat2 V c).Φ (Fin.last cfg2.N) = Pipeline.ΦA spec2 c from rfl]

/-! ## The launches as segments -/

set_option backward.isDefEq.respectTransparency.types false in
/-- The first launch: entered from the launch contents, left with `sector`'s array at what the five
    tiles leave. The adjacency's array goes in by quarters and comes back whole. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := arrays_of_unscopedBufs0 (Vin0 m) c
    rw [Pipeline.unscopedBufs_held, show dat0 (Vin0 m) c = pdats m 0 c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := unscopedBufs_of_arrays0 (Vin0 m) c (Vout0 m c) ((dat0 (Vin0 m) c).arrAt · cfg0.N) (hF0 m c) (hrest0 m c)
    rw [Pipeline.unscopedBufs_held, show dat0 (Vin0 m) c = pdats m 0 c from rfl] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered after the reshapes, left with its five result arrays at what the
    five tiles leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third launch: left with the two result arrays at what the ten blocks leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vin2 m) c)
    unfold Pipeline.ΦA
    iintro ⟨Hp, -, Hr⟩
    isplitl [Hr]; · iexact Hr
    iexact Hp
  hout c := by
    rw [Pipeline.ownSems0_none]
    refine BIBase.Entails.trans (hout2 (Vin2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (Vout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole program -/

set_option backward.isDefEq.respectTransparency.types false in
/-- Every weakly fair execution of the program from memory `m` with zero counters terminates, and in
    every final state every unscoped buffer holds the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U4 m c b) := by
  have h := run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V1_eq]; exact .rfl)
    (reg1 m) (fun c => by rw [V2_eq]; exact .rfl) (fun c => by rw [V3_eq]; exact .rfl)
    (reg2 m) (fun c => by rw [V3_eq]; exact .rfl) (fun c => by rw [V4_eq]; exact .rfl)
  exact (θ_run defs _ _).mono (fun r hr c b hb => (hr c b hb).trans (congrFun (V4_eq m c) b)) h

/-- The ten arguments end as launched: no launch and no reshape writes one. -/
theorem U4_arg (c : Dev nD) (b : Ref sig .tc) (h : b ∈ ([main_arg0, main_arg1, main_arg2, main_arg3, main_arg4, main_arg5, main_arg6, main_arg7, main_arg8, main_arg9] : List (Ref sig .tc))) :
    U4 m c b = m ((c : Thread nD τ).loc b) := by
  have e := congrFun (V4_eq m c) b
  simp only [List.mem_cons, List.mem_nil_iff, or_false] at h
  rcases h with rfl | rfl | rfl | rfl | rfl | rfl | rfl | rfl | rfl | rfl
  · exact e.symm.trans (V4_main_arg0 m (outs m) c)
  · exact e.symm.trans (V4_main_arg1 m (outs m) c)
  · exact e.symm.trans (V4_main_arg2 m (outs m) c)
  · exact e.symm.trans (V4_main_arg3 m (outs m) c)
  · exact e.symm.trans (V4_main_arg4 m (outs m) c)
  · exact e.symm.trans (V4_main_arg5 m (outs m) c)
  · exact e.symm.trans (V4_main_arg6 m (outs m) c)
  · exact e.symm.trans (V4_main_arg7 m (outs m) c)
  · exact e.symm.trans (V4_main_arg8 m (outs m) c)
  · exact e.symm.trans (V4_main_arg9 m (outs m) c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the program runs to the end, faults nowhere, and leaves its ten
    arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c (Proc.devRef .tc main_arg0) (mem_uc main_arg0 (by decide))).trans (U4_arg m c main_arg0 (by decide)),
    (h c (Proc.devRef .tc main_arg1) (mem_uc main_arg1 (by decide))).trans (U4_arg m c main_arg1 (by decide)),
    (h c (Proc.devRef .tc main_arg2) (mem_uc main_arg2 (by decide))).trans (U4_arg m c main_arg2 (by decide)),
    (h c (Proc.devRef .tc main_arg3) (mem_uc main_arg3 (by decide))).trans (U4_arg m c main_arg3 (by decide)),
    (h c (Proc.devRef .tc main_arg4) (mem_uc main_arg4 (by decide))).trans (U4_arg m c main_arg4 (by decide)),
    (h c (Proc.devRef .tc main_arg5) (mem_uc main_arg5 (by decide))).trans (U4_arg m c main_arg5 (by decide)),
    (h c (Proc.devRef .tc main_arg6) (mem_uc main_arg6 (by decide))).trans (U4_arg m c main_arg6 (by decide)),
    (h c (Proc.devRef .tc main_arg7) (mem_uc main_arg7 (by decide))).trans (U4_arg m c main_arg7 (by decide)),
    (h c (Proc.devRef .tc main_arg8) (mem_uc main_arg8 (by decide))).trans (U4_arg m c main_arg8 (by decide)),
    (h c (Proc.devRef .tc main_arg9) (mem_uc main_arg9 (by decide))).trans (U4_arg m c main_arg9 (by decide))⟩) (run_all m ρ)

/-- THE RUN WITH THE RESULTS NAMED: the two result arrays end at what the third launch's ten blocks
    leave, the arguments as launched. -/
theorem run_results (ρ : Dev nD → PrngReg) :
    θ_run defs (onTc (τ := τ) (main (F := F))) ⟨m, fun _ => 0, ρ⟩ (fun r => ∀ c : Dev nD,
      r.2.mem ((c.tc : Thread nD τ).loc main_v0_0) = X2_7 m c
      ∧ r.2.mem ((c.tc : Thread nD τ).loc main_v0_1) = X2_8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c (Proc.devRef .tc main_v0_0) (mem_uc main_v0_0 (by decide))).trans (U4_r0 m c),
    (h c (Proc.devRef .tc main_v0_1) (mem_uc main_v0_1 (by decide))).trans (U4_r1 m c),
    (h c (Proc.devRef .tc main_arg0) (mem_uc main_arg0 (by decide))).trans (U4_arg m c main_arg0 (by decide)),
    (h c (Proc.devRef .tc main_arg1) (mem_uc main_arg1 (by decide))).trans (U4_arg m c main_arg1 (by decide)),
    (h c (Proc.devRef .tc main_arg2) (mem_uc main_arg2 (by decide))).trans (U4_arg m c main_arg2 (by decide)),
    (h c (Proc.devRef .tc main_arg3) (mem_uc main_arg3 (by decide))).trans (U4_arg m c main_arg3 (by decide)),
    (h c (Proc.devRef .tc main_arg4) (mem_uc main_arg4 (by decide))).trans (U4_arg m c main_arg4 (by decide)),
    (h c (Proc.devRef .tc main_arg5) (mem_uc main_arg5 (by decide))).trans (U4_arg m c main_arg5 (by decide)),
    (h c (Proc.devRef .tc main_arg6) (mem_uc main_arg6 (by decide))).trans (U4_arg m c main_arg6 (by decide)),
    (h c (Proc.devRef .tc main_arg7) (mem_uc main_arg7 (by decide))).trans (U4_arg m c main_arg7 (by decide)),
    (h c (Proc.devRef .tc main_arg8) (mem_uc main_arg8 (by decide))).trans (U4_arg m c main_arg8 (by decide)),
    (h c (Proc.devRef .tc main_arg9) (mem_uc main_arg9 (by decide))).trans (U4_arg m c main_arg9 (by decide))⟩) (run_all m ρ)

end Cert.Kernel.Hand

end
-- ==== Proof.KI.RunCond.lean ====
/-
  The whole program from the three launches' records, with every unscoped buffer named at the end.

  Given, for each of the three launches, a record entered from the thread state "every unscoped
  buffer at the contents reached so far, beside a rest" and left at the next such state, every
  weakly fair execution of the program terminates, and in every final state EVERY unscoped buffer
  holds the last of those contents: the arguments (which no launch and no host operation writes)
  and the two results among them.
-/
import proofs.«167790_g44066364457491_cont_8to1_c_744_34_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V4 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          StableHlo.seq hostOps1,
          Prog.lift (.customCall (Pipeline.entry 1) ()),
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨hpre0 c, hpost0 c, hpre1 c, (hpost1 c).trans (hpre2 c), (hpost2 c).trans (sep_mono .rfl (hE3 c))⟩)
    (hinit := ?_) (QY := fun c s => ∀ b ∈ Pipeline.ucRefs τ sig, s.mem ((c : Thread nD τ).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.Reg0Runs.lean ====
/-
  The first pass on one tile of 20000 rows, case by case.

  The body adds the tile's contribution `eᵀ · x` (four quarter tiles of 5000 rows) to a [32,128]
  accumulator, which is its output block, and the tile's column sums `eᵀ · 1` to a [32,1] scratch.
  At the first tile both are first set to zero; at the last tile the accumulator is finally
  divided, row by row, by the column sums. So there are three cases — first tile, a middle tile,
  last tile — told apart by two tests of the tile number (`= 0`, `= 4`); in the second and third
  the body reads the accumulator and the scratch as the tile before left them.
-/
import proofs.«167790_g44066364457491_cont_8to1_c_744_34_alg».proof.Proof.Gen.KernelIdeal.Launch
import proofs.«167790_g44066364457491_cont_8to1_c_744_34_alg».proof.Proof.Gen.KernelIdeal.Skeleton
import proofs.«167790_g44066364457491_cont_8to1_c_744_34_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests, in closed form over the five tiles -/

/-- "This is the first tile." -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the last tile." -/
abbrev cond0_1 (i : grid0.Coords) : Prop := (Scalar.cmpi .ne (Scalar.extui (Scalar.cmpi .eq (BitVec.ofNat 32 (i 0).val) 4#32)) 0#32) = 1#1
theorem hcond0_1 : ∀ t : Fin cfg0.N, cond0_1 (grid0.coords t) ↔ t.val % 5 = 4 :=
  (by decide +kernel : ∀ t : Fin grid0.N, cond0_1 (grid0.coords t) ↔ t.val % 5 = 4)

/-- No window is idle at any tile: the inputs are read and the accumulator is stored at every tile. -/
theorem liveAt0 : ∀ (w : Fin cfg0.W) (t : Fin cfg0.N), cfg0.idle w (grid0.coords t) = false := by decide +kernel

/-! ## The buffers the body is called on -/

abbrev ms0_0 (t : Fin cfg0.N) : Memref sig .tc .vmem S20000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5000x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5000x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x128 .f32 := win0_5.stage (cfg0.slots t 5)
abbrev hs0_5 (t : Fin cfg0.N) : (ms0_5 t).IsWhole := hstage0_5 ((cfg0.slots t 5).cast nbuf0_5)
/-- The accumulator's one staging buffer, as a view through which its contents are stated. -/
abbrev VO0_5 : View sig .tc .vmem S32x128 .f32 := (Memref.whole cc0_stg5_0 : Memref sig .tc .vmem S32x128 .f32).view
/-- The column-sum scratch: a whole buffer of the call's own, and the same as a view. -/
abbrev scM0_0 : Memref sig .tc .vmem S32x1 .f32 := Memref.whole cc0_scratch0
abbrev VS0_0 : View sig .tc .vmem S32x1 .f32 := scM0_0.view

/-- The untouched-scoped-buffers invariant opened at the call's own scratch: the scratch at some
    contents, the other scoped buffers unopened, the generator register at some state. -/
theorem PhiA0_eq (c : Dev nD) :
    (Pipeline.ΦA spec0 c : sProp 𝕄)
      = iprop(iprop((∃ d, owns (c : Thread nD τ) scM0_0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body's run, case by case -/

set_option maxHeartbeats 4000000 in
/-- The stores of case A into the output block and into the column-sum scratch, as pieces (last
    first), with the run: from the five input buffers at their contents, the output block and the scratch at anything, the body runs to its return
    with the inputs as they were and those two buffers with their pieces written. -/
noncomputable def kernelRun0_A (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S20000x128 .f32) (x1 : Vec F S5000x32 .f32) (x2 : Vec F S5000x32 .f32) (x3 : Vec F S5000x32 .f32) (x4 : Vec F S5000x32 .f32) :
    Σ' (L5 : List (View.Piece (Elt F) S32x128 .f32)), { LS0 : List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__pass1_kernel i arg1 harg1 arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 4000000 in
/-- The stores of case B into the output block and into the column-sum scratch, as pieces (last
    first), with the run: from the five input buffers at their contents, the output block and the scratch at what the point before left, the body runs to its return
    with the inputs as they were and those two buffers with their pieces written. -/
noncomputable def kernelRun0_B (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) :
    Σ' (L5 : List (View.Piece (Elt F) S32x128 .f32)), { LS0 : List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__pass1_kernel i arg1 harg1 arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 4000000 in
/-- The stores of case C into the output block and into the column-sum scratch, as pieces (last
    first), with the run: from the five input buffers at their contents, the output block and the scratch at what the point before left, the body runs to its return
    with the inputs as they were and those two buffers with their pieces written. -/
noncomputable def kernelRun0_C (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) :
    Σ' (L5 : List (View.Piece (Elt F) S32x128 .f32)), { LS0 : List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__pass1_kernel i arg1 harg1 arg2 harg2 arg3 harg3 arg4 harg4 arg5 harg5 arg6 harg6 arg7 harg7) K } := by
  refine ⟨?_, ?_, fun E K => ?run⟩
  case run =>
    simp only [cc0__pass1_kernel_eq_skeleton]; unfold cc0__pass1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.KI.Reg0.lean ====
/-
  The first pass over the five tiles: what the accumulator and the column-sum scratch hold after
  each tile, the data the launch theorems ask for, and the body's obligation at every tile.

  After tile 0 the accumulator holds `0 + e₀ᵀ·x₀` and the scratch `0 + e₀ᵀ·1`; after tile `n + 1` they
  hold what tile `n` left plus tile `n + 1`'s contribution, and after the last tile the accumulator
  has moreover been divided by the scratch, row by row (`outsAt0`). The accumulator is the output
  window's one staging buffer: it is written back to its array at the last tile only, so between
  tiles it still holds what the tile before left. The adjacency is handed in through four windows
  on ONE array (quarter tiles of 5000 rows), so each of those windows holds a quarter share of it.
-/
import proofs.«167790_g44066364457491_cont_8to1_c_744_34_alg».proof.Proof.KI.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the two carried buffers -/

/-- Case A's stores into the accumulator cover it. -/
theorem cover0_A_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S20000x128 .f32) (x1 : Vec F S5000x32 .f32) (x2 : Vec F S5000x32 .f32) (x3 : Vec F S5000x32 .f32) (x4 : Vec F S5000x32 .f32) (y : S32x128.Idx) :
    ∃ pc ∈ (kernelRun0_A c i arg1 harg1 arg2 harg2 arg3 harg3 arg4 harg4 arg5 harg5 arg6 harg6 arg7 harg7 hc0 hc1 x0 x1 x2 x3 x4).1, y ∈ pc.1.set :=
  View.cover_of_tiledL (kernelRun0_A c i arg1 harg1 arg2 harg2 arg3 harg3 arg4 harg4 arg5 harg5 arg6 harg6 arg7 harg7 hc0 hc1 x0 x1 x2 x3 x4).1 S32x128.size (by sl_kernel_rfl) y

/-- What case A leaves in the accumulator. -/
def out0_A_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S20000x128 .f32) (x1 : Vec F S5000x32 .f32) (x2 : Vec F S5000x32 .f32) (x3 : Vec F S5000x32 .f32) (x4 : Vec F S5000x32 .f32) : Vec F S32x128 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- Case A's stores into the column-sum scratch cover it. -/
theorem scover0_A_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S20000x128 .f32) (x1 : Vec F S5000x32 .f32) (x2 : Vec F S5000x32 .f32) (x3 : Vec F S5000x32 .f32) (x4 : Vec F S5000x32 .f32) (y : S32x1.Idx) :
    ∃ pc ∈ (kernelRun0_A c i arg1 harg1 arg2 harg2 arg3 harg3 arg4 harg4 arg5 harg5 arg6 harg6 arg7 harg7 hc0 hc1 x0 x1 x2 x3 x4).2.1, y ∈ pc.1.set :=
  View.cover_of_tiledL (kernelRun0_A c i arg1 harg1 arg2 harg2 arg3 harg3 arg4 harg4 arg5 harg5 arg6 harg6 arg7 harg7 hc0 hc1 x0 x1 x2 x3 x4).2.1 S32x1.size (by sl_kernel_rfl) y

/-- What case A leaves in the column-sum scratch. -/
def sout0_A_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i)
    (x0 : Vec F S20000x128 .f32) (x1 : Vec F S5000x32 .f32) (x2 : Vec F S5000x32 .f32) (x3 : Vec F S5000x32 .f32) (x4 : Vec F S5000x32 .f32) : Vec F S32x1 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3 x4).2.1)

/-- Case B's stores into the accumulator cover it. -/
theorem cover0_B_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) (y : S32x128.Idx) :
    ∃ pc ∈ (kernelRun0_B c i arg1 harg1 arg2 harg2 arg3 harg3 arg4 harg4 arg5 harg5 arg6 harg6 arg7 harg7 hc0 hc1 x0 x1 x2 x3 x4 xo5 xs0).1, y ∈ pc.1.set :=
  View.cover_of_tiledL (kernelRun0_B c i arg1 harg1 arg2 harg2 arg3 harg3 arg4 harg4 arg5 harg5 arg6 harg6 arg7 harg7 hc0 hc1 x0 x1 x2 x3 x4 xo5 xs0).1 S32x128.size (by sl_kernel_rfl) y

/-- What case B leaves in the accumulator. -/
def out0_B_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) : Vec F S32x128 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4 xo5 xs0).1)

/-- Case B's stores into the column-sum scratch cover it. -/
theorem scover0_B_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) (y : S32x1.Idx) :
    ∃ pc ∈ (kernelRun0_B c i arg1 harg1 arg2 harg2 arg3 harg3 arg4 harg4 arg5 harg5 arg6 harg6 arg7 harg7 hc0 hc1 x0 x1 x2 x3 x4 xo5 xs0).2.1, y ∈ pc.1.set :=
  View.cover_of_tiledL (kernelRun0_B c i arg1 harg1 arg2 harg2 arg3 harg3 arg4 harg4 arg5 harg5 arg6 harg6 arg7 harg7 hc0 hc1 x0 x1 x2 x3 x4 xo5 xs0).2.1 S32x1.size (by sl_kernel_rfl) y

/-- What case B leaves in the column-sum scratch. -/
def sout0_B_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) : Vec F S32x1 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 x4 xo5 xs0).2.1)

/-- Case C's stores into the accumulator cover it. -/
theorem cover0_C_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) (y : S32x128.Idx) :
    ∃ pc ∈ (kernelRun0_C c i arg1 harg1 arg2 harg2 arg3 harg3 arg4 harg4 arg5 harg5 arg6 harg6 arg7 harg7 hc0 hc1 x0 x1 x2 x3 x4 xo5 xs0).1, y ∈ pc.1.set :=
  View.cover_of_tiledL (kernelRun0_C c i arg1 harg1 arg2 harg2 arg3 harg3 arg4 harg4 arg5 harg5 arg6 harg6 arg7 harg7 hc0 hc1 x0 x1 x2 x3 x4 xo5 xs0).1 S32x128.size (by sl_kernel_rfl) y

/-- What case C leaves in the accumulator. -/
def out0_C_5 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) : Vec F S32x128 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 x4 xo5 xs0).1)

/-- Case C's stores into the column-sum scratch cover it. -/
theorem scover0_C_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) (y : S32x1.Idx) :
    ∃ pc ∈ (kernelRun0_C c i arg1 harg1 arg2 harg2 arg3 harg3 arg4 harg4 arg5 harg5 arg6 harg6 arg7 harg7 hc0 hc1 x0 x1 x2 x3 x4 xo5 xs0).2.1, y ∈ pc.1.set :=
  View.cover_of_tiledL (kernelRun0_C c i arg1 harg1 arg2 harg2 arg3 harg3 arg4 harg4 arg5 harg5 arg6 harg6 arg7 harg7 hc0 hc1 x0 x1 x2 x3 x4 xo5 xs0).2.1 S32x1.size (by sl_kernel_rfl) y

/-- What case C leaves in the column-sum scratch. -/
def sout0_C_0 (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i)
    (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) : Vec F S32x1 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 x4 xo5 xs0).2.1)

/-! ## Tile by tile -/

theorem not_first0 (n : ℕ) (hn : n + 1 < cfg0.N) : ¬ (n + 1) % 5 = 0 := by
  have hN : n + 1 < 5 := lt_of_lt_of_eq hn (show cfg0.N = 5 from N_0); omega

/-- THE ACCUMULATION: the accumulator and the scratch after the body at tile `n`. -/
def outsAt0 (c : Dev nD) : (n : ℕ) → n < cfg0.N → Vec F S32x128 .f32 × Vec F S32x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h1 : (n + 1) % 5 = 4 then
      (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => not_first0 n hn ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => not_first0 n hn ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2)
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => not_first0 n hn ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => not_first0 n hn ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2)

theorem outsAt0_A (c : Dev nD) (t : Fin cfg0.N) (h0 : t.val % 5 = 0) (h1 : ¬t.val % 5 = 4) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact absurd h0 (not_first0 n hn)

theorem outsAt0_B (c : Dev nD) (t : Fin cfg0.N) (h0 : ¬t.val % 5 = 0) (h1 : ¬t.val % 5 = 4) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt0_C (c : Dev nD) (t : Fin cfg0.N) (h0 : ¬t.val % 5 = 0) (h1 : t.val % 5 = 4) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The invariant before tile `n`: before the first tile every scoped buffer at anything; afterwards
    the scratch at what the tile before left, the other scoped buffers unopened, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The four windows on the adjacency's array each hold a quarter of it; every other window its
    array whole. -/
def q0 : Fin cfg0.W → PosShare TreeShare
  | ⟨1, _⟩ => fullShare.left.left
  | ⟨2, _⟩ => fullShare.left.right
  | ⟨3, _⟩ => fullShare.right.left
  | ⟨4, _⟩ => fullShare.right.right
  | _ => fullShare

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q := q0
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- After the first tile the accumulator's buffer still holds what the tile before left: it was not
    written back in between. -/
theorem before0_5_pos (c : Dev nD) (t : Fin cfg0.N) (h0 : ¬t.val % 5 = 0) (d) :
    (dat0 V c).before 5 t d = (outsAt0 V c (t.val - 1) (Nat.lt_of_le_of_lt (Nat.sub_le _ _) t.isLt)).1 := by
  have hN : t.val < 5 := lt_of_lt_of_eq t.isLt (show cfg0.N = 5 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic tile -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ,
    after0_0, after0_1, after0_2, after0_3, after0_4, after0_5]
  have hN : t.val < 5 := lt_of_lt_of_eq t.isLt (show cfg0.N = 5 from N_0)
  by_cases h0 : t.val % 5 = 0
  · have h1 : ¬t.val % 5 = 4 := by omega
    rw [outsAt0_A V c t h0 h1]
    unfold out0_A_5 sout0_A_0; (try dsimp only)
    rw [PhiS0_castSucc V c t, PhiS0_zero V c _ _ (by omega), PhiA0_eq]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _ _)
  · have hz : t.val ≠ 0 := by omega
    simp only [before0_5_pos V c t h0]
    rw [PhiS0_castSucc V c t, PhiS0_pos V c _ _ hz]
    by_cases h1 : t.val % 5 = 4
    · rw [outsAt0_C V c t h0 h1]
      unfold out0_C_5 sout0_C_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _ _)
    · rw [outsAt0_B V c t h0 h1]
      unfold out0_B_5 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _ _ _)

/-- The library's body obligation for the first launch, at every tile. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first tile; after the last tile the
    invariant gives it back, the scratch's contents forgotten. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have ht : (Fin.last cfg0.N).val ≠ 0 := by rw [Fin.val_last]; have : cfg0.N = 5 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HR⟩, Hg⟩
  isplitl [HS0 HR]
  · isplitl [HS0]
    · iexists _; iexact HS0
    iexact HR
  iexact Hg

end Cert.KernelIdeal.Hand

end
-- ==== Proof.KI.Shared0.lean ====
/-
  The adjacency's array is handed to the first launch through four windows (quarter tiles). The
  launch wants, per window, a points-to of that window's array at the window's share; what the
  thread state holds is each distinct buffer once, whole, at the full share. Going in, the
  adjacency's full share is split in two and each half in two again, one quarter per window; coming
  out, the four quarters — every one still at the entry contents, since an input window's array is
  never written — are joined back. The other two arrays (the rows `x`, and the result block's
  array) belong to one window each and pass through at the full share.
-/
import proofs.«167790_g44066364457491_cont_8to1_c_744_34_alg».proof.Proof.KI.Reg0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three distinct buffers behind the six windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_call0_v0) ↦{fullShare} W main_call0_v0)) := by
  unfold Pipeline.arrBufs
  exact bigSep_eq_bigSepL_of_eq [main_arg0, main_arg1, main_call0_v0] (by decide) (by decide) _

/-- A whole buffer's full share as four quarters. -/
theorem quarters {ℓ : Loc nD τ sig} (f : Buf (Elt F) ℓ) :
    (ℓ ↦{fullShare} f : sProp 𝕄) ⊣⊢ iprop((ℓ ↦{fullShare.left.left} f) ∗ (ℓ ↦{fullShare.left.right} f) ∗ (ℓ ↦{fullShare.right.left} f) ∗ (ℓ ↦{fullShare.right.right} f)) := by
  have h : (ℓ ↦{fullShare} f : sProp 𝕄) ⊣⊢ iprop((ℓ ↦{fullShare.left} f) ∗ ℓ ↦{fullShare.right} f) := pointsTo_share (PosShare.mem_left_op_right fullShare)
  have hl : (ℓ ↦{fullShare.left} f : sProp 𝕄) ⊣⊢ iprop((ℓ ↦{fullShare.left.left} f) ∗ ℓ ↦{fullShare.left.right} f) := pointsTo_share (PosShare.mem_left_op_right fullShare.left)
  have hr : (ℓ ↦{fullShare.right} f : sProp 𝕄) ⊣⊢ iprop((ℓ ↦{fullShare.right.left} f) ∗ ℓ ↦{fullShare.right.right} f) := pointsTo_share (PosShare.mem_left_op_right fullShare.right)
  constructor
  · iintro H
    ihave H' := h.1 $$ H
    icases H' with ⟨Hl, Hr⟩
    ihave Hl' := hl.1 $$ Hl
    ihave Hr' := hr.1 $$ Hr
    icases Hl' with ⟨H1, H2⟩
    icases Hr' with ⟨H3, H4⟩
    isplitl [H1]; · iexact H1
    isplitl [H2]; · iexact H2
    isplitl [H3]; · iexact H3
    iexact H4
  · iintro ⟨H1, H2, H3, H4⟩
    iapply h.2
    isplitl [H1 H2]
    · iapply hl.2; isplitl [H1]; · iexact H1
      iexact H2
    · iapply hr.2; isplitl [H3]; · iexact H3
      iexact H4

/-! The share each window holds its array at: the rows whole, the adjacency by quarters, the result
    whole (an output). -/
theorem share0_0 (c : Dev nD) : (dat0 V c).share 0 = fullShare := by unfold Dat.share; rfl
theorem share0_1 (c : Dev nD) : (dat0 V c).share 1 = fullShare.left.left := by unfold Dat.share; rfl
theorem share0_2 (c : Dev nD) : (dat0 V c).share 2 = fullShare.left.right := by unfold Dat.share; rfl
theorem share0_3 (c : Dev nD) : (dat0 V c).share 3 = fullShare.right.left := by unfold Dat.share; rfl
theorem share0_4 (c : Dev nD) : (dat0 V c).share 4 = fullShare.right.right := by unfold Dat.share; rfl
theorem share0_5 (c : Dev nD) : (dat0 V c).share 5 = fullShare := by unfold Dat.share; rfl

/-- The six windows' arrays, one by one, each a whole buffer at its window's share. -/
theorem arrays0_eq (c : Dev nD) (G : (w : Fin cfg0.W) → Buf (Elt F) (((cfg0.win w).arr.view.loc (c : Thread nD τ)))) :
    ((dat0 V c).arrays G : sProp 𝕄)
      = iprop((((c : Thread nD τ).loc (Pipeline.arrRef spec0 0)) ↦{fullShare} G 0)
          ∗ (((c : Thread nD τ).loc (Pipeline.arrRef spec0 1)) ↦{fullShare.left.left} G 1)
          ∗ (((c : Thread nD τ).loc (Pipeline.arrRef spec0 2)) ↦{fullShare.left.right} G 2)
          ∗ (((c : Thread nD τ).loc (Pipeline.arrRef spec0 3)) ↦{fullShare.right.left} G 3)
          ∗ (((c : Thread nD τ).loc (Pipeline.arrRef spec0 4)) ↦{fullShare.right.right} G 4)
          ∗ (((c : Thread nD τ).loc (Pipeline.arrRef spec0 5)) ↦{fullShare} G 5)) := by
  unfold Dat.arrays
  -- windows 1–4 are one array, so one rewrite turns all four element sets into the whole buffer
  rw [bigSep_W0, (arr_whole0 0).set_eq_univ, (arr_whole0 1).set_eq_univ, (arr_whole0 5).set_eq_univ,
    share0_0, share0_1, share0_2, share0_3, share0_4, share0_5]

/-- The three buffers at contents `W` make the six windows' arrays at any contents `G` that reads
    `W` at each window's array, each window at its share. -/
theorem arrays_of_arrBufs0 (c : Dev nD) (W : (b : Ref sig .tc) → Buf (Elt F) ((c : Thread nD τ).loc b))
    (G : (w : Fin cfg0.W) → Buf (Elt F) (((cfg0.win w).arr.view.loc (c : Thread nD τ)))) (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  rw [arrBufs0_eq, arrays0_eq, hG 0, hG 1, hG 2, hG 3, hG 4, hG 5]
  iintro ⟨H0, H1, H5⟩
  ihave Hq := (quarters (F := F) (W main_arg1)).1 $$ H1
  icases Hq with ⟨Ha, Hb, Hc, Hd⟩
  isplitl [H0]; · iexact H0
  isplitl [Ha]; · iexact Ha
  isplitl [Hb]; · iexact Hb
  isplitl [Hc]; · iexact Hc
  isplitl [Hd]; · iexact Hd
  iexact H5

/-- And back: the four quarters of the adjacency's array, all at one contents, are its full share. -/
theorem arrBufs_of_arrays0 (c : Dev nD) (W : (b : Ref sig .tc) → Buf (Elt F) ((c : Thread nD τ).loc b))
    (G : (w : Fin cfg0.W) → Buf (Elt F) (((cfg0.win w).arr.view.loc (c : Thread nD τ)))) (hG : ∀ w, G w = W (Pipeline.arrRef spec0 w)) :
    ((dat0 V c).arrays G : sProp 𝕄) ⊢ Pipeline.arrBufs (Ix := Unit) (Name := ℕ) (U := UR sig nD τ) (Lvl := ℕ) spec0 c W := by
  rw [arrBufs0_eq, arrays0_eq, hG 0, hG 1, hG 2, hG 3, hG 4, hG 5]
  iintro ⟨H0, Ha, Hb, Hc, Hd, H5⟩
  isplitl [H0]; · iexact H0
  isplitl [Ha Hb Hc Hd]
  · iapply (quarters (F := F) (W main_arg1)).2
    isplitl [Ha]; · iexact Ha
    isplitl [Hb]; · iexact Hb
    isplitl [Hc]; · iexact Hc
    iexact Hd
  iexact H5

/-- ENTRY: every unscoped buffer at `V c` is the six windows' arrays at the entry contents beside
    the unscoped buffers no window stages. -/
theorem arrays_of_unscopedBufs0 (c : Dev nD) :
    (unscopedBufs c (V c) : sProp 𝕄) ⊢ iprop((dat0 V c).arrays (dat0 V c).A ∗ Pipeline.unscopedRest (Ix := Unit) (Name := ℕ) (U := UR sig nD τ) (Lvl := ℕ) spec0 c (V c)) := by
  rw [Pipeline.unscopedBufs_split₀ cfgs 0 winFacts₀0.arr_unscoped c (V c)]
  exact sep_mono (arrays_of_arrBufs0 V c (V c) _ (fun w => A_eq0 V c w)) .rfl

/-- EXIT: the six windows' arrays at contents `G` and the rest at `V c` are every unscoped buffer at
    any `W'` that has the arrays at `G` and agrees with `V c` off them. -/
theorem unscopedBufs_of_arrays0 (c : Dev nD) (W' : (b : Ref sig .tc) → Buf (Elt F) ((c : Thread nD τ).loc b))
    (G : (w : Fin cfg0.W) → Buf (Elt F) (((cfg0.win w).arr.view.loc (c : Thread nD τ)))) (hG : ∀ w, G w = W' (Pipeline.arrRef spec0 w))
    (hrest : ∀ b, b ∉ Finset.univ.image (Pipeline.arrRef spec0) → W' b = V c b) :
    iprop((dat0 V c).arrays G ∗ Pipeline.unscopedRest (Ix := Unit) (Name := ℕ) (U := UR sig nD τ) (Lvl := ℕ) spec0 c (V c)) ⊢ (unscopedBufs c W' : sProp 𝕄) := by
  rw [Pipeline.unscopedBufs_split₀ cfgs 0 winFacts₀0.arr_unscoped c W']
  refine sep_mono (arrBufs_of_arrays0 V c W' G hG) (Entails.of_eq ?_)
  unfold Pipeline.unscopedRest
  exact bigSep_congr fun b hb => by rw [hrest b (Finset.mem_sdiff.mp hb).2]

end Cert.KernelIdeal.Hand

end
-- ==== Proof.KI.Reg1Runs.lean ====
/-
  The second pass on one tile of 20000 rows, case by case.

  The body scores the tile's rows against the 32 sector rows, and updates, column by column, a
  running maximum `m` and a running denominator `l` (two [32,1] scratch buffers) and a running
  numerator (the [32,128] block of its first output): the new maximum is the larger of the old one
  and the tile's, the old denominator and numerator are rescaled by `exp (m_old − m_new)` and the
  tile's exponentials, respectively their products with the tile's rows, are added. At the first
  tile the three are first set to `−∞`, `0`, `0`. At the last tile the numerator is finally divided
  by the denominator, the quotient multiplied through the layers into the second and third outputs,
  and the two bias rows stored into the fourth and fifth. So there are three cases — first tile, a
  middle tile, last tile — told apart by two tests of the tile number (`= 0`, `= 4`); in the second
  and third the body reads the numerator and both scratch buffers as the tile before left them, and
  in the first and second it leaves the four late outputs' buffers as it found them.
-/
import proofs.«167790_g44066364457491_cont_8to1_c_744_34_alg».proof.Proof.Gen.KernelIdeal.Launch
import proofs.«167790_g44066364457491_cont_8to1_c_744_34_alg».proof.Proof.Gen.KernelIdeal.Skeleton
import proofs.«167790_g44066364457491_cont_8to1_c_744_34_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tests, in closed form over the five tiles -/

/-- "This is the first tile." -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

/-- "This is the last tile." -/
abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Window 5 is never idle (an input). -/
theorem liveAt1_5 : ∀ t : Fin cfg1.N, cfg1.idle 5 (grid1.coords t) = false := by decide +kernel
/-- Window 6 is never idle (an input). -/
theorem liveAt1_6 : ∀ t : Fin cfg1.N, cfg1.idle 6 (grid1.coords t) = false := by decide +kernel
/-- Window 7 is never idle (an input). -/
theorem liveAt1_7 : ∀ t : Fin cfg1.N, cfg1.idle 7 (grid1.coords t) = false := by decide +kernel
/-- Window 8 is never idle (an input). -/
theorem liveAt1_8 : ∀ t : Fin cfg1.N, cfg1.idle 8 (grid1.coords t) = false := by decide +kernel
/-- Window 9 is never idle (an input). -/
theorem liveAt1_9 : ∀ t : Fin cfg1.N, cfg1.idle 9 (grid1.coords t) = false := by decide +kernel
/-- Window 10 is never idle (the running numerator is stored at every tile). -/
theorem liveAt1_10 : ∀ t : Fin cfg1.N, cfg1.idle 10 (grid1.coords t) = false := by decide +kernel
/-- Before the last tile output 11 is idle: nothing is stored into its buffer, -/
theorem idleAt1_11 : ∀ t : Fin cfg1.N, ¬cond1_1 (grid1.coords t) → cfg1.idle 11 (grid1.coords t) = true := by decide +kernel
/-- and its block is not written back; -/
theorem noFlush1_11 : ∀ t : Fin cfg1.N, ¬cond1_1 (grid1.coords t) → (cfg1.win 11).flush t = false := by decide +kernel
/-- at the last tile it is live: the body stores into it. -/
theorem liveAt1_11_C : ∀ t : Fin cfg1.N, cond1_1 (grid1.coords t) → cfg1.idle 11 (grid1.coords t) = false := by decide +kernel
/-- Before the last tile output 12 is idle: nothing is stored into its buffer, -/
theorem idleAt1_12 : ∀ t : Fin cfg1.N, ¬cond1_1 (grid1.coords t) → cfg1.idle 12 (grid1.coords t) = true := by decide +kernel
/-- and its block is not written back; -/
theorem noFlush1_12 : ∀ t : Fin cfg1.N, ¬cond1_1 (grid1.coords t) → (cfg1.win 12).flush t = false := by decide +kernel
/-- at the last tile it is live: the body stores into it. -/
theorem liveAt1_12_C : ∀ t : Fin cfg1.N, cond1_1 (grid1.coords t) → cfg1.idle 12 (grid1.coords t) = false := by decide +kernel
/-- Before the last tile output 13 is idle: nothing is stored into its buffer, -/
theorem idleAt1_13 : ∀ t : Fin cfg1.N, ¬cond1_1 (grid1.coords t) → cfg1.idle 13 (grid1.coords t) = true := by decide +kernel
/-- and its block is not written back; -/
theorem noFlush1_13 : ∀ t : Fin cfg1.N, ¬cond1_1 (grid1.coords t) → (cfg1.win 13).flush t = false := by decide +kernel
/-- at the last tile it is live: the body stores into it. -/
theorem liveAt1_13_C : ∀ t : Fin cfg1.N, cond1_1 (grid1.coords t) → cfg1.idle 13 (grid1.coords t) = false := by decide +kernel
/-- Before the last tile output 14 is idle: nothing is stored into its buffer, -/
theorem idleAt1_14 : ∀ t : Fin cfg1.N, ¬cond1_1 (grid1.coords t) → cfg1.idle 14 (grid1.coords t) = true := by decide +kernel
/-- and its block is not written back; -/
theorem noFlush1_14 : ∀ t : Fin cfg1.N, ¬cond1_1 (grid1.coords t) → (cfg1.win 14).flush t = false := by decide +kernel
/-- at the last tile it is live: the body stores into it. -/
theorem liveAt1_14_C : ∀ t : Fin cfg1.N, cond1_1 (grid1.coords t) → cfg1.idle 14 (grid1.coords t) = false := by decide +kernel

/-! ## The buffers the body is called on -/

abbrev ms1_0 (t : Fin cfg1.N) : Memref sig .tc .vmem S20000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S32x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S32x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S32x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S1x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S1x128 .f32 := win1_14.stage (cfg1.slots t 14)
abbrev hs1_14 (t : Fin cfg1.N) : (ms1_14 t).IsWhole := hstage1_14 ((cfg1.slots t 14).cast nbuf1_14)
/-- Output 10's one staging buffer, as a view through which its contents are stated. -/
abbrev VO1_10 : View sig .tc .vmem S32x128 .f32 := (Memref.whole cc1_stg10_0 : Memref sig .tc .vmem S32x128 .f32).view
/-- Output 11's one staging buffer, as a view through which its contents are stated. -/
abbrev VO1_11 : View sig .tc .vmem S32x128 .f32 := (Memref.whole cc1_stg11_0 : Memref sig .tc .vmem S32x128 .f32).view
/-- Output 12's one staging buffer, as a view through which its contents are stated. -/
abbrev VO1_12 : View sig .tc .vmem S32x128 .f32 := (Memref.whole cc1_stg12_0 : Memref sig .tc .vmem S32x128 .f32).view
/-- Output 13's one staging buffer, as a view through which its contents are stated. -/
abbrev VO1_13 : View sig .tc .vmem S1x128 .f32 := (Memref.whole cc1_stg13_0 : Memref sig .tc .vmem S1x128 .f32).view
/-- Output 14's one staging buffer, as a view through which its contents are stated. -/
abbrev VO1_14 : View sig .tc .vmem S1x128 .f32 := (Memref.whole cc1_stg14_0 : Memref sig .tc .vmem S1x128 .f32).view
/-- The running maximum and the running denominator: whole buffers of the call's own, and the same as views. -/
abbrev scM1_0 : Memref sig .tc .vmem S32x1 .f32 := Memref.whole cc1_scratch0
abbrev VS1_0 : View sig .tc .vmem S32x1 .f32 := scM1_0.view
abbrev scM1_1 : Memref sig .tc .vmem S32x1 .f32 := Memref.whole cc1_scratch1
abbrev VS1_1 : View sig .tc .vmem S32x1 .f32 := scM1_1.view

/-- The untouched-scoped-buffers invariant opened at the call's own two scratch buffers: each at some
    contents, the other scoped buffers unopened, the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The body's run, case by case -/

set_option maxHeartbeats 8000000 in
/-- The stores of case A into the numerator's block and into the two scratch buffers, as pieces (last
    first), with the run: from the ten input buffers at their contents, the numerator's block and the scratch buffers at anything and
    the four late outputs' buffers at any contents `xi·`, the body runs to its return with the inputs and the late outputs' buffers
    as they were and the other three with their pieces written. -/
noncomputable def kernelRun1_A (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) :
    Σ' (L10 : List (View.Piece (Elt F) S32x128 .f32)) (L11 : List (View.Piece (Elt F) S32x128 .f32)) (L12 : List (View.Piece (Elt F) S32x128 .f32)) (L13 : List (View.Piece (Elt F) S1x128 .f32)) (L14 : List (View.Piece (Elt F) S1x128 .f32)) (LS0 : List (View.Piece (Elt F) S32x1 .f32)), { LS1 : List (View.Piece (Elt F) S32x1 .f32) //
      ∀ (xi11 : Vec F S32x128 .f32) (xi12 : Vec F S32x128 .f32) (xi13 : Vec F S1x128 .f32) (xi14 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xi11 ∗ owns (c : Thread nD τ) arg13 fullShare xi12 ∗ owns (c : Thread nD τ) arg14 fullShare xi13 ∗ owns (c : Thread nD τ) arg15 fullShare xi14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ owns (c : Thread nD τ) arg14 fullShare xi13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], [], [], [], ?_, ?_, fun xi11 xi12 xi13 xi14 E K => ?run⟩
  case run =>
    simp only [cc1__pass2_kernel_eq_skeleton]; unfold cc1__pass2_kernel_skel
    simp only [k1_part2_eq_skeleton]; unfold k1_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hf11; obtain rfl := harg13.eq_unread hf12; obtain rfl := harg14.eq_unread hf13; obtain rfl := harg15.eq_unread hf14
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    iexists _; iexact HS1

set_option maxHeartbeats 8000000 in
/-- The stores of case B, with the run: as case A, the numerator's block and the two scratch buffers at what the tile before left. -/
noncomputable def kernelRun1_B (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    Σ' (L10 : List (View.Piece (Elt F) S32x128 .f32)) (L11 : List (View.Piece (Elt F) S32x128 .f32)) (L12 : List (View.Piece (Elt F) S32x128 .f32)) (L13 : List (View.Piece (Elt F) S1x128 .f32)) (L14 : List (View.Piece (Elt F) S1x128 .f32)) (LS0 : List (View.Piece (Elt F) S32x1 .f32)), { LS1 : List (View.Piece (Elt F) S32x1 .f32) //
      ∀ (xi11 : Vec F S32x128 .f32) (xi12 : Vec F S32x128 .f32) (xi13 : Vec F S1x128 .f32) (xi14 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo10 ∗ owns (c : Thread nD τ) arg12 fullShare xi11 ∗ owns (c : Thread nD τ) arg13 fullShare xi12 ∗ owns (c : Thread nD τ) arg14 fullShare xi13 ∗ owns (c : Thread nD τ) arg15 fullShare xi14 ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ owns (c : Thread nD τ) arg12 fullShare xi11 ∗ owns (c : Thread nD τ) arg13 fullShare xi12 ∗ owns (c : Thread nD τ) arg14 fullShare xi13 ∗ owns (c : Thread nD τ) arg15 fullShare xi14 ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], [], [], [], ?_, ?_, fun xi11 xi12 xi13 xi14 E K => ?run⟩
  case run =>
    simp only [cc1__pass2_kernel_eq_skeleton]; unfold cc1__pass2_kernel_skel
    simp only [k1_part2_eq_skeleton]; unfold k1_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hfs0; obtain rfl := harg17.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [HS0]; · iexists _; iexact HS0
    iexists _; iexact HS1

set_option maxHeartbeats 8000000 in
/-- The stores of case C into all five outputs' blocks and the two scratch buffers, with the run: the numerator's block and the
    scratch buffers at what the tile before left, the four late outputs' buffers at anything; every one of the seven ends with its pieces written. -/
noncomputable def kernelRun1_C (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    Σ' (L10 : List (View.Piece (Elt F) S32x128 .f32)) (L11 : List (View.Piece (Elt F) S32x128 .f32)) (L12 : List (View.Piece (Elt F) S32x128 .f32)) (L13 : List (View.Piece (Elt F) S1x128 .f32)) (L14 : List (View.Piece (Elt F) S1x128 .f32)) (LS0 : List (View.Piece (Elt F) S32x1 .f32)), { LS1 : List (View.Piece (Elt F) S32x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xo10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1)) -∗ K ⟨⟩))
          ⊢ wp frame (wpE (defs₀ (F := F)) Variants.none c none) E (cc1__pass2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc1__pass2_kernel_eq_skeleton]; unfold cc1__pass2_kernel_skel
    simp only [k1_part2_eq_skeleton]; unfold k1_part2_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg16.eq_unread hfs0; obtain rfl := harg17.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexists _; iexact HS0
    iexists _; iexact HS1

end Cert.KernelIdeal.Hand

end
-- ==== Proof.KI.Reg1.lean ====
/-
  The second pass over the five tiles: what the running numerator, the four late outputs and the two
  scratch buffers hold after each tile, the data the launch theorems ask for, and the body's obligation
  at every tile.

  After tile 0 the scratch buffers hold the running maximum and denominator of that tile alone and the
  first output's block the running numerator; after tile `n + 1` they hold the online update of what
  tile `n` left by tile `n + 1`; after the last tile the numerator has moreover been divided by the
  denominator and the other four outputs' blocks have been stored (`outsAt1`). Every output window has
  one staging buffer, written back to its array at the last tile only; so between tiles the first
  output's buffer still holds what the tile before left, and the other four, into which nothing is
  stored before the last tile, are handed back as they were found.
-/
import proofs.«167790_g44066364457491_cont_8to1_c_744_34_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the outputs' blocks and the two scratch buffers -/

/-- Case A's stores into the numerator's block cover it. -/
theorem cover1_A_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (y : S32x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1 S32x128.size (by sl_kernel_rfl) y

/-- What case A leaves in the numerator's block. -/
def out1_A_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S32x128 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).1)

/-- Case A stores nothing into the second output's block: no pieces, a placeholder that nothing consults. -/
def out1_A_11 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S32x128 .f32 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.1)

/-- Case A stores nothing into the third output's block: no pieces, a placeholder that nothing consults. -/
def out1_A_12 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S32x128 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.1)

/-- Case A stores nothing into the fourth output's block: no pieces, a placeholder that nothing consults. -/
def out1_A_13 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S1x128 .f32 :=
  VO1_13.read (Elt F) (VO1_13.writes (Elt F) VO1_13.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.1)

/-- Case A stores nothing into the fifth output's block: no pieces, a placeholder that nothing consults. -/
def out1_A_14 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S1x128 .f32 :=
  VO1_14.read (Elt F) (VO1_14.writes (Elt F) VO1_14.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.1)

/-- Case A's stores into the running maximum cover it. -/
theorem scover1_A_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (y : S32x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1 S32x1.size (by sl_kernel_rfl) y

/-- What case A leaves in the running maximum. -/
def sout1_A_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S32x1 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.1)

/-- Case A's stores into the running denominator cover it. -/
theorem scover1_A_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (y : S32x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1 S32x1.size (by sl_kernel_rfl) y

/-- What case A leaves in the running denominator. -/
def sout1_A_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) : Vec F S32x1 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9).2.2.2.2.2.2.1)

/-- Case B's stores into the numerator's block cover it. -/
theorem cover1_B_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1 S32x128.size (by sl_kernel_rfl) y

/-- What case B leaves in the numerator's block. -/
def out1_B_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1)

/-- Case B stores nothing into the second output's block: no pieces, a placeholder that nothing consults. -/
def out1_B_11 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.1)

/-- Case B stores nothing into the third output's block: no pieces, a placeholder that nothing consults. -/
def out1_B_12 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_12.read (Elt F) (VO1_12.writes (Elt F) VO1_12.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.1)

/-- Case B stores nothing into the fourth output's block: no pieces, a placeholder that nothing consults. -/
def out1_B_13 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S1x128 .f32 :=
  VO1_13.read (Elt F) (VO1_13.writes (Elt F) VO1_13.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.1)

/-- Case B stores nothing into the fifth output's block: no pieces, a placeholder that nothing consults. -/
def out1_B_14 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S1x128 .f32 :=
  VO1_14.read (Elt F) (VO1_14.writes (Elt F) VO1_14.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.1)

/-- Case B's stores into the running maximum cover it. -/
theorem scover1_B_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1 S32x1.size (by sl_kernel_rfl) y

/-- What case B leaves in the running maximum. -/
def sout1_B_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x1 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1)

/-- Case B's stores into the running denominator cover it. -/
theorem scover1_B_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1 S32x1.size (by sl_kernel_rfl) y

/-- What case B leaves in the running denominator. -/
def sout1_B_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x1 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1)

/-- Case C's stores into the numerator's block cover it. -/
theorem cover1_C_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1 S32x128.size (by sl_kernel_rfl) y

/-- What case C leaves in the numerator's block. -/
def out1_C_10 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_10.read (Elt F) (VO1_10.writes (Elt F) VO1_10.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).1)

/-- Case C's stores into the second output's block cover it. -/
theorem cover1_C_11 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.1 S32x128.size (by sl_kernel_rfl) y

/-- What case C leaves in the second output's block. -/
def out1_C_11 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_11.read (Elt F) (VO1_11.writes (Elt F) VO1_11.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.1)

/-- Case C's stores into the third output's block cover it. -/
theorem cover1_C_12 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.1 S32x128.size (by sl_kernel_rfl) y

/-- What case C leaves in the third output's block. -/
def out1_C_12 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x128 .f32 :=
  VO1_12.read (Elt F) (VO1_12.writes (Elt F) VO1_12.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.1)

/-- Case C's stores into the fourth output's block cover it. -/
theorem cover1_C_13 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.1 S1x128.size (by sl_kernel_rfl) y

/-- What case C leaves in the fourth output's block. -/
def out1_C_13 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S1x128 .f32 :=
  VO1_13.read (Elt F) (VO1_13.writes (Elt F) VO1_13.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.1)

/-- Case C's stores into the fifth output's block cover it. -/
theorem cover1_C_14 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.1 S1x128.size (by sl_kernel_rfl) y

/-- What case C leaves in the fifth output's block. -/
def out1_C_14 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S1x128 .f32 :=
  VO1_14.read (Elt F) (VO1_14.writes (Elt F) VO1_14.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.1)

/-- Case C's stores into the running maximum cover it. -/
theorem scover1_C_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1 S32x1.size (by sl_kernel_rfl) y

/-- What case C leaves in the running maximum. -/
def sout1_C_0 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x1 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.1)

/-- Case C's stores into the running denominator cover it. -/
theorem scover1_C_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) (y : S32x1.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1 S32x1.size (by sl_kernel_rfl) y

/-- What case C leaves in the running denominator. -/
def sout1_C_1 (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i)
    (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) : Vec F S32x1 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1).2.2.2.2.2.2.1)

/-! ## Tile by tile -/

theorem not_first1 (n : ℕ) (hn : n + 1 < cfg1.N) : ¬ (n + 1) % 5 = 0 := by
  have hN : n + 1 < 5 := lt_of_lt_of_eq hn (show cfg1.N = 5 from N_1); omega

/-- THE ONLINE UPDATE: the five outputs' blocks (in window order; the last four are placeholders before the
    last tile) and the two scratch buffers after the body at tile `n`. -/
def outsAt1 (c : Dev nD) : (n : ℕ) → n < cfg1.N → Vec F S32x128 .f32 × Vec F S32x128 .f32 × Vec F S32x128 .f32 × Vec F S1x128 .f32 × Vec F S1x128 .f32 × Vec F S32x1 .f32 × Vec F S32x1 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), out1_A_12 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), out1_A_13 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), out1_A_14 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h1 : (n + 1) % 5 = 4 then
      (out1_C_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_C_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_C_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_C_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_C_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2)
    else
      (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_B_12 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_B_13 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, out1_B_14 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) scM1_0 (Memref.isWhole_whole _) scM1_1 (Memref.isWhole_whole _) (fun h => not_first1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).1 (outsAt1 c n (Nat.lt_of_succ_lt hn)).2.2.2.2.2.1 (outsAt1 c n (Nat.lt_of_succ_lt hn)).2.2.2.2.2.2)

theorem outsAt1_A (c : Dev nD) (t : Fin cfg1.N) (h0 : t.val % 5 = 0) (h1 : ¬t.val % 5 = 4) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact absurd h0 (not_first1 n hn)

theorem outsAt1_B (c : Dev nD) (t : Fin cfg1.N) (h0 : ¬t.val % 5 = 0) (h1 : ¬t.val % 5 = 4) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_B_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h1).trans rfl

theorem outsAt1_C (c : Dev nD) (t : Fin cfg1.N) (h0 : ¬t.val % 5 = 0) (h1 : t.val % 5 = 4) :
    outsAt1 V c t.val t.isLt = (out1_C_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_C_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_C_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_C_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, out1_C_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_pos h1).trans rfl

/-- The invariant before tile `n`: before the first tile every scoped buffer at anything; afterwards
    the two scratch buffers at what the tile before left, the other scoped buffers unopened, the generator
    register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.2.2.1) ∗ owns (c : Thread nD τ) scM1_1 fullShare ((outsAt1 V c n hn).2.2.2.2.2.2)) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.2.2.2.1) ∗ owns (c : Thread nD τ) scM1_1 fullShare ((outsAt1 V c n hn).2.2.2.2.2.2)) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.2.2.1) ∗ owns (c : Thread nD τ) scM1_1 fullShare ((outsAt1 V c (n - 1) (by omega)).2.2.2.2.2.2)) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
    | ⟨11, _⟩ => (outsAt1 V c t.val t.isLt).2.1
    | ⟨12, _⟩ => (outsAt1 V c t.val t.isLt).2.2.1
    | ⟨13, _⟩ => (outsAt1 V c t.val t.isLt).2.2.2.1
    | ⟨14, _⟩ => (outsAt1 V c t.val t.isLt).2.2.2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]
theorem after1_11 (c : Dev nD) (t : Fin cfg1.N) : (dat1 V c).after 11 t = (outsAt1 V c t.val t.isLt).2.1 := by dsimp only [dat1]
theorem after1_12 (c : Dev nD) (t : Fin cfg1.N) : (dat1 V c).after 12 t = (outsAt1 V c t.val t.isLt).2.2.1 := by dsimp only [dat1]
theorem after1_13 (c : Dev nD) (t : Fin cfg1.N) : (dat1 V c).after 13 t = (outsAt1 V c t.val t.isLt).2.2.2.1 := by dsimp only [dat1]
theorem after1_14 (c : Dev nD) (t : Fin cfg1.N) : (dat1 V c).after 14 t = (outsAt1 V c t.val t.isLt).2.2.2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- After the first tile the numerator's buffer still holds what the tile before left: it was not
    written back in between. -/
theorem before1_10_pos (c : Dev nD) (t : Fin cfg1.N) (h0 : ¬t.val % 5 = 0) (d) :
    (dat1 V c).before 10 t d = (outsAt1 V c (t.val - 1) (Nat.lt_of_le_of_lt (Nat.sub_le _ _) t.isLt)).1 := by
  have hN : t.val < 5 := lt_of_lt_of_eq t.isLt (show cfg1.N = 5 from N_1)
  rw [Dat.before_out_kept _ 10 rfl t (by omega) (Bool.eq_false_iff.mpr fun h => by have := (flush1_10 _).mp h; dsimp only at this; omega)
    (fun _ => rfl) (fun _ _ => rfl)]
  dsimp only [dat1]

/-! ## The body obligation, at a generic tile -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t
    ∗ (dat1 V c).leavesExact 14 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  have hN : t.val < 5 := lt_of_lt_of_eq t.isLt (show cfg1.N = 5 from N_1)
  by_cases h0 : t.val % 5 = 0
  · have h1 : ¬t.val % 5 = 4 := by omega
    rw [Dat.leavesExact_idle (dat1 V c) 11 t (idleAt1_11 t (fun h => h1 ((hcond1_1 t).mp h))) (noFlush1_11 t (fun h => h1 ((hcond1_1 t).mp h)))]
    rw [Dat.leavesExact_idle (dat1 V c) 12 t (idleAt1_12 t (fun h => h1 ((hcond1_1 t).mp h))) (noFlush1_12 t (fun h => h1 ((hcond1_1 t).mp h)))]
    rw [Dat.leavesExact_idle (dat1 V c) 13 t (idleAt1_13 t (fun h => h1 ((hcond1_1 t).mp h))) (noFlush1_13 t (fun h => h1 ((hcond1_1 t).mp h)))]
    rw [Dat.leavesExact_idle (dat1 V c) 14 t (idleAt1_14 t (fun h => h1 ((hcond1_1 t).mp h))) (noFlush1_14 t (fun h => h1 ((hcond1_1 t).mp h)))]
    rw [outsAt1_A V c t h0 h1]
    unfold out1_A_10 sout1_A_0 sout1_A_1; (try dsimp only)
    rw [PhiS1_castSucc V c t, PhiS1_zero V c _ _ (by omega), PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRun1_A c (grid1.coords t) _ _ _ _ _ _ _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2.2.2.2.2.2 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, ⟨%e10, H10⟩, H11, H12, H13, H14, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (cover1_A_10 c _ _ _ _ _ _ _ _ _ _ _ _ _ _ _ _ _ _ _ _ _ _ _ _ _ _ _ _ _ _ _ _ _ _ _ _ _ _ _ _ _ _ _ _ _ _ _)
    isplitl [H11]; · iexists _; iexact H11
    isplitl [H12]; · iexists _; iexact H12
    isplitl [H13]; · iexists _; iexact H13
    iexists _; iexact H14
  · have hz : t.val ≠ 0 := by omega
    simp only [before1_10_pos V c t h0]
    rw [PhiS1_castSucc V c t, PhiS1_pos V c _ _ hz]
    by_cases h1 : t.val % 5 = 4
    · rw [show (dat1 V c).leavesExact 11 t = owns (c : Thread nD τ) (ms1_11 t) fullShare ((dat1 V c).after 11 t) from by
          unfold Dat.leavesExact; rw [liveAt1_11_C t ((hcond1_1 t).mpr h1)], after1_11]
      rw [show (dat1 V c).leavesExact 12 t = owns (c : Thread nD τ) (ms1_12 t) fullShare ((dat1 V c).after 12 t) from by
          unfold Dat.leavesExact; rw [liveAt1_12_C t ((hcond1_1 t).mpr h1)], after1_12]
      rw [show (dat1 V c).leavesExact 13 t = owns (c : Thread nD τ) (ms1_13 t) fullShare ((dat1 V c).after 13 t) from by
          unfold Dat.leavesExact; rw [liveAt1_13_C t ((hcond1_1 t).mpr h1)], after1_13]
      rw [show (dat1 V c).leavesExact 14 t = owns (c : Thread nD τ) (ms1_14 t) fullShare ((dat1 V c).after 14 t) from by
          unfold Dat.leavesExact; rw [liveAt1_14_C t ((hcond1_1 t).mpr h1)], after1_14]
      rw [outsAt1_C V c t h0 h1]
      unfold out1_C_10 out1_C_11 out1_C_12 out1_C_13 out1_C_14 sout1_C_0 sout1_C_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_C c (grid1.coords t) _ _ _ _ _ _ _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, ⟨%e10, H10⟩, ⟨%e11, H11⟩, ⟨%e12, H12⟩, ⟨%e13, H13⟩, ⟨%e14, H14⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover1_C_10 c _ _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_C_11 c _ _ _ _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover1_C_12 c _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover1_C_13 c _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover1_C_14 c _ _ _ _ _ _ _ _ _ _ _ _ _ _ _ _ _ _ _ _ _ _ _ _ _ _ _ _ _ _ _ _ _ _ _ _ _ _ _ _ _ _ _ _ _ _ _ _ _ _)
    · rw [Dat.leavesExact_idle (dat1 V c) 11 t (idleAt1_11 t (fun h => h1 ((hcond1_1 t).mp h))) (noFlush1_11 t (fun h => h1 ((hcond1_1 t).mp h)))]
      rw [Dat.leavesExact_idle (dat1 V c) 12 t (idleAt1_12 t (fun h => h1 ((hcond1_1 t).mp h))) (noFlush1_12 t (fun h => h1 ((hcond1_1 t).mp h)))]
      rw [Dat.leavesExact_idle (dat1 V c) 13 t (idleAt1_13 t (fun h => h1 ((hcond1_1 t).mp h))) (noFlush1_13 t (fun h => h1 ((hcond1_1 t).mp h)))]
      rw [Dat.leavesExact_idle (dat1 V c) 14 t (idleAt1_14 t (fun h => h1 ((hcond1_1 t).mp h))) (noFlush1_14 t (fun h => h1 ((hcond1_1 t).mp h)))]
      rw [outsAt1_B V c t h0 h1]
      unfold out1_B_10 sout1_B_0 sout1_B_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun1_B c (grid1.coords t) _ _ _ _ _ _ _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _ _ _).2.2.2.2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      iintro ⟨H0, H1, H2, H3, H4, H5, H6, H7, H8, H9, ⟨%e10, H10⟩, H11, H12, H13, H14, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (cover1_B_10 c _ _ _ _ _ _ _ _ _ _ _ _ _ _ _ _ _ _ _ _ _ _ _ _ _ _ _ _ _ _ _ _ _ _ _ _ _ _ _ _ _ _ _ _ _ _ _ _ _ _)
      isplitl [H11]; · iexists _; iexact H11
      isplitl [H12]; · iexists _; iexact H12
      isplitl [H13]; · iexists _; iexact H13
      iexists _; iexact H14

/-- The library's body obligation for the second launch, at every tile. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first tile; after the last tile the
    invariant gives it back, the scratch buffers' contents forgotten. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have ht : (Fin.last cfg1.N).val ≠ 0 := by rw [Fin.val_last]; have : cfg1.N = 5 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.Hand

end
-- ==== Proof.KI.Reg2.lean ====
/-
  The third pass on one block of 10000 rows: from the rows `x`, the sector matrix `s2`, the two
  folded layer matrices `M_so`, `M_og`, the two folded bias rows `v_so`, `v_g` and `W_out`, the
  body stores two row blocks,
      skip_out = leaky (softmax_rows (x · s2ᵀ) · M_so + v_so)
      to_gnn   = leaky (x · W_outᵀ + softmax_rows (x · s2ᵀ) · M_og + v_g),
  each by one store covering the whole block. Every grid point does the same thing (one control
  case), nothing is carried from one point to the next, and the body keeps no scratch, so what a
  point leaves in each output block is a function of that point's input blocks alone
  (`out2_7`, `out2_8`). Stated at any entry contents `V` of the unscoped buffers and at any
  float instance.
-/
import proofs.«167790_g44066364457491_cont_8to1_c_744_34_alg».proof.Proof.Gen.KernelIdeal.Launch
import proofs.«167790_g44066364457491_cont_8to1_c_744_34_alg».proof.Proof.Gen.KernelIdeal.Skeleton
import proofs.«167790_g44066364457491_cont_8to1_c_744_34_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, whether it was fetched there
    or (for the six small operands, fetched once) is still the block of the first point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is the whole of its buffer -/

abbrev rRows : Rect S10000x128 := Rect.unit (s := S10000x128) ![0, 0] S10000x128.size inb_S10000x128_S10000x128_0_0
abbrev rSec : Rect S32x128 := Rect.unit (s := S32x128) ![0, 0] S32x128.size inb_S32x128_S32x128_0_0
abbrev rBias : Rect S1x128 := Rect.unit (s := S1x128) ![0, 0] S1x128.size inb_S1x128_S1x128_0_0
abbrev rW : Rect S128x128 := Rect.unit (s := S128x128) ![0, 0] S128x128.size inb_S128x128_S128x128_0_0

/-! ## What the body leaves in the two output blocks -/

/-- The `skip_out` block: one store of `leaky (w · M_so + v_so)`, `w` the row softmax of `x · s2ᵀ`. -/
def out2_7 (x0 : Vec F S10000x128 .f32) (x1 x2 : Vec F S32x128 .f32) (x4 : Vec F S1x128 .f32) : Vec F S10000x128 .f32 :=
  View.canon [⟨rRows, k2_pay3 (View.ld x0 rRows) (View.ld x1 rSec) (View.ld x2 rSec) (View.ld x4 rBias)⟩]

/-- The `to_gnn` block: one store of `leaky (x · W_outᵀ + w · M_og + v_g)`. -/
def out2_8 (x0 : Vec F S10000x128 .f32) (x1 x3 : Vec F S32x128 .f32) (x5 : Vec F S1x128 .f32) (x6 : Vec F S128x128 .f32) : Vec F S10000x128 .f32 :=
  View.canon [⟨rRows, k2_pay1 (k2_pay4 (View.ld x0 rRows) (View.ld x1 rSec) (View.ld x6 rW) (View.ld x3 rSec)) (k2_pay5 (View.ld x5 rBias))⟩]

/-- One store over the whole block covers it. -/
theorem cover2 (p0 : Vec F S10000x128 .f32) (y : S10000x128.Idx) :
    ∃ pc ∈ ([⟨rRows, p0⟩] : List (View.Piece (Elt F) S10000x128 .f32)), y ∈ pc.1.set :=
  View.cover_of_tiled [⟨rRows, p0⟩] S10000x128.size (by rfl) y

/-! ## The body's triple -/

set_option maxHeartbeats 4000000 in
/-- From the seven input buffers at known contents and the two output buffers at anything, the body
    runs to its return with the inputs as they were and the outputs at `out2_7`, `out2_8`. -/
theorem sound_kernel2 (c : Dev nD) (E : Set ℕ) (i : grid2.Coords) (arg1 : Memref sig .tc .vmem S10000x128 .f32) (harg1 : arg1.IsWhole) (arg2 : Memref sig .tc .vmem S32x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S10000x128 .f32) (harg8 : arg8.IsWhole) (arg9 : Memref sig .tc .vmem S10000x128 .f32) (harg9 : arg9.IsWhole)
    (x0 : Vec F S10000x128 .f32) (x1 : Vec F S32x128 .f32) (x2 : Vec F S32x128 .f32) (x3 : Vec F S32x128 .f32) (x4 : Vec F S1x128 .f32) (x5 : Vec F S1x128 .f32) (x6 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x4) ∗ owns (c : Thread nD τ) arg9 fullShare (out2_8 x0 x1 x3 x5 x6)) -∗ K ⟨⟩))
      ⊢ wp frame (wpE (defs₀ (F := F)) Variants.none c none) E (cc2__pass3_kernel i arg1 harg1 arg2 harg2 arg3 harg3 arg4 harg4 arg5 harg5 arg6 harg6 arg7 harg7 arg8 harg8 arg9 harg9) K := by
  simp only [cc2__pass3_kernel_eq_skeleton]; unfold cc2__pass3_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover2 _)
  iexists _; isplitr
  swap; · iexact H8
  ipureintro
  try dsimp only
  exact View.read_writes_eq_canon _ _ _ (cover2 _)

/-! ## The proof data -/

/-- After the body at point `t` each input buffer holds its block and each output buffer the
    function above of the point's input blocks; the invariant is the scoped rest, untouched; nothing
    is owed; every array is held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 4 t)
    | ⟨8, _⟩ => out2_8 (iblk2 V c 0 t) (iblk2 V c 1 t) (iblk2 V c 3 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 4 t) := by dsimp only [dat2]
theorem after2_8 (c : Dev nD) (t : Fin cfg2.N) : (dat2 V c).after 8 t = out2_8 (iblk2 V c 0 t) (iblk2 V c 1 t) (iblk2 V c 3 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the input buffers hold their blocks, so the triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for the third launch, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The three launches in sequence, the four reshapes of the bias vectors between the first and the
  second.

  The contents of the unscoped buffers at each boundary are named in turn: as launched; after the
  first launch (the `sector` array at what its five tiles leave); after the reshapes; after the
  second launch (`sector2` and the four folded layer arrays at what its five tiles leave); after
  the third (the two result arrays at what its ten blocks leave). Each launch is entered from
  "every unscoped buffer at the contents so far, the generator register at some state, nothing
  owed" and left at the next such state; the first one splits the adjacency's array by quarters
  among its four windows and joins it back. From these the whole program runs to the end, and in
  every final state every unscoped buffer holds the last contents: in particular the ten arguments
  hold what they were launched with.
-/
import proofs.«167790_g44066364457491_cont_8to1_c_744_34_alg».proof.Proof.KI.RunCond
import proofs.«167790_g44066364457491_cont_8to1_c_744_34_alg».proof.Proof.KI.Shared0
import proofs.«167790_g44066364457491_cont_8to1_c_744_34_alg».proof.Proof.KI.Reg1
import proofs.«167790_g44066364457491_cont_8to1_c_744_34_alg».proof.Proof.KI.Reg2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- As launched, read at the TensorCore's references. -/
abbrev Vin0 : (c : Dev nD) → (b : Ref sig .tc) → Buf (Elt F) ((c : Thread nD τ).loc b) := fun c b => V0 m c b
/-- What the first launch leaves in `sector`'s array. -/
def X0 (c : Dev nD) : Buf (Elt F) ((c : Thread nD τ).loc main_call0_v0) := (dat0 (Vin0 m) c).arrAt 5 cfg0.N
def U1 (c : Dev nD) : Valuation τ sig (Elt F) := Function.update (V0 m c) main_call0_v0 (X0 m c)
/-- After the four reshapes. -/
def U2 (c : Dev nD) : Valuation τ sig (Elt F) := StableHlo.after hostOps1 (U1 m c)
abbrev Vin1 : (c : Dev nD) → (b : Ref sig .tc) → Buf (Elt F) ((c : Thread nD τ).loc b) := fun c b => U2 m c b
/-- What the second launch leaves in its five result arrays. -/
def X1_0 (c : Dev nD) : Buf (Elt F) ((c : Thread nD τ).loc main_call0_v5_0) := (dat1 (Vin1 m) c).arrAt 10 cfg1.N
def X1_1 (c : Dev nD) : Buf (Elt F) ((c : Thread nD τ).loc main_call0_v5_1) := (dat1 (Vin1 m) c).arrAt 11 cfg1.N
def X1_2 (c : Dev nD) : Buf (Elt F) ((c : Thread nD τ).loc main_call0_v5_2) := (dat1 (Vin1 m) c).arrAt 12 cfg1.N
def X1_3 (c : Dev nD) : Buf (Elt F) ((c : Thread nD τ).loc main_call0_v5_3) := (dat1 (Vin1 m) c).arrAt 13 cfg1.N
def X1_4 (c : Dev nD) : Buf (Elt F) ((c : Thread nD τ).loc main_call0_v5_4) := (dat1 (Vin1 m) c).arrAt 14 cfg1.N
def U3 (c : Dev nD) : Valuation τ sig (Elt F) := Function.update (Function.update (Function.update (Function.update (Function.update (U2 m c) main_call0_v5_0 (X1_0 m c)) main_call0_v5_1 (X1_1 m c)) main_call0_v5_2 (X1_2 m c)) main_call0_v5_3 (X1_3 m c)) main_call0_v5_4 (X1_4 m c)
abbrev Vin2 : (c : Dev nD) → (b : Ref sig .tc) → Buf (Elt F) ((c : Thread nD τ).loc b) := fun c b => U3 m c b
/-- What the third launch leaves in the two result arrays. -/
def X2_7 (c : Dev nD) : Buf (Elt F) ((c : Thread nD τ).loc main_v0_0) := (dat2 (Vin2 m) c).arrAt 7 cfg2.N
def X2_8 (c : Dev nD) : Buf (Elt F) ((c : Thread nD τ).loc main_v0_1) := (dat2 (Vin2 m) c).arrAt 8 cfg2.N
def U4 (c : Dev nD) : Valuation τ sig (Elt F) := Function.update (Function.update (U3 m c) main_v0_0 (X2_7 m c)) main_v0_1 (X2_8 m c)
abbrev Vout2 : (c : Dev nD) → (b : Ref sig .tc) → Buf (Elt F) ((c : Thread nD τ).loc b) := fun c b => U4 m c b
abbrev Vout1 : (c : Dev nD) → (b : Ref sig .tc) → Buf (Elt F) ((c : Thread nD τ).loc b) := fun c b => U3 m c b
abbrev Vout0 : (c : Dev nD) → (b : Ref sig .tc) → Buf (Elt F) ((c : Thread nD τ).loc b) := fun c b => U1 m c b

/-- What each launch leaves in each array it may change, gathered as one family. -/
def outs : Outs (F := F) := fun _ r c =>
  if h : r = main_call0_v0 then h ▸ X0 m c
  else if h : r = main_call0_v5_0 then h ▸ X1_0 m c
  else if h : r = main_call0_v5_1 then h ▸ X1_1 m c
  else if h : r = main_call0_v5_2 then h ▸ X1_2 m c
  else if h : r = main_call0_v5_3 then h ▸ X1_3 m c
  else if h : r = main_call0_v5_4 then h ▸ X1_4 m c
  else if h : r = main_v0_0 then h ▸ X2_7 m c
  else if h : r = main_v0_1 then h ▸ X2_8 m c
  else m ((c : Thread nD τ).loc r)

theorem outs_v0 (J : ℕ) (c : Dev nD) : outs m J main_call0_v0 c = X0 m c := by unfold outs; rw [dif_pos rfl]
theorem outs_v5_0 (J : ℕ) (c : Dev nD) : outs m J main_call0_v5_0 c = X1_0 m c := by unfold outs; rw [dif_neg (show (main_call0_v5_0 : Ref sig .tc) ≠ main_call0_v0 by decide), dif_pos rfl]
theorem outs_v5_1 (J : ℕ) (c : Dev nD) : outs m J main_call0_v5_1 c = X1_1 m c := by unfold outs; rw [dif_neg (show (main_call0_v5_1 : Ref sig .tc) ≠ main_call0_v0 by decide), dif_neg (show (main_call0_v5_1 : Ref sig .tc) ≠ main_call0_v5_0 by decide), dif_pos rfl]
theorem outs_v5_2 (J : ℕ) (c : Dev nD) : outs m J main_call0_v5_2 c = X1_2 m c := by unfold outs; rw [dif_neg (show (main_call0_v5_2 : Ref sig .tc) ≠ main_call0_v0 by decide), dif_neg (show (main_call0_v5_2 : Ref sig .tc) ≠ main_call0_v5_0 by decide), dif_neg (show (main_call0_v5_2 : Ref sig .tc) ≠ main_call0_v5_1 by decide), dif_pos rfl]
theorem outs_v5_3 (J : ℕ) (c : Dev nD) : outs m J main_call0_v5_3 c = X1_3 m c := by unfold outs; rw [dif_neg (show (main_call0_v5_3 : Ref sig .tc) ≠ main_call0_v0 by decide), dif_neg (show (main_call0_v5_3 : Ref sig .tc) ≠ main_call0_v5_0 by decide), dif_neg (show (main_call0_v5_3 : Ref sig .tc) ≠ main_call0_v5_1 by decide), dif_neg (show (main_call0_v5_3 : Ref sig .tc) ≠ main_call0_v5_2 by decide), dif_pos rfl]
theorem outs_v5_4 (J : ℕ) (c : Dev nD) : outs m J main_call0_v5_4 c = X1_4 m c := by unfold outs; rw [dif_neg (show (main_call0_v5_4 : Ref sig .tc) ≠ main_call0_v0 by decide), dif_neg (show (main_call0_v5_4 : Ref sig .tc) ≠ main_call0_v5_0 by decide), dif_neg (show (main_call0_v5_4 : Ref sig .tc) ≠ main_call0_v5_1 by decide), dif_neg (show (main_call0_v5_4 : Ref sig .tc) ≠ main_call0_v5_2 by decide), dif_neg (show (main_call0_v5_4 : Ref sig .tc) ≠ main_call0_v5_3 by decide), dif_pos rfl]
theorem outs_r0 (J : ℕ) (c : Dev nD) : outs m J main_v0_0 c = X2_7 m c := by unfold outs; rw [dif_neg (show (main_v0_0 : Ref sig .tc) ≠ main_call0_v0 by decide), dif_neg (show (main_v0_0 : Ref sig .tc) ≠ main_call0_v5_0 by decide), dif_neg (show (main_v0_0 : Ref sig .tc) ≠ main_call0_v5_1 by decide), dif_neg (show (main_v0_0 : Ref sig .tc) ≠ main_call0_v5_2 by decide), dif_neg (show (main_v0_0 : Ref sig .tc) ≠ main_call0_v5_3 by decide), dif_neg (show (main_v0_0 : Ref sig .tc) ≠ main_call0_v5_4 by decide), dif_pos rfl]
theorem outs_r1 (J : ℕ) (c : Dev nD) : outs m J main_v0_1 c = X2_8 m c := by unfold outs; rw [dif_neg (show (main_v0_1 : Ref sig .tc) ≠ main_call0_v0 by decide), dif_neg (show (main_v0_1 : Ref sig .tc) ≠ main_call0_v5_0 by decide), dif_neg (show (main_v0_1 : Ref sig .tc) ≠ main_call0_v5_1 by decide), dif_neg (show (main_v0_1 : Ref sig .tc) ≠ main_call0_v5_2 by decide), dif_neg (show (main_v0_1 : Ref sig .tc) ≠ main_call0_v5_3 by decide), dif_neg (show (main_v0_1 : Ref sig .tc) ≠ main_call0_v5_4 by decide), dif_neg (show (main_v0_1 : Ref sig .tc) ≠ main_v0_0 by decide), dif_pos rfl]

/-- The boundary contents of the three launches at this family are the ones named above. -/
theorem V1_eq (c : Dev nD) : V1 m (outs m) c = U1 m c := by unfold U1; simp only [V1, outs_v0]
theorem V2_eq (c : Dev nD) : V2 m (outs m) c = U2 m c := by unfold U2; simp only [V2]; rw [V1_eq]
theorem V3_eq (c : Dev nD) : V3 m (outs m) c = U3 m c := by unfold U3; simp only [V3, outs_v5_0, outs_v5_1, outs_v5_2, outs_v5_3, outs_v5_4]; rw [V2_eq]
theorem V4_eq (c : Dev nD) : V4 m (outs m) c = U4 m c := by unfold U4; simp only [V4, outs_r0, outs_r1]; rw [V3_eq]

theorem U1_v0 (c : Dev nD) : U1 m c main_call0_v0 = X0 m c := by unfold U1; rw [Function.update_self]
theorem U3_v5_0 (c : Dev nD) : U3 m c main_call0_v5_0 = X1_0 m c := by
  unfold U3; rw [Function.update_of_ne (StableHlo.devRef_ne_of_ne (show (main_call0_v5_0 : Ref sig .tc) ≠ main_call0_v5_4 by decide)), Function.update_of_ne (StableHlo.devRef_ne_of_ne (show (main_call0_v5_0 : Ref sig .tc) ≠ main_call0_v5_3 by decide)), Function.update_of_ne (StableHlo.devRef_ne_of_ne (show (main_call0_v5_0 : Ref sig .tc) ≠ main_call0_v5_2 by decide)), Function.update_of_ne (StableHlo.devRef_ne_of_ne (show (main_call0_v5_0 : Ref sig .tc) ≠ main_call0_v5_1 by decide)), Function.update_self]
theorem U3_v5_1 (c : Dev nD) : U3 m c main_call0_v5_1 = X1_1 m c := by
  unfold U3; rw [Function.update_of_ne (StableHlo.devRef_ne_of_ne (show (main_call0_v5_1 : Ref sig .tc) ≠ main_call0_v5_4 by decide)), Function.update_of_ne (StableHlo.devRef_ne_of_ne (show (main_call0_v5_1 : Ref sig .tc) ≠ main_call0_v5_3 by decide)), Function.update_of_ne (StableHlo.devRef_ne_of_ne (show (main_call0_v5_1 : Ref sig .tc) ≠ main_call0_v5_2 by decide)), Function.update_self]
theorem U3_v5_2 (c : Dev nD) : U3 m c main_call0_v5_2 = X1_2 m c := by
  unfold U3; rw [Function.update_of_ne (StableHlo.devRef_ne_of_ne (show (main_call0_v5_2 : Ref sig .tc) ≠ main_call0_v5_4 by decide)), Function.update_of_ne (StableHlo.devRef_ne_of_ne (show (main_call0_v5_2 : Ref sig .tc) ≠ main_call0_v5_3 by decide)), Function.update_self]
theorem U3_v5_3 (c : Dev nD) : U3 m c main_call0_v5_3 = X1_3 m c := by
  unfold U3; rw [Function.update_of_ne (StableHlo.devRef_ne_of_ne (show (main_call0_v5_3 : Ref sig .tc) ≠ main_call0_v5_4 by decide)), Function.update_self]
theorem U3_v5_4 (c : Dev nD) : U3 m c main_call0_v5_4 = X1_4 m c := by
  unfold U3; rw [Function.update_self]
theorem U4_r0 (c : Dev nD) : U4 m c main_v0_0 = X2_7 m c := by unfold U4; rw [Function.update_of_ne (StableHlo.devRef_ne_of_ne (show (main_v0_0 : Ref sig .tc) ≠ main_v0_1 by decide)), Function.update_self]
theorem U4_r1 (c : Dev nD) : U4 m c main_v0_1 = X2_8 m c := by unfold U4; rw [Function.update_self]

/-! ## The proof data family and what rides beside the buffers -/

abbrev 𝒱₀ : Variants := Variants.none
abbrev L : GSem nD τ sig → Finset Unit := fun _ => ∅
abbrev lv : GSem nD τ sig → Unit → ℕ := fun _ _ => 0

/-- Every launch's proof data, each at its own entry contents. -/
def pdats : (p : Fin 3) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c

/-- Beside the buffers: the generator register at some state, and nothing owed. -/
abbrev R (c : Dev nD) : sProp 𝕄 := iprop((∃ r, prngReg c r) ∗ ∃ W, owes (c : Thread nD τ) (0 : CellTallies nD τ sig Unit) W)

/-! ## What each launch's arrays hold at its exit, against the next boundary's contents -/

theorem hF0 (c : Dev nD) (w : Fin cfg0.W) : (dat0 (Vin0 m) c).arrAt w cfg0.N = Vout0 m c (Pipeline.arrRef spec0 w) := by
  match w with
  | ⟨5, _⟩ => exact (U1_v0 m c).symm
  | ⟨0, _⟩ => exact ((dat0 (Vin0 m) c).arrAt_in 0 rfl _).trans ((A_eq0 (Vin0 m) c 0).trans (Function.update_of_ne (StableHlo.devRef_ne_of_ne (show (main_arg0 : Ref sig .tc) ≠ main_call0_v0 by decide)) ..).symm)
  | ⟨1, _⟩ => exact ((dat0 (Vin0 m) c).arrAt_in 1 rfl _).trans ((A_eq0 (Vin0 m) c 1).trans (Function.update_of_ne (StableHlo.devRef_ne_of_ne (show (main_arg1 : Ref sig .tc) ≠ main_call0_v0 by decide)) ..).symm)
  | ⟨2, _⟩ => exact ((dat0 (Vin0 m) c).arrAt_in 2 rfl _).trans ((A_eq0 (Vin0 m) c 2).trans (Function.update_of_ne (StableHlo.devRef_ne_of_ne (show (main_arg1 : Ref sig .tc) ≠ main_call0_v0 by decide)) ..).symm)
  | ⟨3, _⟩ => exact ((dat0 (Vin0 m) c).arrAt_in 3 rfl _).trans ((A_eq0 (Vin0 m) c 3).trans (Function.update_of_ne (StableHlo.devRef_ne_of_ne (show (main_arg1 : Ref sig .tc) ≠ main_call0_v0 by decide)) ..).symm)
  | ⟨4, _⟩ => exact ((dat0 (Vin0 m) c).arrAt_in 4 rfl _).trans ((A_eq0 (Vin0 m) c 4).trans (Function.update_of_ne (StableHlo.devRef_ne_of_ne (show (main_arg1 : Ref sig .tc) ≠ main_call0_v0 by decide)) ..).symm)

theorem hrest0 (c : Dev nD) : ∀ b, b ∉ Finset.univ.image (Pipeline.arrRef spec0) → Vout0 m c b = Vin0 m c b := fun b hb =>
  Function.update_of_ne (StableHlo.devRef_ne_of_ne fun e => hb (Finset.mem_image.mpr ⟨5, Finset.mem_univ _, e.symm⟩)) _ _

/-- Off the five result arrays the second launch changes nothing. -/
theorem U3_of (c : Dev nD) (b : Ref sig .tc) (h : b ∉ ([main_call0_v5_0, main_call0_v5_1, main_call0_v5_2, main_call0_v5_3, main_call0_v5_4] : List (Ref sig .tc))) :
    U3 m c b = U2 m c b :=
  (congrFun (V3_eq m c) b).symm.trans ((V3_of m (outs m) c b h).trans (congrFun (V2_eq m c) b))

/-- Off the two result arrays the third launch changes nothing. -/
theorem U4_of (c : Dev nD) (b : Ref sig .tc) (h : b ∉ ([main_v0_0, main_v0_1] : List (Ref sig .tc))) : U4 m c b = U3 m c b :=
  (congrFun (V4_eq m c) b).symm.trans ((V4_of m (outs m) c b h).trans (congrFun (V3_eq m c) b))

theorem hF1 (c : Dev nD) (w : Fin cfg1.W) : (dat1 (Vin1 m) c).arrAt w cfg1.N = Vout1 m c (Pipeline.arrRef spec1 w) := by
  match w with
  | ⟨0, _⟩ => exact ((dat1 (Vin1 m) c).arrAt_in 0 rfl _).trans ((A_eq1 (Vin1 m) c 0).trans (U3_of m c _ (by decide)).symm)
  | ⟨1, _⟩ => exact ((dat1 (Vin1 m) c).arrAt_in 1 rfl _).trans ((A_eq1 (Vin1 m) c 1).trans (U3_of m c _ (by decide)).symm)
  | ⟨2, _⟩ => exact ((dat1 (Vin1 m) c).arrAt_in 2 rfl _).trans ((A_eq1 (Vin1 m) c 2).trans (U3_of m c _ (by decide)).symm)
  | ⟨3, _⟩ => exact ((dat1 (Vin1 m) c).arrAt_in 3 rfl _).trans ((A_eq1 (Vin1 m) c 3).trans (U3_of m c _ (by decide)).symm)
  | ⟨4, _⟩ => exact ((dat1 (Vin1 m) c).arrAt_in 4 rfl _).trans ((A_eq1 (Vin1 m) c 4).trans (U3_of m c _ (by decide)).symm)
  | ⟨5, _⟩ => exact ((dat1 (Vin1 m) c).arrAt_in 5 rfl _).trans ((A_eq1 (Vin1 m) c 5).trans (U3_of m c _ (by decide)).symm)
  | ⟨6, _⟩ => exact ((dat1 (Vin1 m) c).arrAt_in 6 rfl _).trans ((A_eq1 (Vin1 m) c 6).trans (U3_of m c _ (by decide)).symm)
  | ⟨7, _⟩ => exact ((dat1 (Vin1 m) c).arrAt_in 7 rfl _).trans ((A_eq1 (Vin1 m) c 7).trans (U3_of m c _ (by decide)).symm)
  | ⟨8, _⟩ => exact ((dat1 (Vin1 m) c).arrAt_in 8 rfl _).trans ((A_eq1 (Vin1 m) c 8).trans (U3_of m c _ (by decide)).symm)
  | ⟨9, _⟩ => exact ((dat1 (Vin1 m) c).arrAt_in 9 rfl _).trans ((A_eq1 (Vin1 m) c 9).trans (U3_of m c _ (by decide)).symm)
  | ⟨10, _⟩ => exact (U3_v5_0 m c).symm
  | ⟨11, _⟩ => exact (U3_v5_1 m c).symm
  | ⟨12, _⟩ => exact (U3_v5_2 m c).symm
  | ⟨13, _⟩ => exact (U3_v5_3 m c).symm
  | ⟨14, _⟩ => exact (U3_v5_4 m c).symm

theorem hrest1 (c : Dev nD) : ∀ b, b ∉ Finset.univ.image (Pipeline.arrRef spec1) → Vout1 m c b = Vin1 m c b := fun b hb =>
  U3_of m c b (by
    simp only [List.mem_cons, List.mem_nil_iff, or_false, not_or]
    exact ⟨fun e => hb (Finset.mem_image.mpr ⟨10, Finset.mem_univ _, e.symm⟩), fun e => hb (Finset.mem_image.mpr ⟨11, Finset.mem_univ _, e.symm⟩),
      fun e => hb (Finset.mem_image.mpr ⟨12, Finset.mem_univ _, e.symm⟩), fun e => hb (Finset.mem_image.mpr ⟨13, Finset.mem_univ _, e.symm⟩),
      fun e => hb (Finset.mem_image.mpr ⟨14, Finset.mem_univ _, e.symm⟩)⟩)

theorem hF2 (c : Dev nD) (w : Fin cfg2.W) : (dat2 (Vin2 m) c).arrAt w cfg2.N = Vout2 m c (Pipeline.arrRef spec2 w) := by
  match w with
  | ⟨0, _⟩ => exact ((dat2 (Vin2 m) c).arrAt_in 0 rfl _).trans ((A_eq2 (Vin2 m) c 0).trans (U4_of m c _ (by decide)).symm)
  | ⟨1, _⟩ => exact ((dat2 (Vin2 m) c).arrAt_in 1 rfl _).trans ((A_eq2 (Vin2 m) c 1).trans (U4_of m c _ (by decide)).symm)
  | ⟨2, _⟩ => exact ((dat2 (Vin2 m) c).arrAt_in 2 rfl _).trans ((A_eq2 (Vin2 m) c 2).trans (U4_of m c _ (by decide)).symm)
  | ⟨3, _⟩ => exact ((dat2 (Vin2 m) c).arrAt_in 3 rfl _).trans ((A_eq2 (Vin2 m) c 3).trans (U4_of m c _ (by decide)).symm)
  | ⟨4, _⟩ => exact ((dat2 (Vin2 m) c).arrAt_in 4 rfl _).trans ((A_eq2 (Vin2 m) c 4).trans (U4_of m c _ (by decide)).symm)
  | ⟨5, _⟩ => exact ((dat2 (Vin2 m) c).arrAt_in 5 rfl _).trans ((A_eq2 (Vin2 m) c 5).trans (U4_of m c _ (by decide)).symm)
  | ⟨6, _⟩ => exact ((dat2 (Vin2 m) c).arrAt_in 6 rfl _).trans ((A_eq2 (Vin2 m) c 6).trans (U4_of m c _ (by decide)).symm)
  | ⟨7, _⟩ => exact (U4_r0 m c).symm
  | ⟨8, _⟩ => exact (U4_r1 m c).symm

theorem hrest2 (c : Dev nD) : ∀ b, b ∉ Finset.univ.image (Pipeline.arrRef spec2) → Vout2 m c b = Vin2 m c b := fun b hb =>
  U4_of m c b (by
    simp only [List.mem_cons, List.mem_nil_iff, or_false, not_or]
    exact ⟨fun e => hb (Finset.mem_image.mpr ⟨7, Finset.mem_univ _, e.symm⟩), fun e => hb (Finset.mem_image.mpr ⟨8, Finset.mem_univ _, e.symm⟩)⟩)

/-- The third launch keeps no scratch: its invariant is the untouched scoped buffers throughout. -/
theorem hin2 (V : (c : Dev nD) → (b : Ref sig .tc) → Buf (Elt F) ((c : Thread nD τ).loc b)) (c : Dev nD) : Pipeline.ΦA spec2 c ⊢ (dat2 V c).Φ 0 := by
  rw [show (dat2 V c).Φ 0 = Pipeline.ΦA spec2 c from rfl]
theorem hout2 (V : (c : Dev nD) → (b : Ref sig .tc) → Buf (Elt F) ((c : Thread nD τ).loc b)) (c : Dev nD) : (dat2 V c).Φ (Fin.last cfg2.N) ⊢ Pipeline.ΦA spec2 c := by
  rw [show (dat2 V c).Φ (Fin.last cfg2.N) = Pipeline.ΦA spec2 c from rfl]

/-! ## The launches as segments -/

set_option backward.isDefEq.respectTransparency.types false in
/-- The first launch: entered from the launch contents, left with `sector`'s array at what the five
    tiles leave. The adjacency's array goes in by quarters and comes back whole. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := arrays_of_unscopedBufs0 (Vin0 m) c
    rw [Pipeline.unscopedBufs_held, show dat0 (Vin0 m) c = pdats m 0 c from rfl] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := unscopedBufs_of_arrays0 (Vin0 m) c (Vout0 m c) ((dat0 (Vin0 m) c).arrAt · cfg0.N) (hF0 m c) (hrest0 m c)
    rw [Pipeline.unscopedBufs_held, show dat0 (Vin0 m) c = pdats m 0 c from rfl] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered after the reshapes, left with its five result arrays at what the
    five tiles leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third launch: left with the two result arrays at what the ten blocks leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ L lv 2 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vin2 m) c)
    unfold Pipeline.ΦA
    iintro ⟨Hp, -, Hr⟩
    isplitl [Hr]; · iexact Hr
    iexact Hp
  hout c := by
    rw [Pipeline.ownSems0_none]
    refine BIBase.Entails.trans (hout2 (Vin2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (Vout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole program -/

set_option backward.isDefEq.respectTransparency.types false in
/-- Every weakly fair execution of the program from memory `m` with zero counters terminates, and in
    every final state every unscoped buffer holds the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U4 m c b) := by
  have h := run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V1_eq]; exact .rfl)
    (reg1 m) (fun c => by rw [V2_eq]; exact .rfl) (fun c => by rw [V3_eq]; exact .rfl)
    (reg2 m) (fun c => by rw [V3_eq]; exact .rfl) (fun c => by rw [V4_eq]; exact .rfl)
  exact (θ_run defs _ _).mono (fun r hr c b hb => (hr c b hb).trans (congrFun (V4_eq m c) b)) h

/-- The ten arguments end as launched: no launch and no reshape writes one. -/
theorem U4_arg (c : Dev nD) (b : Ref sig .tc) (h : b ∈ ([main_arg0, main_arg1, main_arg2, main_arg3, main_arg4, main_arg5, main_arg6, main_arg7, main_arg8, main_arg9] : List (Ref sig .tc))) :
    U4 m c b = m ((c : Thread nD τ).loc b) := by
  have e := congrFun (V4_eq m c) b
  simp only [List.mem_cons, List.mem_nil_iff, or_false] at h
  rcases h with rfl | rfl | rfl | rfl | rfl | rfl | rfl | rfl | rfl | rfl
  · exact e.symm.trans (V4_main_arg0 m (outs m) c)
  · exact e.symm.trans (V4_main_arg1 m (outs m) c)
  · exact e.symm.trans (V4_main_arg2 m (outs m) c)
  · exact e.symm.trans (V4_main_arg3 m (outs m) c)
  · exact e.symm.trans (V4_main_arg4 m (outs m) c)
  · exact e.symm.trans (V4_main_arg5 m (outs m) c)
  · exact e.symm.trans (V4_main_arg6 m (outs m) c)
  · exact e.symm.trans (V4_main_arg7 m (outs m) c)
  · exact e.symm.trans (V4_main_arg8 m (outs m) c)
  · exact e.symm.trans (V4_main_arg9 m (outs m) c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float instance: the program runs to the end, faults nowhere, and leaves its ten
    arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c (Proc.devRef .tc main_arg0) (mem_uc main_arg0 (by decide))).trans (U4_arg m c main_arg0 (by decide)),
    (h c (Proc.devRef .tc main_arg1) (mem_uc main_arg1 (by decide))).trans (U4_arg m c main_arg1 (by decide)),
    (h c (Proc.devRef .tc main_arg2) (mem_uc main_arg2 (by decide))).trans (U4_arg m c main_arg2 (by decide)),
    (h c (Proc.devRef .tc main_arg3) (mem_uc main_arg3 (by decide))).trans (U4_arg m c main_arg3 (by decide)),
    (h c (Proc.devRef .tc main_arg4) (mem_uc main_arg4 (by decide))).trans (U4_arg m c main_arg4 (by decide)),
    (h c (Proc.devRef .tc main_arg5) (mem_uc main_arg5 (by decide))).trans (U4_arg m c main_arg5 (by decide)),
    (h c (Proc.devRef .tc main_arg6) (mem_uc main_arg6 (by decide))).trans (U4_arg m c main_arg6 (by decide)),
    (h c (Proc.devRef .tc main_arg7) (mem_uc main_arg7 (by decide))).trans (U4_arg m c main_arg7 (by decide)),
    (h c (Proc.devRef .tc main_arg8) (mem_uc main_arg8 (by decide))).trans (U4_arg m c main_arg8 (by decide)),
    (h c (Proc.devRef .tc main_arg9) (mem_uc main_arg9 (by decide))).trans (U4_arg m c main_arg9 (by decide))⟩) (run_all m ρ)

/-- THE RUN WITH THE RESULTS NAMED: the two result arrays end at what the third launch's ten blocks
    leave, the arguments as launched. -/
theorem run_results (ρ : Dev nD → PrngReg) :
    θ_run defs (onTc (τ := τ) (main (F := F))) ⟨m, fun _ => 0, ρ⟩ (fun r => ∀ c : Dev nD,
      r.2.mem ((c.tc : Thread nD τ).loc main_v0_0) = X2_7 m c
      ∧ r.2.mem ((c.tc : Thread nD τ).loc main_v0_1) = X2_8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c (Proc.devRef .tc main_v0_0) (mem_uc main_v0_0 (by decide))).trans (U4_r0 m c),
    (h c (Proc.devRef .tc main_v0_1) (mem_uc main_v0_1 (by decide))).trans (U4_r1 m c),
    (h c (Proc.devRef .tc main_arg0) (mem_uc main_arg0 (by decide))).trans (U4_arg m c main_arg0 (by decide)),
    (h c (Proc.devRef .tc main_arg1) (mem_uc main_arg1 (by decide))).trans (U4_arg m c main_arg1 (by decide)),
    (h c (Proc.devRef .tc main_arg2) (mem_uc main_arg2 (by decide))).trans (U4_arg m c main_arg2 (by decide)),
    (h c (Proc.devRef .tc main_arg3) (mem_uc main_arg3 (by decide))).trans (U4_arg m c main_arg3 (by decide)),
    (h c (Proc.devRef .tc main_arg4) (mem_uc main_arg4 (by decide))).trans (U4_arg m c main_arg4 (by decide)),
    (h c (Proc.devRef .tc main_arg5) (mem_uc main_arg5 (by decide))).trans (U4_arg m c main_arg5 (by decide)),
    (h c (Proc.devRef .tc main_arg6) (mem_uc main_arg6 (by decide))).trans (U4_arg m c main_arg6 (by decide)),
    (h c (Proc.devRef .tc main_arg7) (mem_uc main_arg7 (by decide))).trans (U4_arg m c main_arg7 (by decide)),
    (h c (Proc.devRef .tc main_arg8) (mem_uc main_arg8 (by decide))).trans (U4_arg m c main_arg8 (by decide)),
    (h c (Proc.devRef .tc main_arg9) (mem_uc main_arg9 (by decide))).trans (U4_arg m c main_arg9 (by decide))⟩) (run_all m ρ)

end Cert.KernelIdeal.Hand

end
-- ==== Proof.Val0.Pieces.lean ====
/-
  The first pass on one tile, case by case, as arithmetic: what the body leaves in the [32,128]
  accumulator and in the [32,1] column-sum scratch, written over the tile's five input blocks and
  over what the tile before left. First tile: the zero fill plus the tile's contribution. Middle
  tile: the old contents plus the contribution. Last tile: the same, and then the accumulator divided
  by the new column sums.
-/
import proofs.«167790_g44066364457491_cont_8to1_c_744_34_alg».proof.Proof.KI.Reg0
import Idealize.ShloMosaic.Lib.Pipeline.Value
import Idealize.ShloMosaic.Lib.ValueIdx

set_option maxRecDepth 16384

noncomputable section

namespace Cert.Val0

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx (ix1 ix2)

variable {F : FTy → Type} [FloatOps F]

theorem hz : (![0, 0] : Fin 2 → Nat) = fun _ => 0 := funext fun a => by fin_cases a <;> rfl

/-! ## What each case leaves, as payloads of the blocks and of what the tile before left -/

/-- A middle tile: the old accumulator plus the tile's contribution. -/
theorem out_B (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i) (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) :
    out0_B_5 c i arg1 harg1 arg2 harg2 arg3 harg3 arg4 harg4 arg5 harg5 arg6 harg6 arg7 harg7 hc0 hc1 x0 x1 x2 x3 x4 xo5 xs0 = k0_pay1 (k0_pay4 x0 x1 x2 x3 x4) (k0_pay8 xo5) := by
  unfold out0_B_5
  rw [View.read_writes_eq_canon _ _ _ (cover0_B_5 c i arg1 harg1 arg2 harg2 arg3 harg3 arg4 harg4 arg5 harg5 arg6 harg6 arg7 harg7 hc0 hc1 x0 x1 x2 x3 x4 xo5 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread,
    View.ld_unit_zero (S := S20000x128) hz, View.ld_unit_zero (S := S5000x32) hz, View.ld_unit_zero (S := S32x128) hz, View.ld_unit_zero (S := S32x1) hz]

/-- A middle tile: the old column sums plus the tile's. -/
theorem sout_B (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : ¬cond0_1 i) (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) :
    sout0_B_0 c i arg1 harg1 arg2 harg2 arg3 harg3 arg4 harg4 arg5 harg5 arg6 harg6 arg7 harg7 hc0 hc1 x0 x1 x2 x3 x4 xo5 xs0 = k0_pay2 (k0_pay5 x1 x2 x3 x4) xs0 := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 xo5 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread,
    View.ld_unit_zero (S := S20000x128) hz, View.ld_unit_zero (S := S5000x32) hz, View.ld_unit_zero (S := S32x128) hz, View.ld_unit_zero (S := S32x1) hz]

/-- The first tile: the zero fill plus the tile's contribution. -/
theorem out_A (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i) (x0 : Vec F S20000x128 .f32) (x1 : Vec F S5000x32 .f32) (x2 : Vec F S5000x32 .f32) (x3 : Vec F S5000x32 .f32) (x4 : Vec F S5000x32 .f32) :
    out0_A_5 c i arg1 harg1 arg2 harg2 arg3 harg3 arg4 harg4 arg5 harg5 arg6 harg6 arg7 harg7 hc0 hc1 x0 x1 x2 x3 x4 = k0_pay1 (k0_pay4 x0 x1 x2 x3 x4) (k0_pay8 k0_pay6) := by
  unfold out0_A_5
  rw [View.read_writes_eq_canon _ _ _ (cover0_A_5 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S32x128) hz, View.readCov_unit_zero (S := S32x128) _ hz]
  simp only [View.readAt_eq_ld, harg1.read_unread, harg2.read_unread, harg3.read_unread, harg4.read_unread, harg5.read_unread, harg6.read_unread, harg7.read_unread,
    View.ld_unit_zero (S := S20000x128) hz, View.ld_unit_zero (S := S5000x32) hz, View.ld_unit_zero (S := S32x128) hz, View.ld_unit_zero (S := S32x1) hz]

/-- The first tile: the zero fill plus the tile's column sums. -/
theorem sout_A (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : cond0_0 i) (hc1 : ¬cond0_1 i) (x0 : Vec F S20000x128 .f32) (x1 : Vec F S5000x32 .f32) (x2 : Vec F S5000x32 .f32) (x3 : Vec F S5000x32 .f32) (x4 : Vec F S5000x32 .f32) :
    sout0_A_0 c i arg1 harg1 arg2 harg2 arg3 harg3 arg4 harg4 arg5 harg5 arg6 harg6 arg7 harg7 hc0 hc1 x0 x1 x2 x3 x4 = k0_pay2 (k0_pay5 x1 x2 x3 x4) k0_pay7 := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  rw [View.canon_cons_unit_zero (S := S32x1) hz, View.readCov_unit_zero (S := S32x1) _ hz]
  simp only [View.readAt_eq_ld, harg1.read_unread, harg2.read_unread, harg3.read_unread, harg4.read_unread, harg5.read_unread, harg6.read_unread, harg7.read_unread,
    View.ld_unit_zero (S := S20000x128) hz, View.ld_unit_zero (S := S5000x32) hz, View.ld_unit_zero (S := S32x128) hz, View.ld_unit_zero (S := S32x1) hz]

/-- The last tile: the accumulator as after a middle tile, divided by the new column sums. -/
theorem out_C (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i) (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) :
    out0_C_5 c i arg1 harg1 arg2 harg2 arg3 harg3 arg4 harg4 arg5 harg5 arg6 harg6 arg7 harg7 hc0 hc1 x0 x1 x2 x3 x4 xo5 xs0
      = k0_pay3 (k0_pay1 (k0_pay4 x0 x1 x2 x3 x4) (k0_pay8 xo5)) (k0_pay2 (k0_pay5 x1 x2 x3 x4) xs0) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xo5 xs0)]
  unfold kernelRun0_C
  dsimp only
  sl_unfold_words
  rw [View.canon_cons_unit_zero (S := S32x128) hz, View.readCov_unit_zero (S := S32x128) _ hz, View.readCov_unit_zero (S := S32x1) _ hz]
  simp only [View.readAt_eq_ld, harg1.read_unread, harg2.read_unread, harg3.read_unread, harg4.read_unread, harg5.read_unread, harg6.read_unread, harg7.read_unread,
    View.ld_unit_zero (S := S20000x128) hz, View.ld_unit_zero (S := S5000x32) hz, View.ld_unit_zero (S := S32x128) hz, View.ld_unit_zero (S := S32x1) hz]

/-- The last tile: the column sums as after a middle tile. -/
theorem sout_C (c : Dev nD) (i : grid0.Coords) (arg1 : Memref sig .tc .vmem S20000x128 .f32) (harg1 : arg1.IsWhole) (arg2 : Memref sig .tc .vmem S5000x32 .f32) (harg2 : arg2.IsWhole) (arg3 : Memref sig .tc .vmem S5000x32 .f32) (harg3 : arg3.IsWhole) (arg4 : Memref sig .tc .vmem S5000x32 .f32) (harg4 : arg4.IsWhole) (arg5 : Memref sig .tc .vmem S5000x32 .f32) (harg5 : arg5.IsWhole) (arg6 : Memref sig .tc .vmem S32x128 .f32) (harg6 : arg6.IsWhole) (arg7 : Memref sig .tc .vmem S32x1 .f32) (harg7 : arg7.IsWhole) (hc0 : ¬cond0_0 i) (hc1 : cond0_1 i) (x0 : Vec F S20000x128 .f32) (x1 : Vec F S5000x32 .f32) (x2 : Vec F S5000x32 .f32) (x3 : Vec F S5000x32 .f32) (x4 : Vec F S5000x32 .f32) (xo5 : Vec F S32x128 .f32) (xs0 : Vec F S32x1 .f32) :
    sout0_C_0 c i arg1 harg1 arg2 harg2 arg3 harg3 arg4 harg4 arg5 harg5 arg6 harg6 arg7 harg7 hc0 hc1 x0 x1 x2 x3 x4 xo5 xs0 = k0_pay2 (k0_pay5 x1 x2 x3 x4) xs0 := by
  unfold sout0_C_0
  rw [View.read_writes_eq_canon _ _ _ (scover0_C_0 c i arg1 harg1 arg2 harg2 arg3 harg3 arg4 harg4 arg5 harg5 arg6 harg6 arg7 harg7 hc0 hc1 x0 x1 x2 x3 x4 xo5 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread,
    View.ld_unit_zero (S := S20000x128) hz, View.ld_unit_zero (S := S5000x32) hz, View.ld_unit_zero (S := S32x128) hz, View.ld_unit_zero (S := S32x1) hz]

end Cert.Val0
-- ==== Proof.LibRowSoftmax.lean ====
/-
  A row normalised by its exponentials, and a one-axis contraction as a sum — general in every extent.

  * `rowMax`, `expRow`, `softRow`: for a row `sc` of extended reals indexed by `Fin S`, its maximum taken from the f32
    word of −∞ (the word is carried, never evaluated, so that two programs that print the same word agree by
    reading), the exponential of each entry's distance to that maximum, and each exponential over the sum of the
    row's exponentials. This is the row-wise softmax as both a kernel's lane reductions and a host's `reduce`
    operations compute it on the extended reals.
  * `max_fold_max_self`: a fold of `max` started from `a` is already at least `a`, so a further maximum with `a`
    changes nothing (a host softmax takes the maximum with −∞ once more after reducing from −∞).
  * `contraction_sum`: a contraction over ONE axis of extent `K` — how a matrix unit's product into a zero
    accumulator, and the host's `dot_general`, read on the extended reals — is the sum over that axis's coordinate
    of the two operands' entries, once each entry at the renamed contraction index is named. Whatever the operands'
    layouts (either may be contracted along either axis): the caller supplies the two index equations.

  No finiteness is needed anywhere.
-/
import Idealize.ShloMosaic.PureOps.Ideal.Laws
import Idealize.ShloMosaic.Lib.ValueIdx

noncomputable section

namespace Cert.Attn

open Idealize.ShloMosaic Idealize.ShloMosaic.ValueIdx

/-- The maximum of a row, taken from the f32 word of −∞. -/
def rowMax {S : Nat} (sc : Fin S → EReal) : EReal :=
  (Finset.univ : Finset (Fin S)).fold max (Ideal.ofBits .f32 0xFF800000#32) sc

/-- The exponential of each entry's distance to the row's maximum. -/
def expRow {S : Nat} (sc : Fin S → EReal) : Fin S → EReal := fun s => Ideal.exp (sc s - rowMax sc)

/-- A row normalised: each exponential over the sum of the row's exponentials. -/
def softRow {S : Nat} (sc : Fin S → EReal) : Fin S → EReal :=
  fun s => Ideal.div (expRow sc s) (∑ s' : Fin S, expRow sc s')

/-- The maximum with the starting value changes nothing: a fold of `max` from `a` is already at least `a`. -/
theorem max_fold_max_self {ι : Type} (s : Finset ι) (a : EReal) (f : ι → EReal) :
    max a (s.fold max a f) = s.fold max a f :=
  max_eq_right (by rw [Finset.le_fold_max]; exact Or.inl le_rfl)

/-- A contraction over ONE axis of extent `K` is the sum over that axis's coordinate, once each operand's entry at
    the renamed contraction index is named. -/
theorem contraction_sum {K : Nat} {sl sr so : Shape} (d : DotDims sl sr so) (hr : d.contr.rank = 1)
    (hs : d.contr.size ⟨0, by omega⟩ = K) (l : sl.Idx → EReal) (r : sr.Idx → EReal) (i : so.Idx) (L R : Fin K → EReal)
    (hl : ∀ k : Fin K, l (d.lhsIdx i ((contrEquiv1 d K hr hs).symm k)) = L k)
    (hw : ∀ k : Fin K, r (d.rhsIdx i ((contrEquiv1 d K hr hs).symm k)) = R k) :
    ∑ q : d.contr.Idx, l (d.lhsIdx i q) * r (d.rhsIdx i q) = ∑ k : Fin K, L k * R k := by
  rw [← Equiv.sum_comp (contrEquiv1 d K hr hs).symm]
  exact Finset.sum_congr rfl fun k _ => by rw [hl k, hw k]

end Cert.Attn

end
-- ==== Proof.Val0.Pay.lean ====
/-
  The first pass's arithmetic at one entry, on the extended reals. A quarter tile's product into a
  zero accumulator is the sum over its 5000 rows of the products (both operands are contracted along
  their rows); the tile's contribution adds four such sums left to right from zero, the x rows of the
  k-th quarter being rows 5000·k … of the tile; against the ones column the products are the
  entries themselves (`a * 1 = a`). The remaining payloads are entrywise: old plus new, and the
  quotient by the column sum of the same row.
-/
import proofs.«167790_g44066364457491_cont_8to1_c_744_34_alg».proof.Proof.Gen.KernelIdeal.Skeleton
import proofs.«167790_g44066364457491_cont_8to1_c_744_34_alg».proof.Proof.LibRowSoftmax
import Idealize.ShloMosaic.Lib.Pipeline.Value
import Idealize.ShloMosaic.Lib.ValueIdx
import Idealize.ShloMosaic.PureOps.Ideal.Laws

set_option maxRecDepth 16384

noncomputable section

namespace Cert.Val0

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx (ix1 ix2)

/-! ## One quarter tile: a contraction over its 5000 rows -/

theorem quarter_apply_lhs1 (i : S32x128.Idx) (q : dot_S5000x32_S5000x128_S32x128_0_0_1_1_n_n.contr.Idx) : (dot_S5000x32_S5000x128_S32x128_0_0_1_1_n_n.lhsIdx i q 1).val = (i 0).val := by
  unfold DotDims.lhsIdx
  rw [dif_neg (show ¬(1 : Fin S5000x32.rank) ∈ dot_S5000x32_S5000x128_S32x128_0_0_1_1_n_n.lhsBatch by decide), dif_pos (show (1 : Fin S5000x32.rank) ∈ dot_S5000x32_S5000x128_S32x128_0_0_1_1_n_n.lhsNonContracting by decide)]
  rfl
theorem quarter_apply_rhs1 (i : S32x128.Idx) (q : dot_S5000x32_S5000x128_S32x128_0_0_1_1_n_n.contr.Idx) : (dot_S5000x32_S5000x128_S32x128_0_0_1_1_n_n.rhsIdx i q 1).val = (i 1).val := by
  unfold DotDims.rhsIdx
  rw [dif_neg (show ¬(1 : Fin S5000x128.rank) ∈ dot_S5000x32_S5000x128_S32x128_0_0_1_1_n_n.rhsBatch by decide), dif_pos (show (1 : Fin S5000x128.rank) ∈ dot_S5000x32_S5000x128_S32x128_0_0_1_1_n_n.rhsNonContracting by decide)]
  rfl

/-- A quarter tile's product `eᵀ · x` into a zero accumulator, at (s, d): the sum over its 5000 rows. -/
theorem quarter_apply (l : FVec Ideal S5000x32 .f32) (r : FVec Ideal S5000x128 .f32) (s : Fin 32) (d : Fin 128) :
    (matmul dot_S5000x32_S5000x128_S32x128_0_0_1_1_n_n none l r (constant S32x128 .f32 0x00000000#32) : FVec Ideal S32x128 .f32) (ix2 s d)
      = ∑ k : Fin 5000, l (ix2 k s) * r (ix2 k d) := by
  simp only [matmul]
  rw [Ideal.matmul_constant_zero_apply]
  refine Cert.Attn.contraction_sum dot_S5000x32_S5000x128_S32x128_0_0_1_1_n_n rfl rfl l r (ix2 s d) (fun k => l (ix2 k s)) (fun k => r (ix2 k d))
    (fun k => congrArg l ?_) (fun k => congrArg r ?_)
  · have hk := ValueIdx.contrEquiv1_symm_val dot_S5000x32_S5000x128_S32x128_0_0_1_1_n_n 5000 rfl rfl k
    exact funext fun a => Fin.ext (by
      match a with
      | ⟨0, _⟩ => exact (dot_S5000x32_S5000x128_S32x128_0_0_1_1_n_n.lhsIdx_val_of_single rfl _ _).trans hk
      | ⟨1, _⟩ => exact quarter_apply_lhs1 _ _)
  · have hk := ValueIdx.contrEquiv1_symm_val dot_S5000x32_S5000x128_S32x128_0_0_1_1_n_n 5000 rfl rfl k
    exact funext fun a => Fin.ext (by
      match a with
      | ⟨0, _⟩ => exact (dot_S5000x32_S5000x128_S32x128_0_0_1_1_n_n.rhsIdx_val_of_single rfl _ _).trans hk
      | ⟨1, _⟩ => exact quarter_apply_rhs1 _ _)

theorem quarter1_apply_lhs1 (i : S32x1.Idx) (q : dot_S5000x32_S5000x1_S32x1_0_0_1_1_n_n.contr.Idx) : (dot_S5000x32_S5000x1_S32x1_0_0_1_1_n_n.lhsIdx i q 1).val = (i 0).val := by
  unfold DotDims.lhsIdx
  rw [dif_neg (show ¬(1 : Fin S5000x32.rank) ∈ dot_S5000x32_S5000x1_S32x1_0_0_1_1_n_n.lhsBatch by decide), dif_pos (show (1 : Fin S5000x32.rank) ∈ dot_S5000x32_S5000x1_S32x1_0_0_1_1_n_n.lhsNonContracting by decide)]
  rfl
theorem quarter1_apply_rhs1 (i : S32x1.Idx) (q : dot_S5000x32_S5000x1_S32x1_0_0_1_1_n_n.contr.Idx) : (dot_S5000x32_S5000x1_S32x1_0_0_1_1_n_n.rhsIdx i q 1).val = (i 1).val := by
  unfold DotDims.rhsIdx
  rw [dif_neg (show ¬(1 : Fin S5000x1.rank) ∈ dot_S5000x32_S5000x1_S32x1_0_0_1_1_n_n.rhsBatch by decide), dif_pos (show (1 : Fin S5000x1.rank) ∈ dot_S5000x32_S5000x1_S32x1_0_0_1_1_n_n.rhsNonContracting by decide)]
  rfl

/-- A quarter tile against a column, into a zero accumulator, at (s, 0): the sum over its 5000 rows. -/
theorem quarter1_apply (l : FVec Ideal S5000x32 .f32) (r : FVec Ideal S5000x1 .f32) (s : Fin 32) (d : Fin 1) :
    (matmul dot_S5000x32_S5000x1_S32x1_0_0_1_1_n_n none l r (constant S32x1 .f32 0x00000000#32) : FVec Ideal S32x1 .f32) (ix2 s d)
      = ∑ k : Fin 5000, l (ix2 k s) * r (ix2 k d) := by
  simp only [matmul]
  rw [Ideal.matmul_constant_zero_apply]
  refine Cert.Attn.contraction_sum dot_S5000x32_S5000x1_S32x1_0_0_1_1_n_n rfl rfl l r (ix2 s d) (fun k => l (ix2 k s)) (fun k => r (ix2 k d))
    (fun k => congrArg l ?_) (fun k => congrArg r ?_)
  · have hk := ValueIdx.contrEquiv1_symm_val dot_S5000x32_S5000x1_S32x1_0_0_1_1_n_n 5000 rfl rfl k
    exact funext fun a => Fin.ext (by
      match a with
      | ⟨0, _⟩ => exact (dot_S5000x32_S5000x1_S32x1_0_0_1_1_n_n.lhsIdx_val_of_single rfl _ _).trans hk
      | ⟨1, _⟩ => exact quarter1_apply_lhs1 _ _)
  · have hk := ValueIdx.contrEquiv1_symm_val dot_S5000x32_S5000x1_S32x1_0_0_1_1_n_n 5000 rfl rfl k
    exact funext fun a => Fin.ext (by
      match a with
      | ⟨0, _⟩ => exact (dot_S5000x32_S5000x1_S32x1_0_0_1_1_n_n.rhsIdx_val_of_single rfl _ _).trans hk
      | ⟨1, _⟩ => exact quarter1_apply_rhs1 _ _)

/-- The word of the ones column is 1. -/
theorem ofBits_one_f32 : Ideal.ofBits .f32 0x3F800000#32 = 1 := by simp [Ideal.ofBits, Ideal.ieee, -EReal.coe_mul]; norm_num

/-- Row `off + k` of a tile of 20000 rows. -/
abbrev rowAt (off : ℕ) (h : off + 5000 ≤ 20000) (k : Fin 5000) : Fin 20000 := ⟨off + k.val, by have := k.isLt; omega⟩

/-- A slice of 5000 rows of a tile, from row `off`, read at (k, d). -/
theorem slice_apply (v0 : Vec Ideal S20000x128 .f32) (off : ℕ) (h5 : off + 5000 ≤ 20000)
    (h : S20000x128.Slices ![off, 0] S5000x128) (k : Fin 5000) (d : Fin 128) :
    extractStridedSlice S5000x128 ![off, 0] v0 h (ix2 k d) = v0 (ix2 (rowAt off h5 k) d) := by
  unfold extractStridedSlice
  refine congrArg v0 (funext fun a => Fin.ext ?_)
  match a with
  | ⟨0, _⟩ => rfl
  | ⟨1, _⟩ => show 0 + d.val = d.val; omega

theorem add4_apply (z a b c e : FVec Ideal S32x128 .f32) (i : S32x128.Idx) :
    addf (addf (addf (addf z a) b) c) e i = (((z i + a i) + b i) + c i) + e i := rfl
theorem add4c_apply (z a b c e : FVec Ideal S32x1 .f32) (i : S32x1.Idx) :
    addf (addf (addf (addf z a) b) c) e i = (((z i + a i) + b i) + c i) + e i := rfl

/-! ## The payloads at an index -/

/-- The tile's contribution: four quarter contractions added left to right from zero. -/
theorem pay4_apply (x0 : Vec Ideal S20000x128 .f32) (x1 x2 x3 x4 : Vec Ideal S5000x32 .f32) (s : Fin 32) (d : Fin 128) :
    k0_pay4 (F := Ideal) x0 x1 x2 x3 x4 (ix2 s d)
      = (((0 + ∑ k : Fin 5000, x1 (ix2 k s) * x0 (ix2 (rowAt 0 (by omega) k) d))
          + ∑ k : Fin 5000, x2 (ix2 k s) * x0 (ix2 (rowAt 5000 (by omega) k) d))
          + ∑ k : Fin 5000, x3 (ix2 k s) * x0 (ix2 (rowAt 10000 (by omega) k) d))
          + ∑ k : Fin 5000, x4 (ix2 k s) * x0 (ix2 (rowAt 15000 (by omega) k) d) := by
  unfold k0_pay4
  refine (add4_apply _ _ _ _ _ _).trans ?_
  refine congrArg₂ (· + ·) (congrArg₂ (· + ·) (congrArg₂ (· + ·) (congrArg₂ (· + ·) ?_ ?_) ?_) ?_) ?_
  · exact Ideal.ofBits_zero_f32
  · exact (quarter_apply _ _ s d).trans (Finset.sum_congr rfl fun k _ => congrArg (x1 (ix2 k s) * ·) (slice_apply x0 0 (by omega) _ k d))
  · exact (quarter_apply _ _ s d).trans (Finset.sum_congr rfl fun k _ => congrArg (x2 (ix2 k s) * ·) (slice_apply x0 5000 (by omega) _ k d))
  · exact (quarter_apply _ _ s d).trans (Finset.sum_congr rfl fun k _ => congrArg (x3 (ix2 k s) * ·) (slice_apply x0 10000 (by omega) _ k d))
  · exact (quarter_apply _ _ s d).trans (Finset.sum_congr rfl fun k _ => congrArg (x4 (ix2 k s) * ·) (slice_apply x0 15000 (by omega) _ k d))

/-- The tile's column sums: the same against the ones column, `a * 1 = a`. -/
theorem pay5_apply (x1 x2 x3 x4 : Vec Ideal S5000x32 .f32) (s : Fin 32) (z : Fin 1) :
    k0_pay5 (F := Ideal) x1 x2 x3 x4 (ix2 s z)
      = (((0 + ∑ k : Fin 5000, x1 (ix2 k s)) + ∑ k : Fin 5000, x2 (ix2 k s)) + ∑ k : Fin 5000, x3 (ix2 k s))
          + ∑ k : Fin 5000, x4 (ix2 k s) := by
  unfold k0_pay5
  refine (add4c_apply _ _ _ _ _ _).trans ?_
  have one : ∀ (l : Vec Ideal S5000x32 .f32),
      (matmul dot_S5000x32_S5000x1_S32x1_0_0_1_1_n_n none l (broadcast S5000x1 (Scalar.ofBits .f32 0x3F800000#32)) (constant S32x1 .f32 0x00000000#32) : FVec Ideal S32x1 .f32) (ix2 s z)
        = ∑ k : Fin 5000, l (ix2 k s) := fun l =>
    (quarter1_apply l _ s z).trans (Finset.sum_congr rfl fun k _ => by
      show l (ix2 k s) * Ideal.ofBits .f32 0x3F800000#32 = l (ix2 k s)
      rw [ofBits_one_f32, mul_one])
  refine congrArg₂ (· + ·) (congrArg₂ (· + ·) (congrArg₂ (· + ·) (congrArg₂ (· + ·) ?_ ?_) ?_) ?_) ?_
  · exact Ideal.ofBits_zero_f32
  · exact one x1
  · exact one x2
  · exact one x3
  · exact one x4

theorem pay6_apply (i : S32x128.Idx) : k0_pay6 (F := Ideal) i = 0 := Ideal.ofBits_zero_f32

theorem pay7_apply (i : S32x1.Idx) : k0_pay7 (F := Ideal) i = 0 := by
  unfold k0_pay7
  rw [shapeCast_self]
  exact Ideal.ofBits_zero_f32

theorem pay8_eq (v : Vec Ideal S32x128 .f32) : k0_pay8 (F := Ideal) v = v := by
  unfold k0_pay8
  rw [shapeCast_self]

/-- Old accumulator plus contribution. -/
theorem pay1_apply (contrib old : FVec Ideal S32x128 .f32) (i : S32x128.Idx) :
    k0_pay1 (F := Ideal) contrib old i = old i + contrib i := rfl

/-- Old column sums plus the tile's. -/
theorem pay2_apply (sums : FVec Ideal S32x1 .f32) (old : Vec Ideal S32x1 .f32) (i : S32x1.Idx) :
    k0_pay2 (F := Ideal) sums old i = old i + sums i := by
  unfold k0_pay2
  rw [shapeCast_self]
  rfl

/-- The accumulator divided, row by row, by the column sums. -/
theorem pay3_apply (acc : Vec Ideal S32x128 .f32) (sums : Vec Ideal S32x1 .f32) (s : Fin 32) (d : Fin 128) :
    k0_pay3 (F := Ideal) acc sums (ix2 s d) = Ideal.div (acc (ix2 s d)) (sums (ix2 s (0 : Fin 1))) := by
  unfold k0_pay3
  rw [shapeCast_self]
  refine (ValueIdx.divf_apply _ _ _).trans ?_
  refine congrArg (Ideal.div (acc (ix2 s d))) ?_
  refine broadcastTo_apply sums broadcasts_S32x1_S32x128 (ix2 s d) (ix2 s (0 : Fin 1)) (fun a => ?_)
  match a with
  | ⟨0, _⟩ => show s.val = if (32 : Nat) = 1 then 0 else s.val; rw [if_neg (by decide)]
  | ⟨1, _⟩ => show 0 = if (1 : Nat) = 1 then 0 else d.val; rw [if_pos rfl]

end Cert.Val0
-- ==== Proof.Val0.Sums.lean ====
/-
  Sums over 100000 rows taken five tiles of 20000 rows at a time, each tile as four quarters of 5000.

  `upTo f n` is the sum of the first `20000 * n` terms; one more tile adds the tile's four quarter
  sums, which the kernel adds left to right from zero (`tile`); after five tiles every term is in.
  Only associativity of `+` and `0 + a = a` are used, so the statements hold in any commutative
  monoid, the extended reals included.
-/
import Mathlib.Algebra.BigOperators.Intervals
import Mathlib.Algebra.BigOperators.Fin
import Mathlib.Data.EReal.Basic

noncomputable section

namespace Cert.Val0

variable {M : Type*} [AddCommMonoid M]

/-- The first `20000 * n` terms, summed. -/
def upTo (f : ℕ → M) (n : ℕ) : M := ∑ i ∈ Finset.range (20000 * n), f i

/-- Tile `n`'s four quarter sums of 5000 terms, added left to right from zero. -/
def tile (f : ℕ → M) (n : ℕ) : M :=
  (((0 + ∑ k : Fin 5000, f (20000 * n + k.val)) + ∑ k : Fin 5000, f (20000 * n + 5000 + k.val))
    + ∑ k : Fin 5000, f (20000 * n + 5000 + 5000 + k.val)) + ∑ k : Fin 5000, f (20000 * n + 5000 + 5000 + 5000 + k.val)

theorem upTo_zero (f : ℕ → M) : upTo f 0 = 0 := by
  unfold upTo
  rw [Nat.mul_zero, Finset.range_zero, Finset.sum_empty]

theorem regroup (A Q0 Q1 Q2 Q3 : M) : A + Q0 + Q1 + Q2 + Q3 = A + ((((0 + Q0) + Q1) + Q2) + Q3) := by
  rw [zero_add]; simp only [add_assoc]

/-- One more tile. -/
theorem upTo_succ (f : ℕ → M) (n : ℕ) : upTo f (n + 1) = upTo f n + tile f n := by
  unfold upTo tile
  rw [show 20000 * (n + 1) = 20000 * n + 5000 + 5000 + 5000 + 5000 by omega,
    Finset.sum_range_add, Finset.sum_range_add, Finset.sum_range_add, Finset.sum_range_add]
  rw [Finset.sum_range (fun x => f (20000 * n + x)), Finset.sum_range (fun x => f (20000 * n + 5000 + x)),
    Finset.sum_range (fun x => f (20000 * n + 5000 + 5000 + x)), Finset.sum_range (fun x => f (20000 * n + 5000 + 5000 + 5000 + x))]
  exact regroup _ _ _ _ _

/-- The first tile alone, from zero. -/
theorem upTo_one (f : ℕ → M) : upTo f 1 = 0 + tile f 0 := by
  rw [upTo_succ, upTo_zero]

/-- After five tiles every term is in. -/
theorem upTo_five (f : ℕ → M) : upTo f 5 = ∑ n : Fin 100000, f n.val := by
  unfold upTo
  rw [show 20000 * 5 = 100000 by norm_num, Finset.sum_range]

/-- Row `i`'s term of the contraction `eᵀ · x` at (s, d); zero past the last row. -/
def prodAt (x : Fin 100000 → Fin 128 → EReal) (e : Fin 100000 → Fin 32 → EReal) (s : Fin 32) (d : Fin 128) (i : ℕ) : EReal :=
  if h : i < 100000 then e ⟨i, h⟩ s * x ⟨i, h⟩ d else 0

/-- Row `i`'s entry of column `s` of `e`; zero past the last row. -/
def colAt (e : Fin 100000 → Fin 32 → EReal) (s : Fin 32) (i : ℕ) : EReal :=
  if h : i < 100000 then e ⟨i, h⟩ s else 0

theorem prodAt_lt (x : Fin 100000 → Fin 128 → EReal) (e : Fin 100000 → Fin 32 → EReal) (s : Fin 32) (d : Fin 128) (i : ℕ)
    (h : i < 100000) : prodAt x e s d i = e ⟨i, h⟩ s * x ⟨i, h⟩ d := dif_pos h

theorem colAt_lt (e : Fin 100000 → Fin 32 → EReal) (s : Fin 32) (i : ℕ) (h : i < 100000) : colAt e s i = e ⟨i, h⟩ s :=
  dif_pos h

theorem upTo_prodAt_five (x : Fin 100000 → Fin 128 → EReal) (e : Fin 100000 → Fin 32 → EReal) (s : Fin 32) (d : Fin 128) :
    upTo (prodAt x e s d) 5 = ∑ n : Fin 100000, e n s * x n d := by
  rw [upTo_five]
  exact Finset.sum_congr rfl fun n _ => prodAt_lt x e s d n.val n.isLt

theorem upTo_colAt_five (e : Fin 100000 → Fin 32 → EReal) (s : Fin 32) :
    upTo (colAt e s) 5 = ∑ n : Fin 100000, e n s := by
  rw [upTo_five]
  exact Finset.sum_congr rfl fun n _ => colAt_lt e s n.val n.isLt

end Cert.Val0
-- ==== Proof.Val0.Blocks.lean ====
/-
  The first launch's input blocks by coordinates. Window 0's block at tile `t` is rows
  `20000 * t …` of the feature array; windows 1 to 4 are the four quarter tiles of 5000 rows of the
  adjacency (window `k` at tile `t` starts at row `20000 * t + 5000 * (k − 1)`), all four on one array.
-/
import proofs.«167790_g44066364457491_cont_8to1_c_744_34_alg».proof.Proof.KI.Reg0
import Idealize.ShloMosaic.Lib.Pipeline.Value
import Idealize.ShloMosaic.Lib.ValueIdx

set_option maxRecDepth 16384

noncomputable section

namespace Cert.Val0

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx (ix1 ix2)

variable (V : (c : Dev nD) → (b : Ref sig .tc) → Buf (Elt Ideal) ((c : Thread nD τ).loc b))

/-- The feature array as the first launch finds it, by coordinates. -/
def XV0 (c : Dev nD) (n : Fin 100000) (d : Fin 128) : EReal := V c (Pipeline.arrRef spec0 0) (ix2 n d)

/-- The adjacency as the first launch finds it, by coordinates (windows 1 to 4 all read this one array). -/
def EV0 (c : Dev nD) (n : Fin 100000) (s : Fin 32) : EReal := V c (Pipeline.arrRef spec0 1) (ix2 n s)

theorem idx0_0 : ∀ t : Fin cfg0.N, win0_0.index t 0 = t.val ∧ win0_0.index t 1 = 0 :=
  (by decide +kernel : ∀ t : Fin grid0.N, win0_0.index t 0 = t.val ∧ win0_0.index t 1 = 0)

/-- Window 0's block at tile `t`: rows `20000 * t + r` of the features. -/
theorem blk0_apply (c : Dev nD) (t : Fin cfg0.N) (r : Fin 20000) (d : Fin 128) (h : 20000 * t.val + r.val < 100000) :
    (iblk0 V c 0 t : Vec Ideal S20000x128 .f32) (ix2 r d) = XV0 V c ⟨20000 * t.val + r.val, h⟩ d := by
  have hi := idx0_0 t
  unfold iblk0 XV0
  rw [View.read_apply]
  refine congrArg (V c (Pipeline.arrRef spec0 0)) (funext fun a => Fin.ext ?_)
  match a with
  | ⟨0, _⟩ => show win0_0.index t 0 * 20000 + 1 * r.val = 20000 * t.val + r.val; rw [hi.1]; omega
  | ⟨1, _⟩ => show win0_0.index t 1 * 128 + 1 * d.val = d.val; rw [hi.2]; omega

theorem idx0_1 : ∀ t : Fin cfg0.N, win0_1.index t 0 = 4 * t.val + 0 ∧ win0_1.index t 1 = 0 :=
  (by decide +kernel : ∀ t : Fin grid0.N, win0_1.index t 0 = 4 * t.val + 0 ∧ win0_1.index t 1 = 0)

/-- Window 1's block at tile `t`: rows `20000 * t + 0 + k` of the adjacency. -/
theorem blk1_apply (c : Dev nD) (t : Fin cfg0.N) (k : Fin 5000) (s : Fin 32) (h : 20000 * t.val + 0 + k.val < 100000) :
    (iblk0 V c 1 t : Vec Ideal S5000x32 .f32) (ix2 k s) = EV0 V c ⟨20000 * t.val + 0 + k.val, h⟩ s := by
  have hi := idx0_1 t
  unfold iblk0 EV0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t 0 * 5000 + 1 * k.val = 20000 * t.val + 0 + k.val; rw [hi.1]; omega
  | ⟨1, _⟩ => show win0_1.index t 1 * 32 + 1 * s.val = s.val; rw [hi.2]; omega

theorem idx0_2 : ∀ t : Fin cfg0.N, win0_2.index t 0 = 4 * t.val + 1 ∧ win0_2.index t 1 = 0 :=
  (by decide +kernel : ∀ t : Fin grid0.N, win0_2.index t 0 = 4 * t.val + 1 ∧ win0_2.index t 1 = 0)

/-- Window 2's block at tile `t`: rows `20000 * t + 5000 + k` of the adjacency. -/
theorem blk2_apply (c : Dev nD) (t : Fin cfg0.N) (k : Fin 5000) (s : Fin 32) (h : 20000 * t.val + 5000 + k.val < 100000) :
    (iblk0 V c 2 t : Vec Ideal S5000x32 .f32) (ix2 k s) = EV0 V c ⟨20000 * t.val + 5000 + k.val, h⟩ s := by
  have hi := idx0_2 t
  unfold iblk0 EV0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t 0 * 5000 + 1 * k.val = 20000 * t.val + 5000 + k.val; rw [hi.1]; omega
  | ⟨1, _⟩ => show win0_2.index t 1 * 32 + 1 * s.val = s.val; rw [hi.2]; omega

theorem idx0_3 : ∀ t : Fin cfg0.N, win0_3.index t 0 = 4 * t.val + 2 ∧ win0_3.index t 1 = 0 :=
  (by decide +kernel : ∀ t : Fin grid0.N, win0_3.index t 0 = 4 * t.val + 2 ∧ win0_3.index t 1 = 0)

/-- Window 3's block at tile `t`: rows `20000 * t + 10000 + k` of the adjacency. -/
theorem blk3_apply (c : Dev nD) (t : Fin cfg0.N) (k : Fin 5000) (s : Fin 32) (h : 20000 * t.val + 10000 + k.val < 100000) :
    (iblk0 V c 3 t : Vec Ideal S5000x32 .f32) (ix2 k s) = EV0 V c ⟨20000 * t.val + 10000 + k.val, h⟩ s := by
  have hi := idx0_3 t
  unfold iblk0 EV0
  rw [View.read_apply]
  show V c (Pipeline.arrRef spec0 3) _ = V c (Pipeline.arrRef spec0 3) _
  refine congrArg (V c (Pipeline.arrRef spec0 3)) (funext fun a => Fin.ext ?_)
  match a with
  | ⟨0, _⟩ => show win0_3.index t 0 * 5000 + 1 * k.val = 20000 * t.val + 10000 + k.val; rw [hi.1]; omega
  | ⟨1, _⟩ => show win0_3.index t 1 * 32 + 1 * s.val = s.val; rw [hi.2]; omega

theorem idx0_4 : ∀ t : Fin cfg0.N, win0_4.index t 0 = 4 * t.val + 3 ∧ win0_4.index t 1 = 0 :=
  (by decide +kernel : ∀ t : Fin grid0.N, win0_4.index t 0 = 4 * t.val + 3 ∧ win0_4.index t 1 = 0)

/-- Window 4's block at tile `t`: rows `20000 * t + 15000 + k` of the adjacency. -/
theorem blk4_apply (c : Dev nD) (t : Fin cfg0.N) (k : Fin 5000) (s : Fin 32) (h : 20000 * t.val + 15000 + k.val < 100000) :
    (iblk0 V c 4 t : Vec Ideal S5000x32 .f32) (ix2 k s) = EV0 V c ⟨20000 * t.val + 15000 + k.val, h⟩ s := by
  have hi := idx0_4 t
  unfold iblk0 EV0
  rw [View.read_apply]
  show V c (Pipeline.arrRef spec0 4) _ = V c (Pipeline.arrRef spec0 4) _
  refine congrArg (V c (Pipeline.arrRef spec0 4)) (funext fun a => Fin.ext ?_)
  match a with
  | ⟨0, _⟩ => show win0_4.index t 0 * 5000 + 1 * k.val = 20000 * t.val + 15000 + k.val; rw [hi.1]; omega
  | ⟨1, _⟩ => show win0_4.index t 1 * 32 + 1 * s.val = s.val; rw [hi.2]; omega

end Cert.Val0
-- ==== Proof.Val0.Tile.lean ====
/-
  One tile's contribution, in terms of the whole arrays: the four quarter contractions of the tile's
  blocks, added left to right from zero, are the tile's share `tile f t` of the sum over all rows of
  `f i = e i s * x i d`, and likewise the tile's column sums for `f i = e i s` — each block entry read
  at its row of the whole array.
-/
import proofs.«167790_g44066364457491_cont_8to1_c_744_34_alg».proof.Proof.Val0.Pieces
import proofs.«167790_g44066364457491_cont_8to1_c_744_34_alg».proof.Proof.Val0.Pay
import proofs.«167790_g44066364457491_cont_8to1_c_744_34_alg».proof.Proof.Val0.Sums
import proofs.«167790_g44066364457491_cont_8to1_c_744_34_alg».proof.Proof.Val0.Blocks

set_option maxRecDepth 16384

noncomputable section

namespace Cert.Val0

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx (ix1 ix2)

variable (V : (c : Dev nD) → (b : Ref sig .tc) → Buf (Elt Ideal) ((c : Thread nD τ).loc b))

/-! ## One tile's contribution is the tile's share of the sums -/

/-- A product of the tile's blocks at quarter row `k` is the term of row `i` of the whole arrays. -/
theorem term_eq (c : Dev nD) (t : Fin cfg0.N) (k : Fin 5000) (s : Fin 32) (d : Fin 128) (off : ℕ) (h5 : off + 5000 ≤ 20000)
    (i : ℕ) (hi : i = 20000 * t.val + off + k.val) (ev : EReal) (hev : ∀ h : i < 100000, ev = EV0 V c ⟨i, h⟩ s) :
    ev * (iblk0 V c 0 t : Vec Ideal S20000x128 .f32) (ix2 (rowAt off h5 k) d) = prodAt (XV0 V c) (EV0 V c) s d i := by
  have hN : t.val < 5 := lt_of_lt_of_eq t.isLt N_0
  have hk := k.isLt
  have h : i < 100000 := by omega
  rw [prodAt_lt _ _ _ _ _ h, hev h]
  refine congrArg (EV0 V c ⟨i, h⟩ s * ·) ?_
  refine (blk0_apply V c t (rowAt off h5 k) d (by show 20000 * t.val + (off + k.val) < 100000; omega)).trans
    (congrArg (fun n => XV0 V c n d) (Fin.ext ?_))
  show 20000 * t.val + (off + k.val) = i
  omega

/-- The tile's contribution to the accumulator. -/
theorem contrib_eq (c : Dev nD) (t : Fin cfg0.N) (s : Fin 32) (d : Fin 128) :
    k0_pay4 (F := Ideal) (iblk0 V c 0 t) (iblk0 V c 1 t) (iblk0 V c 2 t) (iblk0 V c 3 t) (iblk0 V c 4 t) (ix2 s d)
      = tile (prodAt (XV0 V c) (EV0 V c) s d) t.val := by
  have hN : t.val < 5 := lt_of_lt_of_eq t.isLt N_0
  refine (pay4_apply (iblk0 V c 0 t) (iblk0 V c 1 t) (iblk0 V c 2 t) (iblk0 V c 3 t) (iblk0 V c 4 t) s d).trans ?_
  unfold tile
  refine congrArg₂ (· + ·) (congrArg₂ (· + ·) (congrArg₂ (· + ·) (congrArg₂ (· + ·) rfl ?_) ?_) ?_) ?_
  · refine Finset.sum_congr rfl fun k _ => ?_
    have hk := k.isLt
    exact term_eq V c t k s d 0 (by omega) (20000 * t.val + k.val) (by omega) _
      (fun h => (blk1_apply V c t k s (by omega)).trans (congrArg (fun n => EV0 V c n s) (Fin.ext (by
        show 20000 * t.val + 0 + k.val = 20000 * t.val + k.val; omega))))
  · refine Finset.sum_congr rfl fun k _ => ?_
    have hk := k.isLt
    exact term_eq V c t k s d 5000 (by omega) (20000 * t.val + 5000 + k.val) (by omega) _
      (fun h => (blk2_apply V c t k s (by omega)).trans (congrArg (fun n => EV0 V c n s) (Fin.ext (by
        show 20000 * t.val + 5000 + k.val = 20000 * t.val + 5000 + k.val; omega))))
  · refine Finset.sum_congr rfl fun k _ => ?_
    have hk := k.isLt
    exact term_eq V c t k s d 10000 (by omega) (20000 * t.val + 5000 + 5000 + k.val) (by omega) _
      (fun h => (blk3_apply V c t k s (by omega)).trans (congrArg (fun n => EV0 V c n s) (Fin.ext (by
        show 20000 * t.val + 10000 + k.val = 20000 * t.val + 5000 + 5000 + k.val; omega))))
  · refine Finset.sum_congr rfl fun k _ => ?_
    have hk := k.isLt
    exact term_eq V c t k s d 15000 (by omega) (20000 * t.val + 5000 + 5000 + 5000 + k.val) (by omega) _
      (fun h => (blk4_apply V c t k s (by omega)).trans (congrArg (fun n => EV0 V c n s) (Fin.ext (by
        show 20000 * t.val + 15000 + k.val = 20000 * t.val + 5000 + 5000 + 5000 + k.val; omega))))

/-- The tile's column sums. -/
theorem colsum_eq (c : Dev nD) (t : Fin cfg0.N) (s : Fin 32) (z : Fin 1) :
    k0_pay5 (F := Ideal) (iblk0 V c 1 t) (iblk0 V c 2 t) (iblk0 V c 3 t) (iblk0 V c 4 t) (ix2 s z)
      = tile (colAt (EV0 V c) s) t.val := by
  have hN : t.val < 5 := lt_of_lt_of_eq t.isLt N_0
  refine (pay5_apply (iblk0 V c 1 t) (iblk0 V c 2 t) (iblk0 V c 3 t) (iblk0 V c 4 t) s z).trans ?_
  unfold tile
  refine congrArg₂ (· + ·) (congrArg₂ (· + ·) (congrArg₂ (· + ·) (congrArg₂ (· + ·) rfl ?_) ?_) ?_) ?_
  · refine Finset.sum_congr rfl fun k _ => ?_
    have hk := k.isLt
    have h : 20000 * t.val + k.val < 100000 := by omega
    rw [colAt_lt _ _ _ h]
    exact (blk1_apply V c t k s (by omega)).trans (congrArg (fun n => EV0 V c n s) (Fin.ext (by
      show 20000 * t.val + 0 + k.val = 20000 * t.val + k.val; omega)))
  · refine Finset.sum_congr rfl fun k _ => ?_
    have hk := k.isLt
    have h : 20000 * t.val + 5000 + k.val < 100000 := by omega
    rw [colAt_lt _ _ _ h]
    exact (blk2_apply V c t k s (by omega)).trans (congrArg (fun n => EV0 V c n s) (Fin.ext (by
      show 20000 * t.val + 5000 + k.val = 20000 * t.val + 5000 + k.val; omega)))
  · refine Finset.sum_congr rfl fun k _ => ?_
    have hk := k.isLt
    have h : 20000 * t.val + 5000 + 5000 + k.val < 100000 := by omega
    rw [colAt_lt _ _ _ h]
    exact (blk3_apply V c t k s (by omega)).trans (congrArg (fun n => EV0 V c n s) (Fin.ext (by
      show 20000 * t.val + 10000 + k.val = 20000 * t.val + 5000 + 5000 + k.val; omega)))
  · refine Finset.sum_congr rfl fun k _ => ?_
    have hk := k.isLt
    have h : 20000 * t.val + 5000 + 5000 + 5000 + k.val < 100000 := by omega
    rw [colAt_lt _ _ _ h]
    exact (blk4_apply V c t k s (by omega)).trans (congrArg (fun n => EV0 V c n s) (Fin.ext (by
      show 20000 * t.val + 15000 + k.val = 20000 * t.val + 5000 + 5000 + 5000 + k.val; omega)))

end Cert.Val0
-- ==== Proof.Val0.Acc.lean ====
/-
  The accumulation over the five tiles. After each tile the two carried buffers are the payloads of
  that tile's blocks and of what the tile before left; read at an entry, the column-sum scratch after
  tile `n` is the sum of column `s` over the first `20000 * (n + 1)` rows, the accumulator the sum
  of the products over those rows, and after the last tile the accumulator is their quotient.
-/
import proofs.«167790_g44066364457491_cont_8to1_c_744_34_alg».proof.Proof.Val0.Tile

set_option maxRecDepth 16384

noncomputable section

namespace Cert.Val0

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx (ix1 ix2)

variable (V : (c : Dev nD) → (b : Ref sig .tc) → Buf (Elt Ideal) ((c : Thread nD τ).loc b))

theorem first_tile {M : Type*} [AddCommMonoid M] (f : ℕ → M) : 0 + tile f 0 = upTo f (0 + 1) := by
  rw [upTo_succ, upTo_zero]

/-! ## The two carried buffers after one tile, as payloads -/

theorem after_A (c : Dev nD) (t : Fin cfg0.N) (h0 : t.val % 5 = 0) (h1 : ¬t.val % 5 = 4) :
    (outsAt0 V c t.val t.isLt).1 = k0_pay1 (k0_pay4 (iblk0 V c 0 t) (iblk0 V c 1 t) (iblk0 V c 2 t) (iblk0 V c 3 t) (iblk0 V c 4 t)) (k0_pay8 (k0_pay6 (F := Ideal)))
    ∧ (outsAt0 V c t.val t.isLt).2 = k0_pay2 (k0_pay5 (iblk0 V c 1 t) (iblk0 V c 2 t) (iblk0 V c 3 t) (iblk0 V c 4 t)) (k0_pay7 (F := Ideal)) := by
  have e := outsAt0_A V c t h0 h1
  exact ⟨(congrArg Prod.fst e).trans (out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)),
    (congrArg Prod.snd e).trans (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t))⟩

theorem after_B (c : Dev nD) (t : Fin cfg0.N) (h0 : ¬t.val % 5 = 0) (h1 : ¬t.val % 5 = 4) :
    (outsAt0 V c t.val t.isLt).1 = k0_pay1 (k0_pay4 (iblk0 V c 0 t) (iblk0 V c 1 t) (iblk0 V c 2 t) (iblk0 V c 3 t) (iblk0 V c 4 t)) (k0_pay8 (outsAt0 V c (t.val - 1) (Nat.lt_of_le_of_lt (Nat.sub_le _ _) t.isLt)).1)
    ∧ (outsAt0 V c t.val t.isLt).2 = k0_pay2 (k0_pay5 (iblk0 V c 1 t) (iblk0 V c 2 t) (iblk0 V c 3 t) (iblk0 V c 4 t)) (outsAt0 V c (t.val - 1) (Nat.lt_of_le_of_lt (Nat.sub_le _ _) t.isLt)).2 := by
  have e := outsAt0_B V c t h0 h1
  exact ⟨(congrArg Prod.fst e).trans (out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2),
    (congrArg Prod.snd e).trans (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2)⟩

theorem after_C (c : Dev nD) (t : Fin cfg0.N) (h0 : ¬t.val % 5 = 0) (h1 : t.val % 5 = 4) :
    (outsAt0 V c t.val t.isLt).1
      = k0_pay3 (k0_pay1 (k0_pay4 (iblk0 V c 0 t) (iblk0 V c 1 t) (iblk0 V c 2 t) (iblk0 V c 3 t) (iblk0 V c 4 t)) (k0_pay8 (outsAt0 V c (t.val - 1) (Nat.lt_of_le_of_lt (Nat.sub_le _ _) t.isLt)).1)) (k0_pay2 (k0_pay5 (iblk0 V c 1 t) (iblk0 V c 2 t) (iblk0 V c 3 t) (iblk0 V c 4 t)) (outsAt0 V c (t.val - 1) (Nat.lt_of_le_of_lt (Nat.sub_le _ _) t.isLt)).2)
    ∧ (outsAt0 V c t.val t.isLt).2 = k0_pay2 (k0_pay5 (iblk0 V c 1 t) (iblk0 V c 2 t) (iblk0 V c 3 t) (iblk0 V c 4 t)) (outsAt0 V c (t.val - 1) (Nat.lt_of_le_of_lt (Nat.sub_le _ _) t.isLt)).2 := by
  have e := outsAt0_C V c t h0 h1
  exact ⟨(congrArg Prod.fst e).trans (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2),
    (congrArg Prod.snd e).trans (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2)⟩

/-- THE INVARIANT. After tile `n` the scratch holds the column sums of the rows so far; the
    accumulator holds the sums of the products over those rows, and after the last tile their quotient
    by the column sums. By induction on the tile. -/
theorem outsAt_eq (c : Dev nD) : ∀ (n : ℕ) (hn : n < cfg0.N),
    (∀ (s : Fin 32) (z : Fin 1), (outsAt0 V c n hn).2 (ix2 s z) = upTo (colAt (EV0 V c) s) (n + 1))
    ∧ (¬ n % 5 = 4 → ∀ (s : Fin 32) (d : Fin 128), (outsAt0 V c n hn).1 (ix2 s d) = upTo (prodAt (XV0 V c) (EV0 V c) s d) (n + 1))
    ∧ (n % 5 = 4 → ∀ (s : Fin 32) (d : Fin 128), (outsAt0 V c n hn).1 (ix2 s d)
        = Ideal.div (upTo (prodAt (XV0 V c) (EV0 V c) s d) (n + 1)) (upTo (colAt (EV0 V c) s) (n + 1)))
  | 0, hn => by
    obtain ⟨e1, e2⟩ := after_A V c ⟨0, hn⟩ (Nat.zero_mod 5) (by show ¬ (0 : ℕ) % 5 = 4; decide)
    refine ⟨fun s z => ?_, fun _ s d => ?_, fun h => absurd h (by decide)⟩
    · exact (congrFun e2 _).trans ((pay2_apply _ _ _).trans
        ((congrArg₂ (· + ·) (pay7_apply _) (colsum_eq V c ⟨0, hn⟩ s z)).trans (first_tile _)))
    · exact (congrFun e1 _).trans ((pay1_apply _ _ _).trans
        ((congrArg₂ (· + ·) ((congrFun (pay8_eq _) _).trans (pay6_apply _)) (contrib_eq V c ⟨0, hn⟩ s d)).trans (first_tile _)))
  | n + 1, hn => by
    have hN : n + 1 < 5 := lt_of_lt_of_eq hn N_0
    obtain ⟨ihS, ihA, -⟩ := outsAt_eq c n (Nat.lt_of_succ_lt hn)
    have ihA := ihA (by omega)
    have h0 : ¬ (⟨n + 1, hn⟩ : Fin cfg0.N).val % 5 = 0 := by show ¬ (n + 1) % 5 = 0; omega
    by_cases h1 : (n + 1) % 5 = 4
    · obtain ⟨e1, e2⟩ := after_C V c ⟨n + 1, hn⟩ h0 h1
      refine ⟨fun s z => ?_, fun h => absurd h1 h, fun _ s d => ?_⟩
      · exact (congrFun e2 _).trans ((pay2_apply _ _ _).trans
          ((congrArg₂ (· + ·) (ihS s z) (colsum_eq V c ⟨n + 1, hn⟩ s z)).trans (upTo_succ _ (n + 1)).symm))
      · refine (congrFun e1 _).trans ((pay3_apply _ _ s d).trans (congrArg₂ Ideal.div ?_ ?_))
        · exact (pay1_apply _ _ _).trans
            ((congrArg₂ (· + ·) ((congrFun (pay8_eq _) _).trans (ihA s d)) (contrib_eq V c ⟨n + 1, hn⟩ s d)).trans (upTo_succ _ (n + 1)).symm)
        · exact (pay2_apply _ _ _).trans
            ((congrArg₂ (· + ·) (ihS s 0) (colsum_eq V c ⟨n + 1, hn⟩ s 0)).trans (upTo_succ _ (n + 1)).symm)
    · obtain ⟨e1, e2⟩ := after_B V c ⟨n + 1, hn⟩ h0 h1
      refine ⟨fun s z => ?_, fun _ s d => ?_, fun h => absurd h h1⟩
      · exact (congrFun e2 _).trans ((pay2_apply _ _ _).trans
          ((congrArg₂ (· + ·) (ihS s z) (colsum_eq V c ⟨n + 1, hn⟩ s z)).trans (upTo_succ _ (n + 1)).symm))
      · exact (congrFun e1 _).trans ((pay1_apply _ _ _).trans
          ((congrArg₂ (· + ·) ((congrFun (pay8_eq _) _).trans (ihA s d)) (contrib_eq V c ⟨n + 1, hn⟩ s d)).trans (upTo_succ _ (n + 1)).symm))

end Cert.Val0
-- ==== Proof.LibOnlineSoftmax.lean ====
/-
  The online (tile by tile) evaluation of a softmax-weighted sum, on the extended reals.

  A row of scores is visited one tile of keys at a time. The state is a running maximum `M`, a running
  denominator `L` and a running numerator `A`; a tile with scores `s k` and values `v k` replaces them by
      M' = max M (max_k s k),   L' = e^(M − M')·L + Σ_k e^(s k − M'),   A' = e^(M − M')·A + Σ_k e^(s k − M')·v k,
  starting from `(−∞, 0, 0)`. For real scores and values, after at least one tile the state is
  `(M, Σ e^(s − M), Σ e^(s − M)·v)` over all keys seen so far, for SOME real `M`; so `A / L` is the softmax-weighted
  sum `Σ e^s·v / Σ e^s`, whatever `M` is: a weighted sum normalised by its own weights does not change when every
  weight is multiplied by the same positive number `e^(−M)`. The same holds for the one-pass form
  `Σ_k (e^(s k − M) / Σ_j e^(s j − M))·v k` at any real `M`. Hence the two agree.
-/
import Idealize.ShloMosaic.PureOps.Ideal

noncomputable section

namespace Cert.LibOnlineSoftmax

open Idealize.ShloMosaic

/-- The coercion of a finite real sum is the sum of the coercions. -/
theorem coe_sum {ι : Type} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The coercion of the larger of two real numbers is the larger of the coercions. -/
theorem coe_max (a b : ℝ) : ((max a b : ℝ) : EReal) = max (a : EReal) (b : EReal) :=
  EReal.coe_strictMono.monotone.map_max

variable {κ : Type} [Fintype κ]

/-- The maximum of real numbers taken from `−∞` or from a real number is again `−∞` or a real number, -/
theorem fold_max_botOrReal (t : Finset κ) (f : κ → ℝ) (a : EReal) (ha : a = ⊥ ∨ ∃ r : ℝ, a = r) :
    (t.fold max a (fun k => (f k : EReal)) = ⊥ ∧ t = ∅ ∧ a = ⊥) ∨ ∃ r : ℝ, t.fold max a (fun k => (f k : EReal)) = r := by
  classical
  refine Finset.induction_on t ?_ ?_
  · rcases ha with h | ⟨r, h⟩
    · left; exact ⟨by simp [h], rfl, h⟩
    · right; exact ⟨r, by simp [h]⟩
  · intro k t hk ih
    right
    rw [Finset.fold_insert hk]
    rcases ih with ⟨h, -, -⟩ | ⟨r, h⟩
    · exact ⟨f k, by rw [h]; simp⟩
    · exact ⟨max (f k) r, by rw [h, coe_max]⟩

/-- and over a nonempty family from `−∞` it is a real number. -/
theorem fold_max_real [Nonempty κ] (f : κ → ℝ) :
    ∃ r : ℝ, (Finset.univ : Finset κ).fold max (⊥ : EReal) (fun k => (f k : EReal)) = r := by
  rcases fold_max_botOrReal (Finset.univ : Finset κ) f ⊥ (Or.inl rfl) with ⟨-, h, -⟩ | h
  · exact absurd h (Finset.univ_nonempty.ne_empty)
  · exact h

/-- One tile's update of the running maximum, denominator and numerator. -/
def step (st : EReal × EReal × EReal) (s v : κ → EReal) : EReal × EReal × EReal :=
  (max st.1 ((Finset.univ : Finset κ).fold max ⊥ s),
   Ideal.exp (st.1 - max st.1 ((Finset.univ : Finset κ).fold max ⊥ s)) * st.2.1
     + ∑ k, Ideal.exp (s k - max st.1 ((Finset.univ : Finset κ).fold max ⊥ s)),
   Ideal.exp (st.1 - max st.1 ((Finset.univ : Finset κ).fold max ⊥ s)) * st.2.2
     + ∑ k, Ideal.exp (s k - max st.1 ((Finset.univ : Finset κ).fold max ⊥ s)) * v k)

/-- The weights' sum and the weighted sum of one tile, relative to a level `M`. -/
def den (M : ℝ) (s : κ → ℝ) : ℝ := ∑ k, Real.exp (s k - M)
def num (M : ℝ) (s v : κ → ℝ) : ℝ := ∑ k, Real.exp (s k - M) * v k

theorem den_shift (M M' : ℝ) (s : κ → ℝ) : Real.exp (M - M') * den M s = den M' s := by
  unfold den; rw [Finset.mul_sum]; refine Finset.sum_congr rfl fun k _ => ?_
  rw [← Real.exp_add]; congr 1; ring

theorem num_shift (M M' : ℝ) (s v : κ → ℝ) : Real.exp (M - M') * num M s v = num M' s v := by
  unfold num; rw [Finset.mul_sum]; refine Finset.sum_congr rfl fun k _ => ?_
  rw [← mul_assoc, ← Real.exp_add]; congr 2; ring

/-- The first tile: from `(−∞, 0, 0)` the state becomes `(M, den M, num M)` of that tile at a real level `M`. -/
theorem step_first [Nonempty κ] (s v : κ → ℝ) :
    ∃ M : ℝ, step ((⊥ : EReal), (0 : EReal), (0 : EReal)) (fun k => (s k : EReal)) (fun k => (v k : EReal))
      = ((M : EReal), ((den M s : ℝ) : EReal), ((num M s v : ℝ) : EReal)) := by
  obtain ⟨M, hM⟩ := fold_max_real s
  refine ⟨M, ?_⟩
  unfold step
  simp only [hM, bot_le, max_eq_right, EReal.bot_sub, Ideal.exp_bot, mul_zero, zero_add]
  refine Prod.ext rfl (Prod.ext ?_ ?_)
  · simp only [den, coe_sum]
    refine Finset.sum_congr rfl fun k _ => ?_
    rw [← EReal.coe_sub, Ideal.exp_coe]
  · simp only [num, coe_sum]
    refine Finset.sum_congr rfl fun k _ => ?_
    rw [← EReal.coe_sub, Ideal.exp_coe, EReal.coe_mul]

/-- A later tile: from real `(M, L, A)` the state becomes `(M', e^(M−M')·L + den M', e^(M−M')·A + num M')` at a real level `M'`. -/
theorem step_real [Nonempty κ] (M L A : ℝ) (s v : κ → ℝ) :
    ∃ M' : ℝ, step ((M : EReal), (L : EReal), (A : EReal)) (fun k => (s k : EReal)) (fun k => (v k : EReal))
      = ((M' : EReal), ((Real.exp (M - M') * L + den M' s : ℝ) : EReal), ((Real.exp (M - M') * A + num M' s v : ℝ) : EReal)) := by
  obtain ⟨R, hR⟩ := fold_max_real s
  refine ⟨max M R, ?_⟩
  unfold step
  simp only [hR, ← coe_max, ← EReal.coe_sub, Ideal.exp_coe]
  refine Prod.ext rfl (Prod.ext ?_ ?_)
  · simp only [den, EReal.coe_add, EReal.coe_mul, coe_sum]
  · simp only [num, EReal.coe_add, EReal.coe_mul, coe_sum]

/-- The state after the first `n` tiles. -/
def run (s v : ℕ → κ → ℝ) : ℕ → EReal × EReal × EReal
  | 0 => ((⊥ : EReal), (0 : EReal), (0 : EReal))
  | n + 1 => step (run s v n) (fun k => (s n k : EReal)) (fun k => (v n k : EReal))

/-- After at least one tile the state is, at some real level `M`, the weights' sum and the weighted sum over every key
    seen so far. -/
theorem run_succ [Nonempty κ] (s v : ℕ → κ → ℝ) (n : ℕ) :
    ∃ M : ℝ, run s v (n + 1)
      = ((M : EReal), ((∑ j ∈ Finset.range (n + 1), den M (s j) : ℝ) : EReal), ((∑ j ∈ Finset.range (n + 1), num M (s j) (v j) : ℝ) : EReal)) := by
  induction n with
  | zero =>
    obtain ⟨M, hM⟩ := step_first (s 0) (v 0)
    refine ⟨M, ?_⟩
    show step ((⊥ : EReal), (0 : EReal), (0 : EReal)) _ _ = _
    rw [hM, Nat.zero_add, Finset.sum_range_one, Finset.sum_range_one]
  | succ n ih =>
    obtain ⟨M, hM⟩ := ih
    obtain ⟨M', hM'⟩ := step_real M (∑ j ∈ Finset.range (n + 1), den M (s j)) (∑ j ∈ Finset.range (n + 1), num M (s j) (v j)) (s (n + 1)) (v (n + 1))
    refine ⟨M', ?_⟩
    rw [show run s v (n + 1 + 1) = step (run s v (n + 1)) (fun k => (s (n + 1) k : EReal)) (fun k => (v (n + 1) k : EReal)) from rfl, hM, hM']
    refine Prod.ext rfl (Prod.ext ?_ ?_)
    · show ((_ : ℝ) : EReal) = ((_ : ℝ) : EReal)
      rw [Finset.sum_range_succ _ (n + 1), Finset.mul_sum, Finset.sum_congr rfl fun j _ => den_shift M M' (s j)]
    · show ((_ : ℝ) : EReal) = ((_ : ℝ) : EReal)
      rw [Finset.sum_range_succ _ (n + 1), Finset.mul_sum, Finset.sum_congr rfl fun j _ => num_shift M M' (s j) (v j)]

/-! ## The quotient, and the one-pass form -/

/-- The quotient of two real numbers, the divisor not zero, on the extended reals. -/
theorem div_real (A L : ℝ) (hL : L ≠ 0) : Ideal.div (A : EReal) (L : EReal) = ((A / L : ℝ) : EReal) := by
  rw [Ideal.div_coe hL, ← EReal.coe_mul, mul_one_div]

theorem den_pos [Nonempty κ] (M : ℝ) (s : κ → ℝ) : 0 < den M s :=
  Finset.sum_pos (fun k _ => Real.exp_pos _) Finset.univ_nonempty

theorem sum_den_pos [Nonempty κ] (M : ℝ) (s : ℕ → κ → ℝ) (n : ℕ) : 0 < ∑ j ∈ Finset.range (n + 1), den M (s j) :=
  Finset.sum_pos (fun j _ => den_pos M (s j)) ⟨0, Finset.mem_range.mpr (Nat.succ_pos n)⟩

/-- A weighted sum normalised by its weights does not depend on the level the weights are taken at. -/
theorem ratio_shift [Nonempty κ] (M : ℝ) (s v : ℕ → κ → ℝ) (n : ℕ) :
    (∑ j ∈ Finset.range (n + 1), num M (s j) (v j)) / (∑ j ∈ Finset.range (n + 1), den M (s j))
      = (∑ j ∈ Finset.range (n + 1), num 0 (s j) (v j)) / (∑ j ∈ Finset.range (n + 1), den 0 (s j)) := by
  have hn : ∑ j ∈ Finset.range (n + 1), num M (s j) (v j) = Real.exp (0 - M) * ∑ j ∈ Finset.range (n + 1), num 0 (s j) (v j) := by
    rw [Finset.mul_sum]; exact Finset.sum_congr rfl fun j _ => (num_shift 0 M (s j) (v j)).symm
  have hd : ∑ j ∈ Finset.range (n + 1), den M (s j) = Real.exp (0 - M) * ∑ j ∈ Finset.range (n + 1), den 0 (s j) := by
    rw [Finset.mul_sum]; exact Finset.sum_congr rfl fun j _ => (den_shift 0 M (s j)).symm
  rw [hn, hd, mul_div_mul_left _ _ (Real.exp_pos _).ne']

/-- THE ONLINE FORM: after `n + 1` tiles the running numerator over the running denominator is the softmax-weighted sum
    of the values over every key seen. -/
theorem run_quotient [Nonempty κ] (s v : ℕ → κ → ℝ) (n : ℕ) :
    Ideal.div (run s v (n + 1)).2.2 (run s v (n + 1)).2.1
      = (((∑ j ∈ Finset.range (n + 1), num 0 (s j) (v j)) / (∑ j ∈ Finset.range (n + 1), den 0 (s j)) : ℝ) : EReal) := by
  obtain ⟨M, hM⟩ := run_succ s v n
  rw [hM]
  show Ideal.div ((_ : ℝ) : EReal) ((_ : ℝ) : EReal) = _
  rw [div_real _ _ (sum_den_pos M s n).ne', ratio_shift]

/-- THE ONE-PASS FORM: every weight `e^(s k − R)` (any real level `R`) divided by the weights' sum taken from zero, times the
    value, summed over the keys, is the same softmax-weighted sum. -/
theorem onepass {K : Type} [Fintype K] [Nonempty K] (S V : K → ℝ) (R : ℝ) :
    ∑ k, Ideal.div (Ideal.exp ((S k : EReal) - (R : EReal))) (0 + ∑ k', Ideal.exp ((S k' : EReal) - (R : EReal))) * (V k : EReal)
      = (((∑ k, Real.exp (S k) * V k) / (∑ k, Real.exp (S k)) : ℝ) : EReal) := by
  have hpos : 0 < ∑ k', Real.exp (S k' - R) := Finset.sum_pos (fun k _ => Real.exp_pos _) Finset.univ_nonempty
  have hden : (0 : EReal) + ∑ k', Ideal.exp ((S k' : EReal) - (R : EReal)) = ((∑ k', Real.exp (S k' - R) : ℝ) : EReal) := by
    rw [zero_add, coe_sum]; exact Finset.sum_congr rfl fun k _ => by rw [← EReal.coe_sub, Ideal.exp_coe]
  rw [hden]
  have hterm : ∀ k, Ideal.div (Ideal.exp ((S k : EReal) - (R : EReal))) ((∑ k', Real.exp (S k' - R) : ℝ) : EReal) * (V k : EReal)
      = ((Real.exp (S k - R) / (∑ k', Real.exp (S k' - R)) * V k : ℝ) : EReal) := fun k => by
    rw [← EReal.coe_sub, Ideal.exp_coe, div_real _ _ hpos.ne', ← EReal.coe_mul]
  rw [Finset.sum_congr rfl fun k _ => hterm k, ← coe_sum]
  congr 1
  have he : ∀ k, Real.exp (S k - R) = Real.exp (-R) * Real.exp (S k) := fun k => by rw [← Real.exp_add]; congr 1; ring
  simp only [he, ← Finset.mul_sum]
  rw [Finset.sum_div]
  refine Finset.sum_congr rfl fun k _ => ?_
  rw [mul_div_mul_left _ _ (Real.exp_pos _).ne']
  ring

/-- THE TWO AGREE. The keys `K` are laid out as `n + 1` tiles of `κ` (`e`); the online evaluation over the tiles of
    `S ∘ e`, `V ∘ e` gives what the one-pass form over `K` gives, at any real level. -/
theorem online_eq_onepass [Nonempty κ] {K : Type} [Fintype K] [Nonempty K] (n : ℕ) (e : Fin (n + 1) × κ ≃ K) (S V : K → ℝ) (R : ℝ)
    (s v : ℕ → κ → ℝ) (hs : ∀ (j : Fin (n + 1)) (k : κ), s j k = S (e (j, k))) (hv : ∀ (j : Fin (n + 1)) (k : κ), v j k = V (e (j, k))) :
    Ideal.div (run s v (n + 1)).2.2 (run s v (n + 1)).2.1
      = ∑ k, Ideal.div (Ideal.exp ((S k : EReal) - (R : EReal))) (0 + ∑ k', Ideal.exp ((S k' : EReal) - (R : EReal))) * (V k : EReal) := by
  rw [run_quotient, onepass]
  congr 2
  · rw [← e.sum_comp, Fintype.sum_prod_type, Finset.sum_range]
    refine Finset.sum_congr rfl fun j _ => ?_
    unfold num
    refine Finset.sum_congr rfl fun k _ => ?_
    rw [hs j k, hv j k, sub_zero]
  · rw [← e.sum_comp, Fintype.sum_prod_type, Finset.sum_range]
    refine Finset.sum_congr rfl fun j _ => ?_
    unfold den
    refine Finset.sum_congr rfl fun k _ => ?_
    rw [hs j k, sub_zero]

/-- THE FORM A TILED KERNEL MEETS. Any sequence of states that starts at `(−∞, 0, 0)` and advances by `step` over the
    `n + 1` tiles of the keys `K` (laid out by `e`) ends with numerator over denominator equal to the softmax-weighted
    sum in its one-pass form, the weights normalised by their plain sum, at any real level `R`. -/
theorem tiled_eq_onepass [Nonempty κ] {K : Type} [Fintype K] [Nonempty K] (n : ℕ) (e : Fin (n + 1) × κ ≃ K) (S V : K → ℝ) (R : ℝ)
    (st : ℕ → EReal × EReal × EReal) (h0 : st 0 = ((⊥ : EReal), (0 : EReal), (0 : EReal)))
    (hstep : ∀ (j : ℕ) (hj : j < n + 1), st (j + 1)
      = step (st j) (fun k => (S (e (⟨j, hj⟩, k)) : EReal)) (fun k => (V (e (⟨j, hj⟩, k)) : EReal))) :
    Ideal.div (st (n + 1)).2.2 (st (n + 1)).2.1
      = ∑ k, Ideal.div (Ideal.exp ((S k : EReal) - (R : EReal))) (∑ k', Ideal.exp ((S k' : EReal) - (R : EReal))) * (V k : EReal) := by
  let s : ℕ → κ → ℝ := fun j k => if hj : j < n + 1 then S (e (⟨j, hj⟩, k)) else 0
  let v : ℕ → κ → ℝ := fun j k => if hj : j < n + 1 then V (e (⟨j, hj⟩, k)) else 0
  have hrun : ∀ j, j ≤ n + 1 → st j = run s v j := by
    intro j
    induction j with
    | zero => intro _; exact h0
    | succ j ih =>
      intro hj
      have hj' : j < n + 1 := hj
      rw [hstep j hj', ih (Nat.le_of_lt hj')]
      show step (run s v j) _ _ = step (run s v j) (fun k => (s j k : EReal)) (fun k => (v j k : EReal))
      simp only [s, v, dif_pos hj']
  rw [hrun (n + 1) (Nat.le_refl _)]
  have h := online_eq_onepass n e S V R s v (fun j k => by simp only [s, dif_pos j.isLt]) (fun j k => by simp only [v, dif_pos j.isLt])
  rw [h]
  simp only [zero_add]

end Cert.LibOnlineSoftmax

end
-- ==== Proof.Spec.lean ====
/-
  The two results as functions of the ten argument arrays, entry by entry on the extended reals,
  written twice.

  `Plain`: the formulas as one reads them. Column sums `c s = ∑ n, e n s`; normalised weights
  `e n s / c s`; `sector = weightsᵀ · x`; scores `x · sectorᵀ`; a softmax down each column (maximum
  from −∞, exponentials, their sum, the quotient); `sector2 = softmaxᵀ · x`; scores `x · sector2ᵀ`;
  a softmax along each row; `u = softmax · sector2`; then `h = u · W_entᵀ + b_ent`,
  `skip_in = h · W_siᵀ + b_si`, `skip_out = leaky (h · W_soᵀ + b_so)`,
  `to_gnn = leaky ((x + skip_in) · W_outᵀ + b_out)`.

  `Tiled`: the same quantities in the order a row-tiled evaluation produces them, after nothing
  but regrouping of sums (associativity and commutativity of `+`, commutativity of `*`, `0 + a = a`,
  `a * 1 = a` — all valid at the infinities too). `sector` divides ONCE, after the contraction;
  `sector2` is the quotient of a running numerator by a running denominator kept, with a running
  maximum, over five tiles of 20000 rows (the update is `Cert.LibOnlineSoftmax.step`); the layers
  are multiplied onto the small sector matrix first (`mso`, `mog`, `vso`, `vg`) and the row
  softmax applied last.

  The two agree when every entry is a real number and no column of `e` sums to zero; at a zero
  column sum they differ (`Cert.Lib.NormalizedSum.not_at_zero`).
-/
import proofs.«167790_g44066364457491_cont_8to1_c_744_34_alg».proof.Proof.LibOnlineSoftmax
import Idealize.ShloMosaic.Lib.ValueIdx

noncomputable section

namespace Cert.Spec

open Idealize.ShloMosaic

/-- The ten argument arrays by coordinates: rows `n < 100000`, features `d, j < 128`, sectors `s < 32`. -/
structure Args where
  x : Fin 100000 → Fin 128 → EReal
  e : Fin 100000 → Fin 32 → EReal
  We : Fin 128 → Fin 128 → EReal
  be : Fin 128 → EReal
  Wsi : Fin 128 → Fin 128 → EReal
  bsi : Fin 128 → EReal
  Wso : Fin 128 → Fin 128 → EReal
  bso : Fin 128 → EReal
  Wo : Fin 128 → Fin 128 → EReal
  bo : Fin 128 → EReal

/-- The arrays as the programs hold them (whole buffers over a shape's indices), read by coordinates. -/
def Args.ofArrays
    (X : (⟨2, ![100000, 128]⟩ : Shape).Idx → EReal) (E : (⟨2, ![100000, 32]⟩ : Shape).Idx → EReal)
    (We : (⟨2, ![128, 128]⟩ : Shape).Idx → EReal) (be : (⟨1, ![128]⟩ : Shape).Idx → EReal)
    (Wsi : (⟨2, ![128, 128]⟩ : Shape).Idx → EReal) (bsi : (⟨1, ![128]⟩ : Shape).Idx → EReal)
    (Wso : (⟨2, ![128, 128]⟩ : Shape).Idx → EReal) (bso : (⟨1, ![128]⟩ : Shape).Idx → EReal)
    (Wo : (⟨2, ![128, 128]⟩ : Shape).Idx → EReal) (bo : (⟨1, ![128]⟩ : Shape).Idx → EReal) : Args where
  x n d := X (ValueIdx.ix2 n d)
  e n s := E (ValueIdx.ix2 n s)
  We j d := We (ValueIdx.ix2 j d)
  be j := be (ValueIdx.ix1 j)
  Wsi j d := Wsi (ValueIdx.ix2 j d)
  bsi j := bsi (ValueIdx.ix1 j)
  Wso j d := Wso (ValueIdx.ix2 j d)
  bso j := bso (ValueIdx.ix1 j)
  Wo j d := Wo (ValueIdx.ix2 j d)
  bo j := bo (ValueIdx.ix1 j)

/-- Every entry of every array is a real number. -/
structure Args.IsReal (a : Args) : Prop where
  x : ∀ n d, ∃ r : ℝ, a.x n d = (r : EReal)
  e : ∀ n s, ∃ r : ℝ, a.e n s = (r : EReal)
  We : ∀ j d, ∃ r : ℝ, a.We j d = (r : EReal)
  be : ∀ j, ∃ r : ℝ, a.be j = (r : EReal)
  Wsi : ∀ j d, ∃ r : ℝ, a.Wsi j d = (r : EReal)
  bsi : ∀ j, ∃ r : ℝ, a.bsi j = (r : EReal)
  Wso : ∀ j d, ∃ r : ℝ, a.Wso j d = (r : EReal)
  bso : ∀ j, ∃ r : ℝ, a.bso j = (r : EReal)
  Wo : ∀ j d, ∃ r : ℝ, a.Wo j d = (r : EReal)
  bo : ∀ j, ∃ r : ℝ, a.bo j = (r : EReal)

/-- No column of the adjacency sums to zero. -/
def Args.ColsNonzero (a : Args) : Prop := ∀ s, (∑ n, a.e n s) ≠ 0

/-- The slope of the leaky rectifier below zero: the f32 nearest to 0.01, as both programs carry it. -/
def slope : EReal := Ideal.ofBits .f32 0x3C23D70A#32

/-- `v` where `v ≥ 0`, `slope * v` elsewhere. -/
def leaky (v : EReal) : EReal := if 0 ≤ v then v else slope * v

namespace Plain

variable (a : Args)

def colsum (s : Fin 32) : EReal := ∑ n, a.e n s
def adj (n : Fin 100000) (s : Fin 32) : EReal := Ideal.div (a.e n s) (colsum a s)
def sector (s : Fin 32) (d : Fin 128) : EReal := ∑ n, adj a n s * a.x n d
def score (n : Fin 100000) (s : Fin 32) : EReal := ∑ d, a.x n d * sector a s d
def cmax (s : Fin 32) : EReal := (Finset.univ : Finset (Fin 100000)).fold max ⊥ (fun n => score a n s)
def cw (n : Fin 100000) (s : Fin 32) : EReal := Ideal.exp (score a n s - cmax a s)
def cden (s : Fin 32) : EReal := ∑ n, cw a n s
def sector2 (s : Fin 32) (d : Fin 128) : EReal := ∑ n, Ideal.div (cw a n s) (cden a s) * a.x n d
def logit (n : Fin 100000) (s : Fin 32) : EReal := ∑ d, a.x n d * sector2 a s d
def rmax (n : Fin 100000) : EReal := (Finset.univ : Finset (Fin 32)).fold max ⊥ (fun s => logit a n s)
def rwt (n : Fin 100000) (s : Fin 32) : EReal := Ideal.exp (logit a n s - rmax a n)
def rden (n : Fin 100000) : EReal := ∑ s, rwt a n s
def inv (n : Fin 100000) (s : Fin 32) : EReal := Ideal.div (rwt a n s) (rden a n)
def upd (n : Fin 100000) (d : Fin 128) : EReal := ∑ s, inv a n s * sector2 a s d
def hid (n : Fin 100000) (j : Fin 128) : EReal := (∑ d, upd a n d * a.We j d) + a.be j
def skipIn (n : Fin 100000) (j : Fin 128) : EReal := (∑ d, hid a n d * a.Wsi j d) + a.bsi j
def skipOut (n : Fin 100000) (j : Fin 128) : EReal := leaky ((∑ d, hid a n d * a.Wso j d) + a.bso j)
def toGnn (n : Fin 100000) (j : Fin 128) : EReal := leaky ((∑ d, (a.x n d + skipIn a n d) * a.Wo j d) + a.bo j)

end Plain

namespace Tiled

variable (a : Args)

def colsum (s : Fin 32) : EReal := ∑ n, a.e n s
def sector (s : Fin 32) (d : Fin 128) : EReal := Ideal.div (∑ n, a.e n s * a.x n d) (colsum a s)
def score (s : Fin 32) (n : Fin 100000) : EReal := ∑ d, sector a s d * a.x n d

/-- Row `r` of tile `j`: five tiles of 20000 rows. -/
def row (j : Fin 5) (r : Fin 20000) : Fin 100000 := ⟨20000 * j.val + r.val, by omega⟩

/-- Running maximum, denominator and numerator of sector `s`, feature `d`, after the first `j` tiles. -/
def st (s : Fin 32) (d : Fin 128) : ℕ → EReal × EReal × EReal
  | 0 => ((⊥ : EReal), (0 : EReal), (0 : EReal))
  | j + 1 =>
    if hj : j < 5 then
      Cert.LibOnlineSoftmax.step (st s d j) (fun r : Fin 20000 => score a s (row ⟨j, hj⟩ r)) (fun r : Fin 20000 => a.x (row ⟨j, hj⟩ r) d)
    else st s d j

def sector2 (s : Fin 32) (d : Fin 128) : EReal := Ideal.div (st a s d 5).2.2 (st a s d 5).2.1
def t1 (s : Fin 32) (j : Fin 128) : EReal := ∑ k, sector2 a s k * a.We j k
def mso (s : Fin 32) (j : Fin 128) : EReal := ∑ d, t1 a s d * a.Wso j d
def t2 (s : Fin 32) (j : Fin 128) : EReal := ∑ d, t1 a s d * a.Wsi j d
def mog (s : Fin 32) (j : Fin 128) : EReal := ∑ d, t2 a s d * a.Wo j d
def vso (j : Fin 128) : EReal := (∑ d, a.be d * a.Wso j d) + a.bso j
def b1 (j : Fin 128) : EReal := (∑ d, a.be d * a.Wsi j d) + a.bsi j
def vg (j : Fin 128) : EReal := (∑ d, b1 a d * a.Wo j d) + a.bo j
def logit (n : Fin 100000) (s : Fin 32) : EReal := ∑ d, a.x n d * sector2 a s d
def rmax (n : Fin 100000) : EReal := (Finset.univ : Finset (Fin 32)).fold max ⊥ (fun s => logit a n s)
def rwt (n : Fin 100000) (s : Fin 32) : EReal := Ideal.exp (logit a n s - rmax a n)
def rden (n : Fin 100000) : EReal := ∑ s, rwt a n s
def inv (n : Fin 100000) (s : Fin 32) : EReal := Ideal.div (rwt a n s) (rden a n)
def skipOut (n : Fin 100000) (j : Fin 128) : EReal := leaky ((∑ s, inv a n s * mso a s j) + vso a j)
def toGnn (n : Fin 100000) (j : Fin 128) : EReal :=
  leaky (((∑ d, a.x n d * a.Wo j d) + (∑ s, inv a n s * mog a s j)) + vg a j)

end Tiled

end Cert.Spec

end
-- ==== Proof.Val0.lean ====
/-
  What the first launch leaves in the [32,128] array `sector`.

  The launch runs over five tiles of 20000 rows. Each tile adds `eᵀ · x` of its rows (four quarter
  tiles of 5000 rows, each a contraction into a zero accumulator) to a [32,128] accumulator and the
  column sums `eᵀ · 1` to a [32,1] scratch, both set to zero at the first tile; the last tile divides
  the accumulator, row by row, by the column sums, and only then is the accumulator written back — one
  block that is the whole array. So entry (s, d) ends as
  `(∑ n, e n s * x n d) / (∑ n, e n s)` over all 100000 rows: the sums are regrouped by tiles and
  quarters using only associativity of `+`, `0 + a = a` and `a * 1 = a`, which hold at the
  infinities too; no hypothesis on the arrays is needed.
-/
import proofs.«167790_g44066364457491_cont_8to1_c_744_34_alg».proof.Proof.Val0.Acc
import proofs.«167790_g44066364457491_cont_8to1_c_744_34_alg».proof.Proof.Spec

set_option maxRecDepth 16384

noncomputable section

namespace Cert.Val0

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx (ix1 ix2)

/-- The sector matrix with ONE division, after the contraction. -/
def sector1 (x : Fin 100000 → Fin 128 → EReal) (e : Fin 100000 → Fin 32 → EReal) (s : Fin 32) (d : Fin 128) : EReal :=
  Ideal.div (∑ n, e n s * x n d) (∑ n, e n s)

theorem tiled_sector (a : Cert.Spec.Args) (s : Fin 32) (d : Fin 128) : Cert.Spec.Tiled.sector a s d = sector1 a.x a.e s d := rfl

variable (V : (c : Dev nD) → (b : Ref sig .tc) → Buf (Elt Ideal) ((c : Thread nD τ).loc b))

/-- The last tile. -/
abbrev tLast : Fin cfg0.N := ⟨4, by rw [show cfg0.N = 5 from N_0]; decide⟩

/-- The accumulator after the last tile, as contents of the result array. -/
abbrev result (c : Dev nD) : Buf (Elt Ideal) ((c : Thread nD τ).loc main_call0_v0) := (outsAt0 V c 4 tLast.isLt).1

/-- After the last tile the accumulator holds the quotients. -/
theorem result_apply (c : Dev nD) (s : Fin 32) (d : Fin 128) :
    result V c (ix2 s d) = sector1 (XV0 V c) (EV0 V c) s d :=
  ((outsAt_eq V c 4 tLast.isLt).2.2 (by decide) s d).trans
    (congrArg₂ Ideal.div (upTo_prodAt_five (XV0 V c) (EV0 V c) s d) (upTo_colAt_five (EV0 V c) s))

/-- The one write-back, at the last tile, writes the accumulator: block (0, 0) of the [32,128] array is the array. -/
theorem flushed_eq (c : Dev nD) (t : Fin cfg0.N) (hf : (cfg0.win 5).flush t = true) :
    (dat0 V c).flushed 5 t = ((cfg0.win 5).blk t).view.read (Elt Ideal) (result V c) := by
  have hN : cfg0.N = 5 := N_0
  have h4 : t.val = 4 := by have := (flush0_5 t).mp hf; have := t.isLt; omega
  obtain rfl : t = tLast := Fin.ext h4
  show (cfg0.win 5).cut (grid0.coords tLast) ((dat0 V c).after 5 tLast) = _
  rw [after0_5]
  have hz' : (fun a => win0_5.index tLast a * main_call0_v0.ty.shape.size a) = fun _ => 0 := funext fun a => by fin_cases a <;> decide
  exact (Memref.read_access_unit_zero (Elt Ideal) main_call0_v0 hz' (fun a => by rw [congrFun hz' a]; simp) (result V c)).symm

/-- So the result array ends holding the accumulator after the last tile: that tile's block covers it. -/
theorem final5 (c : Dev nD) : (dat0 V c).arrAt 5 cfg0.N = result V c :=
  (dat0 V c).arrAt_eq_of_cover 5 (result V c) (flushed_eq V c) fun i =>
    ⟨tLast, (flush0_5 tLast).mpr rfl, by
      show i ∈ ((View.whole main_call0_v0).slice (win0_5.rect tLast)).set
      rw [View.set_slice_whole, Rect.mem_set_unit]
      intro a
      have h0 : (i 0 : Nat) < 32 := (i 0).isLt
      have h1 : (i 1 : Nat) < 128 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 32 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 128 from by decide +kernel]; omega⟩

/-- THE VALUE of the first launch: entry (s, d) of the [32,128] array after the launch. -/
theorem arr5 (c : Dev nD) (s : Fin 32) (d : Fin 128) :
    (dat0 (F := Ideal) V c).arrAt 5 cfg0.N (ValueIdx.ix2 s d) = sector1 (XV0 V c) (EV0 V c) s d :=
  (congrFun (final5 V c) (ix2 s d)).trans (result_apply V c s d)

end Cert.Val0
-- ==== Proof.Val2.Pass.lean ====
/-
  The third pass as a function of its operands, entry by entry on the extended reals.

  From the rows `x`, a sector matrix `s2`, two sector-by-feature matrices, two bias rows and one square matrix:
  the scores of row `n` against the 32 sectors, `logit n s = ∑ d, x n d * s2 s d`; the softmax of those 32 scores
  (their maximum taken from −∞, the exponentials of the distances to it, their sum, the quotients `inv n s`); then
      skipOut n j = leaky ((∑ s, inv n s * mso s j) + vso j)
      toGnn   n j = leaky (((∑ d, x n d * Wo j d) + (∑ s, inv n s * mog s j)) + vg j).
  Row `n` of either result depends on row `n` of `x` alone. These are the formulas of the row-tiled evaluation
  with its four small operands left as parameters.
-/
import proofs.«167790_g44066364457491_cont_8to1_c_744_34_alg».proof.Proof.Spec

noncomputable section

namespace Cert.Val2

open Idealize.ShloMosaic

def logit (x : Fin 100000 → Fin 128 → EReal) (s2 : Fin 32 → Fin 128 → EReal) (n : Fin 100000) (s : Fin 32) : EReal :=
  ∑ d, x n d * s2 s d
def rmax (x : Fin 100000 → Fin 128 → EReal) (s2 : Fin 32 → Fin 128 → EReal) (n : Fin 100000) : EReal :=
  (Finset.univ : Finset (Fin 32)).fold max ⊥ (fun s => logit x s2 n s)
def rwt (x : Fin 100000 → Fin 128 → EReal) (s2 : Fin 32 → Fin 128 → EReal) (n : Fin 100000) (s : Fin 32) : EReal :=
  Ideal.exp (logit x s2 n s - rmax x s2 n)
def rden (x : Fin 100000 → Fin 128 → EReal) (s2 : Fin 32 → Fin 128 → EReal) (n : Fin 100000) : EReal :=
  ∑ s, rwt x s2 n s
def inv (x : Fin 100000 → Fin 128 → EReal) (s2 : Fin 32 → Fin 128 → EReal) (n : Fin 100000) (s : Fin 32) : EReal :=
  Ideal.div (rwt x s2 n s) (rden x s2 n)
def skipOut (x : Fin 100000 → Fin 128 → EReal) (s2 mso : Fin 32 → Fin 128 → EReal) (vso : Fin 128 → EReal)
    (n : Fin 100000) (j : Fin 128) : EReal :=
  Cert.Spec.leaky ((∑ s, inv x s2 n s * mso s j) + vso j)
def toGnn (x : Fin 100000 → Fin 128 → EReal) (s2 mog : Fin 32 → Fin 128 → EReal) (vg : Fin 128 → EReal)
    (Wo : Fin 128 → Fin 128 → EReal) (n : Fin 100000) (j : Fin 128) : EReal :=
  Cert.Spec.leaky (((∑ d, x n d * Wo j d) + (∑ s, inv x s2 n s * mog s j)) + vg j)

/-- The row-tiled evaluation's `skip_out` is this pass at its own sector matrix, folded layer matrix and bias row. -/
theorem tiled_skipOut (a : Cert.Spec.Args) (n : Fin 100000) (j : Fin 128) :
    Cert.Spec.Tiled.skipOut a n j
      = skipOut a.x (Cert.Spec.Tiled.sector2 a) (Cert.Spec.Tiled.mso a) (Cert.Spec.Tiled.vso a) n j := rfl

/-- The row-tiled evaluation's `to_gnn` likewise. -/
theorem tiled_toGnn (a : Cert.Spec.Args) (n : Fin 100000) (j : Fin 128) :
    Cert.Spec.Tiled.toGnn a n j
      = toGnn a.x (Cert.Spec.Tiled.sector2 a) (Cert.Spec.Tiled.mog a) (Cert.Spec.Tiled.vg a) a.Wo n j := rfl

end Cert.Val2

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Val2.Payload.lean ====
/-
  The third pass's arithmetic on one block of 10000 rows, read entry by entry on the extended reals.

  Local row `r` of the block is row `n` of the whole array. Each product into a zero accumulator is the plain sum
  over the contracted coordinate (`0 + a = a`); the row maximum and the row sum are a fold of `max` from −∞ and a
  sum over the 32 sectors; a vector kept as a column and repeated along the rows reads the vector at the row; a
  [1,128] row repeated down the rows reads the row at the column; and `select (v ≥ 0) v (c · v)` is the leaky
  rectifier. Nothing is regrouped, so no finiteness is needed.
-/
import proofs.«167790_g44066364457491_cont_8to1_c_744_34_alg».proof.Proof.Gen.KernelIdeal.Skeleton
import proofs.«167790_g44066364457491_cont_8to1_c_744_34_alg».proof.Proof.Val2.Pass
import proofs.«167790_g44066364457491_cont_8to1_c_744_34_alg».proof.Proof.LibRowSoftmax
import proofs.«167790_g44066364457491_cont_8to1_c_744_34_alg».proof.Proof.LibColumnLayout
import Idealize.ShloMosaic.Lib.Pipeline.Value
import Idealize.ShloMosaic.Lib.ValueLayout
import Idealize.ShloMosaic.Lib.ValueIdx
import Idealize.ShloMosaic.PureOps.Ideal.Laws

noncomputable section

namespace Cert.Val2

open Idealize.ShloMosaic Idealize.ShloMosaic.ValueIdx Idealize.ShloMosaic.ColumnLayout
open Cert.KernelIdeal Cert.KernelIdeal.Gen

/-! ## The single operations at an entry -/

/-- A sum over the 32 sectors of row `r`. -/
theorem rowsum_apply (h : S10000x32.Reduces [1] S10000) (v : FVec Ideal S10000x32 .f32) (hφ : FKind.Formats .f32)
    (hacc : (0x00000000#32 : BitVec 32) = 0x00000000#32) (r : Fin 10000) :
    multiReduction .add [1] S10000 v 0x00000000#32 h hφ hacc (ix1 r) = ∑ s : Fin 32, v (ix2 r s) := by
  refine (Ideal.multiReduction_add_single v 0x00000000#32 h hφ hacc (ix1 r)).trans ?_
  exact Finset.sum_congr rfl fun k _ => congrArg v (funext fun a => Fin.ext (by match a with | ⟨0, _⟩ => rfl | ⟨1, _⟩ => rfl))

/-- The f32 word of −∞ is the least extended real. -/
theorem negInf_eq_bot : Ideal.ofBits .f32 0xFF800000#32 = (⊥ : EReal) := by simp [Ideal.ofBits, Ideal.ieee]

/-- The maximum over the 32 sectors of row `r`, taken from −∞. -/
theorem rowmax_apply (h : S10000x32.Reduces [1] S10000) (v : FVec Ideal S10000x32 .f32) (hφ : FKind.Formats .f32)
    (hacc : (0xFF800000#32 : BitVec 32) = 0xFF800000#32) (r : Fin 10000) :
    multiReduction .maximumf [1] S10000 v 0xFF800000#32 h hφ hacc (ix1 r)
      = (Finset.univ : Finset (Fin 32)).fold max ⊥ (fun s => v (ix2 r s)) := by
  refine (Ideal.multiReduction_maximumf_single v 0xFF800000#32 h hφ hacc (ix1 r)).trans ?_
  have e : (v ∘ h.lift (ix1 r)) = fun s : Fin 32 => v (ix2 r s) :=
    funext fun k => congrArg v (funext fun a => Fin.ext (by match a with | ⟨0, _⟩ => rfl | ⟨1, _⟩ => rfl))
  rw [e]
  exact congrArg (fun b => (Finset.univ : Finset (Fin 32)).fold max b (fun s => v (ix2 r s))) negInf_eq_bot

/-- The exponential, entry by entry. -/
theorem exp_apply {s : Shape} (v : FVec Ideal s .f32) (i : s.Idx) : exp v i = Ideal.exp (v i) := rfl

theorem scores_apply_lhs_non (i : S10000x32.Idx) (q : dot_S10000x128_S32x128_S10000x32_1_1_0_0_n_n.contr.Idx) :
    (dot_S10000x128_S32x128_S10000x32_1_1_0_0_n_n.lhsIdx i q 0).val = (i 0).val := by
  unfold DotDims.lhsIdx
  rw [dif_neg (show ¬(0 : Fin S10000x128.rank) ∈ dot_S10000x128_S32x128_S10000x32_1_1_0_0_n_n.lhsBatch by decide), dif_pos (show (0 : Fin S10000x128.rank) ∈ dot_S10000x128_S32x128_S10000x32_1_1_0_0_n_n.lhsNonContracting by decide)]
  rfl
theorem scores_apply_lhs_con (i : S10000x32.Idx) (q : dot_S10000x128_S32x128_S10000x32_1_1_0_0_n_n.contr.Idx) :
    (dot_S10000x128_S32x128_S10000x32_1_1_0_0_n_n.lhsIdx i q 1).val = (q ⟨0, by decide⟩).val :=
  dot_S10000x128_S32x128_S10000x32_1_1_0_0_n_n.lhsIdx_val_of_single rfl i q
theorem scores_apply_rhs_non (i : S10000x32.Idx) (q : dot_S10000x128_S32x128_S10000x32_1_1_0_0_n_n.contr.Idx) :
    (dot_S10000x128_S32x128_S10000x32_1_1_0_0_n_n.rhsIdx i q 0).val = (i 1).val := by
  unfold DotDims.rhsIdx
  rw [dif_neg (show ¬(0 : Fin S32x128.rank) ∈ dot_S10000x128_S32x128_S10000x32_1_1_0_0_n_n.rhsBatch by decide), dif_pos (show (0 : Fin S32x128.rank) ∈ dot_S10000x128_S32x128_S10000x32_1_1_0_0_n_n.rhsNonContracting by decide)]
  rfl
theorem scores_apply_rhs_con (i : S10000x32.Idx) (q : dot_S10000x128_S32x128_S10000x32_1_1_0_0_n_n.contr.Idx) :
    (dot_S10000x128_S32x128_S10000x32_1_1_0_0_n_n.rhsIdx i q 1).val = (q ⟨0, by decide⟩).val :=
  dot_S10000x128_S32x128_S10000x32_1_1_0_0_n_n.rhsIdx_val_of_single rfl i q
/-- The rows against the sectors: entry `(p, q)` of `l · wᵀ` into a zero accumulator is `∑ k, l p k * w q k`. -/
theorem scores_apply (l : FVec Ideal S10000x128 .f32) (w : FVec Ideal S32x128 .f32) (p : Fin 10000) (q : Fin 32) :
    matmul dot_S10000x128_S32x128_S10000x32_1_1_0_0_n_n none l w (constant S10000x32 .f32 0x00000000#32) (ix2 p q)
      = ∑ k : Fin 128, l (ix2 p k) * w (ix2 q k) := by
  simp only [matmul]
  rw [Ideal.matmul_constant_zero_apply]
  refine Cert.Attn.contraction_sum (K := 128) dot_S10000x128_S32x128_S10000x32_1_1_0_0_n_n rfl rfl l w (ix2 p q) (fun k => l (ix2 p k)) (fun k => w (ix2 q k))
    (fun k => congrArg l ?_) (fun k => congrArg w ?_)
  · have hk := contrEquiv1_symm_val dot_S10000x128_S32x128_S10000x32_1_1_0_0_n_n 128 rfl rfl k
    funext a
    apply Fin.ext
    match a with
    | ⟨0, _⟩ => exact scores_apply_lhs_non (ix2 p q) _
    | ⟨1, _⟩ => exact (scores_apply_lhs_con _ _).trans hk
  · have hk := contrEquiv1_symm_val dot_S10000x128_S32x128_S10000x32_1_1_0_0_n_n 128 rfl rfl k
    funext a
    apply Fin.ext
    match a with
    | ⟨0, _⟩ => exact scores_apply_rhs_non (ix2 p q) _
    | ⟨1, _⟩ => exact (scores_apply_rhs_con _ _).trans hk

theorem mix_apply_lhs_non (i : S10000x128.Idx) (q : dot_S10000x32_S32x128_S10000x128_1_0_0_1_n_n.contr.Idx) :
    (dot_S10000x32_S32x128_S10000x128_1_0_0_1_n_n.lhsIdx i q 0).val = (i 0).val := by
  unfold DotDims.lhsIdx
  rw [dif_neg (show ¬(0 : Fin S10000x32.rank) ∈ dot_S10000x32_S32x128_S10000x128_1_0_0_1_n_n.lhsBatch by decide), dif_pos (show (0 : Fin S10000x32.rank) ∈ dot_S10000x32_S32x128_S10000x128_1_0_0_1_n_n.lhsNonContracting by decide)]
  rfl
theorem mix_apply_lhs_con (i : S10000x128.Idx) (q : dot_S10000x32_S32x128_S10000x128_1_0_0_1_n_n.contr.Idx) :
    (dot_S10000x32_S32x128_S10000x128_1_0_0_1_n_n.lhsIdx i q 1).val = (q ⟨0, by decide⟩).val :=
  dot_S10000x32_S32x128_S10000x128_1_0_0_1_n_n.lhsIdx_val_of_single rfl i q
theorem mix_apply_rhs_non (i : S10000x128.Idx) (q : dot_S10000x32_S32x128_S10000x128_1_0_0_1_n_n.contr.Idx) :
    (dot_S10000x32_S32x128_S10000x128_1_0_0_1_n_n.rhsIdx i q 1).val = (i 1).val := by
  unfold DotDims.rhsIdx
  rw [dif_neg (show ¬(1 : Fin S32x128.rank) ∈ dot_S10000x32_S32x128_S10000x128_1_0_0_1_n_n.rhsBatch by decide), dif_pos (show (1 : Fin S32x128.rank) ∈ dot_S10000x32_S32x128_S10000x128_1_0_0_1_n_n.rhsNonContracting by decide)]
  rfl
theorem mix_apply_rhs_con (i : S10000x128.Idx) (q : dot_S10000x32_S32x128_S10000x128_1_0_0_1_n_n.contr.Idx) :
    (dot_S10000x32_S32x128_S10000x128_1_0_0_1_n_n.rhsIdx i q 0).val = (q ⟨0, by decide⟩).val :=
  dot_S10000x32_S32x128_S10000x128_1_0_0_1_n_n.rhsIdx_val_of_single rfl i q
/-- The weights times a sector-by-feature matrix: entry `(p, q)` of `l · w` into a zero accumulator is `∑ k, l p k * w k q`. -/
theorem mix_apply (l : FVec Ideal S10000x32 .f32) (w : FVec Ideal S32x128 .f32) (p : Fin 10000) (q : Fin 128) :
    matmul dot_S10000x32_S32x128_S10000x128_1_0_0_1_n_n none l w (constant S10000x128 .f32 0x00000000#32) (ix2 p q)
      = ∑ k : Fin 32, l (ix2 p k) * w (ix2 k q) := by
  simp only [matmul]
  rw [Ideal.matmul_constant_zero_apply]
  refine Cert.Attn.contraction_sum (K := 32) dot_S10000x32_S32x128_S10000x128_1_0_0_1_n_n rfl rfl l w (ix2 p q) (fun k => l (ix2 p k)) (fun k => w (ix2 k q))
    (fun k => congrArg l ?_) (fun k => congrArg w ?_)
  · have hk := contrEquiv1_symm_val dot_S10000x32_S32x128_S10000x128_1_0_0_1_n_n 32 rfl rfl k
    funext a
    apply Fin.ext
    match a with
    | ⟨0, _⟩ => exact mix_apply_lhs_non (ix2 p q) _
    | ⟨1, _⟩ => exact (mix_apply_lhs_con _ _).trans hk
  · have hk := contrEquiv1_symm_val dot_S10000x32_S32x128_S10000x128_1_0_0_1_n_n 32 rfl rfl k
    funext a
    apply Fin.ext
    match a with
    | ⟨0, _⟩ => exact (mix_apply_rhs_con _ _).trans hk
    | ⟨1, _⟩ => exact mix_apply_rhs_non (ix2 p q) _

theorem rowsW_apply_lhs_non (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem rowsW_apply_lhs_con (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rowsW_apply_rhs_non (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rowsW_apply_rhs_con (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q
/-- The rows against a square matrix's rows: entry `(p, q)` of `l · wᵀ` into a zero accumulator is `∑ k, l p k * w q k`. -/
theorem rowsW_apply (l : FVec Ideal S10000x128 .f32) (w : FVec Ideal S128x128 .f32) (p : Fin 10000) (q : Fin 128) :
    matmul dot_S10000x128_S128x128_S10000x128_1_1_0_0_n_n none l w (constant S10000x128 .f32 0x00000000#32) (ix2 p q)
      = ∑ k : Fin 128, l (ix2 p k) * w (ix2 q k) := by
  simp only [matmul]
  rw [Ideal.matmul_constant_zero_apply]
  refine Cert.Attn.contraction_sum (K := 128) dot_S10000x128_S128x128_S10000x128_1_1_0_0_n_n rfl rfl l w (ix2 p q) (fun k => l (ix2 p k)) (fun k => w (ix2 q k))
    (fun k => congrArg l ?_) (fun k => congrArg w ?_)
  · have hk := contrEquiv1_symm_val dot_S10000x128_S128x128_S10000x128_1_1_0_0_n_n 128 rfl rfl k
    funext a
    apply Fin.ext
    match a with
    | ⟨0, _⟩ => exact rowsW_apply_lhs_non (ix2 p q) _
    | ⟨1, _⟩ => exact (rowsW_apply_lhs_con _ _).trans hk
  · have hk := contrEquiv1_symm_val dot_S10000x128_S128x128_S10000x128_1_1_0_0_n_n 128 rfl rfl k
    funext a
    apply Fin.ext
    match a with
    | ⟨0, _⟩ => exact rowsW_apply_rhs_non (ix2 p q) _
    | ⟨1, _⟩ => exact (rowsW_apply_rhs_con _ _).trans hk

/-- `select (v ≥ 0) v (c · v)` with `c` the f32 nearest 0.01 is the leaky rectifier. -/
theorem leaky_read (v : EReal) :
    Scalar.select (Ideal.cmp .oge v (Ideal.ofBits .f32 0x00000000#32)) v (Ideal.ofBits .f32 0x3C23D70A#32 * v)
      = Cert.Spec.leaky v := by
  rw [Ideal.ofBits_zero_f32]
  unfold Cert.Spec.leaky Cert.Spec.slope Scalar.select Ideal.cmp
  by_cases h : (0 : EReal) ≤ v
  · simp [h]
  · simp [h]

/-- The same on a whole vector, at an entry. -/
theorem leaky_apply {S : Shape} (u : FVec Ideal S .f32) (i : S.Idx) :
    select (cmpf .oge u (broadcast S (Scalar.ofBits (F := Ideal) .f32 0x00000000#32))) u
        (mulf (broadcast S (Scalar.ofBits (F := Ideal) .f32 0x3C23D70A#32)) u) i = Cert.Spec.leaky (u i) :=
  leaky_read (u i)

/-! ## The softmax weights of a block's rows -/

/-- The weights the body computes from a block of rows and the sector matrix, at local row `r` and sector `s`. -/
theorem pay2_apply (v0 : Vec Ideal S10000x128 .f32) (v1 : Vec Ideal S32x128 .f32)
    (x : Fin 100000 → Fin 128 → EReal) (s2 : Fin 32 → Fin 128 → EReal) (n : Fin 100000) (r : Fin 10000)
    (hx : ∀ d, v0 (ix2 r d) = x n d) (hs : ∀ s d, v1 (ix2 s d) = s2 s d) (s : Fin 32) :
    k2_pay2 v0 v1 (ix2 r s) = inv x s2 n s := by
  have hsc : ∀ s' : Fin 32, matmul (F := Ideal) dot_S10000x128_S32x128_S10000x32_1_1_0_0_n_n none v0 (shapeCast S32x128 v1 shapeCasts_S32x128_S32x128)
      (constant (F := Ideal) S10000x32 .f32 0x00000000#32) (ix2 r s') = logit x s2 n s' := fun s' => by
    rw [shapeCast_self, scores_apply]
    exact Finset.sum_congr rfl fun d _ => by rw [hx d, hs s' d]
  unfold k2_pay2
  dsimp only
  rw [divf_apply, exp_apply, subf_apply, column_broadcast_apply, column_broadcast_apply, rowmax_apply, rowsum_apply]
  simp only [exp_apply, subf_apply, column_broadcast_apply]
  rw [rowmax_apply]
  simp only [hsc]
  rfl

/-! ## The two stored blocks -/

/-- What the body stores into the `skip_out` block, at local row `r` and feature `j`. -/
theorem pay3_apply (v0 : Vec Ideal S10000x128 .f32) (v1 v13 : Vec Ideal S32x128 .f32) (v16 : Vec Ideal S1x128 .f32)
    (x : Fin 100000 → Fin 128 → EReal) (s2 mso : Fin 32 → Fin 128 → EReal) (vso : Fin 128 → EReal)
    (n : Fin 100000) (r : Fin 10000)
    (hx : ∀ d, v0 (ix2 r d) = x n d) (hs : ∀ s d, v1 (ix2 s d) = s2 s d) (hm : ∀ s j, v13 (ix2 s j) = mso s j)
    (hv : ∀ j, v16 (ix2 (0 : Fin 1) j) = vso j) (j : Fin 128) :
    k2_pay3 v0 v1 v13 v16 (ix2 r j) = skipOut x s2 mso vso n j := by
  unfold k2_pay3
  try dsimp only
  rw [leaky_apply, addf_apply, shapeCast_self, shapeCast_self, mix_apply, broadcastTo_1b_ab_apply]
  simp only [pay2_apply v0 v1 x s2 n r hx hs, hm, hv]
  rfl

/-- What the body stores into the `to_gnn` block, at local row `r` and feature `j`. -/
theorem pay1_apply (v0 : Vec Ideal S10000x128 .f32) (v1 v28 : Vec Ideal S32x128 .f32) (v32 : Vec Ideal S1x128 .f32)
    (v26 : Vec Ideal S128x128 .f32)
    (x : Fin 100000 → Fin 128 → EReal) (s2 mog : Fin 32 → Fin 128 → EReal) (vg : Fin 128 → EReal)
    (Wo : Fin 128 → Fin 128 → EReal) (n : Fin 100000) (r : Fin 10000)
    (hx : ∀ d, v0 (ix2 r d) = x n d) (hs : ∀ s d, v1 (ix2 s d) = s2 s d) (hm : ∀ s j, v28 (ix2 s j) = mog s j)
    (hv : ∀ j, v32 (ix2 (0 : Fin 1) j) = vg j) (hw : ∀ j d, v26 (ix2 j d) = Wo j d) (j : Fin 128) :
    k2_pay1 (k2_pay4 v0 v1 v26 v28) (k2_pay5 v32) (ix2 r j) = toGnn x s2 mog vg Wo n j := by
  unfold k2_pay1 k2_pay4 k2_pay5
  try dsimp only
  rw [leaky_apply, addf_apply, addf_apply, shapeCast_self, shapeCast_self, rowsW_apply, mix_apply, broadcastTo_1b_ab_apply]
  simp only [pay2_apply v0 v1 x s2 n r hx hs, hm, hv, hw, hx]
  rfl

end Cert.Val2

end
-- ==== Proof.Val2.Windows.lean ====
/-
  The third launch's operands by coordinates, and where each window's block sits in its array.

  The rows `x` and the two results move in blocks of 10000 rows: at grid point `t` the block is rows
  `10000·t … 10000·t + 9999`. The six small operands are fetched whole: their block at every point is the array.
-/
import proofs.«167790_g44066364457491_cont_8to1_c_744_34_alg».proof.Proof.KI.Reg2
import proofs.«167790_g44066364457491_cont_8to1_c_744_34_alg».proof.Proof.Val2.Payload
import Idealize.ShloMosaic.Lib.Pipeline.Value

noncomputable section

namespace Cert.Val2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The launch's seven operands by coordinates -/

noncomputable def XV (c : Dev nD) (n : Fin 100000) (d : Fin 128) : EReal :=
  (V c (Pipeline.arrRef spec2 0) : S100000x128.Idx → EReal) (ix2 n d)
noncomputable def S2V (c : Dev nD) (s : Fin 32) (d : Fin 128) : EReal :=
  (V c (Pipeline.arrRef spec2 1) : S32x128.Idx → EReal) (ix2 s d)
noncomputable def MSOV (c : Dev nD) (s : Fin 32) (j : Fin 128) : EReal :=
  (V c (Pipeline.arrRef spec2 2) : S32x128.Idx → EReal) (ix2 s j)
noncomputable def MOGV (c : Dev nD) (s : Fin 32) (j : Fin 128) : EReal :=
  (V c (Pipeline.arrRef spec2 3) : S32x128.Idx → EReal) (ix2 s j)
noncomputable def VSOV (c : Dev nD) (j : Fin 128) : EReal :=
  (V c (Pipeline.arrRef spec2 4) : S1x128.Idx → EReal) (ix2 (0 : Fin 1) j)
noncomputable def VGV (c : Dev nD) (j : Fin 128) : EReal :=
  (V c (Pipeline.arrRef spec2 5) : S1x128.Idx → EReal) (ix2 (0 : Fin 1) j)
noncomputable def WOV (c : Dev nD) (j : Fin 128) (d : Fin 128) : EReal :=
  (V c (Pipeline.arrRef spec2 6) : S128x128.Idx → EReal) (ix2 j d)

/-! ## Where each window's block sits -/

theorem hz : (![0, 0] : Fin 2 → Nat) = fun _ => 0 := funext fun a => by fin_cases a <;> rfl

/-- The block indices over the grid: the row windows are at block `t`, every other window at block 0. -/
theorem idx_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0) :=
  (by decide +kernel : ∀ t : Fin grid2.N, _)

/-- Local row `r` of the rows' block at point `t` is row `10000·t + r` of `x`. -/
theorem iblk0_apply (c : Dev nD) (t : Fin cfg2.N) (r : Fin 10000) (d : Fin 128) (n : Fin 100000)
    (hn : n.val = 10000 * t.val + r.val) :
    (iblk2 V c 0 t : Vec Ideal S10000x128 .f32) (ix2 r d) = XV V c n d := by
  obtain ⟨⟨e0, e1⟩, -⟩ := idx_facts t
  unfold iblk2 XV
  rw [View.read_apply]
  show V c (Pipeline.arrRef spec2 0) (((cfg2.win 0).blk t).view.emb (ix2 r d)) = V c (Pipeline.arrRef spec2 0) (ix2 n d)
  refine congrArg (V c (Pipeline.arrRef spec2 0)) ?_
  funext a
  apply Fin.ext
  match a with
  | ⟨0, _⟩ => show win2_0.index t (0 : Fin 2) * 10000 + 1 * r.val = n.val; rw [e0, hn]; omega
  | ⟨1, _⟩ => show win2_0.index t (1 : Fin 2) * 128 + 1 * d.val = d.val; rw [e1]; omega

/-- Window 1's block at any point is its whole array. -/
theorem iblk1_apply (c : Dev nD) (t : Fin cfg2.N) (s : Fin 32) (d : Fin 128) :
    (iblk2 V c 1 t : Vec Ideal S32x128 .f32) (ix2 s d) = S2V V c s d := by
  obtain ⟨-, ⟨e0, e1⟩, -⟩ := idx_facts t
  unfold iblk2 S2V
  rw [View.read_apply]
  show V c (Pipeline.arrRef spec2 1) (((cfg2.win 1).blk t).view.emb (ix2 s d)) = V c (Pipeline.arrRef spec2 1) (ix2 s d)
  refine congrArg (V c (Pipeline.arrRef spec2 1)) ?_
  funext a
  apply Fin.ext
  match a with
  | ⟨0, _⟩ => show win2_1.index t (0 : Fin 2) * 32 + 1 * s.val = s.val; rw [e0]; omega
  | ⟨1, _⟩ => show win2_1.index t (1 : Fin 2) * 128 + 1 * d.val = d.val; rw [e1]; omega

/-- Window 2's block at any point is its whole array. -/
theorem iblk2_apply (c : Dev nD) (t : Fin cfg2.N) (s : Fin 32) (d : Fin 128) :
    (iblk2 V c 2 t : Vec Ideal S32x128 .f32) (ix2 s d) = MSOV V c s d := by
  obtain ⟨-, -, ⟨e0, e1⟩, -⟩ := idx_facts t
  unfold iblk2 MSOV
  rw [View.read_apply]
  show V c (Pipeline.arrRef spec2 2) (((cfg2.win 2).blk t).view.emb (ix2 s d)) = V c (Pipeline.arrRef spec2 2) (ix2 s d)
  refine congrArg (V c (Pipeline.arrRef spec2 2)) ?_
  funext a
  apply Fin.ext
  match a with
  | ⟨0, _⟩ => show win2_2.index t (0 : Fin 2) * 32 + 1 * s.val = s.val; rw [e0]; omega
  | ⟨1, _⟩ => show win2_2.index t (1 : Fin 2) * 128 + 1 * d.val = d.val; rw [e1]; omega

/-- Window 3's block at any point is its whole array. -/
theorem iblk3_apply (c : Dev nD) (t : Fin cfg2.N) (s : Fin 32) (d : Fin 128) :
    (iblk2 V c 3 t : Vec Ideal S32x128 .f32) (ix2 s d) = MOGV V c s d := by
  obtain ⟨-, -, -, ⟨e0, e1⟩, -⟩ := idx_facts t
  unfold iblk2 MOGV
  rw [View.read_apply]
  show V c (Pipeline.arrRef spec2 3) (((cfg2.win 3).blk t).view.emb (ix2 s d)) = V c (Pipeline.arrRef spec2 3) (ix2 s d)
  refine congrArg (V c (Pipeline.arrRef spec2 3)) ?_
  funext a
  apply Fin.ext
  match a with
  | ⟨0, _⟩ => show win2_3.index t (0 : Fin 2) * 32 + 1 * s.val = s.val; rw [e0]; omega
  | ⟨1, _⟩ => show win2_3.index t (1 : Fin 2) * 128 + 1 * d.val = d.val; rw [e1]; omega

/-- Window 4's block at any point is its whole array. -/
theorem iblk4_apply (c : Dev nD) (t : Fin cfg2.N) (d : Fin 128) :
    (iblk2 V c 4 t : Vec Ideal S1x128 .f32) (ix2 (0 : Fin 1) d) = VSOV V c d := by
  obtain ⟨-, -, -, -, ⟨e0, e1⟩, -⟩ := idx_facts t
  unfold iblk2 VSOV
  rw [View.read_apply]
  show V c (Pipeline.arrRef spec2 4) (((cfg2.win 4).blk t).view.emb (ix2 (0 : Fin 1) d)) = V c (Pipeline.arrRef spec2 4) (ix2 (0 : Fin 1) d)
  refine congrArg (V c (Pipeline.arrRef spec2 4)) ?_
  funext a
  apply Fin.ext
  match a with
  | ⟨0, _⟩ => show win2_4.index t (0 : Fin 2) * 1 + 1 * (0 : Fin 1).val = (0 : Fin 1).val; rw [e0]; omega
  | ⟨1, _⟩ => show win2_4.index t (1 : Fin 2) * 128 + 1 * d.val = d.val; rw [e1]; omega

/-- Window 5's block at any point is its whole array. -/
theorem iblk5_apply (c : Dev nD) (t : Fin cfg2.N) (d : Fin 128) :
    (iblk2 V c 5 t : Vec Ideal S1x128 .f32) (ix2 (0 : Fin 1) d) = VGV V c d := by
  obtain ⟨-, -, -, -, -, ⟨e0, e1⟩, -⟩ := idx_facts t
  unfold iblk2 VGV
  rw [View.read_apply]
  show V c (Pipeline.arrRef spec2 5) (((cfg2.win 5).blk t).view.emb (ix2 (0 : Fin 1) d)) = V c (Pipeline.arrRef spec2 5) (ix2 (0 : Fin 1) d)
  refine congrArg (V c (Pipeline.arrRef spec2 5)) ?_
  funext a
  apply Fin.ext
  match a with
  | ⟨0, _⟩ => show win2_5.index t (0 : Fin 2) * 1 + 1 * (0 : Fin 1).val = (0 : Fin 1).val; rw [e0]; omega
  | ⟨1, _⟩ => show win2_5.index t (1 : Fin 2) * 128 + 1 * d.val = d.val; rw [e1]; omega

/-- Window 6's block at any point is its whole array. -/
theorem iblk6_apply (c : Dev nD) (t : Fin cfg2.N) (j : Fin 128) (d : Fin 128) :
    (iblk2 V c 6 t : Vec Ideal S128x128 .f32) (ix2 j d) = WOV V c j d := by
  obtain ⟨-, -, -, -, -, -, ⟨e0, e1⟩, -⟩ := idx_facts t
  unfold iblk2 WOV
  rw [View.read_apply]
  show V c (Pipeline.arrRef spec2 6) (((cfg2.win 6).blk t).view.emb (ix2 j d)) = V c (Pipeline.arrRef spec2 6) (ix2 j d)
  refine congrArg (V c (Pipeline.arrRef spec2 6)) ?_
  funext a
  apply Fin.ext
  match a with
  | ⟨0, _⟩ => show win2_6.index t (0 : Fin 2) * 128 + 1 * j.val = j.val; rw [e0]; omega
  | ⟨1, _⟩ => show win2_6.index t (1 : Fin 2) * 128 + 1 * d.val = d.val; rw [e1]; omega

end Cert.Val2

end
-- ==== Proof.Val2.Arr7.lean ====
/-
  The `skip_out` array after the third launch, entry by entry.

  Point `t` writes back rows `10000·t … 10000·t + 9999`; what it writes at local row `r` is the pass's value at row
  `10000·t + r`, read off that point's blocks of the operands; the ten blocks tile the 100000 rows (row `n` lies in
  block `n / 10000`), so the array ends holding the pass's value everywhere.
-/
import proofs.«167790_g44066364457491_cont_8to1_c_744_34_alg».proof.Proof.Val2.Windows

noncomputable section

namespace Cert.Val2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- What the body leaves in the `skip_out` block, at local row `r` and feature `j`: one store over the whole block. -/
theorem out7_apply (x0 : Vec Ideal S10000x128 .f32) (x1 x2 : Vec Ideal S32x128 .f32) (x4 : Vec Ideal S1x128 .f32)
    (x : Fin 100000 → Fin 128 → EReal) (s2 mso : Fin 32 → Fin 128 → EReal) (vso : Fin 128 → EReal)
    (n : Fin 100000) (r : Fin 10000)
    (hx : ∀ d, x0 (ix2 r d) = x n d) (hs : ∀ s d, x1 (ix2 s d) = s2 s d) (hm : ∀ s j, x2 (ix2 s j) = mso s j)
    (hv : ∀ j, x4 (ix2 (0 : Fin 1) j) = vso j) (j : Fin 128) :
    out2_7 x0 x1 x2 x4 (ix2 r j) = skipOut x s2 mso vso n j := by
  unfold out2_7
  rw [View.canon_unit_zero hz]
  simp only [View.ld_unit_zero (S := S10000x128) hz, View.ld_unit_zero (S := S32x128) hz, View.ld_unit_zero (S := S1x128) hz]
  exact pay3_apply x0 x1 x2 x4 x s2 mso vso n r hx hs hm hv j

variable (V : (c : Dev nD) → (b : Ref sig .tc) → Buf (Elt Ideal) ((c : Thread nD τ).loc b))

/-- The `skip_out` array as one function of the operands' arrays. -/
noncomputable def G7 (c : Dev nD) : S100000x128.Idx → EReal := fun i =>
  skipOut (XV V c) (S2V V c) (MSOV V c) (VSOV V c) ⟨(i 0).val, idx2_lt0 i⟩ ⟨(i 1).val, idx2_lt1 i⟩

/-- What point `t` writes back is block `t` of that function. -/
theorem flushed7_eq (c : Dev nD) (t : Fin cfg2.N) :
    (dat2 (F := Ideal) V c).flushed 7 t = ((cfg2.win 7).blk t).view.read (Elt Ideal) (G7 V c) := by
  show (cfg2.win 7).cut (grid2.coords t) ((dat2 (F := Ideal) V c).after 7 t) = _
  rw [after2_7]
  obtain ⟨-, -, -, -, -, -, -, ⟨e0, e1⟩, -⟩ := idx_facts t
  funext j
  have hr : (j 0).val < 10000 := (j 0).isLt
  have hj1 : (j 1).val < 128 := (j 1).isLt
  have hj : (cfg2.win 7).xinj (grid2.coords t) j = ix2 (⟨(j 0).val, hr⟩ : Fin 10000) (⟨(j 1).val, hj1⟩ : Fin 128) :=
    funext fun a => by match a with | ⟨0, _⟩ => rfl | ⟨1, _⟩ => rfl
  show out2_7 (iblk2 V c 0 t) (iblk2 V c 1 t) (iblk2 V c 2 t) (iblk2 V c 4 t) ((cfg2.win 7).xinj (grid2.coords t) j)
    = G7 V c (((cfg2.win 7).blk t).view.emb j)
  rw [hj]
  have h0 : (((((cfg2.win 7).blk t).view.emb j : S100000x128.Idx)) 0).val = 10000 * t.val + (j 0).val := by
    show win2_7.index t (0 : Fin 2) * 10000 + 1 * (j 0).val = _
    rw [e0]; omega
  have h1 : (((((cfg2.win 7).blk t).view.emb j : S100000x128.Idx)) 1).val = (j 1).val := by
    show win2_7.index t (1 : Fin 2) * 128 + 1 * (j 1).val = _
    rw [e1]; omega
  refine (out7_apply (iblk2 V c 0 t) (iblk2 V c 1 t) (iblk2 V c 2 t) (iblk2 V c 4 t)
      (XV V c) (S2V V c) (MSOV V c) (VSOV V c)
      ⟨(((((cfg2.win 7).blk t).view.emb j : S100000x128.Idx)) 0).val, idx2_lt0 _⟩ ⟨(j 0).val, hr⟩
      (fun d => iblk0_apply V c t _ d _ h0) (fun s d => iblk1_apply V c t s d) (fun s jj => iblk2_apply V c t s jj)
      (fun jj => iblk4_apply V c t jj) ⟨(j 1).val, hj1⟩).trans ?_
  unfold G7
  refine congrArg (skipOut (XV V c) (S2V V c) (MSOV V c) (VSOV V c) _) ?_
  exact Fin.ext h1.symm

/-- An index of the array is in point `t`'s block iff each coordinate is in the block's range on its axis. -/
theorem mem_blk7 (t : Fin cfg2.N) (i : S100000x128.Idx) :
    i ∈ ((cfg2.win 7).blk t).view.set ↔ ∀ a : Fin 2, win2_7.index t a * S10000x128.size a ≤ (i a).val ∧ (i a).val < win2_7.index t a * S10000x128.size a + S10000x128.size a := by
  show i ∈ ((View.whole main_v0_0).slice (win2_7.rect t)).set ↔ _
  rw [View.set_slice_whole, Rect.mem_set_unit]
  exact Iff.rfl

/-- Every row is in some point's block: row `n` in block `n / 10000`. -/
theorem cover7 (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 10 := N_2
  have hq : (i 0).val / 10000 < cfg2.N := by rw [hN]; omega
  obtain ⟨-, -, -, -, -, -, -, ⟨e0, e1⟩, -⟩ := idx_facts ⟨(i 0).val / 10000, hq⟩
  refine ⟨⟨(i 0).val / 10000, hq⟩, flush2_7 _, ?_⟩
  rw [mem_blk7]
  intro a
  match a with
  | ⟨0, _⟩ =>
    show win2_7.index ⟨(i 0).val / 10000, hq⟩ (0 : Fin 2) * 10000 ≤ (i 0).val ∧ (i 0).val < win2_7.index ⟨(i 0).val / 10000, hq⟩ (0 : Fin 2) * 10000 + 10000
    rw [e0]
    show (i 0).val / 10000 * 10000 ≤ (i 0).val ∧ (i 0).val < (i 0).val / 10000 * 10000 + 10000
    omega
  | ⟨1, _⟩ =>
    show win2_7.index ⟨(i 0).val / 10000, hq⟩ (1 : Fin 2) * 128 ≤ (i 1).val ∧ (i 1).val < win2_7.index ⟨(i 0).val / 10000, hq⟩ (1 : Fin 2) * 128 + 128
    rw [e1]
    omega

/-- So the array ends holding that function. -/
theorem final7 (c : Dev nD) : (dat2 (F := Ideal) V c).arrAt 7 cfg2.N = G7 V c :=
  (dat2 (F := Ideal) V c).arrAt_eq_of_cover 7 (G7 V c) (fun t _ => flushed7_eq V c t) cover7

/-- The `skip_out` array after the launch, at row `n` and feature `j`. -/
theorem arr7 (c : Dev nD) (n : Fin 100000) (j : Fin 128) :
    (dat2 (F := Ideal) V c).arrAt 7 cfg2.N (ix2 n j) = skipOut (XV V c) (S2V V c) (MSOV V c) (VSOV V c) n j := by
  rw [final7]
  rfl

end Cert.Val2

end
-- ==== Proof.Val2.Arr8.lean ====
/-
  The `to_gnn` array after the third launch, entry by entry.

  Point `t` writes back rows `10000·t … 10000·t + 9999`; what it writes at local row `r` is the pass's value at row
  `10000·t + r`, read off that point's blocks of the operands; the ten blocks tile the 100000 rows (row `n` lies in
  block `n / 10000`), so the array ends holding the pass's value everywhere.
-/
import proofs.«167790_g44066364457491_cont_8to1_c_744_34_alg».proof.Proof.Val2.Windows

noncomputable section

namespace Cert.Val2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- What the body leaves in the `to_gnn` block, at local row `r` and feature `j`: one store over the whole block. -/
theorem out8_apply (x0 : Vec Ideal S10000x128 .f32) (x1 x3 : Vec Ideal S32x128 .f32) (x5 : Vec Ideal S1x128 .f32)
    (x6 : Vec Ideal S128x128 .f32)
    (x : Fin 100000 → Fin 128 → EReal) (s2 mog : Fin 32 → Fin 128 → EReal) (vg : Fin 128 → EReal)
    (Wo : Fin 128 → Fin 128 → EReal) (n : Fin 100000) (r : Fin 10000)
    (hx : ∀ d, x0 (ix2 r d) = x n d) (hs : ∀ s d, x1 (ix2 s d) = s2 s d) (hm : ∀ s j, x3 (ix2 s j) = mog s j)
    (hv : ∀ j, x5 (ix2 (0 : Fin 1) j) = vg j) (hw : ∀ j d, x6 (ix2 j d) = Wo j d) (j : Fin 128) :
    out2_8 x0 x1 x3 x5 x6 (ix2 r j) = toGnn x s2 mog vg Wo n j := by
  unfold out2_8
  rw [View.canon_unit_zero hz]
  simp only [View.ld_unit_zero (S := S10000x128) hz, View.ld_unit_zero (S := S32x128) hz, View.ld_unit_zero (S := S1x128) hz, View.ld_unit_zero (S := S128x128) hz]
  exact pay1_apply x0 x1 x3 x5 x6 x s2 mog vg Wo n r hx hs hm hv hw j

variable (V : (c : Dev nD) → (b : Ref sig .tc) → Buf (Elt Ideal) ((c : Thread nD τ).loc b))

/-- The `to_gnn` array as one function of the operands' arrays. -/
noncomputable def G8 (c : Dev nD) : S100000x128.Idx → EReal := fun i =>
  toGnn (XV V c) (S2V V c) (MOGV V c) (VGV V c) (WOV V c) ⟨(i 0).val, idx2_lt0 i⟩ ⟨(i 1).val, idx2_lt1 i⟩

/-- What point `t` writes back is block `t` of that function. -/
theorem flushed8_eq (c : Dev nD) (t : Fin cfg2.N) :
    (dat2 (F := Ideal) V c).flushed 8 t = ((cfg2.win 8).blk t).view.read (Elt Ideal) (G8 V c) := by
  show (cfg2.win 8).cut (grid2.coords t) ((dat2 (F := Ideal) V c).after 8 t) = _
  rw [after2_8]
  obtain ⟨-, -, -, -, -, -, -, -, ⟨e0, e1⟩⟩ := idx_facts t
  funext j
  have hr : (j 0).val < 10000 := (j 0).isLt
  have hj1 : (j 1).val < 128 := (j 1).isLt
  have hj : (cfg2.win 8).xinj (grid2.coords t) j = ix2 (⟨(j 0).val, hr⟩ : Fin 10000) (⟨(j 1).val, hj1⟩ : Fin 128) :=
    funext fun a => by match a with | ⟨0, _⟩ => rfl | ⟨1, _⟩ => rfl
  show out2_8 (iblk2 V c 0 t) (iblk2 V c 1 t) (iblk2 V c 3 t) (iblk2 V c 5 t) (iblk2 V c 6 t) ((cfg2.win 8).xinj (grid2.coords t) j)
    = G8 V c (((cfg2.win 8).blk t).view.emb j)
  rw [hj]
  have h0 : (((((cfg2.win 8).blk t).view.emb j : S100000x128.Idx)) 0).val = 10000 * t.val + (j 0).val := by
    show win2_8.index t (0 : Fin 2) * 10000 + 1 * (j 0).val = _
    rw [e0]; omega
  have h1 : (((((cfg2.win 8).blk t).view.emb j : S100000x128.Idx)) 1).val = (j 1).val := by
    show win2_8.index t (1 : Fin 2) * 128 + 1 * (j 1).val = _
    rw [e1]; omega
  refine (out8_apply (iblk2 V c 0 t) (iblk2 V c 1 t) (iblk2 V c 3 t) (iblk2 V c 5 t) (iblk2 V c 6 t)
      (XV V c) (S2V V c) (MOGV V c) (VGV V c) (WOV V c)
      ⟨(((((cfg2.win 8).blk t).view.emb j : S100000x128.Idx)) 0).val, idx2_lt0 _⟩ ⟨(j 0).val, hr⟩
      (fun d => iblk0_apply V c t _ d _ h0) (fun s d => iblk1_apply V c t s d) (fun s jj => iblk3_apply V c t s jj)
      (fun jj => iblk5_apply V c t jj) (fun jj d => iblk6_apply V c t jj d) ⟨(j 1).val, hj1⟩).trans ?_
  unfold G8
  refine congrArg (toGnn (XV V c) (S2V V c) (MOGV V c) (VGV V c) (WOV V c) _) ?_
  exact Fin.ext h1.symm

/-- An index of the array is in point `t`'s block iff each coordinate is in the block's range on its axis. -/
theorem mem_blk8 (t : Fin cfg2.N) (i : S100000x128.Idx) :
    i ∈ ((cfg2.win 8).blk t).view.set ↔ ∀ a : Fin 2, win2_8.index t a * S10000x128.size a ≤ (i a).val ∧ (i a).val < win2_8.index t a * S10000x128.size a + S10000x128.size a := by
  show i ∈ ((View.whole main_v0_1).slice (win2_8.rect t)).set ↔ _
  rw [View.set_slice_whole, Rect.mem_set_unit]
  exact Iff.rfl

/-- Every row is in some point's block: row `n` in block `n / 10000`. -/
theorem cover8 (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 10 := N_2
  have hq : (i 0).val / 10000 < cfg2.N := by rw [hN]; omega
  obtain ⟨-, -, -, -, -, -, -, -, ⟨e0, e1⟩⟩ := idx_facts ⟨(i 0).val / 10000, hq⟩
  refine ⟨⟨(i 0).val / 10000, hq⟩, flush2_8 _, ?_⟩
  rw [mem_blk8]
  intro a
  match a with
  | ⟨0, _⟩ =>
    show win2_8.index ⟨(i 0).val / 10000, hq⟩ (0 : Fin 2) * 10000 ≤ (i 0).val ∧ (i 0).val < win2_8.index ⟨(i 0).val / 10000, hq⟩ (0 : Fin 2) * 10000 + 10000
    rw [e0]
    show (i 0).val / 10000 * 10000 ≤ (i 0).val ∧ (i 0).val < (i 0).val / 10000 * 10000 + 10000
    omega
  | ⟨1, _⟩ =>
    show win2_8.index ⟨(i 0).val / 10000, hq⟩ (1 : Fin 2) * 128 ≤ (i 1).val ∧ (i 1).val < win2_8.index ⟨(i 0).val / 10000, hq⟩ (1 : Fin 2) * 128 + 128
    rw [e1]
    omega

/-- So the array ends holding that function. -/
theorem final8 (c : Dev nD) : (dat2 (F := Ideal) V c).arrAt 8 cfg2.N = G8 V c :=
  (dat2 (F := Ideal) V c).arrAt_eq_of_cover 8 (G8 V c) (fun t _ => flushed8_eq V c t) cover8

/-- The `to_gnn` array after the launch, at row `n` and feature `j`. -/
theorem arr8 (c : Dev nD) (n : Fin 100000) (j : Fin 128) :
    (dat2 (F := Ideal) V c).arrAt 8 cfg2.N (ix2 n j) = toGnn (XV V c) (S2V V c) (MOGV V c) (VGV V c) (WOV V c) n j := by
  rw [final8]
  rfl

end Cert.Val2

end
-- ==== Proof.Val2.lean ====
/-
  The third pass's value leg: the two result arrays after the third launch are the pass's formulas of the
  launch's operands, entry by entry, with no hypothesis on the operands.

    * `Cert.Val2.logit … toGnn`, `tiled_skipOut`, `tiled_toGnn`: the pass as a function of coordinate-indexed arrays,
      and the row-tiled evaluation's two results as instances of it;
    * `XV … WOV`: the launch's seven operands read by coordinates;
    * `arr7`, `arr8`: the `skip_out` and `to_gnn` arrays after the launch, at row `n` and feature `j`.
-/
import proofs.«167790_g44066364457491_cont_8to1_c_744_34_alg».proof.Proof.Val2.Pass
import proofs.«167790_g44066364457491_cont_8to1_c_744_34_alg».proof.Proof.Val2.Arr7
import proofs.«167790_g44066364457491_cont_8to1_c_744_34_alg».proof.Proof.Val2.Arr8
-- ==== Proof.HostReshape.lean ====
/-
  The four bias vectors between the first and the second launch. The host keeps each [128] vector as
  a [1,128] row (a reshape that adds a leading axis of extent one); read at (0, j) the row is entry j
  of the vector. Each of the four operations writes its own result and leaves the others alone.
-/
import proofs.«167790_g44066364457491_cont_8to1_c_744_34_alg».proof.Proof.Gen.KernelIdeal.Launch
import Idealize.ShloMosaic.Lib.StableHlo.Run
import Idealize.ShloMosaic.Lib.Pipeline.Value
import Idealize.ShloMosaic.Lib.ValueIdx

noncomputable section

namespace Cert.HostReshape

open Cert.KernelIdeal Cert.KernelIdeal.Gen
open Idealize.ShloMosaic Idealize.ShloMosaic.TcCoe Idealize.SL.Sem Idealize.ShloMosaic.StableHlo
open Idealize.ShloMosaic.ValueIdx (ix1 ix2)

variable {F : FTy → Type} [FloatOps F]

/-- A vector of 128 entries kept as one row, read at (0, j), is entry `j`. -/
theorem row_apply {α : Type} (z : S128.Idx → α) (j : Fin 128) :
    shapeCast S1x128 z shapeCasts_S128_S1x128 (ix2 (0 : Fin 1) j) = z (ix1 j) :=
  (shapeCast_addUnit_apply ![128] z shapeCasts_S128_S1x128 (ix2 (0 : Fin 1) j)).trans
    (congrArg z (funext fun a => by fin_cases a; rfl))

theorem v1 (W : Valuation τ sig (Elt F)) (j : Fin 128) :
    (StableHlo.after hostOps1 W (Proc.devRef .tc main_call0_v1) : S1x128.Idx → Elt F .f32) (ValueIdx.ix2 (0 : Fin 1) j)
      = (W (Proc.devRef .tc main_arg3) : S128.Idx → Elt F .f32) (ValueIdx.ix1 j) := by
  have e : (StableHlo.after hostOps1 W (Proc.devRef .tc main_call0_v1) : S1x128.Idx → Elt F .f32)
      = shapeCast S1x128 (W (Proc.devRef .tc main_arg3) : S128.Idx → Elt F .f32) shapeCasts_S128_S1x128 := by
    after_results
    rfl
  rw [e]
  exact row_apply _ j

theorem v2 (W : Valuation τ sig (Elt F)) (j : Fin 128) :
    (StableHlo.after hostOps1 W (Proc.devRef .tc main_call0_v2) : S1x128.Idx → Elt F .f32) (ValueIdx.ix2 (0 : Fin 1) j)
      = (W (Proc.devRef .tc main_arg5) : S128.Idx → Elt F .f32) (ValueIdx.ix1 j) := by
  have e : (StableHlo.after hostOps1 W (Proc.devRef .tc main_call0_v2) : S1x128.Idx → Elt F .f32)
      = shapeCast S1x128 (W (Proc.devRef .tc main_arg5) : S128.Idx → Elt F .f32) shapeCasts_S128_S1x128 := by
    after_results
    rfl
  rw [e]
  exact row_apply _ j

theorem v3 (W : Valuation τ sig (Elt F)) (j : Fin 128) :
    (StableHlo.after hostOps1 W (Proc.devRef .tc main_call0_v3) : S1x128.Idx → Elt F .f32) (ValueIdx.ix2 (0 : Fin 1) j)
      = (W (Proc.devRef .tc main_arg7) : S128.Idx → Elt F .f32) (ValueIdx.ix1 j) := by
  have e : (StableHlo.after hostOps1 W (Proc.devRef .tc main_call0_v3) : S1x128.Idx → Elt F .f32)
      = shapeCast S1x128 (W (Proc.devRef .tc main_arg7) : S128.Idx → Elt F .f32) shapeCasts_S128_S1x128 := by
    after_results
    rfl
  rw [e]
  exact row_apply _ j

theorem v4 (W : Valuation τ sig (Elt F)) (j : Fin 128) :
    (StableHlo.after hostOps1 W (Proc.devRef .tc main_call0_v4) : S1x128.Idx → Elt F .f32) (ValueIdx.ix2 (0 : Fin 1) j)
      = (W (Proc.devRef .tc main_arg9) : S128.Idx → Elt F .f32) (ValueIdx.ix1 j) := by
  have e : (StableHlo.after hostOps1 W (Proc.devRef .tc main_call0_v4) : S1x128.Idx → Elt F .f32)
      = shapeCast S1x128 (W (Proc.devRef .tc main_arg9) : S128.Idx → Elt F .f32) shapeCasts_S128_S1x128 := by
    after_results
    rfl
  rw [e]
  exact row_apply _ j

end Cert.HostReshape
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.PreReal.ColSum.lean ====
/-
  The last conjunct of the precondition read back: "no column of the adjacency sums to zero".

  The predicate sums the adjacency `e : [100000, 32]` down its rows (a reduction by `+` along axis 0 from the initial
  value 0: on the extended reals the exact sum `0 + ∑ n, e n s`), compares each of the 32 column sums with 0 by `≠`,
  and takes the conjunction of the 32 answers. The conjunction being true says each answer is true, and the
  answer at column `s` being true says `∑ n, e n s ≠ 0`.
-/
import proofs.«167790_g44066364457491_cont_8to1_c_744_34_alg».proof.Pre_finite_inputs
import Idealize.ShloMosaic.Lib.IdealHost
import Idealize.ShloMosaic.Lib.ReduceAll

noncomputable section

namespace Cert.PreReal

open Idealize.ShloMosaic Idealize.ShloMosaic.ValueIdx
open Cert.Pre_finite_inputs

/-- The sum down the rows from the initial value 0, read at column `s`: the sum over the 100000 rows of that column's entries. -/
theorem colsum_read (E : FVec Ideal S100000x32 .f32) (h' : S100000x32.ReducesTo [0] S32) (hu : 0 < S_.numel) (s : Fin 32) :
    Host.reduceAdd E (constant (F := Ideal) S_ .f32 0x00000000#32) h' hu (ix1 s) = ∑ n : Fin 100000, E (ix2 n s) := by
  have hR : S100000x32.Reduces [0] S32 := by decide
  rw [hostReduceAdd_apply, Ideal.hostReduceAdd_single h' hR]
  have hc : (constant (F := Ideal) S_ .f32 0x00000000#32) (Shape.Idx.first hu) = 0 := Ideal.ofBits_zero_f32
  rw [hc, zero_add]
  refine Finset.sum_congr rfl fun k _ => congrArg E ?_
  funext a
  apply Fin.ext
  match a with
  | ⟨0, _⟩ => rfl
  | ⟨1, _⟩ => rfl

/-- The comparison `x ≠ 0` answering true says `x ≠ 0`. -/
theorem ne_zero_of_cmp_une (x : EReal) (h : Ideal.cmp .une x 0 = 1#1) : x ≠ 0 := by
  intro hx
  rw [hx] at h
  simp [Ideal.cmp] at h

/-- "Every column sum is not zero", as the predicate computes it, gives that no column sums to zero. -/
theorem cols_ne_zero (E : FVec Ideal S100000x32 .f32) (h' : S100000x32.ReducesTo [0] S32) (hu : 0 < S_.numel)
    (bc : S_.BroadcastsInDim S32 (![] : Fin 0 → Fin S32.rank)) (h'' : S32.ReducesTo [0] S_)
    (e : Host.reduce IntOp.andi
      (cmpf .une (Host.reduceAdd E (constant (F := Ideal) S_ .f32 0x00000000#32) h' hu)
        (broadcastInDim S32 ![] bc (constant (F := Ideal) S_ .f32 0x00000000#32)))
      (constantI S_ 1 1#1) h'' hu ix0 = 1#1) (s : Fin 32) : (∑ n : Fin 100000, E (ix2 n s)) ≠ 0 := by
  haveI : Subsingleton S_.Idx := ⟨fun a b => funext fun d => d.elim0⟩
  have e1 := Host.reduce_andi_all _ _ h'' hu ix0 e (ix1 s)
  rw [cmpf_apply, Ideal.cmpf_def, broadcastInDim_scalar_apply, constant_apply, Ideal.ofBits_zero_f32, colsum_read] at e1
  exact ne_zero_of_cmp_une _ e1

end Cert.PreReal

end
-- ==== Proof.PreReal.Conjuncts.lean ====
/-
  The precondition split into what it says of each array.

  The predicate is a conjunction of eleven answers: for each of the ten arrays `a`, "every entry has |a| < +∞", and
  for the adjacency, "every column sum is not zero". A conjunction of truth values is true exactly when each
  is; |a| < +∞ on the extended reals (where |a| = max a (-a) is +∞ at either infinity) says `a` is a real number.
-/
import proofs.«167790_g44066364457491_cont_8to1_c_744_34_alg».proof.Pre_finite_inputs
import proofs.«167790_g44066364457491_cont_8to1_c_744_34_alg».proof.Proof.LibRealValued
import proofs.«167790_g44066364457491_cont_8to1_c_744_34_alg».proof.Proof.PreReal.ColSum

noncomputable section

namespace Cert.PreReal

open Idealize.ShloMosaic Idealize.ShloMosaic.ValueIdx
open Cert.Pre_finite_inputs Cert.RealValued

/-- What the precondition says, array by array: every entry of each of the ten arrays is a real number, and no column
    of the second array (the adjacency) sums to zero. -/
structure Decoded (a0 : FVec Ideal S100000x128 .f32) (a1 : FVec Ideal S100000x32 .f32)
    (a2 : FVec Ideal S128x128 .f32) (a3 : FVec Ideal S128 .f32) (a4 : FVec Ideal S128x128 .f32)
    (a5 : FVec Ideal S128 .f32) (a6 : FVec Ideal S128x128 .f32) (a7 : FVec Ideal S128 .f32)
    (a8 : FVec Ideal S128x128 .f32) (a9 : FVec Ideal S128 .f32) : Prop where
  r0 : ∀ i, IsReal (a0 i)
  r1 : ∀ i, IsReal (a1 i)
  r2 : ∀ i, IsReal (a2 i)
  r3 : ∀ i, IsReal (a3 i)
  r4 : ∀ i, IsReal (a4 i)
  r5 : ∀ i, IsReal (a5 i)
  r6 : ∀ i, IsReal (a6 i)
  r7 : ∀ i, IsReal (a7 i)
  r8 : ∀ i, IsReal (a8 i)
  r9 : ∀ i, IsReal (a9 i)
  cols : ∀ s : Fin 32, (∑ n : Fin 100000, a1 (ix2 n s)) ≠ 0

/-- The predicate answering true on ten arrays gives each of its eleven conjuncts, read back. -/
theorem decoded [Facts] (a0 : FVec Ideal S100000x128 .f32) (a1 : FVec Ideal S100000x32 .f32)
    (a2 : FVec Ideal S128x128 .f32) (a3 : FVec Ideal S128 .f32) (a4 : FVec Ideal S128x128 .f32)
    (a5 : FVec Ideal S128 .f32) (a6 : FVec Ideal S128x128 .f32) (a7 : FVec Ideal S128 .f32)
    (a8 : FVec Ideal S128x128 .f32) (a9 : FVec Ideal S128 .f32)
    (h : fn (F := Ideal) a0 a1 a2 a3 a4 a5 a6 a7 a8 a9 = fun _ => 1#1) :
    Decoded a0 a1 a2 a3 a4 a5 a6 a7 a8 a9 := by
  have h0 := congrFun h ix0
  dsimp only [fn, fn_part1, fn_part2, fn_part3] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact
    { r0 := all_isReal a0 _ _ _ _ e0
      r1 := all_isReal a1 _ _ _ _ e1
      r2 := all_isReal a2 _ _ _ _ e2
      r3 := all_isReal a3 _ _ _ _ e3
      r4 := all_isReal a4 _ _ _ _ e4
      r5 := all_isReal a5 _ _ _ _ e5
      r6 := all_isReal a6 _ _ _ _ e6
      r7 := all_isReal a7 _ _ _ _ e7
      r8 := all_isReal a8 _ _ _ _ e8
      r9 := all_isReal a9 _ _ _ _ e9
      cols := cols_ne_zero a1 _ _ _ _ e10 }

end Cert.PreReal

end
-- ==== Proof.PreReal.lean ====
/-
  The precondition, decoded for the kernel's memory.

  The claim is made of memories on which the predicate "every entry of every input is finite, and no column of the
  adjacency sums to zero" answers true on each device. Here that answer is turned into the two facts the value
  proof uses, about the ten argument arrays read by coordinates: every entry is a real number (neither infinity),
  and for each of the 32 sectors `s` the sum `∑ n, e n s` over the 100000 rows is not zero.
-/
import proofs.«167790_g44066364457491_cont_8to1_c_744_34_alg».proof.Defs
import proofs.«167790_g44066364457491_cont_8to1_c_744_34_alg».proof.Proof.Gen.Pre_finite_inputs
import proofs.«167790_g44066364457491_cont_8to1_c_744_34_alg».proof.Proof.Spec
import proofs.«167790_g44066364457491_cont_8to1_c_744_34_alg».proof.Proof.PreReal.Conjuncts

noncomputable section

namespace Cert.PreReal

open Idealize.ShloMosaic Idealize.SL.Sem Idealize.ShloMosaic.ValueIdx

/-- The ten argument arrays of the kernel's memory on device `c`, read by coordinates. -/
def argsOfK (m : (ℓ : Loc Cert.KernelIdeal.nD Cert.KernelIdeal.τ Cert.KernelIdeal.sig) → Buf (Elt Ideal) ℓ) (c : Dev Cert.KernelIdeal.nD) : Cert.Spec.Args :=
  Cert.Spec.Args.ofArrays
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))

/-- The predicate answering true on a memory, decoded array by array on device `c`. -/
theorem decoded_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Decoded
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)) :=
  decoded _ _ _ _ _ _ _ _ _ _ (h c)

/-- Under the precondition every entry of every argument array is a real number. -/
theorem isReal_of_pre (m : (ℓ : Loc Cert.KernelIdeal.nD Cert.KernelIdeal.τ Cert.KernelIdeal.sig) → Buf (Elt Ideal) ℓ)
    (h : Cert.Pre_KernelIdeal m) (c : Dev Cert.KernelIdeal.nD) : (argsOfK m c).IsReal :=
  have d := decoded_of_pre m h c
  { x := fun n j => d.r0 (ix2 n j)
    e := fun n s => d.r1 (ix2 n s)
    We := fun j k => d.r2 (ix2 j k)
    be := fun j => d.r3 (ix1 j)
    Wsi := fun j k => d.r4 (ix2 j k)
    bsi := fun j => d.r5 (ix1 j)
    Wso := fun j k => d.r6 (ix2 j k)
    bso := fun j => d.r7 (ix1 j)
    Wo := fun j k => d.r8 (ix2 j k)
    bo := fun j => d.r9 (ix1 j) }

/-- Under the precondition no column of the adjacency sums to zero. -/
theorem colsNonzero_of_pre (m : (ℓ : Loc Cert.KernelIdeal.nD Cert.KernelIdeal.τ Cert.KernelIdeal.sig) → Buf (Elt Ideal) ℓ)
    (h : Cert.Pre_KernelIdeal m) (c : Dev Cert.KernelIdeal.nD) : (argsOfK m c).ColsNonzero :=
  fun s => (decoded_of_pre m h c).cols s

end Cert.PreReal

end
-- ==== Proof.Chain.lean ====
/-
  From the launch memory to the two results, boundary by boundary, on the extended reals.

  Write `a` for the ten argument arrays read by coordinates. The first launch is entered with the
  arguments as launched, so by its value leg `sector`'s array ends at `Tiled.sector a`. The four
  reshapes then lay each bias vector out as a [1,128] row. The second launch finds the rows `x`,
  that `sector`, the four weight matrices and the four bias rows, so by its value leg its five
  arrays end at `Tiled.sector2 a`, `Tiled.mso a`, `Tiled.mog a`, `Tiled.vso a`, `Tiled.vg a`. The third
  launch finds `x`, those five and `W_out`, so its two arrays end at `Tiled.skipOut a` and
  `Tiled.toGnn a`. No launch and no reshape writes an argument, which is why every launch still
  finds the arguments it reads as they were launched.
-/
import proofs.«167790_g44066364457491_cont_8to1_c_744_34_alg».proof.Proof.KI.Run
import proofs.«167790_g44066364457491_cont_8to1_c_744_34_alg».proof.Proof.Val0
import proofs.«167790_g44066364457491_cont_8to1_c_744_34_alg».proof.Proof.Val2
import proofs.«167790_g44066364457491_cont_8to1_c_744_34_alg».proof.Proof.HostReshape
import proofs.«167790_g44066364457491_cont_8to1_c_744_34_alg».proof.Proof.PreReal

noncomputable section

namespace Cert.Chain

open Cert.KernelIdeal Cert.KernelIdeal.Gen Cert.KernelIdeal.Hand
open Idealize.ShloMosaic Idealize.ShloMosaic.TcCoe Idealize.SL.Sem Idealize.ShloMosaic.ValueIdx
open Cert.Spec Cert.PreReal

variable (m : (ℓ : Loc nD τ sig) → Buf (Elt Ideal) ℓ) (c : Dev nD)

/-! ## What each step leaves alone -/

theorem U1_of (b : Ref sig .tc) (h : b ∉ ([main_call0_v0] : List (Ref sig .tc))) : U1 m c b = V0 m c b :=
  (congrFun (V1_eq m c) b).symm.trans (V1_of m (outs m) c b h)

theorem U2_of (b : Ref sig .tc) (h : b ∉ hostOps1_W) : U2 m c b = U1 m c b :=
  (congrFun (V2_eq m c) b).symm.trans ((V2_of m (outs m) c b h).trans (congrFun (V1_eq m c) b))

/-- An argument read at any boundary is the argument as launched. -/
theorem U2_arg (b : Ref sig .tc) (h1 : b ∉ hostOps1_W) (h0 : b ∉ ([main_call0_v0] : List (Ref sig .tc))) : U2 m c b = V0 m c b :=
  (U2_of m c b h1).trans (U1_of m c b h0)

theorem U3_arg (b : Ref sig .tc) (h2 : b ∉ ([main_call0_v5_0, main_call0_v5_1, main_call0_v5_2, main_call0_v5_3, main_call0_v5_4] : List (Ref sig .tc)))
    (h1 : b ∉ hostOps1_W) (h0 : b ∉ ([main_call0_v0] : List (Ref sig .tc))) : U3 m c b = V0 m c b :=
  (U3_of m c b h2).trans (U2_arg m c b h1 h0)

/-! ## The first launch -/

theorem xv0 : Cert.Val0.XV0 (Vin0 m) c = (argsOfK m c).x := rfl
theorem ev0 : Cert.Val0.EV0 (Vin0 m) c = (argsOfK m c).e := rfl

/-- `sector`'s array after the first launch. -/
theorem x0_apply (s : Fin 32) (d : Fin 128) : X0 m c (ix2 s d) = Tiled.sector (argsOfK m c) s d :=
  (Cert.Val0.arr5 (Vin0 m) c s d).trans (by rw [xv0, ev0]; rfl)

/-! ## The third launch, given what the second left -/

/-- What the second launch's five arrays hold, as the third launch needs it. -/
structure Second : Prop where
  sector2 : ∀ s d, X1_0 m c (ix2 s d) = Tiled.sector2 (argsOfK m c) s d
  mso : ∀ s j, X1_1 m c (ix2 s j) = Tiled.mso (argsOfK m c) s j
  mog : ∀ s j, X1_2 m c (ix2 s j) = Tiled.mog (argsOfK m c) s j
  vso : ∀ j, X1_3 m c (ix2 (0 : Fin 1) j) = Tiled.vso (argsOfK m c) j
  vg : ∀ j, X1_4 m c (ix2 (0 : Fin 1) j) = Tiled.vg (argsOfK m c) j

theorem xv2 : Cert.Val2.XV (Vin2 m) c = (argsOfK m c).x := by
  funext n d
  show (U3 m c (Proc.devRef .tc main_arg0) : S100000x128.Idx → EReal) (ix2 n d) = _
  rw [U3_arg m c main_arg0 (by decide) (by decide) (by decide)]; rfl

theorem wov2 : Cert.Val2.WOV (Vin2 m) c = (argsOfK m c).Wo := by
  funext j d
  show (U3 m c (Proc.devRef .tc main_arg8) : S128x128.Idx → EReal) (ix2 j d) = _
  rw [U3_arg m c main_arg8 (by decide) (by decide) (by decide)]; rfl

variable {m c}

theorem s2v2 (h : Second m c) : Cert.Val2.S2V (Vin2 m) c = Tiled.sector2 (argsOfK m c) := by
  funext s d
  show (U3 m c (Proc.devRef .tc main_call0_v5_0) : S32x128.Idx → EReal) (ix2 s d) = _
  rw [U3_v5_0]; exact h.sector2 s d

theorem msov2 (h : Second m c) : Cert.Val2.MSOV (Vin2 m) c = Tiled.mso (argsOfK m c) := by
  funext s j
  show (U3 m c (Proc.devRef .tc main_call0_v5_1) : S32x128.Idx → EReal) (ix2 s j) = _
  rw [U3_v5_1]; exact h.mso s j

theorem mogv2 (h : Second m c) : Cert.Val2.MOGV (Vin2 m) c = Tiled.mog (argsOfK m c) := by
  funext s j
  show (U3 m c (Proc.devRef .tc main_call0_v5_2) : S32x128.Idx → EReal) (ix2 s j) = _
  rw [U3_v5_2]; exact h.mog s j

theorem vsov2 (h : Second m c) : Cert.Val2.VSOV (Vin2 m) c = Tiled.vso (argsOfK m c) := by
  funext j
  show (U3 m c (Proc.devRef .tc main_call0_v5_3) : S1x128.Idx → EReal) (ix2 (0 : Fin 1) j) = _
  rw [U3_v5_3]; exact h.vso j

theorem vgv2 (h : Second m c) : Cert.Val2.VGV (Vin2 m) c = Tiled.vg (argsOfK m c) := by
  funext j
  show (U3 m c (Proc.devRef .tc main_call0_v5_4) : S1x128.Idx → EReal) (ix2 (0 : Fin 1) j) = _
  rw [U3_v5_4]; exact h.vg j

/-- The first result array after the third launch. -/
theorem x2_7_apply (h : Second m c) (n : Fin 100000) (j : Fin 128) : X2_7 m c (ix2 n j) = Tiled.skipOut (argsOfK m c) n j :=
  (Cert.Val2.arr7 (Vin2 m) c n j).trans (by rw [xv2, s2v2 h, msov2 h, vsov2 h, Cert.Val2.tiled_skipOut])

/-- The second result array after the third launch. -/
theorem x2_8_apply (h : Second m c) (n : Fin 100000) (j : Fin 128) : X2_8 m c (ix2 n j) = Tiled.toGnn (argsOfK m c) n j :=
  (Cert.Val2.arr8 (Vin2 m) c n j).trans (by rw [xv2, s2v2 h, mogv2 h, vgv2 h, wov2, Cert.Val2.tiled_toGnn])

end Cert.Chain

end
-- ==== Proof.Val1.Pieces.lean ====
/-
  The second pass on one tile, case by case, as arithmetic: what the body leaves in the running
  maximum, the running denominator, the running numerator and (at the last tile) the five outputs'
  blocks, written as the payloads of the tile's input blocks and of what the tile before left.
-/
import proofs.«167790_g44066364457491_cont_8to1_c_744_34_alg».proof.Proof.KI.Reg1
import Idealize.ShloMosaic.Lib.Pipeline.Value
import Idealize.ShloMosaic.Lib.ValueIdx

set_option maxRecDepth 16384

noncomputable section

namespace Cert.Val1

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx (ix1 ix2)

variable {F : FTy → Type} [FloatOps F]

theorem hz : (![0, 0] : Fin 2 → Nat) = fun _ => 0 := funext fun a => by fin_cases a <;> rfl

/-- The first tile: the running maximum is the tile's update of the fill `−∞`. -/
theorem m_A (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) :
    sout1_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k1_pay16 x0 x1 (k1_pay8 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun1_A
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- The first tile: the running denominator is the tile's update of the fills `−∞`, `0`. -/
theorem l_A (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) :
    sout1_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k1_pay14 x0 x1 (k1_pay8 (F := F)) (k1_pay9 (F := F)) := by
  unfold sout1_A_1
  rw [View.read_writes_eq_canon _ _ _ (scover1_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun1_A
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- The first tile: the running numerator is the tile's update of the fills `−∞`, `0`. -/
theorem num_A (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : cond1_0 i) (hc1 : ¬cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) :
    out1_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k1_pay15 x0 x1 (k1_pay8 (F := F)) (k1_pay10 (F := F)) := by
  unfold out1_A_10
  rw [View.read_writes_eq_canon _ _ _ (cover1_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun1_A
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- A middle tile: the running maximum updated. -/
theorem m_B (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    sout1_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1 = k1_pay16 x0 x1 xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1)]
  unfold kernelRun1_B
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- A middle tile: the running denominator updated. -/
theorem l_B (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    sout1_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1 = k1_pay14 x0 x1 xs0 xs1 := by
  unfold sout1_B_1
  rw [View.read_writes_eq_canon _ _ _ (scover1_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1)]
  unfold kernelRun1_B
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- A middle tile: the running numerator updated. -/
theorem num_B (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : ¬cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    out1_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1 = k1_pay15 x0 x1 xs0 xo10 := by
  unfold out1_B_10
  rw [View.read_writes_eq_canon _ _ _ (cover1_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1)]
  unfold kernelRun1_B
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- The last tile: the running maximum updated. -/
theorem m_C (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    sout1_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1 = k1_pay16 x0 x1 xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1)]
  unfold kernelRun1_C
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- The last tile: the running denominator updated. -/
theorem l_C (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    sout1_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1 = k1_pay14 x0 x1 xs0 xs1 := by
  unfold sout1_C_1
  rw [View.read_writes_eq_canon _ _ _ (scover1_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1)]
  unfold kernelRun1_C
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- The last tile: the updated numerator divided by the updated denominator. -/
theorem o10_C (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    out1_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1 = k1_pay2 (k1_pay15 x0 x1 xs0 xo10) (k1_pay14 x0 x1 xs0 xs1) := by
  unfold out1_C_10
  rw [View.read_writes_eq_canon _ _ _ (cover1_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1)]
  unfold kernelRun1_C
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- The last tile: the quotient through the first and the skip-out layer. -/
theorem o11_C (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    out1_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1 = k1_pay4 (k1_pay15 x0 x1 xs0 xo10) (k1_pay14 x0 x1 xs0 xs1) x2 x6 := by
  unfold out1_C_11
  rw [View.read_writes_eq_canon _ _ _ (cover1_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1)]
  unfold kernelRun1_C
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- The last tile: the quotient through the first, the skip-in and the output layer. -/
theorem o12_C (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    out1_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1 = k1_pay5 (k1_pay15 x0 x1 xs0 xo10) (k1_pay14 x0 x1 xs0 xs1) x2 x4 x8 := by
  unfold out1_C_12
  rw [View.read_writes_eq_canon _ _ _ (cover1_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1)]
  unfold kernelRun1_C
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- The last tile: the first bias row through the skip-out layer. -/
theorem o13_C (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    out1_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1 = k1_pay6 x3 x6 x7 := by
  unfold out1_C_13
  rw [View.read_writes_eq_canon _ _ _ (cover1_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1)]
  unfold kernelRun1_C
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

/-- The last tile: the first bias row through the skip-in and the output layer. -/
theorem o14_C (c : Dev nD) (i : grid1.Coords) (arg1 : Memref sig .tc .vmem S20000x128 .f32) (harg1 : arg1.IsWhole) (arg2 : Memref sig .tc .vmem S32x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S32x128 .f32) (harg11 : arg11.IsWhole) (arg12 : Memref sig .tc .vmem S32x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S32x1 .f32) (harg16 : arg16.IsWhole) (arg17 : Memref sig .tc .vmem S32x1 .f32) (harg17 : arg17.IsWhole) (hc0 : ¬cond1_0 i) (hc1 : cond1_1 i) (x0 : Vec F S20000x128 .f32) (x1 : Vec F S32x128 .f32) (x2 : Vec F S128x128 .f32) (x3 : Vec F S1x128 .f32) (x4 : Vec F S128x128 .f32) (x5 : Vec F S1x128 .f32) (x6 : Vec F S128x128 .f32) (x7 : Vec F S1x128 .f32) (x8 : Vec F S128x128 .f32) (x9 : Vec F S1x128 .f32) (xo10 : Vec F S32x128 .f32) (xs0 : Vec F S32x1 .f32) (xs1 : Vec F S32x1 .f32) :
    out1_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1 = k1_pay1 x3 x4 x5 x8 x9 := by
  unfold out1_C_14
  rw [View.read_writes_eq_canon _ _ _ (cover1_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo10 xs0 xs1)]
  unfold kernelRun1_C
  dsimp only
  sl_unfold_words
  simp only [View.canon_cons_unit_zero (S := S32x128) hz, View.canon_cons_unit_zero (S := S1x128) hz, View.canon_cons_unit_zero (S := S32x1) hz,
    View.readCov_unit_zero (S := S32x128) _ hz, View.readCov_unit_zero (S := S1x128) _ hz, View.readCov_unit_zero (S := S32x1) _ hz,
    View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S20000x128) hz, View.ld_unit_zero (S := S32x128) hz, View.ld_unit_zero (S := S128x128) hz, View.ld_unit_zero (S := S1x128) hz, View.ld_unit_zero (S := S32x1) hz]

end Cert.Val1

end
-- ==== Proof.Val1.After.lean ====
/-
  The second pass, tile by tile: what the running maximum, denominator and numerator (and, at the last
  tile, the five outputs' blocks) hold after the body at a tile, as the payloads of that tile's
  input blocks and of what the tile before left.
-/
import proofs.«167790_g44066364457491_cont_8to1_c_744_34_alg».proof.Proof.Val1.Pieces

set_option maxRecDepth 16384

noncomputable section

namespace Cert.Val1

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx (ix1 ix2)

variable (V : (c : Dev nD) → (b : Ref sig .tc) → Buf (Elt Ideal) ((c : Thread nD τ).loc b))

set_option maxHeartbeats 8000000 in
theorem after_A (c : Dev nD) (t : Fin cfg1.N) (h0 : t.val % 5 = 0) (h1 : ¬t.val % 5 = 4) :
    (outsAt1 V c t.val t.isLt).1 = k1_pay15 (iblk1 V c 0 t) (iblk1 V c 1 t) (k1_pay8 (F := Ideal)) (k1_pay10 (F := Ideal))
    ∧ (outsAt1 V c t.val t.isLt).2.2.2.2.2.1 = k1_pay16 (iblk1 V c 0 t) (iblk1 V c 1 t) (k1_pay8 (F := Ideal))
    ∧ (outsAt1 V c t.val t.isLt).2.2.2.2.2.2 = k1_pay14 (iblk1 V c 0 t) (iblk1 V c 1 t) (k1_pay8 (F := Ideal)) (k1_pay9 (F := Ideal)) := by
  have e := outsAt1_A V c t h0 h1
  exact ⟨(congrArg (fun p => p.1) e).trans (num_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)),
    (congrArg (fun p => p.2.2.2.2.2.1) e).trans (m_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)),
    (congrArg (fun p => p.2.2.2.2.2.2) e).trans (l_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t))⟩

set_option maxHeartbeats 8000000 in
theorem after_B (c : Dev nD) (t : Fin cfg1.N) (h0 : ¬t.val % 5 = 0) (h1 : ¬t.val % 5 = 4) :
    (outsAt1 V c t.val t.isLt).1 = k1_pay15 (iblk1 V c 0 t) (iblk1 V c 1 t) (outsAt1 V c (t.val - 1) (Nat.lt_of_le_of_lt (Nat.sub_le _ _) t.isLt)).2.2.2.2.2.1 (outsAt1 V c (t.val - 1) (Nat.lt_of_le_of_lt (Nat.sub_le _ _) t.isLt)).1
    ∧ (outsAt1 V c t.val t.isLt).2.2.2.2.2.1 = k1_pay16 (iblk1 V c 0 t) (iblk1 V c 1 t) (outsAt1 V c (t.val - 1) (Nat.lt_of_le_of_lt (Nat.sub_le _ _) t.isLt)).2.2.2.2.2.1
    ∧ (outsAt1 V c t.val t.isLt).2.2.2.2.2.2 = k1_pay14 (iblk1 V c 0 t) (iblk1 V c 1 t) (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2 := by
  have e := outsAt1_B V c t h0 h1
  exact ⟨(congrArg (fun p => p.1) e).trans (num_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2),
    (congrArg (fun p => p.2.2.2.2.2.1) e).trans (m_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2),
    (congrArg (fun p => p.2.2.2.2.2.2) e).trans (l_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2)⟩

set_option maxHeartbeats 8000000 in
theorem after_C (c : Dev nD) (t : Fin cfg1.N) (h0 : ¬t.val % 5 = 0) (h1 : t.val % 5 = 4) :
    (outsAt1 V c t.val t.isLt).1 = k1_pay2 (k1_pay15 (iblk1 V c 0 t) (iblk1 V c 1 t) (outsAt1 V c (t.val - 1) (Nat.lt_of_le_of_lt (Nat.sub_le _ _) t.isLt)).2.2.2.2.2.1 (outsAt1 V c (t.val - 1) (Nat.lt_of_le_of_lt (Nat.sub_le _ _) t.isLt)).1) (k1_pay14 (iblk1 V c 0 t) (iblk1 V c 1 t) (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2)
    ∧ (outsAt1 V c t.val t.isLt).2.1 = k1_pay4 (k1_pay15 (iblk1 V c 0 t) (iblk1 V c 1 t) (outsAt1 V c (t.val - 1) (Nat.lt_of_le_of_lt (Nat.sub_le _ _) t.isLt)).2.2.2.2.2.1 (outsAt1 V c (t.val - 1) (Nat.lt_of_le_of_lt (Nat.sub_le _ _) t.isLt)).1) (k1_pay14 (iblk1 V c 0 t) (iblk1 V c 1 t) (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2) (iblk1 V c 2 t) (iblk1 V c 6 t)
    ∧ (outsAt1 V c t.val t.isLt).2.2.1 = k1_pay5 (k1_pay15 (iblk1 V c 0 t) (iblk1 V c 1 t) (outsAt1 V c (t.val - 1) (Nat.lt_of_le_of_lt (Nat.sub_le _ _) t.isLt)).2.2.2.2.2.1 (outsAt1 V c (t.val - 1) (Nat.lt_of_le_of_lt (Nat.sub_le _ _) t.isLt)).1) (k1_pay14 (iblk1 V c 0 t) (iblk1 V c 1 t) (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2) (iblk1 V c 2 t) (iblk1 V c 4 t) (iblk1 V c 8 t)
    ∧ (outsAt1 V c t.val t.isLt).2.2.2.1 = k1_pay6 (iblk1 V c 3 t) (iblk1 V c 6 t) (iblk1 V c 7 t)
    ∧ (outsAt1 V c t.val t.isLt).2.2.2.2.1 = k1_pay1 (iblk1 V c 3 t) (iblk1 V c 4 t) (iblk1 V c 5 t) (iblk1 V c 8 t) (iblk1 V c 9 t)
    ∧ (outsAt1 V c t.val t.isLt).2.2.2.2.2.1 = k1_pay16 (iblk1 V c 0 t) (iblk1 V c 1 t) (outsAt1 V c (t.val - 1) (Nat.lt_of_le_of_lt (Nat.sub_le _ _) t.isLt)).2.2.2.2.2.1
    ∧ (outsAt1 V c t.val t.isLt).2.2.2.2.2.2 = k1_pay14 (iblk1 V c 0 t) (iblk1 V c 1 t) (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2 := by
  have e := outsAt1_C V c t h0 h1
  exact ⟨(congrArg (fun p => p.1) e).trans (o10_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2),
    (congrArg (fun p => p.2.1) e).trans (o11_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2),
    (congrArg (fun p => p.2.2.1) e).trans (o12_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2),
    (congrArg (fun p => p.2.2.2.1) e).trans (o13_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2),
    (congrArg (fun p => p.2.2.2.2.1) e).trans (o14_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2),
    (congrArg (fun p => p.2.2.2.2.2.1) e).trans (m_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2),
    (congrArg (fun p => p.2.2.2.2.2.2) e).trans (l_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).1 (outsAt1 V c (t.val - 1) (Nat.lt_of_le_of_lt (Nat.sub_le _ _) t.isLt)).2.2.2.2.2.1 (outsAt1 V c (t.val - 1) (Nat.lt_of_le_of_lt (Nat.sub_le _ _) t.isLt)).2.2.2.2.2.2)⟩

end Cert.Val1

end
-- ==== Proof.Val1.PayTile.lean ====
/-
  The second pass on one tile of 20000 rows, at one entry, on the extended reals.

  The tile's scores are the contraction of the sector block with the tile's rows over the 128
  features, `sc s r = ∑ d, sector s d * x r d`. The body takes the maximum of each sector's scores over
  the tile (a lane maximum from the word of −∞, kept as a column) and then the maximum with the running
  one; rescales the running denominator and numerator by `exp (old maximum − new maximum)` and adds
  the tile's `∑ r, exp (sc s r − new maximum)` and `∑ r, exp (sc s r − new maximum) * x r d` (a lane
  sum from the zero word, and a contraction over the tile's rows into a zero accumulator). That is one
  step of the online softmax, `Cert.LibOnlineSoftmax.step`. Only `0 + a = a` and commutativity of `*`
  are used; no hypothesis on the values.
-/
import proofs.«167790_g44066364457491_cont_8to1_c_744_34_alg».proof.Proof.Gen.KernelIdeal.Skeleton
import proofs.«167790_g44066364457491_cont_8to1_c_744_34_alg».proof.Proof.LibOnlineSoftmax
import proofs.«167790_g44066364457491_cont_8to1_c_744_34_alg».proof.Proof.LibRowSoftmax
import proofs.«167790_g44066364457491_cont_8to1_c_744_34_alg».proof.Proof.LibColumnLayout
import Idealize.ShloMosaic.Lib.Pipeline.Value
import Idealize.ShloMosaic.Lib.ValueIdx
import Idealize.ShloMosaic.PureOps.Ideal.Laws

set_option maxRecDepth 16384

noncomputable section

namespace Cert.Val1

open Cert.KernelIdeal Cert.KernelIdeal.Gen
open Idealize.ShloMosaic Idealize.ShloMosaic.TcCoe Idealize.SL.Sem
open Idealize.ShloMosaic.ValueIdx (ix1 ix2)

/-- The word the lane maximum starts from is −∞. -/
theorem ofBits_negInf_f32 : Ideal.ofBits .f32 0xFF800000#32 = (⊥ : EReal) := by simp [Ideal.ofBits, Ideal.ieee]

/-! ## The two contractions -/

theorem scores_lhs0 (i : S32x20000.Idx) (q : dot_S32x128_S20000x128_S32x20000_1_1_0_0_n_n.contr.Idx) : (dot_S32x128_S20000x128_S32x20000_1_1_0_0_n_n.lhsIdx i q 0).val = (i 0).val := by
  unfold DotDims.lhsIdx
  rw [dif_neg (show ¬(0 : Fin S32x128.rank) ∈ dot_S32x128_S20000x128_S32x20000_1_1_0_0_n_n.lhsBatch by decide), dif_pos (show (0 : Fin S32x128.rank) ∈ dot_S32x128_S20000x128_S32x20000_1_1_0_0_n_n.lhsNonContracting by decide)]
  rfl
theorem scores_rhs0 (i : S32x20000.Idx) (q : dot_S32x128_S20000x128_S32x20000_1_1_0_0_n_n.contr.Idx) : (dot_S32x128_S20000x128_S32x20000_1_1_0_0_n_n.rhsIdx i q 0).val = (i 1).val := by
  unfold DotDims.rhsIdx
  rw [dif_neg (show ¬(0 : Fin S20000x128.rank) ∈ dot_S32x128_S20000x128_S32x20000_1_1_0_0_n_n.rhsBatch by decide), dif_pos (show (0 : Fin S20000x128.rank) ∈ dot_S32x128_S20000x128_S32x20000_1_1_0_0_n_n.rhsNonContracting by decide)]
  rfl

/-- The sector block against the tile's rows, both contracted along the 128 features, into a zero accumulator. -/
theorem scores_apply (l : FVec Ideal S32x128 .f32) (x : FVec Ideal S20000x128 .f32) (s : Fin 32) (r : Fin 20000) :
    (matmul dot_S32x128_S20000x128_S32x20000_1_1_0_0_n_n none l x (constant S32x20000 .f32 0x00000000#32) : FVec Ideal S32x20000 .f32) (ix2 s r)
      = ∑ d : Fin 128, l (ix2 s d) * x (ix2 r d) := by
  simp only [matmul]
  rw [Ideal.matmul_constant_zero_apply]
  refine Cert.Attn.contraction_sum dot_S32x128_S20000x128_S32x20000_1_1_0_0_n_n rfl rfl l x (ix2 s r) (fun d => l (ix2 s d)) (fun d => x (ix2 r d))
    (fun k => congrArg l ?_) (fun k => congrArg x ?_)
  · have hk := ValueIdx.contrEquiv1_symm_val dot_S32x128_S20000x128_S32x20000_1_1_0_0_n_n 128 rfl rfl k
    exact funext fun a => Fin.ext (by
      match a with
      | ⟨0, _⟩ => exact scores_lhs0 _ _
      | ⟨1, _⟩ => exact (dot_S32x128_S20000x128_S32x20000_1_1_0_0_n_n.lhsIdx_val_of_single rfl _ _).trans hk)
  · have hk := ValueIdx.contrEquiv1_symm_val dot_S32x128_S20000x128_S32x20000_1_1_0_0_n_n 128 rfl rfl k
    exact funext fun a => Fin.ext (by
      match a with
      | ⟨0, _⟩ => exact scores_rhs0 _ _
      | ⟨1, _⟩ => exact (dot_S32x128_S20000x128_S32x20000_1_1_0_0_n_n.rhsIdx_val_of_single rfl _ _).trans hk)

theorem wsum_lhs0 (i : S32x128.Idx) (q : dot_S32x20000_S20000x128_S32x128_1_0_0_1_n_n.contr.Idx) : (dot_S32x20000_S20000x128_S32x128_1_0_0_1_n_n.lhsIdx i q 0).val = (i 0).val := by
  unfold DotDims.lhsIdx
  rw [dif_neg (show ¬(0 : Fin S32x20000.rank) ∈ dot_S32x20000_S20000x128_S32x128_1_0_0_1_n_n.lhsBatch by decide), dif_pos (show (0 : Fin S32x20000.rank) ∈ dot_S32x20000_S20000x128_S32x128_1_0_0_1_n_n.lhsNonContracting by decide)]
  rfl
theorem wsum_rhs1 (i : S32x128.Idx) (q : dot_S32x20000_S20000x128_S32x128_1_0_0_1_n_n.contr.Idx) : (dot_S32x20000_S20000x128_S32x128_1_0_0_1_n_n.rhsIdx i q 1).val = (i 1).val := by
  unfold DotDims.rhsIdx
  rw [dif_neg (show ¬(1 : Fin S20000x128.rank) ∈ dot_S32x20000_S20000x128_S32x128_1_0_0_1_n_n.rhsBatch by decide), dif_pos (show (1 : Fin S20000x128.rank) ∈ dot_S32x20000_S20000x128_S32x128_1_0_0_1_n_n.rhsNonContracting by decide)]
  rfl

/-- The tile's weights against the tile's rows, contracted along the 20000 rows, into a zero accumulator. -/
theorem wsum_apply (w : FVec Ideal S32x20000 .f32) (x : FVec Ideal S20000x128 .f32) (s : Fin 32) (d : Fin 128) :
    (matmul dot_S32x20000_S20000x128_S32x128_1_0_0_1_n_n none w x (constant S32x128 .f32 0x00000000#32) : FVec Ideal S32x128 .f32) (ix2 s d)
      = ∑ r : Fin 20000, w (ix2 s r) * x (ix2 r d) := by
  simp only [matmul]
  rw [Ideal.matmul_constant_zero_apply]
  refine Cert.Attn.contraction_sum dot_S32x20000_S20000x128_S32x128_1_0_0_1_n_n rfl rfl w x (ix2 s d) (fun r => w (ix2 s r)) (fun r => x (ix2 r d))
    (fun k => congrArg w ?_) (fun k => congrArg x ?_)
  · have hk := ValueIdx.contrEquiv1_symm_val dot_S32x20000_S20000x128_S32x128_1_0_0_1_n_n 20000 rfl rfl k
    exact funext fun a => Fin.ext (by
      match a with
      | ⟨0, _⟩ => exact wsum_lhs0 _ _
      | ⟨1, _⟩ => exact (dot_S32x20000_S20000x128_S32x128_1_0_0_1_n_n.lhsIdx_val_of_single rfl _ _).trans hk)
  · have hk := ValueIdx.contrEquiv1_symm_val dot_S32x20000_S20000x128_S32x128_1_0_0_1_n_n 20000 rfl rfl k
    exact funext fun a => Fin.ext (by
      match a with
      | ⟨0, _⟩ => exact (dot_S32x20000_S20000x128_S32x128_1_0_0_1_n_n.rhsIdx_val_of_single rfl _ _).trans hk
      | ⟨1, _⟩ => exact wsum_rhs1 _ _)

/-! ## The two lane reductions -/

/-- Sector `s` with lane `k` put back is (s, k). -/
theorem lift_ix2 (s : Fin 32) (k : Fin (S32x20000.size 1)) :
    reduces_S32x20000_S32.lift (ix1 s) k = ix2 s (⟨k.val, k.isLt⟩ : Fin 20000) :=
  funext fun a => Fin.ext (by match a with | ⟨0, _⟩ => rfl | ⟨1, _⟩ => rfl)

/-- The lane maximum from the word of −∞: the fold of `max` from ⊥ over the tile's 20000 lanes. -/
theorem lanemax_apply (src : FVec Ideal S32x20000 .f32) (hφ : FKind.Formats .f32)
    (hacc : (0xFF800000#32 : BitVec 32) = FKind.maximumf.neutral .f32 hφ) (s : Fin 32) :
    multiReduction .maximumf [1] S32 src 0xFF800000#32 reduces_S32x20000_S32 hφ hacc (ix1 s)
      = (Finset.univ : Finset (Fin 20000)).fold max ⊥ (fun r => src (ix2 s r)) := by
  refine (Ideal.multiReduction_maximumf_single src 0xFF800000#32 reduces_S32x20000_S32 hφ hacc (ix1 s)).trans ?_
  rw [Ideal.ofBits_def, ofBits_negInf_f32]
  have hf : (src ∘ reduces_S32x20000_S32.lift (ix1 s)) = fun r : Fin 20000 => src (ix2 s r) :=
    funext fun k => congrArg src (lift_ix2 s k)
  exact congrArg (fun f => Finset.fold max (⊥ : EReal) f (Finset.univ : Finset (Fin 20000))) hf

/-- The lane sum from the zero word: the sum over the tile's 20000 lanes. -/
theorem lanesum_apply (src : FVec Ideal S32x20000 .f32) (hφ : FKind.Formats .f32)
    (hacc : (0x00000000#32 : BitVec 32) = FKind.add.neutral .f32 hφ) (s : Fin 32) :
    multiReduction .add [1] S32 src 0x00000000#32 reduces_S32x20000_S32 hφ hacc (ix1 s)
      = ∑ r : Fin 20000, src (ix2 s r) := by
  refine (Ideal.multiReduction_add_single src 0x00000000#32 reduces_S32x20000_S32 hφ hacc (ix1 s)).trans ?_
  exact Finset.sum_congr rfl fun k _ => congrArg src (lift_ix2 s k)

/-! ## The payloads at an index -/

variable (v0 : Vec Ideal S20000x128 .f32) (v1 : Vec Ideal S32x128 .f32) (v9 v16 : Vec Ideal S32x1 .f32) (v24 : Vec Ideal S32x128 .f32)

/-- Sector `s`'s score at row `r` of the tile. -/
abbrev sc (s : Fin 32) (r : Fin 20000) : EReal := ∑ d : Fin 128, v1 (ix2 s d) * v0 (ix2 r d)

/-- The new running maximum of sector `s`. -/
abbrev newMax (s : Fin 32) : EReal :=
  max (v9 (ix2 s (0 : Fin 1))) ((Finset.univ : Finset (Fin 20000)).fold max ⊥ (fun r => sc v0 v1 s r))

theorem pay7_apply (s : Fin 32) (r : Fin 20000) :
    k1_pay7 (F := Ideal) v0 v1 (ix2 s r) = ∑ d : Fin 128, v1 (ix2 s d) * v0 (ix2 r d) := by
  unfold k1_pay7
  rw [shapeCast_self]
  exact scores_apply v1 v0 s r

theorem pay11_apply (s : Fin 32) (z : Fin 1) :
    k1_pay11 (F := Ideal) v0 v1 v9 (ix2 s z)
      = max (v9 (ix2 s z)) ((Finset.univ : Finset (Fin 20000)).fold max ⊥ (fun r => sc v0 v1 s r)) := by
  unfold k1_pay11
  refine (ValueIdx.maximumf_apply _ _ _).trans (congrArg (max (v9 (ix2 s z))) ?_)
  refine (ColumnLayout.shapeCast_a_a1_apply _ shapeCasts_S32_S32x1 s z).trans ?_
  refine (lanemax_apply _ (.inl rfl) rfl s).trans ?_
  exact congrArg (fun f => Finset.fold max (⊥ : EReal) f (Finset.univ : Finset (Fin 20000))) (funext fun r => pay7_apply v0 v1 s r)

theorem pay16_apply (s : Fin 32) :
    k1_pay16 (F := Ideal) v0 v1 v9 (ix2 s (0 : Fin 1)) = newMax v0 v1 v9 s := by
  unfold k1_pay16
  rw [shapeCast_self]
  exact pay11_apply v0 v1 v9 s 0

/-- The rescaling factor of the running sums. -/
theorem pay12_apply (s : Fin 32) :
    k1_pay12 (F := Ideal) v0 v1 v9 (ix2 s (0 : Fin 1)) = Ideal.exp (v9 (ix2 s (0 : Fin 1)) - newMax v0 v1 v9 s) := by
  unfold k1_pay12
  show Ideal.exp (v9 (ix2 s (0 : Fin 1)) - k1_pay11 (F := Ideal) v0 v1 v9 (ix2 s (0 : Fin 1))) = _
  rw [pay11_apply]

/-- The tile's weights. -/
theorem pay13_apply (s : Fin 32) (r : Fin 20000) :
    k1_pay13 (F := Ideal) v0 v1 v9 (ix2 s r) = Ideal.exp (sc v0 v1 s r - newMax v0 v1 v9 s) := by
  unfold k1_pay13
  show Ideal.exp (k1_pay7 (F := Ideal) v0 v1 (ix2 s r)
    - broadcastTo S32x20000 (k1_pay11 (F := Ideal) v0 v1 v9) broadcasts_S32x1_S32x20000 (ix2 s r)) = _
  rw [ColumnLayout.broadcastTo_a1_ab_apply, pay11_apply, pay7_apply]

theorem pay14_apply (s : Fin 32) :
    k1_pay14 (F := Ideal) v0 v1 v9 v16 (ix2 s (0 : Fin 1))
      = Ideal.exp (v9 (ix2 s (0 : Fin 1)) - newMax v0 v1 v9 s) * v16 (ix2 s (0 : Fin 1))
        + ∑ r : Fin 20000, Ideal.exp (sc v0 v1 s r - newMax v0 v1 v9 s) := by
  unfold k1_pay14
  rw [shapeCast_self]
  refine (ValueIdx.addf_apply _ _ _).trans (congrArg₂ (· + ·) ?_ ?_)
  · refine (ValueIdx.mulf_apply _ _ _).trans ?_
    rw [pay12_apply, mul_comm]
  · refine (ColumnLayout.shapeCast_a_a1_apply _ shapeCasts_S32_S32x1 s 0).trans ?_
    refine (lanesum_apply _ (.inl rfl) rfl s).trans ?_
    exact Finset.sum_congr rfl fun r _ => pay13_apply v0 v1 v9 s r

theorem pay15_apply (s : Fin 32) (d : Fin 128) :
    k1_pay15 (F := Ideal) v0 v1 v9 v24 (ix2 s d)
      = Ideal.exp (v9 (ix2 s (0 : Fin 1)) - newMax v0 v1 v9 s) * v24 (ix2 s d)
        + ∑ r : Fin 20000, Ideal.exp (sc v0 v1 s r - newMax v0 v1 v9 s) * v0 (ix2 r d) := by
  unfold k1_pay15
  rw [shapeCast_self]
  refine (ValueIdx.addf_apply _ _ _).trans (congrArg₂ (· + ·) ?_ ?_)
  · refine (ValueIdx.mulf_apply _ _ _).trans ?_
    rw [ColumnLayout.broadcastTo_a1_ab_apply, pay12_apply, mul_comm]
  · refine (wsum_apply _ v0 s d).trans ?_
    exact Finset.sum_congr rfl fun r _ => congrArg (· * v0 (ix2 r d)) (pay13_apply v0 v1 v9 s r)

/-- ONE TILE IS ONE STEP of the online softmax, at sector `s` and feature `d`. -/
theorem step_eq (s : Fin 32) (d : Fin 128) :
    (k1_pay16 (F := Ideal) v0 v1 v9 (ix2 s (0 : Fin 1)), k1_pay14 (F := Ideal) v0 v1 v9 v16 (ix2 s (0 : Fin 1)),
        k1_pay15 (F := Ideal) v0 v1 v9 v24 (ix2 s d))
      = Cert.LibOnlineSoftmax.step (v9 (ix2 s (0 : Fin 1)), v16 (ix2 s (0 : Fin 1)), v24 (ix2 s d))
          (fun r : Fin 20000 => sc v0 v1 s r) (fun r => v0 (ix2 r d)) := by
  unfold Cert.LibOnlineSoftmax.step
  exact Prod.ext (pay16_apply v0 v1 v9 s) (Prod.ext (pay14_apply v0 v1 v9 v16 s) (pay15_apply v0 v1 v9 v24 s d))

/-! ## The first tile's fills -/

theorem pay8_apply (s : Fin 32) : k1_pay8 (F := Ideal) (ix2 s (0 : Fin 1)) = (⊥ : EReal) := by
  unfold k1_pay8
  rw [shapeCast_self]
  exact ofBits_negInf_f32

theorem pay9_apply (s : Fin 32) : k1_pay9 (F := Ideal) (ix2 s (0 : Fin 1)) = 0 := by
  unfold k1_pay9
  rw [shapeCast_self]
  exact Ideal.ofBits_zero_f32

theorem pay10_apply (s : Fin 32) (d : Fin 128) : k1_pay10 (F := Ideal) (ix2 s d) = 0 := Ideal.ofBits_zero_f32

end Cert.Val1
-- ==== Proof.Val1.PayLayers.lean ====
/-
  The layer products the second pass forms once, after its last tile, read entry by entry on the extended reals.

  From the running numerator `N` and denominator `D` of the sector matrix and the layers' weights and biases:
      sector2 = N / D                       (each row of N over that sector's denominator)
      t1      = sector2 · W_entᵀ
      M_so    = t1 · W_soᵀ
      M_og    = (t1 · W_siᵀ) · W_outᵀ
      v_so    = b_ent · W_soᵀ + b_so
      v_g     = (b_ent · W_siᵀ + b_si) · W_outᵀ + b_out.
  Every product contracts the second axis of both operands into a zero accumulator, so entry `(p, q)` is
  `∑ k, l p k * w q k` (`0 + a = a`); the denominator column is repeated along the 128 features; the casts are the
  identity. Nothing is regrouped, so no finiteness is needed.
-/
import proofs.«167790_g44066364457491_cont_8to1_c_744_34_alg».proof.Proof.Gen.KernelIdeal.Skeleton
import proofs.«167790_g44066364457491_cont_8to1_c_744_34_alg».proof.Proof.LibRowSoftmax
import proofs.«167790_g44066364457491_cont_8to1_c_744_34_alg».proof.Proof.LibColumnLayout
import Idealize.ShloMosaic.Lib.Pipeline.Value
import Idealize.ShloMosaic.Lib.ValueLayout
import Idealize.ShloMosaic.Lib.ValueIdx
import Idealize.ShloMosaic.PureOps.Ideal.Laws

noncomputable section

namespace Cert.Val1

open Idealize.ShloMosaic Idealize.ShloMosaic.ValueIdx Idealize.ShloMosaic.ColumnLayout
open Cert.KernelIdeal Cert.KernelIdeal.Gen

/-! ## The two products at an entry -/

theorem secW_apply_lhs_non (i : S32x128.Idx) (q : dot_S32x128_S128x128_S32x128_1_1_0_0_n_n.contr.Idx) :
    (dot_S32x128_S128x128_S32x128_1_1_0_0_n_n.lhsIdx i q 0).val = (i 0).val := by
  unfold DotDims.lhsIdx
  rw [dif_neg (show ¬(0 : Fin S32x128.rank) ∈ dot_S32x128_S128x128_S32x128_1_1_0_0_n_n.lhsBatch by decide), dif_pos (show (0 : Fin S32x128.rank) ∈ dot_S32x128_S128x128_S32x128_1_1_0_0_n_n.lhsNonContracting by decide)]
  rfl
theorem secW_apply_lhs_con (i : S32x128.Idx) (q : dot_S32x128_S128x128_S32x128_1_1_0_0_n_n.contr.Idx) :
    (dot_S32x128_S128x128_S32x128_1_1_0_0_n_n.lhsIdx i q 1).val = (q ⟨0, by decide⟩).val :=
  dot_S32x128_S128x128_S32x128_1_1_0_0_n_n.lhsIdx_val_of_single rfl i q
theorem secW_apply_rhs_non (i : S32x128.Idx) (q : dot_S32x128_S128x128_S32x128_1_1_0_0_n_n.contr.Idx) :
    (dot_S32x128_S128x128_S32x128_1_1_0_0_n_n.rhsIdx i q 0).val = (i 1).val := by
  unfold DotDims.rhsIdx
  rw [dif_neg (show ¬(0 : Fin S128x128.rank) ∈ dot_S32x128_S128x128_S32x128_1_1_0_0_n_n.rhsBatch by decide), dif_pos (show (0 : Fin S128x128.rank) ∈ dot_S32x128_S128x128_S32x128_1_1_0_0_n_n.rhsNonContracting by decide)]
  rfl
theorem secW_apply_rhs_con (i : S32x128.Idx) (q : dot_S32x128_S128x128_S32x128_1_1_0_0_n_n.contr.Idx) :
    (dot_S32x128_S128x128_S32x128_1_1_0_0_n_n.rhsIdx i q 1).val = (q ⟨0, by decide⟩).val :=
  dot_S32x128_S128x128_S32x128_1_1_0_0_n_n.rhsIdx_val_of_single rfl i q
/-- A sector-by-feature matrix against a square matrix's rows: entry `(p, q)` of `l · wᵀ` into a zero accumulator is `∑ k, l p k * w q k`. -/
theorem secW_apply (l : FVec Ideal S32x128 .f32) (w : FVec Ideal S128x128 .f32) (p : Fin 32) (q : Fin 128) :
    matmul dot_S32x128_S128x128_S32x128_1_1_0_0_n_n none l w (constant S32x128 .f32 0x00000000#32) (ix2 p q)
      = ∑ k : Fin 128, l (ix2 p k) * w (ix2 q k) := by
  simp only [matmul]
  rw [Ideal.matmul_constant_zero_apply]
  refine Cert.Attn.contraction_sum (K := 128) dot_S32x128_S128x128_S32x128_1_1_0_0_n_n rfl rfl l w (ix2 p q) (fun k => l (ix2 p k)) (fun k => w (ix2 q k))
    (fun k => congrArg l ?_) (fun k => congrArg w ?_)
  · have hk := contrEquiv1_symm_val dot_S32x128_S128x128_S32x128_1_1_0_0_n_n 128 rfl rfl k
    funext a
    apply Fin.ext
    match a with
    | ⟨0, _⟩ => exact secW_apply_lhs_non (ix2 p q) _
    | ⟨1, _⟩ => exact (secW_apply_lhs_con _ _).trans hk
  · have hk := contrEquiv1_symm_val dot_S32x128_S128x128_S32x128_1_1_0_0_n_n 128 rfl rfl k
    funext a
    apply Fin.ext
    match a with
    | ⟨0, _⟩ => exact secW_apply_rhs_non (ix2 p q) _
    | ⟨1, _⟩ => exact (secW_apply_rhs_con _ _).trans hk

theorem rowW_apply_lhs_non (i : S1x128.Idx) (q : dot_S1x128_S128x128_S1x128_1_1_0_0_n_n.contr.Idx) :
    (dot_S1x128_S128x128_S1x128_1_1_0_0_n_n.lhsIdx i q 0).val = (i 0).val := by
  unfold DotDims.lhsIdx
  rw [dif_neg (show ¬(0 : Fin S1x128.rank) ∈ dot_S1x128_S128x128_S1x128_1_1_0_0_n_n.lhsBatch by decide), dif_pos (show (0 : Fin S1x128.rank) ∈ dot_S1x128_S128x128_S1x128_1_1_0_0_n_n.lhsNonContracting by decide)]
  rfl
theorem rowW_apply_lhs_con (i : S1x128.Idx) (q : dot_S1x128_S128x128_S1x128_1_1_0_0_n_n.contr.Idx) :
    (dot_S1x128_S128x128_S1x128_1_1_0_0_n_n.lhsIdx i q 1).val = (q ⟨0, by decide⟩).val :=
  dot_S1x128_S128x128_S1x128_1_1_0_0_n_n.lhsIdx_val_of_single rfl i q
theorem rowW_apply_rhs_non (i : S1x128.Idx) (q : dot_S1x128_S128x128_S1x128_1_1_0_0_n_n.contr.Idx) :
    (dot_S1x128_S128x128_S1x128_1_1_0_0_n_n.rhsIdx i q 0).val = (i 1).val := by
  unfold DotDims.rhsIdx
  rw [dif_neg (show ¬(0 : Fin S128x128.rank) ∈ dot_S1x128_S128x128_S1x128_1_1_0_0_n_n.rhsBatch by decide), dif_pos (show (0 : Fin S128x128.rank) ∈ dot_S1x128_S128x128_S1x128_1_1_0_0_n_n.rhsNonContracting by decide)]
  rfl
theorem rowW_apply_rhs_con (i : S1x128.Idx) (q : dot_S1x128_S128x128_S1x128_1_1_0_0_n_n.contr.Idx) :
    (dot_S1x128_S128x128_S1x128_1_1_0_0_n_n.rhsIdx i q 1).val = (q ⟨0, by decide⟩).val :=
  dot_S1x128_S128x128_S1x128_1_1_0_0_n_n.rhsIdx_val_of_single rfl i q
/-- A single row against a square matrix's rows: entry `(p, q)` of `l · wᵀ` into a zero accumulator is `∑ k, l p k * w q k`. -/
theorem rowW_apply (l : FVec Ideal S1x128 .f32) (w : FVec Ideal S128x128 .f32) (p : Fin 1) (q : Fin 128) :
    matmul dot_S1x128_S128x128_S1x128_1_1_0_0_n_n none l w (constant S1x128 .f32 0x00000000#32) (ix2 p q)
      = ∑ k : Fin 128, l (ix2 p k) * w (ix2 q k) := by
  simp only [matmul]
  rw [Ideal.matmul_constant_zero_apply]
  refine Cert.Attn.contraction_sum (K := 128) dot_S1x128_S128x128_S1x128_1_1_0_0_n_n rfl rfl l w (ix2 p q) (fun k => l (ix2 p k)) (fun k => w (ix2 q k))
    (fun k => congrArg l ?_) (fun k => congrArg w ?_)
  · have hk := contrEquiv1_symm_val dot_S1x128_S128x128_S1x128_1_1_0_0_n_n 128 rfl rfl k
    funext a
    apply Fin.ext
    match a with
    | ⟨0, _⟩ => exact rowW_apply_lhs_non (ix2 p q) _
    | ⟨1, _⟩ => exact (rowW_apply_lhs_con _ _).trans hk
  · have hk := contrEquiv1_symm_val dot_S1x128_S128x128_S1x128_1_1_0_0_n_n 128 rfl rfl k
    funext a
    apply Fin.ext
    match a with
    | ⟨0, _⟩ => exact rowW_apply_rhs_non (ix2 p q) _
    | ⟨1, _⟩ => exact (rowW_apply_rhs_con _ _).trans hk

/-! ## The six stored values -/

/-- The sector matrix: the numerator over its sector's denominator. -/
theorem pay2_apply (v37 : Vec Ideal S32x128 .f32) (v39 : Vec Ideal S32x1 .f32) (s : Fin 32) (d : Fin 128) :
    k1_pay2 v37 v39 (ix2 s d) = Ideal.div (v37 (ix2 s d)) (v39 (ix2 s (0 : Fin 1))) := by
  unfold k1_pay2
  try dsimp only
  rw [divf_apply, shapeCast_self, broadcastTo_a1_ab_apply]

/-- `t1 = sector2 · W_entᵀ`. -/
theorem pay3_apply (v37 : Vec Ideal S32x128 .f32) (v39 : Vec Ideal S32x1 .f32) (v43 : Vec Ideal S128x128 .f32)
    (s : Fin 32) (j : Fin 128) :
    k1_pay3 v37 v39 v43 (ix2 s j) = ∑ k, k1_pay2 v37 v39 (ix2 s k) * v43 (ix2 j k) := by
  unfold k1_pay3
  try dsimp only
  rw [secW_apply]

/-- `M_so = t1 · W_soᵀ`. -/
theorem pay4_apply (v37 : Vec Ideal S32x128 .f32) (v39 : Vec Ideal S32x1 .f32) (v43 v45 : Vec Ideal S128x128 .f32)
    (s : Fin 32) (j : Fin 128) :
    k1_pay4 v37 v39 v43 v45 (ix2 s j) = ∑ d, k1_pay3 v37 v39 v43 (ix2 s d) * v45 (ix2 j d) := by
  unfold k1_pay4
  try dsimp only
  rw [secW_apply]

/-- `M_og = (t1 · W_siᵀ) · W_outᵀ`. -/
theorem pay5_apply (v37 : Vec Ideal S32x128 .f32) (v39 : Vec Ideal S32x1 .f32) (v43 v48 v50 : Vec Ideal S128x128 .f32)
    (s : Fin 32) (j : Fin 128) :
    k1_pay5 v37 v39 v43 v48 v50 (ix2 s j)
      = ∑ d, (∑ d', k1_pay3 v37 v39 v43 (ix2 s d') * v48 (ix2 d d')) * v50 (ix2 j d) := by
  unfold k1_pay5
  try dsimp only
  rw [secW_apply]
  simp only [secW_apply]

/-- `v_so = b_ent · W_soᵀ + b_so`. -/
theorem pay6_apply (v53 : Vec Ideal S1x128 .f32) (v55 : Vec Ideal S128x128 .f32) (v57 : Vec Ideal S1x128 .f32) (j : Fin 128) :
    k1_pay6 v53 v55 v57 (ix2 (0 : Fin 1) j)
      = (∑ d, v53 (ix2 (0 : Fin 1) d) * v55 (ix2 j d)) + v57 (ix2 (0 : Fin 1) j) := by
  unfold k1_pay6
  try dsimp only
  rw [addf_apply, shapeCast_self, shapeCast_self, rowW_apply]

/-- `v_g = (b_ent · W_siᵀ + b_si) · W_outᵀ + b_out`. -/
theorem pay1_apply (v61 : Vec Ideal S1x128 .f32) (v63 : Vec Ideal S128x128 .f32) (v65 : Vec Ideal S1x128 .f32)
    (v68 : Vec Ideal S128x128 .f32) (v70 : Vec Ideal S1x128 .f32) (j : Fin 128) :
    k1_pay1 v61 v63 v65 v68 v70 (ix2 (0 : Fin 1) j)
      = (∑ d, ((∑ d', v61 (ix2 (0 : Fin 1) d') * v63 (ix2 d d')) + v65 (ix2 (0 : Fin 1) d)) * v68 (ix2 j d))
        + v70 (ix2 (0 : Fin 1) j) := by
  unfold k1_pay1
  try dsimp only
  rw [addf_apply, shapeCast_self, shapeCast_self, shapeCast_self, rowW_apply]
  simp only [addf_apply, rowW_apply]

end Cert.Val1

end
-- ==== Proof.Val1.Windows.lean ====
/-
  The second launch's operands by coordinates, where each window's block sits, and what its five result arrays
  end holding.

  The rows `x` move in five tiles of 20000 rows: at tile `t` the block is rows `20000·t … 20000·t + 19999`. The nine
  other operands (the sector matrix, four weight matrices, four bias rows) are fetched whole at the first tile:
  their block at every tile is the array. Each of the five results is one block that is the whole array,
  written back once, after the last tile; so each result array ends holding what the body left in that window's
  buffer at the last tile.
-/
import proofs.«167790_g44066364457491_cont_8to1_c_744_34_alg».proof.Proof.KI.Reg1
import proofs.«167790_g44066364457491_cont_8to1_c_744_34_alg».proof.Proof.Spec
import Idealize.ShloMosaic.Lib.Pipeline.Value
import Idealize.ShloMosaic.Lib.ValueIdx

set_option maxRecDepth 16384

noncomputable section

namespace Cert.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The launch's ten operands by coordinates -/

/-- The rows `x`. -/
noncomputable def XV1 (c : Dev nD) (n : Fin 100000) (d : Fin 128) : EReal :=
  (V c (Pipeline.arrRef spec1 0) : S100000x128.Idx → EReal) (ix2 n d)
/-- Window 1: the sector matrix. -/
noncomputable def SECV1 (c : Dev nD) (s : Fin 32) (d : Fin 128) : EReal :=
  (V c (Pipeline.arrRef spec1 1) : S32x128.Idx → EReal) (ix2 s d)
/-- Window 2: `W_ent`. -/
noncomputable def WeV1 (c : Dev nD) (j : Fin 128) (d : Fin 128) : EReal :=
  (V c (Pipeline.arrRef spec1 2) : S128x128.Idx → EReal) (ix2 j d)
/-- Window 3: the row `b_ent`. -/
noncomputable def beV1 (c : Dev nD) (j : Fin 128) : EReal :=
  (V c (Pipeline.arrRef spec1 3) : S1x128.Idx → EReal) (ix2 (0 : Fin 1) j)
/-- Window 4: `W_skip_in`. -/
noncomputable def WsiV1 (c : Dev nD) (j : Fin 128) (d : Fin 128) : EReal :=
  (V c (Pipeline.arrRef spec1 4) : S128x128.Idx → EReal) (ix2 j d)
/-- Window 5: the row `b_skip_in`. -/
noncomputable def bsiV1 (c : Dev nD) (j : Fin 128) : EReal :=
  (V c (Pipeline.arrRef spec1 5) : S1x128.Idx → EReal) (ix2 (0 : Fin 1) j)
/-- Window 6: `W_skip_out`. -/
noncomputable def WsoV1 (c : Dev nD) (j : Fin 128) (d : Fin 128) : EReal :=
  (V c (Pipeline.arrRef spec1 6) : S128x128.Idx → EReal) (ix2 j d)
/-- Window 7: the row `b_skip_out`. -/
noncomputable def bsoV1 (c : Dev nD) (j : Fin 128) : EReal :=
  (V c (Pipeline.arrRef spec1 7) : S1x128.Idx → EReal) (ix2 (0 : Fin 1) j)
/-- Window 8: `W_out`. -/
noncomputable def WoV1 (c : Dev nD) (j : Fin 128) (d : Fin 128) : EReal :=
  (V c (Pipeline.arrRef spec1 8) : S128x128.Idx → EReal) (ix2 j d)
/-- Window 9: the row `b_out`. -/
noncomputable def boV1 (c : Dev nD) (j : Fin 128) : EReal :=
  (V c (Pipeline.arrRef spec1 9) : S1x128.Idx → EReal) (ix2 (0 : Fin 1) j)

/-! ## Where each window's block sits -/

/-- The block indices over the five tiles: the rows' window is at block `t`, every other window at block 0. -/
theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0) :=
  (by decide +kernel : ∀ t : Fin grid1.N, _)

/-- There are five tiles. -/
theorem tile_lt (t : Fin cfg1.N) : t.val < 5 := lt_of_lt_of_eq t.isLt (show cfg1.N = 5 from N_1)

/-- Local row `r` of the rows' block at tile `t` is row `20000·t + r` of `x`: row `r` of tile `t`. -/
theorem iblk1_0_apply (c : Dev nD) (t : Fin cfg1.N) (ht : t.val < 5) (r : Fin 20000) (d : Fin 128) :
    (iblk1 V c 0 t : Vec Ideal S20000x128 .f32) (ix2 r d) = XV1 V c (Cert.Spec.Tiled.row ⟨t.val, ht⟩ r) d := by
  obtain ⟨⟨e0, e1⟩, -⟩ := idx_facts1 t
  unfold iblk1 XV1
  rw [View.read_apply]
  show V c (Pipeline.arrRef spec1 0) (((cfg1.win 0).blk t).view.emb (ix2 r d))
    = V c (Pipeline.arrRef spec1 0) (ix2 (Cert.Spec.Tiled.row ⟨t.val, ht⟩ r) d)
  refine congrArg (V c (Pipeline.arrRef spec1 0)) ?_
  funext a
  apply Fin.ext
  match a with
  | ⟨0, _⟩ => show win1_0.index t (0 : Fin 2) * 20000 + 1 * r.val = 20000 * t.val + r.val; rw [e0]; omega
  | ⟨1, _⟩ => show win1_0.index t (1 : Fin 2) * 128 + 1 * d.val = d.val; rw [e1]; omega

/-- Window 1's block at any tile is its whole array. -/
theorem iblk1_1_apply (c : Dev nD) (t : Fin cfg1.N) (s : Fin 32) (d : Fin 128) :
    (iblk1 V c 1 t : Vec Ideal S32x128 .f32) (ix2 s d) = SECV1 V c s d := by
  obtain ⟨-, ⟨e0, e1⟩, -⟩ := idx_facts1 t
  unfold iblk1 SECV1
  rw [View.read_apply]
  show V c (Pipeline.arrRef spec1 1) (((cfg1.win 1).blk t).view.emb (ix2 s d)) = V c (Pipeline.arrRef spec1 1) (ix2 s d)
  refine congrArg (V c (Pipeline.arrRef spec1 1)) ?_
  funext a
  apply Fin.ext
  match a with
  | ⟨0, _⟩ => show win1_1.index t (0 : Fin 2) * 32 + 1 * s.val = s.val; rw [e0]; omega
  | ⟨1, _⟩ => show win1_1.index t (1 : Fin 2) * 128 + 1 * d.val = d.val; rw [e1]; omega

/-- Window 2's block at any tile is its whole array. -/
theorem iblk1_2_apply (c : Dev nD) (t : Fin cfg1.N) (j : Fin 128) (d : Fin 128) :
    (iblk1 V c 2 t : Vec Ideal S128x128 .f32) (ix2 j d) = WeV1 V c j d := by
  obtain ⟨-, -, ⟨e0, e1⟩, -⟩ := idx_facts1 t
  unfold iblk1 WeV1
  rw [View.read_apply]
  show V c (Pipeline.arrRef spec1 2) (((cfg1.win 2).blk t).view.emb (ix2 j d)) = V c (Pipeline.arrRef spec1 2) (ix2 j d)
  refine congrArg (V c (Pipeline.arrRef spec1 2)) ?_
  funext a
  apply Fin.ext
  match a with
  | ⟨0, _⟩ => show win1_2.index t (0 : Fin 2) * 128 + 1 * j.val = j.val; rw [e0]; omega
  | ⟨1, _⟩ => show win1_2.index t (1 : Fin 2) * 128 + 1 * d.val = d.val; rw [e1]; omega

/-- Window 3's block at any tile is its whole array. -/
theorem iblk1_3_apply (c : Dev nD) (t : Fin cfg1.N) (d : Fin 128) :
    (iblk1 V c 3 t : Vec Ideal S1x128 .f32) (ix2 (0 : Fin 1) d) = beV1 V c d := by
  obtain ⟨-, -, -, ⟨e0, e1⟩, -⟩ := idx_facts1 t
  unfold iblk1 beV1
  rw [View.read_apply]
  show V c (Pipeline.arrRef spec1 3) (((cfg1.win 3).blk t).view.emb (ix2 (0 : Fin 1) d)) = V c (Pipeline.arrRef spec1 3) (ix2 (0 : Fin 1) d)
  refine congrArg (V c (Pipeline.arrRef spec1 3)) ?_
  funext a
  apply Fin.ext
  match a with
  | ⟨0, _⟩ => show win1_3.index t (0 : Fin 2) * 1 + 1 * (0 : Fin 1).val = (0 : Fin 1).val; rw [e0]; omega
  | ⟨1, _⟩ => show win1_3.index t (1 : Fin 2) * 128 + 1 * d.val = d.val; rw [e1]; omega

/-- Window 4's block at any tile is its whole array. -/
theorem iblk1_4_apply (c : Dev nD) (t : Fin cfg1.N) (j : Fin 128) (d : Fin 128) :
    (iblk1 V c 4 t : Vec Ideal S128x128 .f32) (ix2 j d) = WsiV1 V c j d := by
  obtain ⟨-, -, -, -, ⟨e0, e1⟩, -⟩ := idx_facts1 t
  unfold iblk1 WsiV1
  rw [View.read_apply]
  show V c (Pipeline.arrRef spec1 4) (((cfg1.win 4).blk t).view.emb (ix2 j d)) = V c (Pipeline.arrRef spec1 4) (ix2 j d)
  refine congrArg (V c (Pipeline.arrRef spec1 4)) ?_
  funext a
  apply Fin.ext
  match a with
  | ⟨0, _⟩ => show win1_4.index t (0 : Fin 2) * 128 + 1 * j.val = j.val; rw [e0]; omega
  | ⟨1, _⟩ => show win1_4.index t (1 : Fin 2) * 128 + 1 * d.val = d.val; rw [e1]; omega

/-- Window 5's block at any tile is its whole array. -/
theorem iblk1_5_apply (c : Dev nD) (t : Fin cfg1.N) (d : Fin 128) :
    (iblk1 V c 5 t : Vec Ideal S1x128 .f32) (ix2 (0 : Fin 1) d) = bsiV1 V c d := by
  obtain ⟨-, -, -, -, -, ⟨e0, e1⟩, -⟩ := idx_facts1 t
  unfold iblk1 bsiV1
  rw [View.read_apply]
  show V c (Pipeline.arrRef spec1 5) (((cfg1.win 5).blk t).view.emb (ix2 (0 : Fin 1) d)) = V c (Pipeline.arrRef spec1 5) (ix2 (0 : Fin 1) d)
  refine congrArg (V c (Pipeline.arrRef spec1 5)) ?_
  funext a
  apply Fin.ext
  match a with
  | ⟨0, _⟩ => show win1_5.index t (0 : Fin 2) * 1 + 1 * (0 : Fin 1).val = (0 : Fin 1).val; rw [e0]; omega
  | ⟨1, _⟩ => show win1_5.index t (1 : Fin 2) * 128 + 1 * d.val = d.val; rw [e1]; omega

/-- Window 6's block at any tile is its whole array. -/
theorem iblk1_6_apply (c : Dev nD) (t : Fin cfg1.N) (j : Fin 128) (d : Fin 128) :
    (iblk1 V c 6 t : Vec Ideal S128x128 .f32) (ix2 j d) = WsoV1 V c j d := by
  obtain ⟨-, -, -, -, -, -, ⟨e0, e1⟩, -⟩ := idx_facts1 t
  unfold iblk1 WsoV1
  rw [View.read_apply]
  show V c (Pipeline.arrRef spec1 6) (((cfg1.win 6).blk t).view.emb (ix2 j d)) = V c (Pipeline.arrRef spec1 6) (ix2 j d)
  refine congrArg (V c (Pipeline.arrRef spec1 6)) ?_
  funext a
  apply Fin.ext
  match a with
  | ⟨0, _⟩ => show win1_6.index t (0 : Fin 2) * 128 + 1 * j.val = j.val; rw [e0]; omega
  | ⟨1, _⟩ => show win1_6.index t (1 : Fin 2) * 128 + 1 * d.val = d.val; rw [e1]; omega

/-- Window 7's block at any tile is its whole array. -/
theorem iblk1_7_apply (c : Dev nD) (t : Fin cfg1.N) (d : Fin 128) :
    (iblk1 V c 7 t : Vec Ideal S1x128 .f32) (ix2 (0 : Fin 1) d) = bsoV1 V c d := by
  obtain ⟨-, -, -, -, -, -, -, ⟨e0, e1⟩, -⟩ := idx_facts1 t
  unfold iblk1 bsoV1
  rw [View.read_apply]
  show V c (Pipeline.arrRef spec1 7) (((cfg1.win 7).blk t).view.emb (ix2 (0 : Fin 1) d)) = V c (Pipeline.arrRef spec1 7) (ix2 (0 : Fin 1) d)
  refine congrArg (V c (Pipeline.arrRef spec1 7)) ?_
  funext a
  apply Fin.ext
  match a with
  | ⟨0, _⟩ => show win1_7.index t (0 : Fin 2) * 1 + 1 * (0 : Fin 1).val = (0 : Fin 1).val; rw [e0]; omega
  | ⟨1, _⟩ => show win1_7.index t (1 : Fin 2) * 128 + 1 * d.val = d.val; rw [e1]; omega

/-- Window 8's block at any tile is its whole array. -/
theorem iblk1_8_apply (c : Dev nD) (t : Fin cfg1.N) (j : Fin 128) (d : Fin 128) :
    (iblk1 V c 8 t : Vec Ideal S128x128 .f32) (ix2 j d) = WoV1 V c j d := by
  obtain ⟨-, -, -, -, -, -, -, -, ⟨e0, e1⟩, -⟩ := idx_facts1 t
  unfold iblk1 WoV1
  rw [View.read_apply]
  show V c (Pipeline.arrRef spec1 8) (((cfg1.win 8).blk t).view.emb (ix2 j d)) = V c (Pipeline.arrRef spec1 8) (ix2 j d)
  refine congrArg (V c (Pipeline.arrRef spec1 8)) ?_
  funext a
  apply Fin.ext
  match a with
  | ⟨0, _⟩ => show win1_8.index t (0 : Fin 2) * 128 + 1 * j.val = j.val; rw [e0]; omega
  | ⟨1, _⟩ => show win1_8.index t (1 : Fin 2) * 128 + 1 * d.val = d.val; rw [e1]; omega

/-- Window 9's block at any tile is its whole array. -/
theorem iblk1_9_apply (c : Dev nD) (t : Fin cfg1.N) (d : Fin 128) :
    (iblk1 V c 9 t : Vec Ideal S1x128 .f32) (ix2 (0 : Fin 1) d) = boV1 V c d := by
  obtain ⟨-, -, -, -, -, -, -, -, -, ⟨e0, e1⟩, -⟩ := idx_facts1 t
  unfold iblk1 boV1
  rw [View.read_apply]
  show V c (Pipeline.arrRef spec1 9) (((cfg1.win 9).blk t).view.emb (ix2 (0 : Fin 1) d)) = V c (Pipeline.arrRef spec1 9) (ix2 (0 : Fin 1) d)
  refine congrArg (V c (Pipeline.arrRef spec1 9)) ?_
  funext a
  apply Fin.ext
  match a with
  | ⟨0, _⟩ => show win1_9.index t (0 : Fin 2) * 1 + 1 * (0 : Fin 1).val = (0 : Fin 1).val; rw [e0]; omega
  | ⟨1, _⟩ => show win1_9.index t (1 : Fin 2) * 128 + 1 * d.val = d.val; rw [e1]; omega

/-! ## The five result arrays after the launch -/

/-- The last tile. -/
abbrev tLast1 : Fin cfg1.N := ⟨4, by rw [show cfg1.N = 5 from N_1]; decide⟩

/-! ## Window 10: `sector2` -/

/-- What the last tile leaves in window 10's buffer, as contents of its array. -/
abbrev result10 (c : Dev nD) : Buf (Elt Ideal) ((c : Thread nD τ).loc main_call0_v5_0) := (outsAt1 V c 4 tLast1.isLt).1

/-- The one write-back, at the last tile, writes that buffer: block (0, 0) of the array is the array. -/
theorem flushed10_eq (c : Dev nD) (t : Fin cfg1.N) (hf : (cfg1.win 10).flush t = true) :
    (dat1 (F := Ideal) V c).flushed 10 t = ((cfg1.win 10).blk t).view.read (Elt Ideal) (result10 V c) := by
  have hN : cfg1.N = 5 := N_1
  have h4 : t.val = 4 := by have := (flush1_10 t).mp hf; have := t.isLt; omega
  obtain rfl : t = tLast1 := Fin.ext h4
  show (cfg1.win 10).cut (grid1.coords tLast1) ((dat1 (F := Ideal) V c).after 10 tLast1) = _
  rw [after1_10]
  have hz' : (fun a => win1_10.index tLast1 a * main_call0_v5_0.ty.shape.size a) = fun _ => 0 := funext fun a => by fin_cases a <;> decide
  exact (Memref.read_access_unit_zero (Elt Ideal) main_call0_v5_0 hz' (fun a => by rw [congrFun hz' a]; simp) (result10 V c)).symm

/-- So the array ends holding what the last tile left: that tile's block covers it. -/
theorem final10 (c : Dev nD) : (dat1 (F := Ideal) V c).arrAt 10 cfg1.N = result10 V c :=
  (dat1 (F := Ideal) V c).arrAt_eq_of_cover 10 (result10 V c) (flushed10_eq V c) fun i =>
    ⟨tLast1, (flush1_10 tLast1).mpr rfl, by
      show i ∈ ((View.whole main_call0_v5_0).slice (win1_10.rect tLast1)).set
      rw [View.set_slice_whole, Rect.mem_set_unit]
      intro a
      have h0 : (i 0 : Nat) < 32 := (i 0).isLt
      have h1 : (i 1 : Nat) < 128 := (i 1).isLt
      match a with
      | ⟨0, _⟩ =>
        show win1_10.index tLast1 0 * win1_10.size 0 ≤ (i 0 : Nat) ∧ (i 0 : Nat) < win1_10.index tLast1 0 * win1_10.size 0 + win1_10.xsize (grid1.coords tLast1) 0
        rw [show win1_10.index tLast1 0 * win1_10.size 0 = 0 from by decide +kernel, show win1_10.xsize (grid1.coords tLast1) 0 = 32 from by decide +kernel]; omega
      | ⟨1, _⟩ =>
        show win1_10.index tLast1 1 * win1_10.size 1 ≤ (i 1 : Nat) ∧ (i 1 : Nat) < win1_10.index tLast1 1 * win1_10.size 1 + win1_10.xsize (grid1.coords tLast1) 1
        rw [show win1_10.index tLast1 1 * win1_10.size 1 = 0 from by decide +kernel, show win1_10.xsize (grid1.coords tLast1) 1 = 128 from by decide +kernel]; omega⟩

/-! ## Window 11: `M_so` -/

/-- What the last tile leaves in window 11's buffer, as contents of its array. -/
abbrev result11 (c : Dev nD) : Buf (Elt Ideal) ((c : Thread nD τ).loc main_call0_v5_1) := (outsAt1 V c 4 tLast1.isLt).2.1

/-- The one write-back, at the last tile, writes that buffer: block (0, 0) of the array is the array. -/
theorem flushed11_eq (c : Dev nD) (t : Fin cfg1.N) (hf : (cfg1.win 11).flush t = true) :
    (dat1 (F := Ideal) V c).flushed 11 t = ((cfg1.win 11).blk t).view.read (Elt Ideal) (result11 V c) := by
  have hN : cfg1.N = 5 := N_1
  have h4 : t.val = 4 := by have := (flush1_11 t).mp hf; have := t.isLt; omega
  obtain rfl : t = tLast1 := Fin.ext h4
  show (cfg1.win 11).cut (grid1.coords tLast1) ((dat1 (F := Ideal) V c).after 11 tLast1) = _
  rw [after1_11]
  have hz' : (fun a => win1_11.index tLast1 a * main_call0_v5_1.ty.shape.size a) = fun _ => 0 := funext fun a => by fin_cases a <;> decide
  exact (Memref.read_access_unit_zero (Elt Ideal) main_call0_v5_1 hz' (fun a => by rw [congrFun hz' a]; simp) (result11 V c)).symm

/-- So the array ends holding what the last tile left: that tile's block covers it. -/
theorem final11 (c : Dev nD) : (dat1 (F := Ideal) V c).arrAt 11 cfg1.N = result11 V c :=
  (dat1 (F := Ideal) V c).arrAt_eq_of_cover 11 (result11 V c) (flushed11_eq V c) fun i =>
    ⟨tLast1, (flush1_11 tLast1).mpr rfl, by
      show i ∈ ((View.whole main_call0_v5_1).slice (win1_11.rect tLast1)).set
      rw [View.set_slice_whole, Rect.mem_set_unit]
      intro a
      have h0 : (i 0 : Nat) < 32 := (i 0).isLt
      have h1 : (i 1 : Nat) < 128 := (i 1).isLt
      match a with
      | ⟨0, _⟩ =>
        show win1_11.index tLast1 0 * win1_11.size 0 ≤ (i 0 : Nat) ∧ (i 0 : Nat) < win1_11.index tLast1 0 * win1_11.size 0 + win1_11.xsize (grid1.coords tLast1) 0
        rw [show win1_11.index tLast1 0 * win1_11.size 0 = 0 from by decide +kernel, show win1_11.xsize (grid1.coords tLast1) 0 = 32 from by decide +kernel]; omega
      | ⟨1, _⟩ =>
        show win1_11.index tLast1 1 * win1_11.size 1 ≤ (i 1 : Nat) ∧ (i 1 : Nat) < win1_11.index tLast1 1 * win1_11.size 1 + win1_11.xsize (grid1.coords tLast1) 1
        rw [show win1_11.index tLast1 1 * win1_11.size 1 = 0 from by decide +kernel, show win1_11.xsize (grid1.coords tLast1) 1 = 128 from by decide +kernel]; omega⟩

/-! ## Window 12: `M_og` -/

/-- What the last tile leaves in window 12's buffer, as contents of its array. -/
abbrev result12 (c : Dev nD) : Buf (Elt Ideal) ((c : Thread nD τ).loc main_call0_v5_2) := (outsAt1 V c 4 tLast1.isLt).2.2.1

/-- The one write-back, at the last tile, writes that buffer: block (0, 0) of the array is the array. -/
theorem flushed12_eq (c : Dev nD) (t : Fin cfg1.N) (hf : (cfg1.win 12).flush t = true) :
    (dat1 (F := Ideal) V c).flushed 12 t = ((cfg1.win 12).blk t).view.read (Elt Ideal) (result12 V c) := by
  have hN : cfg1.N = 5 := N_1
  have h4 : t.val = 4 := by have := (flush1_12 t).mp hf; have := t.isLt; omega
  obtain rfl : t = tLast1 := Fin.ext h4
  show (cfg1.win 12).cut (grid1.coords tLast1) ((dat1 (F := Ideal) V c).after 12 tLast1) = _
  rw [after1_12]
  have hz' : (fun a => win1_12.index tLast1 a * main_call0_v5_2.ty.shape.size a) = fun _ => 0 := funext fun a => by fin_cases a <;> decide
  exact (Memref.read_access_unit_zero (Elt Ideal) main_call0_v5_2 hz' (fun a => by rw [congrFun hz' a]; simp) (result12 V c)).symm

/-- So the array ends holding what the last tile left: that tile's block covers it. -/
theorem final12 (c : Dev nD) : (dat1 (F := Ideal) V c).arrAt 12 cfg1.N = result12 V c :=
  (dat1 (F := Ideal) V c).arrAt_eq_of_cover 12 (result12 V c) (flushed12_eq V c) fun i =>
    ⟨tLast1, (flush1_12 tLast1).mpr rfl, by
      show i ∈ ((View.whole main_call0_v5_2).slice (win1_12.rect tLast1)).set
      rw [View.set_slice_whole, Rect.mem_set_unit]
      intro a
      have h0 : (i 0 : Nat) < 32 := (i 0).isLt
      have h1 : (i 1 : Nat) < 128 := (i 1).isLt
      match a with
      | ⟨0, _⟩ =>
        show win1_12.index tLast1 0 * win1_12.size 0 ≤ (i 0 : Nat) ∧ (i 0 : Nat) < win1_12.index tLast1 0 * win1_12.size 0 + win1_12.xsize (grid1.coords tLast1) 0
        rw [show win1_12.index tLast1 0 * win1_12.size 0 = 0 from by decide +kernel, show win1_12.xsize (grid1.coords tLast1) 0 = 32 from by decide +kernel]; omega
      | ⟨1, _⟩ =>
        show win1_12.index tLast1 1 * win1_12.size 1 ≤ (i 1 : Nat) ∧ (i 1 : Nat) < win1_12.index tLast1 1 * win1_12.size 1 + win1_12.xsize (grid1.coords tLast1) 1
        rw [show win1_12.index tLast1 1 * win1_12.size 1 = 0 from by decide +kernel, show win1_12.xsize (grid1.coords tLast1) 1 = 128 from by decide +kernel]; omega⟩

/-! ## Window 13: `v_so` -/

/-- What the last tile leaves in window 13's buffer, as contents of its array. -/
abbrev result13 (c : Dev nD) : Buf (Elt Ideal) ((c : Thread nD τ).loc main_call0_v5_3) := (outsAt1 V c 4 tLast1.isLt).2.2.2.1

/-- The one write-back, at the last tile, writes that buffer: block (0, 0) of the array is the array. -/
theorem flushed13_eq (c : Dev nD) (t : Fin cfg1.N) (hf : (cfg1.win 13).flush t = true) :
    (dat1 (F := Ideal) V c).flushed 13 t = ((cfg1.win 13).blk t).view.read (Elt Ideal) (result13 V c) := by
  have hN : cfg1.N = 5 := N_1
  have h4 : t.val = 4 := by have := (flush1_13 t).mp hf; have := t.isLt; omega
  obtain rfl : t = tLast1 := Fin.ext h4
  show (cfg1.win 13).cut (grid1.coords tLast1) ((dat1 (F := Ideal) V c).after 13 tLast1) = _
  rw [after1_13]
  have hz' : (fun a => win1_13.index tLast1 a * main_call0_v5_3.ty.shape.size a) = fun _ => 0 := funext fun a => by fin_cases a <;> decide
  exact (Memref.read_access_unit_zero (Elt Ideal) main_call0_v5_3 hz' (fun a => by rw [congrFun hz' a]; simp) (result13 V c)).symm

/-- So the array ends holding what the last tile left: that tile's block covers it. -/
theorem final13 (c : Dev nD) : (dat1 (F := Ideal) V c).arrAt 13 cfg1.N = result13 V c :=
  (dat1 (F := Ideal) V c).arrAt_eq_of_cover 13 (result13 V c) (flushed13_eq V c) fun i =>
    ⟨tLast1, (flush1_13 tLast1).mpr rfl, by
      show i ∈ ((View.whole main_call0_v5_3).slice (win1_13.rect tLast1)).set
      rw [View.set_slice_whole, Rect.mem_set_unit]
      intro a
      have h0 : (i 0 : Nat) < 1 := (i 0).isLt
      have h1 : (i 1 : Nat) < 128 := (i 1).isLt
      match a with
      | ⟨0, _⟩ =>
        show win1_13.index tLast1 0 * win1_13.size 0 ≤ (i 0 : Nat) ∧ (i 0 : Nat) < win1_13.index tLast1 0 * win1_13.size 0 + win1_13.xsize (grid1.coords tLast1) 0
        rw [show win1_13.index tLast1 0 * win1_13.size 0 = 0 from by decide +kernel, show win1_13.xsize (grid1.coords tLast1) 0 = 1 from by decide +kernel]; omega
      | ⟨1, _⟩ =>
        show win1_13.index tLast1 1 * win1_13.size 1 ≤ (i 1 : Nat) ∧ (i 1 : Nat) < win1_13.index tLast1 1 * win1_13.size 1 + win1_13.xsize (grid1.coords tLast1) 1
        rw [show win1_13.index tLast1 1 * win1_13.size 1 = 0 from by decide +kernel, show win1_13.xsize (grid1.coords tLast1) 1 = 128 from by decide +kernel]; omega⟩

/-! ## Window 14: `v_g` -/

/-- What the last tile leaves in window 14's buffer, as contents of its array. -/
abbrev result14 (c : Dev nD) : Buf (Elt Ideal) ((c : Thread nD τ).loc main_call0_v5_4) := (outsAt1 V c 4 tLast1.isLt).2.2.2.2.1

/-- The one write-back, at the last tile, writes that buffer: block (0, 0) of the array is the array. -/
theorem flushed14_eq (c : Dev nD) (t : Fin cfg1.N) (hf : (cfg1.win 14).flush t = true) :
    (dat1 (F := Ideal) V c).flushed 14 t = ((cfg1.win 14).blk t).view.read (Elt Ideal) (result14 V c) := by
  have hN : cfg1.N = 5 := N_1
  have h4 : t.val = 4 := by have := (flush1_14 t).mp hf; have := t.isLt; omega
  obtain rfl : t = tLast1 := Fin.ext h4
  show (cfg1.win 14).cut (grid1.coords tLast1) ((dat1 (F := Ideal) V c).after 14 tLast1) = _
  rw [after1_14]
  have hz' : (fun a => win1_14.index tLast1 a * main_call0_v5_4.ty.shape.size a) = fun _ => 0 := funext fun a => by fin_cases a <;> decide
  exact (Memref.read_access_unit_zero (Elt Ideal) main_call0_v5_4 hz' (fun a => by rw [congrFun hz' a]; simp) (result14 V c)).symm

/-- So the array ends holding what the last tile left: that tile's block covers it. -/
theorem final14 (c : Dev nD) : (dat1 (F := Ideal) V c).arrAt 14 cfg1.N = result14 V c :=
  (dat1 (F := Ideal) V c).arrAt_eq_of_cover 14 (result14 V c) (flushed14_eq V c) fun i =>
    ⟨tLast1, (flush1_14 tLast1).mpr rfl, by
      show i ∈ ((View.whole main_call0_v5_4).slice (win1_14.rect tLast1)).set
      rw [View.set_slice_whole, Rect.mem_set_unit]
      intro a
      have h0 : (i 0 : Nat) < 1 := (i 0).isLt
      have h1 : (i 1 : Nat) < 128 := (i 1).isLt
      match a with
      | ⟨0, _⟩ =>
        show win1_14.index tLast1 0 * win1_14.size 0 ≤ (i 0 : Nat) ∧ (i 0 : Nat) < win1_14.index tLast1 0 * win1_14.size 0 + win1_14.xsize (grid1.coords tLast1) 0
        rw [show win1_14.index tLast1 0 * win1_14.size 0 = 0 from by decide +kernel, show win1_14.xsize (grid1.coords tLast1) 0 = 1 from by decide +kernel]; omega
      | ⟨1, _⟩ =>
        show win1_14.index tLast1 1 * win1_14.size 1 ≤ (i 1 : Nat) ∧ (i 1 : Nat) < win1_14.index tLast1 1 * win1_14.size 1 + win1_14.xsize (grid1.coords tLast1) 1
        rw [show win1_14.index tLast1 1 * win1_14.size 1 = 0 from by decide +kernel, show win1_14.xsize (grid1.coords tLast1) 1 = 128 from by decide +kernel]; omega⟩

end Cert.Val1

end
-- ==== Proof.Val1.Defs.lean ====
/-
  The second launch's five results as functions of the feature array and the first launch's sector
  matrix, entry by entry on the extended reals — the formulas of the row-tiled evaluation order.

  `score` is a row of `x` against a row of the sector matrix; `st` the running maximum, denominator
  and numerator of the online column softmax after the first `j` tiles of 20000 rows; `sector2` their
  final quotient; `t1`, `mso`, `t2`, `mog` the small matrix multiplied through the layers and
  `vso`, `b1`, `vg` the bias rows. They are the same expressions as `Cert.Spec.Tiled`'s, with the
  arrays as arguments.
-/
import proofs.«167790_g44066364457491_cont_8to1_c_744_34_alg».proof.Proof.Spec

noncomputable section

namespace Cert.Val1

open Idealize.ShloMosaic

def score (x : Fin 100000 → Fin 128 → EReal) (sec : Fin 32 → Fin 128 → EReal) (s : Fin 32) (n : Fin 100000) : EReal :=
  ∑ d, sec s d * x n d

/-- Running maximum, denominator and numerator of sector `s`, feature `d`, after the first `j` tiles. -/
def st (x : Fin 100000 → Fin 128 → EReal) (sec : Fin 32 → Fin 128 → EReal) (s : Fin 32) (d : Fin 128) : ℕ → EReal × EReal × EReal
  | 0 => ((⊥ : EReal), (0 : EReal), (0 : EReal))
  | j + 1 =>
    if hj : j < 5 then
      Cert.LibOnlineSoftmax.step (st x sec s d j) (fun r : Fin 20000 => score x sec s (Cert.Spec.Tiled.row ⟨j, hj⟩ r)) (fun r : Fin 20000 => x (Cert.Spec.Tiled.row ⟨j, hj⟩ r) d)
    else st x sec s d j

def sector2 (x : Fin 100000 → Fin 128 → EReal) (sec : Fin 32 → Fin 128 → EReal) (s : Fin 32) (d : Fin 128) : EReal :=
  Ideal.div (st x sec s d 5).2.2 (st x sec s d 5).2.1

def t1 (s2 : Fin 32 → Fin 128 → EReal) (We : Fin 128 → Fin 128 → EReal) (s : Fin 32) (j : Fin 128) : EReal := ∑ k, s2 s k * We j k
def mso (s2 : Fin 32 → Fin 128 → EReal) (We Wso : Fin 128 → Fin 128 → EReal) (s : Fin 32) (j : Fin 128) : EReal := ∑ d, t1 s2 We s d * Wso j d
def t2 (s2 : Fin 32 → Fin 128 → EReal) (We Wsi : Fin 128 → Fin 128 → EReal) (s : Fin 32) (j : Fin 128) : EReal := ∑ d, t1 s2 We s d * Wsi j d
def mog (s2 : Fin 32 → Fin 128 → EReal) (We Wsi Wo : Fin 128 → Fin 128 → EReal) (s : Fin 32) (j : Fin 128) : EReal := ∑ d, t2 s2 We Wsi s d * Wo j d
def vso (be bso : Fin 128 → EReal) (Wso : Fin 128 → Fin 128 → EReal) (j : Fin 128) : EReal := (∑ d, be d * Wso j d) + bso j
def b1 (be bsi : Fin 128 → EReal) (Wsi : Fin 128 → Fin 128 → EReal) (j : Fin 128) : EReal := (∑ d, be d * Wsi j d) + bsi j
def vg (be bsi bo : Fin 128 → EReal) (Wsi Wo : Fin 128 → Fin 128 → EReal) (j : Fin 128) : EReal := (∑ d, b1 be bsi Wsi d * Wo j d) + bo j

/-! ## They are `Cert.Spec.Tiled`'s -/

theorem tiled_st (a : Cert.Spec.Args) (s : Fin 32) (d : Fin 128) :
    ∀ n, Cert.Spec.Tiled.st a s d n = st a.x (Cert.Spec.Tiled.sector a) s d n
  | 0 => rfl
  | j + 1 => by
    rw [Cert.Spec.Tiled.st, st]
    by_cases hj : j < 5
    · rw [dif_pos hj, dif_pos hj, tiled_st a s d j]; rfl
    · rw [dif_neg hj, dif_neg hj, tiled_st a s d j]

theorem tiled_sector2 (a : Cert.Spec.Args) (s : Fin 32) (d : Fin 128) :
    Cert.Spec.Tiled.sector2 a s d = sector2 a.x (Cert.Spec.Tiled.sector a) s d := by
  unfold Cert.Spec.Tiled.sector2 sector2
  rw [tiled_st]

theorem tiled_t1 (a : Cert.Spec.Args) (s : Fin 32) (j : Fin 128) :
    Cert.Spec.Tiled.t1 a s j = t1 (sector2 a.x (Cert.Spec.Tiled.sector a)) a.We s j := by
  unfold Cert.Spec.Tiled.t1 t1
  exact Finset.sum_congr rfl fun k _ => by rw [tiled_sector2]

theorem tiled_mso (a : Cert.Spec.Args) (s : Fin 32) (j : Fin 128) :
    Cert.Spec.Tiled.mso a s j = mso (sector2 a.x (Cert.Spec.Tiled.sector a)) a.We a.Wso s j := by
  unfold Cert.Spec.Tiled.mso mso
  exact Finset.sum_congr rfl fun d _ => by rw [tiled_t1]

theorem tiled_t2 (a : Cert.Spec.Args) (s : Fin 32) (j : Fin 128) :
    Cert.Spec.Tiled.t2 a s j = t2 (sector2 a.x (Cert.Spec.Tiled.sector a)) a.We a.Wsi s j := by
  unfold Cert.Spec.Tiled.t2 t2
  exact Finset.sum_congr rfl fun d _ => by rw [tiled_t1]

theorem tiled_mog (a : Cert.Spec.Args) (s : Fin 32) (j : Fin 128) :
    Cert.Spec.Tiled.mog a s j = mog (sector2 a.x (Cert.Spec.Tiled.sector a)) a.We a.Wsi a.Wo s j := by
  unfold Cert.Spec.Tiled.mog mog
  exact Finset.sum_congr rfl fun d _ => by rw [tiled_t2]

theorem tiled_vso (a : Cert.Spec.Args) (j : Fin 128) : Cert.Spec.Tiled.vso a j = vso a.be a.bso a.Wso j := rfl

theorem tiled_b1 (a : Cert.Spec.Args) (j : Fin 128) : Cert.Spec.Tiled.b1 a j = b1 a.be a.bsi a.Wsi j := rfl

theorem tiled_vg (a : Cert.Spec.Args) (j : Fin 128) : Cert.Spec.Tiled.vg a j = vg a.be a.bsi a.bo a.Wsi a.Wo j := rfl

end Cert.Val1

end
-- ==== Proof.Val1.Inv.lean ====
/-
  The second pass over the five tiles, as arithmetic.

  THE INVARIANT: after tile `n` the running maximum, the running denominator and the running numerator
  — held in the two scratch buffers and in the first output's block — are, at sector `s` and feature
  `d`, the state `st x sector s d (n + 1)` of the online column softmax after `n + 1` tiles: each tile is
  one `step` from what the tile before left (from `(−∞, 0, 0)` at the first tile), its scores and values
  being the tile's rows of the whole arrays. After the last tile the first output's block holds the
  numerator over the denominator, `sector2`, and the other four hold its products through the layers
  and the two bias rows.
-/
import proofs.«167790_g44066364457491_cont_8to1_c_744_34_alg».proof.Proof.Val1.After
import proofs.«167790_g44066364457491_cont_8to1_c_744_34_alg».proof.Proof.Val1.PayTile
import proofs.«167790_g44066364457491_cont_8to1_c_744_34_alg».proof.Proof.Val1.PayLayers
import proofs.«167790_g44066364457491_cont_8to1_c_744_34_alg».proof.Proof.Val1.Windows
import proofs.«167790_g44066364457491_cont_8to1_c_744_34_alg».proof.Proof.Val1.Defs

set_option maxRecDepth 16384

noncomputable section

namespace Cert.Val1

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx (ix1 ix2)

variable (V : (c : Dev nD) → (b : Ref sig .tc) → Buf (Elt Ideal) ((c : Thread nD τ).loc b))

/-- The state after one more tile is one step from the state before it. -/
theorem st_succ (x : Fin 100000 → Fin 128 → EReal) (sec : Fin 32 → Fin 128 → EReal) (s : Fin 32) (d : Fin 128) (j : ℕ) (hj : j < 5) :
    st x sec s d (j + 1) = Cert.LibOnlineSoftmax.step (st x sec s d j)
      (fun r : Fin 20000 => score x sec s (Cert.Spec.Tiled.row ⟨j, hj⟩ r)) (fun r : Fin 20000 => x (Cert.Spec.Tiled.row ⟨j, hj⟩ r) d) := by
  rw [st, dif_pos hj]

/-- ONE TILE: from buffers holding the state after `t` tiles, the body's three payloads at tile `t` are the
    state after `t + 1` tiles — the tile's scores and values are rows `20000 t + r` of the whole arrays. -/
theorem tile_step (c : Dev nD) (t : Fin cfg1.N) (ht : t.val < 5) (v9 v16 : Vec Ideal S32x1 .f32) (v24 : Vec Ideal S32x128 .f32)
    (s : Fin 32) (d : Fin 128)
    (hprev : (v9 (ix2 s (0 : Fin 1)), v16 (ix2 s (0 : Fin 1)), v24 (ix2 s d)) = st (XV1 V c) (SECV1 V c) s d t.val) :
    (k1_pay16 (F := Ideal) (iblk1 V c 0 t) (iblk1 V c 1 t) v9 (ix2 s (0 : Fin 1)),
        k1_pay14 (F := Ideal) (iblk1 V c 0 t) (iblk1 V c 1 t) v9 v16 (ix2 s (0 : Fin 1)),
        k1_pay15 (F := Ideal) (iblk1 V c 0 t) (iblk1 V c 1 t) v9 v24 (ix2 s d))
      = st (XV1 V c) (SECV1 V c) s d (t.val + 1) := by
  refine (step_eq (iblk1 V c 0 t) (iblk1 V c 1 t) v9 v16 v24 s d).trans ?_
  rw [hprev, st_succ _ _ _ _ _ ht]
  refine congrArg₂ (Cert.LibOnlineSoftmax.step (st (XV1 V c) (SECV1 V c) s d t.val)) (funext fun r => ?_) (funext fun r => ?_)
  · unfold score
    exact Finset.sum_congr rfl fun d' _ =>
      congrArg₂ (fun a b : EReal => a * b) (iblk1_1_apply V c t s d') (iblk1_0_apply V c t ht r d')
  · exact iblk1_0_apply V c t ht r d

/-- THE INVARIANT, before the last tile. By induction on the tile. -/
theorem inv_mid (c : Dev nD) : ∀ (n : ℕ) (hn : n < cfg1.N), ¬ n % 5 = 4 → ∀ (s : Fin 32) (d : Fin 128),
    ((outsAt1 V c n hn).2.2.2.2.2.1 (ix2 s (0 : Fin 1)), (outsAt1 V c n hn).2.2.2.2.2.2 (ix2 s (0 : Fin 1)), (outsAt1 V c n hn).1 (ix2 s d))
      = st (XV1 V c) (SECV1 V c) s d (n + 1)
  | 0, hn => fun _ s d => by
    obtain ⟨e10, es0, es1⟩ := after_A V c ⟨0, hn⟩ (Nat.zero_mod 5) (by show ¬ (0 : ℕ) % 5 = 4; decide)
    have h := tile_step V c ⟨0, hn⟩ (by show (0 : ℕ) < 5; decide) (k1_pay8 (F := Ideal)) (k1_pay9 (F := Ideal)) (k1_pay10 (F := Ideal)) s d
      (by show (_, _, _) = ((⊥ : EReal), (0 : EReal), (0 : EReal)); rw [pay8_apply, pay9_apply, pay10_apply])
    rw [show (outsAt1 V c 0 hn).2.2.2.2.2.1 = _ from es0, show (outsAt1 V c 0 hn).2.2.2.2.2.2 = _ from es1,
      show (outsAt1 V c 0 hn).1 = _ from e10]
    exact h
  | n + 1, hn => fun h4 s d => by
    have hN : n + 1 < 5 := lt_of_lt_of_eq hn N_1
    have ih := inv_mid c n (Nat.lt_of_succ_lt hn) (by omega) s d
    have h0 : ¬ (⟨n + 1, hn⟩ : Fin cfg1.N).val % 5 = 0 := by show ¬ (n + 1) % 5 = 0; omega
    obtain ⟨e10, es0, es1⟩ := after_B V c ⟨n + 1, hn⟩ h0 h4
    have h := tile_step V c ⟨n + 1, hn⟩ hN _ _ _ s d ih
    rw [show (outsAt1 V c (n + 1) hn).2.2.2.2.2.1 = _ from es0, show (outsAt1 V c (n + 1) hn).2.2.2.2.2.2 = _ from es1,
      show (outsAt1 V c (n + 1) hn).1 = _ from e10]
    exact h

/-- The last tile's step: the updated maximum, denominator and numerator are the state after all five tiles. -/
theorem last_step (c : Dev nD) (s : Fin 32) (d : Fin 128) :
    ((k1_pay16 (iblk1 V c 0 tLast1) (iblk1 V c 1 tLast1) (outsAt1 V c (tLast1.val - 1) (Nat.lt_of_le_of_lt (Nat.sub_le _ _) tLast1.isLt)).2.2.2.2.2.1) (ix2 s (0 : Fin 1)), (k1_pay14 (iblk1 V c 0 tLast1) (iblk1 V c 1 tLast1) (outsAt1 V c (tLast1.val - 1) (Nat.lt_of_le_of_lt (Nat.sub_le _ _) tLast1.isLt)).2.2.2.2.2.1 (outsAt1 V c (tLast1.val - 1) (Nat.lt_of_le_of_lt (Nat.sub_le _ _) tLast1.isLt)).2.2.2.2.2.2) (ix2 s (0 : Fin 1)), (k1_pay15 (iblk1 V c 0 tLast1) (iblk1 V c 1 tLast1) (outsAt1 V c (tLast1.val - 1) (Nat.lt_of_le_of_lt (Nat.sub_le _ _) tLast1.isLt)).2.2.2.2.2.1 (outsAt1 V c (tLast1.val - 1) (Nat.lt_of_le_of_lt (Nat.sub_le _ _) tLast1.isLt)).1) (ix2 s d))
      = st (XV1 V c) (SECV1 V c) s d 5 :=
  tile_step V c tLast1 (by show (4 : ℕ) < 5; decide) _ _ _ s d (inv_mid V c 3 _ (by decide) s d)

/-- The updated numerator over the updated denominator is `sector2`. -/
theorem q_apply (c : Dev nD) (s : Fin 32) (d : Fin 128) :
    k1_pay2 (F := Ideal) (k1_pay15 (iblk1 V c 0 tLast1) (iblk1 V c 1 tLast1) (outsAt1 V c (tLast1.val - 1) (Nat.lt_of_le_of_lt (Nat.sub_le _ _) tLast1.isLt)).2.2.2.2.2.1 (outsAt1 V c (tLast1.val - 1) (Nat.lt_of_le_of_lt (Nat.sub_le _ _) tLast1.isLt)).1) (k1_pay14 (iblk1 V c 0 tLast1) (iblk1 V c 1 tLast1) (outsAt1 V c (tLast1.val - 1) (Nat.lt_of_le_of_lt (Nat.sub_le _ _) tLast1.isLt)).2.2.2.2.2.1 (outsAt1 V c (tLast1.val - 1) (Nat.lt_of_le_of_lt (Nat.sub_le _ _) tLast1.isLt)).2.2.2.2.2.2) (ix2 s d) = sector2 (XV1 V c) (SECV1 V c) s d := by
  rw [pay2_apply]
  have h := last_step V c s d
  unfold sector2
  rw [← h]

/-! ## What the five outputs' blocks hold after the last tile -/

theorem result10_apply (c : Dev nD) (s : Fin 32) (d : Fin 128) :
    result10 V c (ix2 s d) = sector2 (XV1 V c) (SECV1 V c) s d := by
  obtain ⟨e10, -⟩ := after_C V c tLast1 (by show ¬ (4 : ℕ) % 5 = 0; decide) (by show (4 : ℕ) % 5 = 4; rfl)
  exact (congrFun e10 (ix2 s d)).trans (q_apply V c s d)

theorem result11_apply (c : Dev nD) (s : Fin 32) (j : Fin 128) :
    result11 V c (ix2 s j) = mso (sector2 (XV1 V c) (SECV1 V c)) (WeV1 V c) (WsoV1 V c) s j := by
  obtain ⟨-, e11, -⟩ := after_C V c tLast1 (by show ¬ (4 : ℕ) % 5 = 0; decide) (by show (4 : ℕ) % 5 = 4; rfl)
  refine (congrFun e11 (ix2 s j)).trans ?_
  simp only [pay4_apply, pay3_apply, q_apply V c, iblk1_2_apply V c, iblk1_6_apply V c, mso, t1]

theorem result12_apply (c : Dev nD) (s : Fin 32) (j : Fin 128) :
    result12 V c (ix2 s j) = mog (sector2 (XV1 V c) (SECV1 V c)) (WeV1 V c) (WsiV1 V c) (WoV1 V c) s j := by
  obtain ⟨-, -, e12, -⟩ := after_C V c tLast1 (by show ¬ (4 : ℕ) % 5 = 0; decide) (by show (4 : ℕ) % 5 = 4; rfl)
  refine (congrFun e12 (ix2 s j)).trans ?_
  simp only [pay5_apply, pay3_apply, q_apply V c, iblk1_2_apply V c, iblk1_4_apply V c, iblk1_8_apply V c, mog, t2, t1]

theorem result13_apply (c : Dev nD) (j : Fin 128) :
    result13 V c (ix2 (0 : Fin 1) j) = vso (beV1 V c) (bsoV1 V c) (WsoV1 V c) j := by
  obtain ⟨-, -, -, e13, -⟩ := after_C V c tLast1 (by show ¬ (4 : ℕ) % 5 = 0; decide) (by show (4 : ℕ) % 5 = 4; rfl)
  refine (congrFun e13 (ix2 (0 : Fin 1) j)).trans ?_
  simp only [pay6_apply, iblk1_3_apply V c, iblk1_6_apply V c, iblk1_7_apply V c, vso]

theorem result14_apply (c : Dev nD) (j : Fin 128) :
    result14 V c (ix2 (0 : Fin 1) j) = vg (beV1 V c) (bsiV1 V c) (boV1 V c) (WsiV1 V c) (WoV1 V c) j := by
  obtain ⟨-, -, -, -, e14, -⟩ := after_C V c tLast1 (by show ¬ (4 : ℕ) % 5 = 0; decide) (by show (4 : ℕ) % 5 = 4; rfl)
  refine (congrFun e14 (ix2 (0 : Fin 1) j)).trans ?_
  simp only [pay1_apply, iblk1_3_apply V c, iblk1_4_apply V c, iblk1_5_apply V c, iblk1_8_apply V c, iblk1_9_apply V c, vg, b1]

end Cert.Val1

end
-- ==== Proof.Val1.lean ====
/-
  What the second launch leaves in its five result arrays.

  The launch runs over five tiles of 20000 rows. Each tile scores its rows against the 32 sector rows and
  updates, column by column, a running maximum, a running denominator and a running numerator — one step
  of the online softmax per tile, from `(−∞, 0, 0)` (`Cert.Val1.st`). After the last tile the numerator
  is divided by the denominator (`sector2`), the quotient multiplied through the layers (`mso`, `mog`)
  and the two bias rows formed (`vso`, `vg`); each of the five is one block that is its whole array,
  written back once, after the last tile. Nothing is regrouped beyond `0 + a = a` and commutativity of
  `*`, which hold at the infinities too: no hypothesis on the arrays is needed.

  The formulas (`Cert.Val1.score`, `st`, `sector2`, `t1`, `mso`, `t2`, `mog`, `vso`, `b1`, `vg`) and
  their agreement with `Cert.Spec.Tiled` (`tiled_sector2`, `tiled_mso`, `tiled_mog`, `tiled_vso`,
  `tiled_vg`) are in `Val1/Defs`.
-/
import proofs.«167790_g44066364457491_cont_8to1_c_744_34_alg».proof.Proof.Val1.Inv

set_option maxRecDepth 16384

noncomputable section

namespace Cert.Val1

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx (ix1 ix2)

variable (V : (c : Dev nD) → (b : Ref sig .tc) → Buf (Elt Ideal) ((c : Thread nD τ).loc b))

/-- THE VALUES of the second launch, entry by entry. -/
theorem arr10 (c : Dev nD) (s : Fin 32) (d : Fin 128) :
    (dat1 (F := Ideal) V c).arrAt 10 cfg1.N (ValueIdx.ix2 s d) = sector2 (XV1 V c) (SECV1 V c) s d :=
  (congrFun (final10 V c) (ix2 s d)).trans (result10_apply V c s d)

theorem arr11 (c : Dev nD) (s : Fin 32) (j : Fin 128) :
    (dat1 (F := Ideal) V c).arrAt 11 cfg1.N (ValueIdx.ix2 s j)
      = mso (sector2 (XV1 V c) (SECV1 V c)) (WeV1 V c) (WsoV1 V c) s j :=
  (congrFun (final11 V c) (ix2 s j)).trans (result11_apply V c s j)

theorem arr12 (c : Dev nD) (s : Fin 32) (j : Fin 128) :
    (dat1 (F := Ideal) V c).arrAt 12 cfg1.N (ValueIdx.ix2 s j)
      = mog (sector2 (XV1 V c) (SECV1 V c)) (WeV1 V c) (WsiV1 V c) (WoV1 V c) s j :=
  (congrFun (final12 V c) (ix2 s j)).trans (result12_apply V c s j)

theorem arr13 (c : Dev nD) (j : Fin 128) :
    (dat1 (F := Ideal) V c).arrAt 13 cfg1.N (ValueIdx.ix2 (0 : Fin 1) j) = vso (beV1 V c) (bsoV1 V c) (WsoV1 V c) j :=
  (congrFun (final13 V c) (ix2 (0 : Fin 1) j)).trans (result13_apply V c j)

theorem arr14 (c : Dev nD) (j : Fin 128) :
    (dat1 (F := Ideal) V c).arrAt 14 cfg1.N (ValueIdx.ix2 (0 : Fin 1) j)
      = vg (beV1 V c) (bsiV1 V c) (boV1 V c) (WsiV1 V c) (WoV1 V c) j :=
  (congrFun (final14 V c) (ix2 (0 : Fin 1) j)).trans (result14_apply V c j)

end Cert.Val1

end
-- ==== Proof.Chain1.lean ====
/-
  What the second launch finds, and so what it leaves.

  Entering the second launch, the rows `x` and the four weight matrices are the arguments as
  launched; `sector`'s array holds `Tiled.sector a` (the first launch); and each of the four [1,128]
  rows is the corresponding bias vector, laid out as a row by its reshape. Hence, by the second
  launch's value leg, its five arrays end at `Tiled.sector2 a`, `Tiled.mso a`, `Tiled.mog a`,
  `Tiled.vso a` and `Tiled.vg a`.
-/
import proofs.«167790_g44066364457491_cont_8to1_c_744_34_alg».proof.Proof.Chain
import proofs.«167790_g44066364457491_cont_8to1_c_744_34_alg».proof.Proof.Val1

noncomputable section

namespace Cert.Chain

open Cert.KernelIdeal Cert.KernelIdeal.Gen Cert.KernelIdeal.Hand
open Idealize.ShloMosaic Idealize.ShloMosaic.TcCoe Idealize.SL.Sem Idealize.ShloMosaic.ValueIdx
open Cert.Spec Cert.PreReal

variable (m : (ℓ : Loc nD τ sig) → Buf (Elt Ideal) ℓ) (c : Dev nD)

theorem xv1 : Cert.Val1.XV1 (Vin1 m) c = (argsOfK m c).x := by
  funext n d
  show (U2 m c (Proc.devRef .tc main_arg0) : S100000x128.Idx → EReal) (ix2 n d) = _
  rw [U2_arg m c main_arg0 (by decide) (by decide)]; rfl

theorem secv1 : Cert.Val1.SECV1 (Vin1 m) c = Tiled.sector (argsOfK m c) := by
  funext s d
  show (U2 m c (Proc.devRef .tc main_call0_v0) : S32x128.Idx → EReal) (ix2 s d) = _
  rw [U2_of m c main_call0_v0 (by decide), U1_v0]; exact x0_apply m c s d

theorem wev1 : Cert.Val1.WeV1 (Vin1 m) c = (argsOfK m c).We := by
  funext j d
  show (U2 m c (Proc.devRef .tc main_arg2) : S128x128.Idx → EReal) (ix2 j d) = _
  rw [U2_arg m c main_arg2 (by decide) (by decide)]; rfl
theorem wsiv1 : Cert.Val1.WsiV1 (Vin1 m) c = (argsOfK m c).Wsi := by
  funext j d
  show (U2 m c (Proc.devRef .tc main_arg4) : S128x128.Idx → EReal) (ix2 j d) = _
  rw [U2_arg m c main_arg4 (by decide) (by decide)]; rfl
theorem wsov1 : Cert.Val1.WsoV1 (Vin1 m) c = (argsOfK m c).Wso := by
  funext j d
  show (U2 m c (Proc.devRef .tc main_arg6) : S128x128.Idx → EReal) (ix2 j d) = _
  rw [U2_arg m c main_arg6 (by decide) (by decide)]; rfl
theorem wov1 : Cert.Val1.WoV1 (Vin1 m) c = (argsOfK m c).Wo := by
  funext j d
  show (U2 m c (Proc.devRef .tc main_arg8) : S128x128.Idx → EReal) (ix2 j d) = _
  rw [U2_arg m c main_arg8 (by decide) (by decide)]; rfl

theorem bev1 : Cert.Val1.beV1 (Vin1 m) c = (argsOfK m c).be := by
  funext j
  show (U2 m c (Proc.devRef .tc main_call0_v1) : S1x128.Idx → EReal) (ix2 (0 : Fin 1) j) = _
  unfold U2
  rw [Cert.HostReshape.v1 (U1 m c) j, U1_of m c main_arg3 (by decide)]; rfl
theorem bsiv1 : Cert.Val1.bsiV1 (Vin1 m) c = (argsOfK m c).bsi := by
  funext j
  show (U2 m c (Proc.devRef .tc main_call0_v2) : S1x128.Idx → EReal) (ix2 (0 : Fin 1) j) = _
  unfold U2
  rw [Cert.HostReshape.v2 (U1 m c) j, U1_of m c main_arg5 (by decide)]; rfl
theorem bsov1 : Cert.Val1.bsoV1 (Vin1 m) c = (argsOfK m c).bso := by
  funext j
  show (U2 m c (Proc.devRef .tc main_call0_v3) : S1x128.Idx → EReal) (ix2 (0 : Fin 1) j) = _
  unfold U2
  rw [Cert.HostReshape.v3 (U1 m c) j, U1_of m c main_arg7 (by decide)]; rfl
theorem bov1 : Cert.Val1.boV1 (Vin1 m) c = (argsOfK m c).bo := by
  funext j
  show (U2 m c (Proc.devRef .tc main_call0_v4) : S1x128.Idx → EReal) (ix2 (0 : Fin 1) j) = _
  unfold U2
  rw [Cert.HostReshape.v4 (U1 m c) j, U1_of m c main_arg9 (by decide)]; rfl

/-- What the second launch leaves in its five arrays. -/
theorem second : Second m c where
  sector2 s d := (Cert.Val1.arr10 (Vin1 m) c s d).trans (by rw [xv1, secv1]; exact (Cert.Val1.tiled_sector2 _ s d).symm)
  mso s j := (Cert.Val1.arr11 (Vin1 m) c s j).trans (by rw [xv1, secv1, wev1, wsov1]; exact (Cert.Val1.tiled_mso _ s j).symm)
  mog s j := (Cert.Val1.arr12 (Vin1 m) c s j).trans (by rw [xv1, secv1, wev1, wsiv1, wov1]; exact (Cert.Val1.tiled_mog _ s j).symm)
  vso j := (Cert.Val1.arr13 (Vin1 m) c j).trans (by rw [bev1, bsov1, wsov1]; exact (Cert.Val1.tiled_vso _ j).symm)
  vg j := (Cert.Val1.arr14 (Vin1 m) c j).trans (by rw [bev1, bsiv1, bov1, wsiv1, wov1]; exact (Cert.Val1.tiled_vg _ j).symm)

end Cert.Chain

end
-- ==== Proof.Bridge.Stage1.lean ====
/-
  The bridge, part 1: real arrays, the column-normalised sector matrix, and the scores.

  Under the precondition every entry of the ten arrays is a real number, so the arrays are the
  coercions of ten REAL arrays `R`. Every intermediate quantity of both evaluation orders is then
  the coercion of one real expression in `R`; this file defines those real expressions for the
  first stage and shows that both orders produce them:

      c s        = ∑ n, e n s                       (a real number, nonzero by hypothesis)
      sector s d = (∑ n, e n s * x n d) / c s       (dividing every weight first, or the sum once)
      score n s  = ∑ d, x n d * sector s d          (the factors in either order)
-/
import proofs.«167790_g44066364457491_cont_8to1_c_744_34_alg».proof.Proof.Spec
import proofs.«167790_g44066364457491_cont_8to1_c_744_34_alg».proof.Proof.LibNormalizedSum

noncomputable section

namespace Cert.Bridge

open Idealize.ShloMosaic Cert.Spec

/-- Ten real arrays, by the same coordinates as `Cert.Spec.Args`. -/
structure RArgs where
  x : Fin 100000 → Fin 128 → ℝ
  e : Fin 100000 → Fin 32 → ℝ
  We : Fin 128 → Fin 128 → ℝ
  be : Fin 128 → ℝ
  Wsi : Fin 128 → Fin 128 → ℝ
  bsi : Fin 128 → ℝ
  Wso : Fin 128 → Fin 128 → ℝ
  bso : Fin 128 → ℝ
  Wo : Fin 128 → Fin 128 → ℝ
  bo : Fin 128 → ℝ

/-- The real arrays read as extended-real arrays. -/
def RArgs.toArgs (R : RArgs) : Args where
  x n d := (R.x n d : EReal)
  e n s := (R.e n s : EReal)
  We j d := (R.We j d : EReal)
  be j := (R.be j : EReal)
  Wsi j d := (R.Wsi j d : EReal)
  bsi j := (R.bsi j : EReal)
  Wso j d := (R.Wso j d : EReal)
  bso j := (R.bso j : EReal)
  Wo j d := (R.Wo j d : EReal)
  bo j := (R.bo j : EReal)

/-- Arrays all of whose entries are real numbers are the coercion of real arrays. -/
theorem exists_toArgs (a : Args) (hr : a.IsReal) : ∃ R : RArgs, a = R.toArgs := by
  obtain ⟨hx, he, hWe, hbe, hWsi, hbsi, hWso, hbso, hWo, hbo⟩ := hr
  choose x hx using hx
  choose e he using he
  choose We hWe using hWe
  choose be hbe using hbe
  choose Wsi hWsi using hWsi
  choose bsi hbsi using hbsi
  choose Wso hWso using hWso
  choose bso hbso using hbso
  choose Wo hWo using hWo
  choose bo hbo using hbo
  refine ⟨⟨x, e, We, be, Wsi, bsi, Wso, bso, Wo, bo⟩, ?_⟩
  cases a
  simp only [RArgs.toArgs, Args.mk.injEq]
  exact ⟨funext fun n => funext fun d => hx n d, funext fun n => funext fun s => he n s,
    funext fun j => funext fun d => hWe j d, funext fun j => hbe j,
    funext fun j => funext fun d => hWsi j d, funext fun j => hbsi j,
    funext fun j => funext fun d => hWso j d, funext fun j => hbso j,
    funext fun j => funext fun d => hWo j d, funext fun j => hbo j⟩

/-- The coercion of a finite real sum is the sum of the coercions. -/
theorem coe_sum {ι : Type*} (s : Finset ι) (f : ι → ℝ) :
    ((∑ i ∈ s, f i : ℝ) : EReal) = ∑ i ∈ s, (f i : EReal) :=
  Cert.Lib.NormalizedSum.coe_sum s f

/-- A contraction of two real families, on the extended reals, is the real contraction. -/
theorem coe_dot {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

variable (R : RArgs)

/-- The column sums of the adjacency. -/
def colR (s : Fin 32) : ℝ := ∑ n, R.e n s

theorem colsum_coe (s : Fin 32) : (∑ n, R.toArgs.e n s) = (colR R s : EReal) :=
  (coe_sum _ _).symm

/-- A column sum that is not zero on the extended reals is a nonzero real number. -/
theorem colR_ne (hc : R.toArgs.ColsNonzero) (s : Fin 32) : colR R s ≠ 0 := by
  intro h
  apply hc s
  rw [colsum_coe, h]
  rfl

/-- The sector matrix: the adjacency-weighted sums of the rows of `x`, each divided by its column sum. -/
def sectorR (s : Fin 32) (d : Fin 128) : ℝ := (∑ n, R.e n s * R.x n d) / colR R s

/-- Dividing every weight by the column sum before the contraction gives the sector matrix. -/
theorem plain_sector (hc : R.toArgs.ColsNonzero) (s : Fin 32) (d : Fin 128) :
    Plain.sector R.toArgs s d = (sectorR R s d : EReal) := by
  unfold Plain.sector Plain.adj Plain.colsum
  rw [colsum_coe]
  exact Cert.Lib.NormalizedSum.sum_div_mul_coe_eq Finset.univ (fun n => R.e n s) (fun n => R.x n d)
    (colR_ne R hc s)

/-- Dividing the contraction once gives the sector matrix. -/
theorem tiled_sector (hc : R.toArgs.ColsNonzero) (s : Fin 32) (d : Fin 128) :
    Tiled.sector R.toArgs s d = (sectorR R s d : EReal) := by
  unfold Tiled.sector Tiled.colsum
  rw [colsum_coe]
  have h : (∑ n, R.toArgs.e n s * R.toArgs.x n d) = ((∑ n, R.e n s * R.x n d : ℝ) : EReal) :=
    coe_dot Finset.univ (fun n => R.e n s) (fun n => R.x n d)
  rw [h]
  exact Cert.LibOnlineSoftmax.div_real _ _ (colR_ne R hc s)

/-- The scores: every row of `x` against every row of the sector matrix. -/
def scoreR (n : Fin 100000) (s : Fin 32) : ℝ := ∑ d, R.x n d * sectorR R s d

theorem plain_score (hc : R.toArgs.ColsNonzero) (n : Fin 100000) (s : Fin 32) :
    Plain.score R.toArgs n s = (scoreR R n s : EReal) := by
  unfold Plain.score
  simp only [plain_sector R hc]
  exact coe_dot Finset.univ (fun d => R.x n d) (fun d => sectorR R s d)

/-- The same scores with the two factors of every product exchanged. -/
theorem tiled_score (hc : R.toArgs.ColsNonzero) (s : Fin 32) (n : Fin 100000) :
    Tiled.score R.toArgs s n = (scoreR R n s : EReal) := by
  unfold Tiled.score
  simp only [tiled_sector R hc]
  refine (Finset.sum_congr rfl fun d _ => mul_comm _ _).trans ?_
  exact coe_dot Finset.univ (fun d => R.x n d) (fun d => sectorR R s d)

end Cert.Bridge

end
-- ==== Proof.Bridge.Stage2.lean ====
/-
  The bridge, part 2: the column softmax and the second sector matrix.

  Down each column `s` the scores are softmax-weighted and the rows of `x` summed with those weights:

      sector2 s d = (∑ n, exp (score n s) * x n d) / (∑ n, exp (score n s)).

  One order forms every weight `exp (score n s − M)` at the column maximum `M` (a real number: the
  largest of 100000 real scores), divides each by their sum, and contracts. The other keeps a running
  maximum, denominator and numerator over five tiles of 20000 rows and divides at the end. Both are
  the quotient above: the level `M` cancels between numerator and denominator.
-/
import proofs.«167790_g44066364457491_cont_8to1_c_744_34_alg».proof.Proof.Bridge.Stage1

noncomputable section

namespace Cert.Bridge

open Idealize.ShloMosaic Cert.Spec Cert.LibOnlineSoftmax

/-- The 100000 rows laid out as five tiles of 20000: row `r` of tile `j` is row `20000 j + r`. -/
def rowEquiv : Fin 5 × Fin 20000 ≃ Fin 100000 where
  toFun p := Tiled.row p.1 p.2
  invFun n := (⟨n.val / 20000, by omega⟩, ⟨n.val % 20000, by omega⟩)
  left_inv := by
    rintro ⟨⟨j, hj⟩, ⟨r, hr⟩⟩
    refine Prod.ext (Fin.ext ?_) (Fin.ext ?_)
    · show (20000 * j + r) / 20000 = j
      omega
    · show (20000 * j + r) % 20000 = r
      omega
  right_inv := by
    rintro ⟨n, hn⟩
    refine Fin.ext ?_
    show 20000 * (n / 20000) + n % 20000 = n
    omega

variable (R : RArgs)

theorem cmax_exists (s : Fin 32) :
    ∃ r : ℝ, (Finset.univ : Finset (Fin 100000)).fold max (⊥ : EReal) (fun n => (scoreR R n s : EReal)) = r :=
  fold_max_real fun n => scoreR R n s

/-- The largest score of a column: a real number. -/
def cmaxR (s : Fin 32) : ℝ := Classical.choose (cmax_exists R s)

theorem plain_cmax (hc : R.toArgs.ColsNonzero) (s : Fin 32) :
    Plain.cmax R.toArgs s = (cmaxR R s : EReal) := by
  unfold Plain.cmax
  simp only [plain_score R hc]
  exact Classical.choose_spec (cmax_exists R s)

/-- The softmax-weighted sums of the rows of `x`, column by column. -/
def sector2R (s : Fin 32) (d : Fin 128) : ℝ :=
  (∑ n, Real.exp (scoreR R n s) * R.x n d) / (∑ n, Real.exp (scoreR R n s))

/-- The one-pass form at the column maximum: every weight divided by the weights' sum, then the contraction. -/
def onepassForm (s : Fin 32) (d : Fin 128) : EReal :=
  ∑ n, Ideal.div (Ideal.exp ((scoreR R n s : EReal) - (cmaxR R s : EReal)))
      (∑ n', Ideal.exp ((scoreR R n' s : EReal) - (cmaxR R s : EReal))) * (R.x n d : EReal)

theorem onepassForm_eq (s : Fin 32) (d : Fin 128) : onepassForm R s d = (sector2R R s d : EReal) := by
  have h := onepass (fun n => scoreR R n s) (fun n => R.x n d) (cmaxR R s)
  simp only [zero_add] at h
  exact h

theorem plain_sector2 (hc : R.toArgs.ColsNonzero) (s : Fin 32) (d : Fin 128) :
    Plain.sector2 R.toArgs s d = (sector2R R s d : EReal) := by
  rw [← onepassForm_eq]
  unfold Plain.sector2 Plain.cden Plain.cw
  simp only [plain_score R hc, plain_cmax R hc]
  rfl

/-- The running state over the five tiles ends with numerator over denominator equal to the same quotient. -/
theorem tiled_sector2 (hc : R.toArgs.ColsNonzero) (s : Fin 32) (d : Fin 128) :
    Tiled.sector2 R.toArgs s d = (sector2R R s d : EReal) := by
  rw [← onepassForm_eq]
  unfold Tiled.sector2
  refine tiled_eq_onepass 4 rowEquiv (fun n => scoreR R n s) (fun n => R.x n d) (cmaxR R s)
    (Tiled.st R.toArgs s d) rfl ?_
  intro j hj
  have hj5 : j < 5 := hj
  rw [Tiled.st, dif_pos hj5]
  exact congrArg₂ (step (Tiled.st R.toArgs s d j)) (funext fun r => tiled_score R hc s _) rfl

end Cert.Bridge

end
-- ==== Proof.Bridge.Stage3.lean ====
/-
  The bridge, part 3: the logits and the softmax along each row.

  With the second sector matrix agreed, both orders compute the same logits
  `logit n s = ∑ d, x n d * sector2 s d`, their row maximum (a real number: the largest of 32 real
  logits), the weights `exp (logit n s − max)`, their sum (32 positive real numbers: positive) and
  the quotients. All of these are real numbers.
-/
import proofs.«167790_g44066364457491_cont_8to1_c_744_34_alg».proof.Proof.Bridge.Stage2

noncomputable section

namespace Cert.Bridge

open Idealize.ShloMosaic Cert.Spec Cert.LibOnlineSoftmax

variable (R : RArgs)

def logitR (n : Fin 100000) (s : Fin 32) : ℝ := ∑ d, R.x n d * sector2R R s d

theorem plain_logit (hc : R.toArgs.ColsNonzero) (n : Fin 100000) (s : Fin 32) :
    Plain.logit R.toArgs n s = (logitR R n s : EReal) := by
  unfold Plain.logit
  simp only [plain_sector2 R hc]
  exact coe_dot Finset.univ (fun d => R.x n d) (fun d => sector2R R s d)

theorem tiled_logit (hc : R.toArgs.ColsNonzero) (n : Fin 100000) (s : Fin 32) :
    Tiled.logit R.toArgs n s = (logitR R n s : EReal) := by
  unfold Tiled.logit
  simp only [tiled_sector2 R hc]
  exact coe_dot Finset.univ (fun d => R.x n d) (fun d => sector2R R s d)

theorem rmax_exists (n : Fin 100000) :
    ∃ r : ℝ, (Finset.univ : Finset (Fin 32)).fold max (⊥ : EReal) (fun s => (logitR R n s : EReal)) = r :=
  fold_max_real fun s => logitR R n s

/-- The largest logit of a row: a real number. -/
def rmaxR (n : Fin 100000) : ℝ := Classical.choose (rmax_exists R n)

theorem plain_rmax (hc : R.toArgs.ColsNonzero) (n : Fin 100000) :
    Plain.rmax R.toArgs n = (rmaxR R n : EReal) := by
  unfold Plain.rmax
  simp only [plain_logit R hc]
  exact Classical.choose_spec (rmax_exists R n)

theorem tiled_rmax (hc : R.toArgs.ColsNonzero) (n : Fin 100000) :
    Tiled.rmax R.toArgs n = (rmaxR R n : EReal) := by
  unfold Tiled.rmax
  simp only [tiled_logit R hc]
  exact Classical.choose_spec (rmax_exists R n)

def rwtR (n : Fin 100000) (s : Fin 32) : ℝ := Real.exp (logitR R n s - rmaxR R n)

theorem plain_rwt (hc : R.toArgs.ColsNonzero) (n : Fin 100000) (s : Fin 32) :
    Plain.rwt R.toArgs n s = (rwtR R n s : EReal) := by
  unfold Plain.rwt
  rw [plain_logit R hc, plain_rmax R hc, ← EReal.coe_sub, Ideal.exp_coe]
  rfl

theorem tiled_rwt (hc : R.toArgs.ColsNonzero) (n : Fin 100000) (s : Fin 32) :
    Tiled.rwt R.toArgs n s = (rwtR R n s : EReal) := by
  unfold Tiled.rwt
  rw [tiled_logit R hc, tiled_rmax R hc, ← EReal.coe_sub, Ideal.exp_coe]
  rfl

def rdenR (n : Fin 100000) : ℝ := ∑ s, rwtR R n s

/-- The sum of the 32 weights of a row is positive. -/
theorem rdenR_pos (n : Fin 100000) : 0 < rdenR R n :=
  Finset.sum_pos (fun s _ => Real.exp_pos _) Finset.univ_nonempty

theorem plain_rden (hc : R.toArgs.ColsNonzero) (n : Fin 100000) :
    Plain.rden R.toArgs n = (rdenR R n : EReal) := by
  unfold Plain.rden
  simp only [plain_rwt R hc]
  exact (coe_sum _ _).symm

theorem tiled_rden (hc : R.toArgs.ColsNonzero) (n : Fin 100000) :
    Tiled.rden R.toArgs n = (rdenR R n : EReal) := by
  unfold Tiled.rden
  simp only [tiled_rwt R hc]
  exact (coe_sum _ _).symm

/-- The row softmax. -/
def invR (n : Fin 100000) (s : Fin 32) : ℝ := rwtR R n s / rdenR R n

theorem plain_inv (hc : R.toArgs.ColsNonzero) (n : Fin 100000) (s : Fin 32) :
    Plain.inv R.toArgs n s = (invR R n s : EReal) := by
  unfold Plain.inv
  rw [plain_rwt R hc, plain_rden R hc]
  exact div_real _ _ (rdenR_pos R n).ne'

theorem tiled_inv (hc : R.toArgs.ColsNonzero) (n : Fin 100000) (s : Fin 32) :
    Tiled.inv R.toArgs n s = (invR R n s : EReal) := by
  unfold Tiled.inv
  rw [tiled_rwt R hc, tiled_rden R hc]
  exact div_real _ _ (rdenR_pos R n).ne'

end Cert.Bridge

end
-- ==== Proof.Bridge.Layers.lean ====
/-
  The bridge, part 4: the layers.

  One order mixes the rows of the second sector matrix with the row softmax first
  (`u = softmax · sector2`) and then applies the layers `h = u · W_entᵀ + b_ent`,
  `skip_in = h · W_siᵀ + b_si`, `h · W_soᵀ + b_so`, `(x + skip_in) · W_outᵀ + b_out`. The other
  multiplies the small sector matrix through the layers once (`t1 = sector2 · W_entᵀ`,
  `mso = t1 · W_soᵀ`, `t2 = t1 · W_siᵀ`, `mog = t2 · W_outᵀ`, and the bias rows `vso`, `b1`, `vg`)
  and mixes last. Every entry is a real number, so both are real expressions, and the two real
  expressions agree by linearity of finite sums.
-/
import proofs.«167790_g44066364457491_cont_8to1_c_744_34_alg».proof.Proof.Bridge.Stage3
import proofs.«167790_g44066364457491_cont_8to1_c_744_34_alg».proof.Proof.LibMixtureLayer

noncomputable section

namespace Cert.Bridge

open Idealize.ShloMosaic Cert.Spec Cert.Lib.MixtureLayer

/-- A contraction of two real families plus a real number, on the extended reals. -/
theorem coe_dot_add {ι : Type*} (s : Finset ι) (f g : ι → ℝ) (b : ℝ) :
    (∑ i ∈ s, (f i : EReal) * (g i : EReal)) + (b : EReal) = (((∑ i ∈ s, f i * g i) + b : ℝ) : EReal) := by
  rw [coe_dot, ← EReal.coe_add]

/-- A weight column applied to a mixture of rows is the mixture of the rows' products with it. -/
theorem mix_lin {ι κ : Type*} [Fintype ι] [Fintype κ] (w : ι → ℝ) (U : ι → κ → ℝ) (W : κ → ℝ) :
    ∑ k, (∑ s, w s * U s k) * W k = ∑ s, w s * ∑ k, U s k * W k := by
  simp only [Finset.sum_mul, Finset.mul_sum]
  rw [Finset.sum_comm]
  exact Finset.sum_congr rfl fun s _ => Finset.sum_congr rfl fun k _ => mul_assoc _ _ _

variable (R : RArgs)

/-! ## Mixing first -/

def updR (n : Fin 100000) (d : Fin 128) : ℝ := ∑ s, invR R n s * sector2R R s d
def hidR (n : Fin 100000) (j : Fin 128) : ℝ := (∑ d, updR R n d * R.We j d) + R.be j
def skipInR (n : Fin 100000) (j : Fin 128) : ℝ := (∑ d, hidR R n d * R.Wsi j d) + R.bsi j
def soPreR (n : Fin 100000) (j : Fin 128) : ℝ := (∑ d, hidR R n d * R.Wso j d) + R.bso j
def gnPreR (n : Fin 100000) (j : Fin 128) : ℝ := (∑ d, (R.x n d + skipInR R n d) * R.Wo j d) + R.bo j

theorem plain_upd (hc : R.toArgs.ColsNonzero) (n : Fin 100000) (d : Fin 128) :
    Plain.upd R.toArgs n d = (updR R n d : EReal) := by
  unfold Plain.upd
  simp only [plain_inv R hc, plain_sector2 R hc]
  exact coe_dot Finset.univ (fun s => invR R n s) (fun s => sector2R R s d)

theorem plain_hid (hc : R.toArgs.ColsNonzero) (n : Fin 100000) (j : Fin 128) :
    Plain.hid R.toArgs n j = (hidR R n j : EReal) := by
  unfold Plain.hid
  simp only [plain_upd R hc]
  exact coe_dot_add Finset.univ (fun d => updR R n d) (fun d => R.We j d) (R.be j)

theorem plain_skipIn (hc : R.toArgs.ColsNonzero) (n : Fin 100000) (j : Fin 128) :
    Plain.skipIn R.toArgs n j = (skipInR R n j : EReal) := by
  unfold Plain.skipIn
  simp only [plain_hid R hc]
  exact coe_dot_add Finset.univ (fun d => hidR R n d) (fun d => R.Wsi j d) (R.bsi j)

theorem plain_skipOut (hc : R.toArgs.ColsNonzero) (n : Fin 100000) (j : Fin 128) :
    Plain.skipOut R.toArgs n j = leaky (soPreR R n j : EReal) := by
  unfold Plain.skipOut
  simp only [plain_hid R hc]
  exact congrArg leaky (coe_dot_add Finset.univ (fun d => hidR R n d) (fun d => R.Wso j d) (R.bso j))

theorem plain_toGnn (hc : R.toArgs.ColsNonzero) (n : Fin 100000) (j : Fin 128) :
    Plain.toGnn R.toArgs n j = leaky (gnPreR R n j : EReal) := by
  unfold Plain.toGnn
  simp only [plain_skipIn R hc]
  have h : ∀ d, R.toArgs.x n d + (skipInR R n d : EReal) = ((R.x n d + skipInR R n d : ℝ) : EReal) :=
    fun d => (EReal.coe_add _ _).symm
  simp only [h]
  exact congrArg leaky
    (coe_dot_add Finset.univ (fun d => R.x n d + skipInR R n d) (fun d => R.Wo j d) (R.bo j))

/-! ## Mixing last -/

def t1R (s : Fin 32) (j : Fin 128) : ℝ := ∑ k, sector2R R s k * R.We j k
def msoR (s : Fin 32) (j : Fin 128) : ℝ := ∑ d, t1R R s d * R.Wso j d
def t2R (s : Fin 32) (j : Fin 128) : ℝ := ∑ d, t1R R s d * R.Wsi j d
def mogR (s : Fin 32) (j : Fin 128) : ℝ := ∑ d, t2R R s d * R.Wo j d
def vsoR (j : Fin 128) : ℝ := (∑ d, R.be d * R.Wso j d) + R.bso j
def b1R (j : Fin 128) : ℝ := (∑ d, R.be d * R.Wsi j d) + R.bsi j
def vgR (j : Fin 128) : ℝ := (∑ d, b1R R d * R.Wo j d) + R.bo j

theorem tiled_t1 (hc : R.toArgs.ColsNonzero) (s : Fin 32) (j : Fin 128) :
    Tiled.t1 R.toArgs s j = (t1R R s j : EReal) := by
  unfold Tiled.t1
  simp only [tiled_sector2 R hc]
  exact coe_dot Finset.univ (fun k => sector2R R s k) (fun k => R.We j k)

theorem tiled_mso (hc : R.toArgs.ColsNonzero) (s : Fin 32) (j : Fin 128) :
    Tiled.mso R.toArgs s j = (msoR R s j : EReal) := by
  unfold Tiled.mso
  simp only [tiled_t1 R hc]
  exact coe_dot Finset.univ (fun d => t1R R s d) (fun d => R.Wso j d)

theorem tiled_t2 (hc : R.toArgs.ColsNonzero) (s : Fin 32) (j : Fin 128) :
    Tiled.t2 R.toArgs s j = (t2R R s j : EReal) := by
  unfold Tiled.t2
  simp only [tiled_t1 R hc]
  exact coe_dot Finset.univ (fun d => t1R R s d) (fun d => R.Wsi j d)

theorem tiled_mog (hc : R.toArgs.ColsNonzero) (s : Fin 32) (j : Fin 128) :
    Tiled.mog R.toArgs s j = (mogR R s j : EReal) := by
  unfold Tiled.mog
  simp only [tiled_t2 R hc]
  exact coe_dot Finset.univ (fun d => t2R R s d) (fun d => R.Wo j d)

theorem tiled_vso (j : Fin 128) : Tiled.vso R.toArgs j = (vsoR R j : EReal) := by
  unfold Tiled.vso
  exact coe_dot_add Finset.univ (fun d => R.be d) (fun d => R.Wso j d) (R.bso j)

theorem tiled_b1 (j : Fin 128) : Tiled.b1 R.toArgs j = (b1R R j : EReal) := by
  unfold Tiled.b1
  exact coe_dot_add Finset.univ (fun d => R.be d) (fun d => R.Wsi j d) (R.bsi j)

theorem tiled_vg (j : Fin 128) : Tiled.vg R.toArgs j = (vgR R j : EReal) := by
  unfold Tiled.vg
  simp only [tiled_b1 R]
  exact coe_dot_add Finset.univ (fun d => b1R R d) (fun d => R.Wo j d) (R.bo j)

theorem tiled_skipOut (hc : R.toArgs.ColsNonzero) (n : Fin 100000) (j : Fin 128) :
    Tiled.skipOut R.toArgs n j = leaky (((∑ s, invR R n s * msoR R s j) + vsoR R j : ℝ) : EReal) := by
  unfold Tiled.skipOut
  simp only [tiled_inv R hc, tiled_mso R hc, tiled_vso R]
  exact congrArg leaky (coe_dot_add Finset.univ (fun s => invR R n s) (fun s => msoR R s j) (vsoR R j))

theorem tiled_toGnn (hc : R.toArgs.ColsNonzero) (n : Fin 100000) (j : Fin 128) :
    Tiled.toGnn R.toArgs n j
      = leaky ((((∑ d, R.x n d * R.Wo j d) + (∑ s, invR R n s * mogR R s j)) + vgR R j : ℝ) : EReal) := by
  unfold Tiled.toGnn
  simp only [tiled_inv R hc, tiled_mog R hc, tiled_vg R]
  refine congrArg leaky ?_
  have h1 : (∑ d, R.toArgs.x n d * R.toArgs.Wo j d) = ((∑ d, R.x n d * R.Wo j d : ℝ) : EReal) :=
    coe_dot Finset.univ (fun d => R.x n d) (fun d => R.Wo j d)
  have h2 : (∑ s, (invR R n s : EReal) * (mogR R s j : EReal)) = ((∑ s, invR R n s * mogR R s j : ℝ) : EReal) :=
    coe_dot Finset.univ (fun s => invR R n s) (fun s => mogR R s j)
  rw [h1, h2, ← EReal.coe_add, ← EReal.coe_add]

/-! ## The two real expressions agree -/

/-- The hidden row is the mixture of the layered sector rows plus the bias. -/
theorem hidR_eq (n : Fin 100000) (d : Fin 128) :
    hidR R n d = (∑ s, invR R n s * t1R R s d) + R.be d := by
  unfold hidR updR t1R
  rw [mix_lin]

theorem soPreR_eq (n : Fin 100000) (j : Fin 128) :
    soPreR R n j = (∑ s, invR R n s * msoR R s j) + vsoR R j := by
  unfold soPreR msoR vsoR
  simp only [hidR_eq]
  exact real_mixture_layer (fun s => invR R n s) (fun s d => t1R R s d) (fun d => R.be d)
    (fun d => R.Wso j d) (R.bso j)

theorem skipInR_eq (n : Fin 100000) (j : Fin 128) :
    skipInR R n j = (∑ s, invR R n s * t2R R s j) + b1R R j := by
  unfold skipInR t2R b1R
  simp only [hidR_eq]
  exact real_mixture_layer (fun s => invR R n s) (fun s d => t1R R s d) (fun d => R.be d)
    (fun d => R.Wsi j d) (R.bsi j)

/-- The product with `W_out` splits over `x + skip_in` (real entries), and the `skip_in` part is a layered mixture. -/
theorem gnPreR_eq (n : Fin 100000) (j : Fin 128) :
    gnPreR R n j = ((∑ d, R.x n d * R.Wo j d) + (∑ s, invR R n s * mogR R s j)) + vgR R j := by
  have h1 : (∑ d, (R.x n d + skipInR R n d) * R.Wo j d)
      = (∑ d, R.x n d * R.Wo j d) + ∑ d, skipInR R n d * R.Wo j d := by
    rw [← Finset.sum_add_distrib]
    exact Finset.sum_congr rfl fun d _ => add_mul _ _ _
  have h2 : (∑ d, skipInR R n d * R.Wo j d) + R.bo j = (∑ s, invR R n s * mogR R s j) + vgR R j := by
    unfold mogR vgR
    simp only [skipInR_eq]
    exact real_mixture_layer (fun s => invR R n s) (fun s d => t2R R s d) (fun d => b1R R d)
      (fun d => R.Wo j d) (R.bo j)
  unfold gnPreR
  rw [h1, add_assoc, h2, ← add_assoc]

end Cert.Bridge

end
-- ==== Proof.Bridge.lean ====
/-
  The bridge between the two orders of evaluation.

  `Cert.Spec.Plain` writes the two results as one reads the formulas; `Cert.Spec.Tiled` writes them in
  the order a row-tiled evaluation produces them. When every entry of the ten arrays is a real number
  and no column of the adjacency sums to zero, the two agree entry by entry.

  The argument: the arrays are coercions of real arrays, and stage by stage every intermediate of
  BOTH orders is the coercion of one real expression (`Bridge/Stage1`: the sector matrix, where the
  nonzero column sum lets the division be done once after the contraction, and the scores;
  `Bridge/Stage2`: the column softmax, one pass at the column maximum against five tiles with a
  running maximum; `Bridge/Stage3`: the logits and the row softmax; `Bridge/Layers`: the linear
  layers, applied after the mixture or multiplied through the small sector matrix first). The two
  final real expressions agree by linearity of finite sums, and the leaky rectifier is applied to equal
  arguments.
-/
import proofs.«167790_g44066364457491_cont_8to1_c_744_34_alg».proof.Proof.Bridge.Layers

namespace Cert.Bridge

open Cert.Spec

theorem skipOut_eq (a : Cert.Spec.Args) (hr : a.IsReal) (hc : a.ColsNonzero) (n : Fin 100000) (j : Fin 128) :
    Cert.Spec.Tiled.skipOut a n j = Cert.Spec.Plain.skipOut a n j := by
  obtain ⟨R, rfl⟩ := exists_toArgs a hr
  rw [tiled_skipOut R hc, plain_skipOut R hc, soPreR_eq]

theorem toGnn_eq (a : Cert.Spec.Args) (hr : a.IsReal) (hc : a.ColsNonzero) (n : Fin 100000) (j : Fin 128) :
    Cert.Spec.Tiled.toGnn a n j = Cert.Spec.Plain.toGnn a n j := by
  obtain ⟨R, rfl⟩ := exists_toArgs a hr
  rw [tiled_toGnn R hc, plain_toGnn R hc, gnPreR_eq]

end Cert.Bridge
-- ==== Proof.RefPlain.Stage1.lean ====
/-
  The reference's first operations, read at coordinates: the column sums of the adjacency (a sum over the
  rows started from the zero word, `0 + a = a`), the adjacency divided by its column sums repeated down
  the rows, the sector matrix (the transposed weights contracted with the features over the rows) and
  the scores (the features contracted with the transposed sector matrix). Each stage at (row, column)
  is the corresponding formula of `Cert.Spec.Plain` over coordinates `a` that read the arrays entry by
  entry.
-/
import proofs.«167790_g44066364457491_cont_8to1_c_744_34_alg».proof.Proof.Gen.ReferenceIdeal.Read
import proofs.«167790_g44066364457491_cont_8to1_c_744_34_alg».proof.Proof.Spec

noncomputable section

namespace Cert.RefPlain

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2)
open Cert.Spec

/-- Two index functions of a rank-2 shape agree coordinate by coordinate. -/
local macro "idx2" : tactic =>
  `(tactic| exact funext fun a => Fin.ext (by match a with | ⟨0, _⟩ => rfl | ⟨1, _⟩ => rfl))
/-- Two index functions of a rank-1 shape agree at their one coordinate. -/
local macro "idx1" : tactic =>
  `(tactic| exact funext fun a => Fin.ext (by match a with | ⟨0, _⟩ => rfl))

variable (x0 : (⟨S100000x128, .f32⟩ : BufTy).Contents (Elt Ideal)) (x1 : (⟨S100000x32, .f32⟩ : BufTy).Contents (Elt Ideal))

/-! ## The stages at coordinates -/

/-- The column sums: the initial value is the zero word. -/
theorem v0_ix (s : Fin 32) :
    val_main_v0 (F := Ideal) x1 (ix1 s) = ∑ n : Fin 100000, x1 (ix2 n s) := by
  rw [val_main_v0_apply, val_main_cst_apply, Ideal.ofBits_def, Ideal.ofBits_zero_f32, zero_add]
  refine Finset.sum_congr rfl fun k _ => congrArg x1 ?_
  idx2

/-- The column sums repeated down the rows. -/
theorem v2_ix (n : Fin 100000) (s : Fin 32) :
    val_main_v2 (F := Ideal) x1 (ix2 n s) = val_main_v0 (F := Ideal) x1 (ix1 s) := by
  rw [val_main_v2_apply, val_main_v1_apply]
  refine congrArg (val_main_v0 (F := Ideal) x1) ?_
  idx1

theorem v3_ix (n : Fin 100000) (s : Fin 32) :
    val_main_v3 (F := Ideal) x1 (ix2 n s) = Ideal.div (x1 (ix2 n s)) (∑ n : Fin 100000, x1 (ix2 n s)) := by
  rw [val_main_v3_apply, Ideal.hostDivf_def, v2_ix, v0_ix]

theorem v4_ix (s : Fin 32) (n : Fin 100000) :
    val_main_v4 (F := Ideal) x1 (ix2 s n) = val_main_v3 (F := Ideal) x1 (ix2 n s) := by
  rw [val_main_v4_apply]
  refine congrArg (val_main_v3 (F := Ideal) x1) ?_
  idx2

theorem v5_ix (s : Fin 32) (d : Fin 128) :
    val_main_v5 (F := Ideal) x0 x1 (ix2 s d)
      = ∑ n : Fin 100000, val_main_v4 (F := Ideal) x1 (ix2 s n) * x0 (ix2 n d) := by
  rw [val_main_v5_apply]
  refine Finset.sum_congr rfl fun k _ => ?_
  refine congrArg₂ (· * ·) (congrArg (val_main_v4 (F := Ideal) x1) ?_) (congrArg x0 ?_)
  · idx2
  · idx2

theorem v6_ix (d : Fin 128) (s : Fin 32) :
    val_main_v6 (F := Ideal) x0 x1 (ix2 d s) = val_main_v5 (F := Ideal) x0 x1 (ix2 s d) := by
  rw [val_main_v6_apply]
  refine congrArg (val_main_v5 (F := Ideal) x0 x1) ?_
  idx2

theorem v7_ix (n : Fin 100000) (s : Fin 32) :
    val_main_v7 (F := Ideal) x0 x1 (ix2 n s)
      = ∑ d : Fin 128, x0 (ix2 n d) * val_main_v6 (F := Ideal) x0 x1 (ix2 d s) := by
  rw [val_main_v7_apply]
  refine Finset.sum_congr rfl fun k _ => ?_
  refine congrArg₂ (· * ·) (congrArg x0 ?_) (congrArg (val_main_v6 (F := Ideal) x0 x1) ?_)
  · idx2
  · idx2

/-! ## The stages are the plain formulas -/

variable (a : Args) (hx : ∀ n d, x0 (ix2 n d) = a.x n d) (he : ∀ n s, x1 (ix2 n s) = a.e n s)
include hx he

theorem colsum_eq (s : Fin 32) : val_main_v0 (F := Ideal) x1 (ix1 s) = Plain.colsum a s := by
  rw [v0_ix]
  exact Finset.sum_congr rfl fun n _ => he n s

theorem adj_eq (n : Fin 100000) (s : Fin 32) : val_main_v3 (F := Ideal) x1 (ix2 n s) = Plain.adj a n s := by
  rw [val_main_v3_apply, Ideal.hostDivf_def, v2_ix, colsum_eq x0 x1 a hx he, he]
  rfl

theorem sector_eq (s : Fin 32) (d : Fin 128) : val_main_v5 (F := Ideal) x0 x1 (ix2 s d) = Plain.sector a s d := by
  rw [v5_ix]
  refine Finset.sum_congr rfl fun n _ => ?_
  rw [v4_ix, adj_eq x0 x1 a hx he, hx]

theorem score_eq (n : Fin 100000) (s : Fin 32) : val_main_v7 (F := Ideal) x0 x1 (ix2 n s) = Plain.score a n s := by
  rw [v7_ix]
  refine Finset.sum_congr rfl fun d _ => ?_
  rw [v6_ix, sector_eq x0 x1 a hx he, hx]

end Cert.RefPlain
-- ==== Proof.RefPlain.Stage2.lean ====
/-
  The softmax down each column and what follows it, read at coordinates: the column maximum (a maximum
  reduction over the rows from the word of −∞ is the fold of `max` from ⊥; its maximum with the −∞ splat
  is itself), the exponentials of the differences, their column sums, the quotient, the second sector
  matrix (the transposed softmax contracted with the features) and the second scores.
-/
import proofs.«167790_g44066364457491_cont_8to1_c_744_34_alg».proof.Proof.RefPlain.Stage1
import Idealize.ShloMosaic.PureOps.Reduce

noncomputable section

namespace Cert.RefPlain

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2)
open Cert.Spec

/-- Two index functions of a rank-2 shape agree coordinate by coordinate. -/
local macro "idx2" : tactic =>
  `(tactic| exact funext fun a => Fin.ext (by match a with | ⟨0, _⟩ => rfl | ⟨1, _⟩ => rfl))
/-- Two index functions of a rank-1 shape agree at their one coordinate. -/
local macro "idx1" : tactic =>
  `(tactic| exact funext fun a => Fin.ext (by match a with | ⟨0, _⟩ => rfl))

variable (x0 : (⟨S100000x128, .f32⟩ : BufTy).Contents (Elt Ideal)) (x1 : (⟨S100000x32, .f32⟩ : BufTy).Contents (Elt Ideal))

/-- The word the maximum reductions start from is −∞. -/
theorem ofBits_negInf : Ideal.ofBits .f32 0xFF800000#32 = (⊥ : EReal) := by simp [Ideal.ofBits, Ideal.ieee]

/-- A maximum reduction down the rows of a [100000, 32] array, from −∞: at column `s` the fold of `max` over the rows. -/
theorem colmax_apply (y : (⟨S100000x32, .f32⟩ : BufTy).Contents (Elt Ideal)) (s : Fin 32) :
    (Host.reduce (FloatOps.maximumf (F := Ideal) (φ := .f32)) y (val_main_cst_0 (F := Ideal)) reducesTo_S100000x32_S32_d0 h_S_
        : (⟨S32, .f32⟩ : BufTy).Contents (Elt Ideal)) (ix1 s)
      = (Finset.univ : Finset (Fin 100000)).fold max ⊥ (fun n => y (ix2 n s)) := by
  have h : S100000x32.Reduces [0] S32 := by decide
  rw [Host.reduce_eq_fold_single (FloatOps.maximumf (F := Ideal) (φ := .f32)) y _ reducesTo_S100000x32_S32_d0 h h_S_,
    val_main_cst_0_apply, Ideal.ofBits_def, ofBits_negInf]
  have hf : (y ∘ h.lift (ix1 s)) = fun n : Fin 100000 => y (ix2 n s) :=
    funext fun k => congrArg y (by idx2)
  exact congrArg (fun f => Finset.fold max (⊥ : EReal) f (Finset.univ : Finset (Fin 100000))) hf

theorem v8_ix (s : Fin 32) :
    val_main_v8 (F := Ideal) x0 x1 (ix1 s)
      = (Finset.univ : Finset (Fin 100000)).fold max ⊥ (fun n => val_main_v7 (F := Ideal) x0 x1 (ix2 n s)) := by
  unfold val_main_v8
  generalize val_main_v7 (F := Ideal) x0 x1 = y
  exact colmax_apply y s

theorem v9_ix (s : Fin 32) : val_main_v9 (F := Ideal) (ix1 s) = (⊥ : EReal) := by
  rw [val_main_v9_apply, val_main_cst_1_apply, Ideal.ofBits_def, ofBits_negInf]

/-- The maximum against the −∞ splat changes nothing. -/
theorem v10_ix (s : Fin 32) :
    val_main_v10 (F := Ideal) x0 x1 (ix1 s) = val_main_v8 (F := Ideal) x0 x1 (ix1 s) := by
  rw [val_main_v10_apply, Ideal.maximumf_def, v9_ix]
  exact max_eq_right bot_le

theorem v12_ix (n : Fin 100000) (s : Fin 32) :
    val_main_v12 (F := Ideal) x0 x1 (ix2 n s) = val_main_v10 (F := Ideal) x0 x1 (ix1 s) := by
  rw [val_main_v12_apply, val_main_v11_apply]
  refine congrArg (val_main_v10 (F := Ideal) x0 x1) ?_
  idx1

theorem v14_ix (n : Fin 100000) (s : Fin 32) :
    val_main_v14 (F := Ideal) x0 x1 (ix2 n s)
      = Ideal.exp (val_main_v7 (F := Ideal) x0 x1 (ix2 n s) - val_main_v10 (F := Ideal) x0 x1 (ix1 s)) := by
  rw [val_main_v14_apply, Ideal.hostUnary_exp_def, val_main_v13_apply, Ideal.subf_def, v12_ix]

theorem v15_ix (s : Fin 32) :
    val_main_v15 (F := Ideal) x0 x1 (ix1 s) = ∑ n : Fin 100000, val_main_v14 (F := Ideal) x0 x1 (ix2 n s) := by
  rw [val_main_v15_apply, val_main_cst_2_apply, Ideal.ofBits_def, Ideal.ofBits_zero_f32, zero_add]
  refine Finset.sum_congr rfl fun k _ => congrArg (val_main_v14 (F := Ideal) x0 x1) ?_
  idx2

theorem v17_ix (n : Fin 100000) (s : Fin 32) :
    val_main_v17 (F := Ideal) x0 x1 (ix2 n s) = val_main_v15 (F := Ideal) x0 x1 (ix1 s) := by
  rw [val_main_v17_apply, val_main_v16_apply]
  refine congrArg (val_main_v15 (F := Ideal) x0 x1) ?_
  idx1

theorem v19_ix (s : Fin 32) (n : Fin 100000) :
    val_main_v19 (F := Ideal) x0 x1 (ix2 s n)
      = Ideal.div (val_main_v14 (F := Ideal) x0 x1 (ix2 n s)) (val_main_v15 (F := Ideal) x0 x1 (ix1 s)) := by
  rw [val_main_v19_apply]
  refine (congrArg (val_main_v18 (F := Ideal) x0 x1) (?_ : _ = ix2 n s)).trans ?_
  · idx2
  · rw [val_main_v18_apply, Ideal.hostDivf_def, v17_ix]

theorem v20_ix (s : Fin 32) (d : Fin 128) :
    val_main_v20 (F := Ideal) x0 x1 (ix2 s d)
      = ∑ n : Fin 100000, val_main_v19 (F := Ideal) x0 x1 (ix2 s n) * x0 (ix2 n d) := by
  rw [val_main_v20_apply]
  refine Finset.sum_congr rfl fun k _ => ?_
  refine congrArg₂ (· * ·) (congrArg (val_main_v19 (F := Ideal) x0 x1) ?_) (congrArg x0 ?_)
  · idx2
  · idx2

theorem v22_ix (n : Fin 100000) (s : Fin 32) :
    val_main_v22 (F := Ideal) x0 x1 (ix2 n s)
      = ∑ d : Fin 128, x0 (ix2 n d) * val_main_v20 (F := Ideal) x0 x1 (ix2 s d) := by
  rw [val_main_v22_apply]
  refine Finset.sum_congr rfl fun k _ => ?_
  refine congrArg₂ (· * ·) (congrArg x0 ?_) ?_
  · idx2
  · rw [val_main_v21_apply]
    refine congrArg (val_main_v20 (F := Ideal) x0 x1) ?_
    idx2

/-! ## The stages are the plain formulas -/

variable (a : Args) (hx : ∀ n d, x0 (ix2 n d) = a.x n d) (he : ∀ n s, x1 (ix2 n s) = a.e n s)
include hx he

theorem cmax_eq (s : Fin 32) : val_main_v10 (F := Ideal) x0 x1 (ix1 s) = Plain.cmax a s := by
  rw [v10_ix, v8_ix]
  exact congrArg (fun f => Finset.fold max (⊥ : EReal) f (Finset.univ : Finset (Fin 100000)))
    (funext fun n => score_eq x0 x1 a hx he n s)

theorem cw_eq (n : Fin 100000) (s : Fin 32) : val_main_v14 (F := Ideal) x0 x1 (ix2 n s) = Plain.cw a n s := by
  rw [v14_ix, score_eq x0 x1 a hx he, cmax_eq x0 x1 a hx he]
  rfl

theorem cden_eq (s : Fin 32) : val_main_v15 (F := Ideal) x0 x1 (ix1 s) = Plain.cden a s := by
  rw [v15_ix]
  exact Finset.sum_congr rfl fun n _ => cw_eq x0 x1 a hx he n s

theorem sector2_eq (s : Fin 32) (d : Fin 128) : val_main_v20 (F := Ideal) x0 x1 (ix2 s d) = Plain.sector2 a s d := by
  rw [v20_ix]
  refine Finset.sum_congr rfl fun n _ => ?_
  rw [v19_ix, cw_eq x0 x1 a hx he, cden_eq x0 x1 a hx he, hx]

theorem logit_eq (n : Fin 100000) (s : Fin 32) : val_main_v22 (F := Ideal) x0 x1 (ix2 n s) = Plain.logit a n s := by
  rw [v22_ix]
  refine Finset.sum_congr rfl fun d _ => ?_
  rw [sector2_eq x0 x1 a hx he, hx]

end Cert.RefPlain
-- ==== Proof.RefPlain.Stage3.lean ====
/-
  The softmax along each row and the update, read at coordinates: the row maximum (the fold of `max`
  from ⊥ over the 32 sectors), the exponentials, their row sums repeated along the columns, the quotient,
  and the contraction of the softmax with the second sector matrix.
-/
import proofs.«167790_g44066364457491_cont_8to1_c_744_34_alg».proof.Proof.RefPlain.Stage2

noncomputable section

namespace Cert.RefPlain

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2)
open Cert.Spec

/-- Two index functions of a rank-2 shape agree coordinate by coordinate. -/
local macro "idx2" : tactic =>
  `(tactic| exact funext fun a => Fin.ext (by match a with | ⟨0, _⟩ => rfl | ⟨1, _⟩ => rfl))
/-- Two index functions of a rank-1 shape agree at their one coordinate. -/
local macro "idx1" : tactic =>
  `(tactic| exact funext fun a => Fin.ext (by match a with | ⟨0, _⟩ => rfl))

variable (x0 : (⟨S100000x128, .f32⟩ : BufTy).Contents (Elt Ideal)) (x1 : (⟨S100000x32, .f32⟩ : BufTy).Contents (Elt Ideal))

/-- A maximum reduction along the rows of a [100000, 32] array, from −∞: at row `n` the fold of `max` over the columns. -/
theorem rowmax_apply (y : (⟨S100000x32, .f32⟩ : BufTy).Contents (Elt Ideal)) (n : Fin 100000) :
    (Host.reduce (FloatOps.maximumf (F := Ideal) (φ := .f32)) y (val_main_cst_3 (F := Ideal)) reducesTo_S100000x32_S100000_d1 h_S_
        : (⟨S100000, .f32⟩ : BufTy).Contents (Elt Ideal)) (ix1 n)
      = (Finset.univ : Finset (Fin 32)).fold max ⊥ (fun s => y (ix2 n s)) := by
  have h : S100000x32.Reduces [1] S100000 := by decide
  rw [Host.reduce_eq_fold_single (FloatOps.maximumf (F := Ideal) (φ := .f32)) y _ reducesTo_S100000x32_S100000_d1 h h_S_,
    val_main_cst_3_apply, Ideal.ofBits_def, ofBits_negInf]
  have hf : (y ∘ h.lift (ix1 n)) = fun s : Fin 32 => y (ix2 n s) :=
    funext fun k => congrArg y (by idx2)
  exact congrArg (fun f => Finset.fold max (⊥ : EReal) f (Finset.univ : Finset (Fin 32))) hf

theorem v23_ix (n : Fin 100000) :
    val_main_v23 (F := Ideal) x0 x1 (ix1 n)
      = (Finset.univ : Finset (Fin 32)).fold max ⊥ (fun s => val_main_v22 (F := Ideal) x0 x1 (ix2 n s)) := by
  unfold val_main_v23
  generalize val_main_v22 (F := Ideal) x0 x1 = y
  exact rowmax_apply y n

theorem v24_ix (n : Fin 100000) : val_main_v24 (F := Ideal) (ix1 n) = (⊥ : EReal) := by
  rw [val_main_v24_apply, val_main_cst_4_apply, Ideal.ofBits_def, ofBits_negInf]

/-- The maximum against the −∞ splat changes nothing. -/
theorem v25_ix (n : Fin 100000) :
    val_main_v25 (F := Ideal) x0 x1 (ix1 n) = val_main_v23 (F := Ideal) x0 x1 (ix1 n) := by
  rw [val_main_v25_apply, Ideal.maximumf_def, v24_ix]
  exact max_eq_right bot_le

theorem v27_ix (n : Fin 100000) (s : Fin 32) :
    val_main_v27 (F := Ideal) x0 x1 (ix2 n s) = val_main_v25 (F := Ideal) x0 x1 (ix1 n) := by
  rw [val_main_v27_apply, val_main_v26_apply]
  refine congrArg (val_main_v25 (F := Ideal) x0 x1) ?_
  idx1

theorem v29_ix (n : Fin 100000) (s : Fin 32) :
    val_main_v29 (F := Ideal) x0 x1 (ix2 n s)
      = Ideal.exp (val_main_v22 (F := Ideal) x0 x1 (ix2 n s) - val_main_v25 (F := Ideal) x0 x1 (ix1 n)) := by
  rw [val_main_v29_apply, Ideal.hostUnary_exp_def, val_main_v28_apply, Ideal.subf_def, v27_ix]

theorem v30_ix (n : Fin 100000) :
    val_main_v30 (F := Ideal) x0 x1 (ix1 n) = ∑ s : Fin 32, val_main_v29 (F := Ideal) x0 x1 (ix2 n s) := by
  rw [val_main_v30_apply, val_main_cst_5_apply, Ideal.ofBits_def, Ideal.ofBits_zero_f32, zero_add]
  refine Finset.sum_congr rfl fun k _ => congrArg (val_main_v29 (F := Ideal) x0 x1) ?_
  idx2

theorem v32_ix (n : Fin 100000) (s : Fin 32) :
    val_main_v32 (F := Ideal) x0 x1 (ix2 n s) = val_main_v30 (F := Ideal) x0 x1 (ix1 n) := by
  rw [val_main_v32_apply, val_main_v31_apply]
  refine congrArg (val_main_v30 (F := Ideal) x0 x1) ?_
  idx1

theorem v33_ix (n : Fin 100000) (s : Fin 32) :
    val_main_v33 (F := Ideal) x0 x1 (ix2 n s)
      = Ideal.div (val_main_v29 (F := Ideal) x0 x1 (ix2 n s)) (val_main_v30 (F := Ideal) x0 x1 (ix1 n)) := by
  rw [val_main_v33_apply, Ideal.hostDivf_def, v32_ix]

theorem v34_ix (n : Fin 100000) (d : Fin 128) :
    val_main_v34 (F := Ideal) x0 x1 (ix2 n d)
      = ∑ s : Fin 32, val_main_v33 (F := Ideal) x0 x1 (ix2 n s) * val_main_v20 (F := Ideal) x0 x1 (ix2 s d) := by
  rw [val_main_v34_apply]
  refine Finset.sum_congr rfl fun k _ => ?_
  refine congrArg₂ (· * ·) (congrArg (val_main_v33 (F := Ideal) x0 x1) ?_) (congrArg (val_main_v20 (F := Ideal) x0 x1) ?_)
  · idx2
  · idx2

/-! ## The stages are the plain formulas -/

variable (a : Args) (hx : ∀ n d, x0 (ix2 n d) = a.x n d) (he : ∀ n s, x1 (ix2 n s) = a.e n s)
include hx he

theorem rmax_eq (n : Fin 100000) : val_main_v25 (F := Ideal) x0 x1 (ix1 n) = Plain.rmax a n := by
  rw [v25_ix, v23_ix]
  exact congrArg (fun f => Finset.fold max (⊥ : EReal) f (Finset.univ : Finset (Fin 32)))
    (funext fun s => logit_eq x0 x1 a hx he n s)

theorem rwt_eq (n : Fin 100000) (s : Fin 32) : val_main_v29 (F := Ideal) x0 x1 (ix2 n s) = Plain.rwt a n s := by
  rw [v29_ix, logit_eq x0 x1 a hx he, rmax_eq x0 x1 a hx he]
  rfl

theorem rden_eq (n : Fin 100000) : val_main_v30 (F := Ideal) x0 x1 (ix1 n) = Plain.rden a n := by
  rw [v30_ix]
  exact Finset.sum_congr rfl fun s _ => rwt_eq x0 x1 a hx he n s

theorem inv_eq (n : Fin 100000) (s : Fin 32) : val_main_v33 (F := Ideal) x0 x1 (ix2 n s) = Plain.inv a n s := by
  rw [v33_ix, rwt_eq x0 x1 a hx he, rden_eq x0 x1 a hx he]
  rfl

theorem upd_eq (n : Fin 100000) (d : Fin 128) : val_main_v34 (F := Ideal) x0 x1 (ix2 n d) = Plain.upd a n d := by
  rw [v34_ix]
  refine Finset.sum_congr rfl fun s _ => ?_
  rw [inv_eq x0 x1 a hx he, sector2_eq x0 x1 a hx he]

end Cert.RefPlain
-- ==== Proof.RefPlain.Stage4.lean ====
/-
  The four affine layers and the two rectifiers, read at coordinates: each layer is the contraction of a
  row of activations with a transposed weight matrix plus the bias repeated down the rows; the rectifier
  compares against the zero splat and selects between `v` and `slope * v`, the slope kept as the word
  both programs carry. The last section states every stage as its formula of `Cert.Spec.Plain`.
-/
import proofs.«167790_g44066364457491_cont_8to1_c_744_34_alg».proof.Proof.RefPlain.Stage3

noncomputable section

namespace Cert.RefPlain

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2)
open Cert.Spec

/-- Two index functions of a rank-2 shape agree coordinate by coordinate. -/
local macro "idx2" : tactic =>
  `(tactic| exact funext fun a => Fin.ext (by match a with | ⟨0, _⟩ => rfl | ⟨1, _⟩ => rfl))
/-- Two index functions of a rank-1 shape agree at their one coordinate. -/
local macro "idx1" : tactic =>
  `(tactic| exact funext fun a => Fin.ext (by match a with | ⟨0, _⟩ => rfl))

variable (x0 : (⟨S100000x128, .f32⟩ : BufTy).Contents (Elt Ideal)) (x1 : (⟨S100000x32, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))

/-! ## The four affine layers at coordinates

Each layer is a contraction of a row of activations against a transposed weight matrix, entry (n, j) being
`∑ d, h n d * W j d`, plus the bias vector repeated down the rows. -/

theorem v39_ix (n : Fin 100000) (j : Fin 128) :
    val_main_v39 (F := Ideal) x0 x1 x2 x3 (ix2 n j)
      = (∑ d : Fin 128, val_main_v34 (F := Ideal) x0 x1 (ix2 n d) * x2 (ix2 j d)) + x3 (ix1 j) := by
  rw [val_main_v39_apply, Ideal.addf_def, val_main_v36_apply, val_main_v38_apply, val_main_v37_apply]
  refine congrArg₂ (· + ·) (Finset.sum_congr rfl fun k _ => ?_) (congrArg x3 ?_)
  · rw [val_main_v35_apply]
    refine congrArg₂ (· * ·) (congrArg (val_main_v34 (F := Ideal) x0 x1) ?_) (congrArg x2 ?_)
    · idx2
    · idx2
  · idx1

theorem v44_ix (n : Fin 100000) (j : Fin 128) :
    val_main_v44 (F := Ideal) x0 x1 x2 x3 x4 x5 (ix2 n j)
      = (∑ d : Fin 128, val_main_v39 (F := Ideal) x0 x1 x2 x3 (ix2 n d) * x4 (ix2 j d)) + x5 (ix1 j) := by
  rw [val_main_v44_apply, Ideal.addf_def, val_main_v41_apply, val_main_v43_apply, val_main_v42_apply]
  refine congrArg₂ (· + ·) (Finset.sum_congr rfl fun k _ => ?_) (congrArg x5 ?_)
  · rw [val_main_v40_apply]
    refine congrArg₂ (· * ·) (congrArg (val_main_v39 (F := Ideal) x0 x1 x2 x3) ?_) (congrArg x4 ?_)
    · idx2
    · idx2
  · idx1

theorem v49_ix (n : Fin 100000) (j : Fin 128) :
    val_main_v49 (F := Ideal) x0 x1 x2 x3 x6 x7 (ix2 n j)
      = (∑ d : Fin 128, val_main_v39 (F := Ideal) x0 x1 x2 x3 (ix2 n d) * x6 (ix2 j d)) + x7 (ix1 j) := by
  rw [val_main_v49_apply, Ideal.addf_def, val_main_v46_apply, val_main_v48_apply, val_main_v47_apply]
  refine congrArg₂ (· + ·) (Finset.sum_congr rfl fun k _ => ?_) (congrArg x7 ?_)
  · rw [val_main_v45_apply]
    refine congrArg₂ (· * ·) (congrArg (val_main_v39 (F := Ideal) x0 x1 x2 x3) ?_) (congrArg x6 ?_)
    · idx2
    · idx2
  · idx1

theorem v60_ix (n : Fin 100000) (j : Fin 128) :
    val_main_v60 (F := Ideal) x0 x1 x2 x3 x4 x5 x8 x9 (ix2 n j)
      = (∑ d : Fin 128, val_main_v55 (F := Ideal) x0 x1 x2 x3 x4 x5 (ix2 n d) * x8 (ix2 j d)) + x9 (ix1 j) := by
  rw [val_main_v60_apply, Ideal.addf_def, val_main_v57_apply, val_main_v59_apply, val_main_v58_apply]
  refine congrArg₂ (· + ·) (Finset.sum_congr rfl fun k _ => ?_) (congrArg x9 ?_)
  · rw [val_main_v56_apply]
    refine congrArg₂ (· * ·) (congrArg (val_main_v55 (F := Ideal) x0 x1 x2 x3 x4 x5) ?_) (congrArg x8 ?_)
    · idx2
    · idx2
  · idx1

/-! ## The rectifier: compare against the zero splat, select between `v` and `slope * v` -/

theorem select_leaky (v : EReal) : Scalar.select (Ideal.cmp .oge v 0) v (slope * v) = leaky v := by
  unfold leaky Scalar.select Ideal.cmp
  by_cases h : (0 : EReal) ≤ v
  · simp [h]
  · simp [h]

theorem v54_ix (n : Fin 100000) (j : Fin 128) :
    val_main_v54 (F := Ideal) x0 x1 x2 x3 x6 x7 (ix2 n j) = leaky (val_main_v49 (F := Ideal) x0 x1 x2 x3 x6 x7 (ix2 n j)) := by
  rw [val_main_v54_apply, val_main_v51_apply, val_main_v53_apply, val_main_v50_apply,
    val_main_cst_6_apply, val_main_v52_apply, val_main_cst_7_apply, Ideal.mulf_def, Ideal.cmpf_def]
  simp only [Ideal.ofBits_def, Ideal.ofBits_zero_f32]
  exact select_leaky _

theorem v65_ix (n : Fin 100000) (j : Fin 128) :
    val_main_v65 (F := Ideal) x0 x1 x2 x3 x4 x5 x8 x9 (ix2 n j) = leaky (val_main_v60 (F := Ideal) x0 x1 x2 x3 x4 x5 x8 x9 (ix2 n j)) := by
  rw [val_main_v65_apply, val_main_v62_apply, val_main_v64_apply, val_main_v61_apply,
    val_main_cst_8_apply, val_main_v63_apply, val_main_cst_9_apply, Ideal.mulf_def, Ideal.cmpf_def]
  simp only [Ideal.ofBits_def, Ideal.ofBits_zero_f32]
  exact select_leaky _

/-! ## The stages are the plain formulas -/

/-- The coordinates `a` are the ten arrays read entry by entry. -/
structure Reads (a : Args) : Prop where
  x : ∀ n d, x0 (ix2 n d) = a.x n d
  e : ∀ n s, x1 (ix2 n s) = a.e n s
  We : ∀ j d, x2 (ix2 j d) = a.We j d
  be : ∀ j, x3 (ix1 j) = a.be j
  Wsi : ∀ j d, x4 (ix2 j d) = a.Wsi j d
  bsi : ∀ j, x5 (ix1 j) = a.bsi j
  Wso : ∀ j d, x6 (ix2 j d) = a.Wso j d
  bso : ∀ j, x7 (ix1 j) = a.bso j
  Wo : ∀ j d, x8 (ix2 j d) = a.Wo j d
  bo : ∀ j, x9 (ix1 j) = a.bo j

theorem reads_ofArrays : Reads x0 x1 x2 x3 x4 x5 x6 x7 x8 x9 (Args.ofArrays x0 x1 x2 x3 x4 x5 x6 x7 x8 x9) :=
  ⟨fun _ _ => rfl, fun _ _ => rfl, fun _ _ => rfl, fun _ => rfl, fun _ _ => rfl, fun _ => rfl, fun _ _ => rfl, fun _ => rfl,
    fun _ _ => rfl, fun _ => rfl⟩

variable {x0 x1 x2 x3 x4 x5 x6 x7 x8 x9} {a : Args} (R : Reads x0 x1 x2 x3 x4 x5 x6 x7 x8 x9 a)
include R

theorem hid_eq (n : Fin 100000) (j : Fin 128) : val_main_v39 (F := Ideal) x0 x1 x2 x3 (ix2 n j) = Plain.hid a n j := by
  rw [v39_ix, R.be]
  refine congrArg (· + a.be j) (Finset.sum_congr rfl fun d _ => ?_)
  rw [upd_eq x0 x1 a R.x R.e, R.We]

theorem skipIn_eq (n : Fin 100000) (j : Fin 128) :
    val_main_v44 (F := Ideal) x0 x1 x2 x3 x4 x5 (ix2 n j) = Plain.skipIn a n j := by
  rw [v44_ix, R.bsi]
  refine congrArg (· + a.bsi j) (Finset.sum_congr rfl fun d _ => ?_)
  rw [hid_eq R, R.Wsi]

theorem skipOut_eq (n : Fin 100000) (j : Fin 128) :
    val_main_v54 (F := Ideal) x0 x1 x2 x3 x6 x7 (ix2 n j) = Plain.skipOut a n j := by
  rw [v54_ix, v49_ix, R.bso]
  refine congrArg leaky (congrArg (· + a.bso j) (Finset.sum_congr rfl fun d _ => ?_))
  rw [hid_eq R, R.Wso]

theorem toGnn_eq (n : Fin 100000) (j : Fin 128) :
    val_main_v65 (F := Ideal) x0 x1 x2 x3 x4 x5 x8 x9 (ix2 n j) = Plain.toGnn a n j := by
  rw [v65_ix, v60_ix, R.bo]
  refine congrArg leaky (congrArg (· + a.bo j) (Finset.sum_congr rfl fun d _ => ?_))
  rw [val_main_v55_apply, Ideal.addf_def, R.x, skipIn_eq R, R.Wo]

end Cert.RefPlain
-- ==== Proof.RefPlain.lean ====
/-
  The reference computes the plain formulas.

  The reference's two results are the composed terms of its host operations over the ten argument
  arrays. Read one operation at a time at the coordinates (n, j) of a result entry, every operation is
  one step of `Cert.Spec.Plain`: a sum over the rows from the zero word is the column sum (`0 + a = a`);
  two broadcasts repeat a vector down the rows or along the columns; a transpose swaps the two
  coordinates; a contraction into a zero accumulator is the sum of the products; a maximum reduction
  from the word of −∞ is the fold of `max` from ⊥, and the maximum of that with the −∞ splat is itself;
  the comparison against the zero splat followed by the selection is the rectifier `leaky`.
  No hypothesis on the arrays is needed: both sides are the same expression on the extended reals.
-/
import proofs.«167790_g44066364457491_cont_8to1_c_744_34_alg».proof.Proof.RefPlain.Stage4

noncomputable section

namespace Cert.RefPlain

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2)
open Cert.Spec

/-- The reference's ten argument arrays, as found in memory `m` on device `c`, by coordinates. -/
def argsOf (m : (ℓ : Loc Cert.ReferenceIdeal.nD Cert.ReferenceIdeal.τ Cert.ReferenceIdeal.sig) → Buf (Elt Ideal) ℓ)
    (c : Dev Cert.ReferenceIdeal.nD) : Cert.Spec.Args :=
  Cert.Spec.Args.ofArrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- `argsOf` reads each array entry by entry (by definition). -/
theorem reads_argsOf (m : (ℓ : Loc Cert.ReferenceIdeal.nD Cert.ReferenceIdeal.τ Cert.ReferenceIdeal.sig) → Buf (Elt Ideal) ℓ)
    (c : Dev Cert.ReferenceIdeal.nD) :
    Reads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (argsOf m c) :=
  reads_ofArrays _ _ _ _ _ _ _ _ _ _

/-- The first result, `skip_out`, entry (n, j). -/
theorem out0_eq (m : (ℓ : Loc Cert.ReferenceIdeal.nD Cert.ReferenceIdeal.τ Cert.ReferenceIdeal.sig) → Buf (Elt Ideal) ℓ)
    (c : Dev Cert.ReferenceIdeal.nD) (n : Fin 100000) (j : Fin 128) :
    Cert.ReferenceIdeal.Value.res_out0 (F := Ideal) m c (ValueIdx.ix2 n j) = Cert.Spec.Plain.skipOut (argsOf m c) n j :=
  (congrFun (val_main_v54_eq (F := Ideal) m c) (ix2 n j)).trans (skipOut_eq (reads_argsOf m c) n j)

/-- The second result, `to_gnn`, entry (n, j). -/
theorem out1_eq (m : (ℓ : Loc Cert.ReferenceIdeal.nD Cert.ReferenceIdeal.τ Cert.ReferenceIdeal.sig) → Buf (Elt Ideal) ℓ)
    (c : Dev Cert.ReferenceIdeal.nD) (n : Fin 100000) (j : Fin 128) :
    Cert.ReferenceIdeal.Value.res_out1 (F := Ideal) m c (ValueIdx.ix2 n j) = Cert.Spec.Plain.toGnn (argsOf m c) n j :=
  (congrFun (val_main_v65_eq (F := Ideal) m c) (ix2 n j)).trans (toGnn_eq (reads_argsOf m c) n j)

end Cert.RefPlain
-- ==== Proof.Final.lean ====
/-
  The two programs' results are equal, entry by entry.

  Both programs are run from memories that agree on the ten arguments, so both see one record
  `a` of argument arrays. The plain program's two results are `Plain.skipOut a` and `Plain.toGnn a`
  (its run, read operation by operation). The tiled program's two results are `Tiled.skipOut a` and
  `Tiled.toGnn a` (its three launches, boundary by boundary). Under the precondition every entry of
  `a` is a real number and no column of the adjacency sums to zero, and then the tiled and the
  plain formulas agree.
-/
import proofs.«167790_g44066364457491_cont_8to1_c_744_34_alg».proof.Defs
import proofs.«167790_g44066364457491_cont_8to1_c_744_34_alg».proof.Proof.Chain
import proofs.«167790_g44066364457491_cont_8to1_c_744_34_alg».proof.Proof.Bridge
import proofs.«167790_g44066364457491_cont_8to1_c_744_34_alg».proof.Proof.RefPlain
import proofs.«167790_g44066364457491_cont_8to1_c_744_34_alg».proof.Proof.Gen.ReferenceIdeal.Run

noncomputable section

namespace Cert.Final

open Idealize.ShloMosaic Idealize.ShloMosaic.TcCoe Idealize.SL.Sem Idealize.ShloMosaic.ValueIdx
open Cert.Spec

/-- Equal results, given what the second launch leaves in its five arrays. -/
theorem algebraic_of (hsec : ∀ (m : (ℓ : Loc Cert.KernelIdeal.nD Cert.KernelIdeal.τ Cert.KernelIdeal.sig) → Buf (Elt Ideal) ℓ) (c : Dev Cert.KernelIdeal.nD),
      Cert.Pre_KernelIdeal m → Cert.Chain.Second m c) :
    Cert.algebraic_KernelIdeal_ReferenceIdeal := by
  intro m ρ m' ρ' hpre hagree
  refine ⟨fun c => Cert.KernelIdeal.Hand.X2_7 m c, fun c => Cert.KernelIdeal.Hand.X2_8 m c, Cert.KernelIdeal.Hand.run_results (F := Ideal) m ρ, ?_⟩
  refine (θ_run Cert.ReferenceIdeal.defs _ _).mono (fun r h c => ?_) (Cert.ReferenceIdeal.Value.run (F := Ideal) m' ρ')
  have ha : Cert.RefPlain.argsOf m' c = Cert.PreReal.argsOfK m c := by
    unfold Cert.RefPlain.argsOf Cert.PreReal.argsOfK
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  have hr := Cert.PreReal.isReal_of_pre m hpre c
  have hc := Cert.PreReal.colsNonzero_of_pre m hpre c
  refine ⟨(h c).1.trans ?_, (h c).2.1.trans ?_, (h c).2.2⟩
  · funext i
    obtain ⟨n, j, rfl⟩ : ∃ (n : Fin 100000) (j : Fin 128), i = ix2 n j := ⟨i 0, i 1, eq_ix2 i⟩
    refine ((Cert.RefPlain.out0_eq m' c n j).trans ?_).trans (Cert.Chain.x2_7_apply (hsec m c hpre) n j).symm
    rw [ha]; exact (Cert.Bridge.skipOut_eq _ hr hc n j).symm
  · funext i
    obtain ⟨n, j, rfl⟩ : ∃ (n : Fin 100000) (j : Fin 128), i = ix2 n j := ⟨i 0, i 1, eq_ix2 i⟩
    refine ((Cert.RefPlain.out1_eq m' c n j).trans ?_).trans (Cert.Chain.x2_8_apply (hsec m c hpre) n j).symm
    rw [ha]; exact (Cert.Bridge.toGnn_eq _ hr hc n j).symm

end Cert.Final

end
-- ==== Proof.lean ====
/-
  Three passes over `x : [N, D]` (N = 100000, D = 128) with an adjacency `e : [N, S]` (S = 32)
  against the plain formulas, as extended reals.

  Pass 1. With `c s = ∑ n, e n s` the column sums, the sector matrix is
      sector s d = ∑ n, (e n s / c s) * x n d                       (weights normalised first)
  on one side and `(∑ n, e n s * x n d) / c s` (accumulated over row tiles, divided at the last
  tile) on the other. For real entries and `c s ≠ 0` these agree
  (`Cert.Lib.NormalizedSum.sum_div_mul`); at `c s = 0` they do not
  (`Cert.Lib.NormalizedSum.not_at_zero`: `0 / 0` is `⊥` and `⊥ * (-1) = ⊤`), which is why the
  precondition asks, beside finite inputs, that no column of `e` sums to zero — outside it the
  plain formula itself divides by zero.

  Pass 2. `sector2 s d = ∑ n, (exp (a n s - M s) / L s) * x n d` with `a = x · sectorᵀ`,
  `M s = max n, a n s`, `L s = ∑ n, exp (a n s - M s)`: a softmax down each column. The tiled
  side keeps a running maximum, denominator and numerator, rescaled tile by tile, and divides
  once at the end; `L s ≥ 1`, so this is the same law with divisor `L s`.

  Pass 3. Row by row, `w = softmax (x · sector2ᵀ)` along the sectors and `u = w · sector2`;
  then `h = u · W_entᵀ + b_ent`, `skip_out = leaky (h · W_soᵀ + b_so)` and
  `to_gnn = leaky ((x + h · W_siᵀ + b_si) · W_outᵀ + b_out)`. The tiled side multiplies the
  small sector matrix through the layers first (`(sector2 · W_entᵀ) · W_soᵀ`, …) and applies
  `w` last: associativity and linearity of the matrix product
  (`Cert.Lib.MixtureLayer.mixture_layer`), valid because every entry is a real number by then.

  The tiled program's frame, at the word level and on the extended reals alike, is its three
  launches run in sequence: each launch's body keeps the pipeline's obligation at every tile, the
  first one holding the adjacency's array by quarters in its four windows. The plain program's
  frame is its run with the results dropped. The equality of results joins the tiled program's
  three launches, read boundary by boundary as `Tiled.*`, to the plain program's run, read
  operation by operation as `Plain.*`, through the agreement of the two families of formulas.
-/
import proofs.«167790_g44066364457491_cont_8to1_c_744_34_alg».proof.Defs
import proofs.«167790_g44066364457491_cont_8to1_c_744_34_alg».proof.Proof.Gen.Kernel
import proofs.«167790_g44066364457491_cont_8to1_c_744_34_alg».proof.Proof.Gen.Kernel.Skeleton
import proofs.«167790_g44066364457491_cont_8to1_c_744_34_alg».proof.Proof.Gen.Kernel.Launch
import proofs.«167790_g44066364457491_cont_8to1_c_744_34_alg».proof.Proof.Gen.Kernel.Regions
import proofs.«167790_g44066364457491_cont_8to1_c_744_34_alg».proof.Proof.Gen.Kernel.Points
import proofs.«167790_g44066364457491_cont_8to1_c_744_34_alg».proof.Proof.Gen.KernelIdeal
import proofs.«167790_g44066364457491_cont_8to1_c_744_34_alg».proof.Proof.Gen.KernelIdeal.Skeleton
import proofs.«167790_g44066364457491_cont_8to1_c_744_34_alg».proof.Proof.Gen.KernelIdeal.Launch
import proofs.«167790_g44066364457491_cont_8to1_c_744_34_alg».proof.Proof.Gen.KernelIdeal.Regions
import proofs.«167790_g44066364457491_cont_8to1_c_744_34_alg».proof.Proof.Gen.KernelIdeal.Points
import proofs.«167790_g44066364457491_cont_8to1_c_744_34_alg».proof.Proof.Gen.ReferenceIdeal
import proofs.«167790_g44066364457491_cont_8to1_c_744_34_alg».proof.Proof.Gen.ReferenceIdeal.Run
import proofs.«167790_g44066364457491_cont_8to1_c_744_34_alg».proof.Proof.Gen.ReferenceIdeal.Read
import proofs.«167790_g44066364457491_cont_8to1_c_744_34_alg».proof.Proof.Gen.Pre_finite_inputs
import proofs.«167790_g44066364457491_cont_8to1_c_744_34_alg».proof.Proof.LibNormalizedSum
import proofs.«167790_g44066364457491_cont_8to1_c_744_34_alg».proof.Proof.LibMixtureLayer
import proofs.«167790_g44066364457491_cont_8to1_c_744_34_alg».proof.Proof.KB.Run
import proofs.«167790_g44066364457491_cont_8to1_c_744_34_alg».proof.Proof.Chain1
import proofs.«167790_g44066364457491_cont_8to1_c_744_34_alg».proof.Proof.Final
import Idealize.ShloMosaic.Adequacy
import Idealize.ShloMosaic.Init

noncomputable section

namespace Cert.Proof

open Idealize.ShloMosaic Idealize.SL.Sem Cert.Kernel

/-- The plain program runs to the end, faults nowhere and leaves its arguments as they were: its
    run, which also names the two results, with the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Reading the tiled program on the extended reals rewrote none of its operations. -/
theorem preserves : Cert.preserves_Kernel_KernelIdeal := trivial

/-- The tiled program, read at the word level, runs to the end, faults nowhere and leaves its
    arguments as they were. -/
theorem frame_tiled_words : Cert.frame_Kernel := fun m ρ _ => Cert.Kernel.Hand.frame (F := Bits) m ρ

/-- The same on the extended reals. -/
theorem frame_tiled_reals : Cert.frame_KernelIdeal := fun m ρ _ => Cert.KernelIdeal.Hand.frame (F := Ideal) m ρ

/-- Run from memories that agree on the arguments, under the precondition, the two programs end
    with equal results, entry by entry. -/
theorem equal_results : Cert.algebraic_KernelIdeal_ReferenceIdeal :=
  Cert.Final.algebraic_of fun m c _ => Cert.Chain.second m c

theorem claim : Cert.Claim :=
  ⟨Cert.Kernel.Gen.facts, Cert.KernelIdeal.Gen.facts, Cert.ReferenceIdeal.Gen.facts, Cert.Pre_finite_inputs.Gen.facts,
    frame_tiled_words, frame_tiled_reals, frame_reference, preserves, equal_results⟩

end Cert.Proof

end
